-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v198)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v198) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v264) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S4x64x64 : Shape := ⟨3, ![4, 64, 64]⟩
abbrev S64 : Shape := ⟨1, ![64]⟩
abbrev S64x16 : Shape := ⟨2, ![64, 16]⟩
abbrev S16 : Shape := ⟨1, ![16]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S4x64x64 : S_.BroadcastsInDim S4x64x64 (![] : Fin 0 → Fin S4x64x64.rank)
  reducesTo_S4x64x64_S_d0_1_2 : S4x64x64.ReducesTo [0, 1, 2] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part6 {F : FTy → Type} [FloatOps F] (main_v98 : IVec S_ 1) (main_v101 : IVec S16 1) (main_c_39 : IVec S_ 1) : IVec S_ 1 :=
  let main_v102 : IVec S_ 1 := (fun x v => Host.reduce IntOp.andi x v reducesTo_S16_S_d0 h_S_) main_v101 main_c_39
  let main_v103 : IVec S_ 1 := andi main_v98 main_v102
  main_v103

def fn_part5 {F : FTy → Type} [FloatOps F] (main_arg19 : FVec F S64 .f32) (main_arg20 : FVec F S64x16 .f32) (main_arg21 : FVec F S16 .f32) (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  let main_v89 : FVec F S64 .f32 := Host.absf main_arg19
  let main_cst_34 : FVec F S_ .f32 := constant S_ .f32 0x7F800000#32
  let main_v90 : FVec F S64 .f32 := broadcastInDim S64 ![] bcast_S_S64 main_cst_34
  let main_v91 : IVec S64 1 := cmpf .olt main_v89 main_v90
  let main_c_35 : IVec S_ 1 := constantI S_ 1 1#1
  let main_v92 : IVec S_ 1 := (fun x v => Host.reduce IntOp.andi x v reducesTo_S64_S_d0 h_S_) main_v91 main_c_35
  let main_v93 : IVec S_ 1 := andi main_v88 main_v92
  let main_v94 : FVec F S64x16 .f32 := Host.absf main_arg20
  let main_cst_36 : FVec F S_ .f32 := constant S_ .f32 0x7F800000#32
  let main_v95 : FVec F S64x16 .f32 := broadcastInDim S64x16 ![] bcast_S_S64x16 main_cst_36
  let main_v96 : IVec S64x16 1 := cmpf .olt main_v94 main_v95
  let main_c_37 : IVec S_ 1 := constantI S_ 1 1#1
  let main_v97 : IVec S_ 1 := (fun x v => Host.reduce IntOp.andi x v reducesTo_S64x16_S_d0_1 h_S_) main_v96 main_c_37
  let main_v98 : IVec S_ 1 := andi main_v93 main_v97
  let main_v99 : FVec F S16 .f32 := Host.absf main_arg21
  let main_cst_38 : FVec F S_ .f32 := constant S_ .f32 0x7F800000#32
  let main_v100 : FVec F S16 .f32 := broadcastInDim S16 ![] bcast_S_S16 main_cst_38
  let main_v101 : IVec S16 1 := cmpf .olt main_v99 main_v100
  let main_c_39 : IVec S_ 1 := constantI S_ 1 1#1
  fn_part6 (F := F) main_v98 main_v101 main_c_39

def fn_part4 {F : FTy → Type} [FloatOps F] (main_arg15 : FVec F S64 .f32) (main_arg16 : FVec F S64 .f32) (main_arg17 : FVec F S64 .f32) (main_arg18 : FVec F S64 .f32) (main_arg19 : FVec F S64 .f32) (main_arg20 : FVec F S64x16 .f32) (main_arg21 : FVec F S16 .f32) (main_v63 : IVec S_ 1) (main_v67 : IVec S_ 1) : IVec S_ 1 :=
  let main_v68 : IVec S_ 1 := andi main_v63 main_v67
  let main_v69 : FVec F S64 .f32 := Host.absf main_arg15
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64 .f32 := Host.absf main_arg16
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64 .f32 := Host.absf main_arg17
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S64 .f32 := Host.absf main_arg18
  let main_cst_32 : FVec F S_ .f32 := constant S_ .f32 0x7F800000#32
  fn_part5 (F := F) main_arg19 main_arg20 main_arg21 main_v83 main_v84 main_cst_32

def fn_part3 {F : FTy → Type} [FloatOps F] (main_arg12 : FVec F S64 .f32) (main_arg13 : FVec F S64 .f32) (main_arg14 : FVec F S64 .f32) (main_arg15 : FVec F S64 .f32) (main_arg16 : FVec F S64 .f32) (main_arg17 : FVec F S64 .f32) (main_arg18 : FVec F S64 .f32) (main_arg19 : FVec F S64 .f32) (main_arg20 : FVec F S64x16 .f32) (main_arg21 : FVec F S16 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64 .f32 := Host.absf main_arg14
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg15 main_arg16 main_arg17 main_arg18 main_arg19 main_arg20 main_arg21 main_v63 main_v67

def fn_part2 {F : FTy → Type} [FloatOps F] (main_arg8 : FVec F S64 .f32) (main_arg9 : FVec F S64 .f32) (main_arg10 : FVec F S64 .f32) (main_arg11 : FVec F S64 .f32) (main_arg12 : FVec F S64 .f32) (main_arg13 : FVec F S64 .f32) (main_arg14 : FVec F S64 .f32) (main_arg15 : FVec F S64 .f32) (main_arg16 : FVec F S64 .f32) (main_arg17 : FVec F S64 .f32) (main_arg18 : FVec F S64 .f32) (main_arg19 : FVec F S64 .f32) (main_arg20 : FVec F S64x16 .f32) (main_arg21 : FVec F S16 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg12 main_arg13 main_arg14 main_arg15 main_arg16 main_arg17 main_arg18 main_arg19 main_arg20 main_arg21 main_v48 main_v49 main_v50

def fn_part1 {F : FTy → Type} [FloatOps F] (main_arg5 : FVec F S64 .f32) (main_arg6 : FVec F S4x64x64 .f32) (main_arg7 : FVec F S64 .f32) (main_arg8 : FVec F S64 .f32) (main_arg9 : FVec F S64 .f32) (main_arg10 : FVec F S64 .f32) (main_arg11 : FVec F S64 .f32) (main_arg12 : FVec F S64 .f32) (main_arg13 : FVec F S64 .f32) (main_arg14 : FVec F S64 .f32) (main_arg15 : FVec F S64 .f32) (main_arg16 : FVec F S64 .f32) (main_arg17 : FVec F S64 .f32) (main_arg18 : FVec F S64 .f32) (main_arg19 : FVec F S64 .f32) (main_arg20 : FVec F S64x16 .f32) (main_arg21 : FVec F S16 .f32) (main_v13 : IVec S_ 1) (main_v16 : IVec S4x64x64 1) : IVec S_ 1 :=
  let main_c_5 : IVec S_ 1 := constantI S_ 1 1#1
  let main_v17 : IVec S_ 1 := (fun x v => Host.reduce IntOp.andi x v reducesTo_S4x64x64_S_d0_1_2 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S4x64x64 .f32 := Host.absf main_arg6
  let main_cst_8 : FVec F S_ .f32 := constant S_ .f32 0x7F800000#32
  let main_v25 : FVec F S4x64x64 .f32 := broadcastInDim S4x64x64 ![] bcast_S_S4x64x64 main_cst_8
  let main_v26 : IVec S4x64x64 1 := cmpf .olt main_v24 main_v25
  let main_c_9 : IVec S_ 1 := constantI S_ 1 1#1
  let main_v27 : IVec S_ 1 := (fun x v => Host.reduce IntOp.andi x v reducesTo_S4x64x64_S_d0_1_2 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_v33

def fn {F : FTy → Type} [FloatOps F] (main_arg0 : FVec F S100000x64 .f32) (main_arg1 : IVec S2x1600000 32) (main_arg2 : FVec F S4x64x64 .f32) (main_arg3 : FVec F S64 .f32) (main_arg4 : FVec F S4x64x64 .f32) (main_arg5 : FVec F S64 .f32) (main_arg6 : FVec F S4x64x64 .f32) (main_arg7 : FVec F S64 .f32) (main_arg8 : FVec F S64 .f32) (main_arg9 : FVec F S64 .f32) (main_arg10 : FVec F S64 .f32) (main_arg11 : FVec F S64 .f32) (main_arg12 : FVec F S64 .f32) (main_arg13 : FVec F S64 .f32) (main_arg14 : FVec F S64 .f32) (main_arg15 : FVec F S64 .f32) (main_arg16 : FVec F S64 .f32) (main_arg17 : FVec F S64 .f32) (main_arg18 : FVec F S64 .f32) (main_arg19 : FVec F S64 .f32) (main_arg20 : FVec F S64x16 .f32) (main_arg21 : FVec F S16 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S4x64x64 .f32 := Host.absf main_arg2
  let main_cst_0 : FVec F S_ .f32 := constant S_ .f32 0x7F800000#32
  let main_v5 : FVec F S4x64x64 .f32 := broadcastInDim S4x64x64 ![] bcast_S_S4x64x64 main_cst_0
  let main_v6 : IVec S4x64x64 1 := cmpf .olt main_v4 main_v5
  let main_c_1 : IVec S_ 1 := constantI S_ 1 1#1
  let main_v7 : IVec S_ 1 := (fun x v => Host.reduce IntOp.andi x v reducesTo_S4x64x64_S_d0_1_2 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S4x64x64 .f32 := Host.absf main_arg4
  let main_cst_4 : FVec F S_ .f32 := constant S_ .f32 0x7F800000#32
  let main_v15 : FVec F S4x64x64 .f32 := broadcastInDim S4x64x64 ![] bcast_S_S4x64x64 main_cst_4
  let main_v16 : IVec S4x64x64 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S100000x64 : Shape := ⟨2, ![100000, 64]⟩
abbrev S2x1600000 : Shape := ⟨2, ![2, 1600000]⟩
abbrev S4x64x64 : Shape := ⟨3, ![4, 64, 64]⟩
abbrev S64 : Shape := ⟨1, ![64]⟩
abbrev S64x16 : Shape := ⟨2, ![64, 16]⟩
abbrev S16 : Shape := ⟨1, ![16]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S1x100000x64 : Shape := ⟨3, ![1, 100000, 64]⟩
abbrev S4x100000x64 : Shape := ⟨3, ![4, 100000, 64]⟩
abbrev S1x64 : Shape := ⟨2, ![1, 64]⟩
abbrev S4x5000x64 : Shape := ⟨3, ![4, 5000, 64]⟩
abbrev S5000x64 : Shape := ⟨2, ![5000, 64]⟩
abbrev S1x5000x64 : Shape := ⟨3, ![1, 5000, 64]⟩
abbrev S1x64x64 : Shape := ⟨3, ![1, 64, 64]⟩
abbrev S64x64 : Shape := ⟨2, ![64, 64]⟩
abbrev S1x16 : Shape := ⟨2, ![1, 16]⟩
abbrev S100000x16 : Shape := ⟨2, ![100000, 16]⟩
abbrev S5000x16 : Shape := ⟨2, ![5000, 16]⟩

abbrev nBuf : Space → Nat
  | .hbm => 265
  | .vmem => 32
  | .smem => 0
  | _ => 0

abbrev hbmTy0_0 (i : Nat) : BufTy := match i % 128 with
  | 0 => ⟨S100000x64, .f32⟩
  | 1 => ⟨S2x1600000, .i32⟩
  | 2 => ⟨S4x64x64, .f32⟩
  | 3 => ⟨S64, .f32⟩
  | 4 => ⟨S4x64x64, .f32⟩
  | 5 => ⟨S64, .f32⟩
  | 6 => ⟨S4x64x64, .f32⟩
  | 7 => ⟨S64, .f32⟩
  | 8 => ⟨S64, .f32⟩
  | 9 => ⟨S64, .f32⟩
  | 10 => ⟨S64, .f32⟩
  | 11 => ⟨S64, .f32⟩
  | 12 => ⟨S64, .f32⟩
  | 13 => ⟨S64, .f32⟩
  | 14 => ⟨S64, .f32⟩
  | 15 => ⟨S64, .f32⟩
  | 16 => ⟨S64, .f32⟩
  | 17 => ⟨S64, .f32⟩
  | 18 => ⟨S64, .f32⟩
  | 19 => ⟨S64, .f32⟩
  | 20 => ⟨S64x16, .f32⟩
  | 21 => ⟨S16, .f32⟩
  | 22 => ⟨S1x1600000, .i32⟩
  | 23 => ⟨S1600000, .i32⟩
  | 24 => ⟨S1x1600000, .i32⟩
  | 25 => ⟨S1600000, .i32⟩
  | 26 => ⟨S_, .f32⟩
  | 27 => ⟨S1600000, .f32⟩
  | 28 => ⟨S_, .f32⟩
  | 29 => ⟨S100000, .f32⟩
  | 30 => ⟨S1600000x1, .i32⟩
  | 31 => ⟨S100000, .f32⟩
  | 32 => ⟨S_, .f32⟩
  | 33 => ⟨S100000, .f32⟩
  | 34 => ⟨S100000, .i1⟩
  | 35 => ⟨S_, .f32⟩
  | 36 => ⟨S100000, .f32⟩
  | 37 => ⟨S100000, .f32⟩
  | 38 => ⟨S100000, .f32⟩
  | 39 => ⟨S_, .f32⟩
  | 40 => ⟨S_, .f32⟩
  | 41 => ⟨S100000, .f32⟩
  | 42 => ⟨S100000, .f32⟩
  | 43 => ⟨S_, .i32⟩
  | 44 => ⟨S1600000, .i32⟩
  | 45 => ⟨S1600000, .i1⟩
  | 46 => ⟨S_, .i32⟩
  | 47 => ⟨S1600000, .i32⟩
  | 48 => ⟨S1600000, .i32⟩
  | 49 => ⟨S1600000, .i32⟩
  | 50 => ⟨S1600000x1, .i32⟩
  | 51 => ⟨S1600000, .f32⟩
  | 52 => ⟨S1600000, .f32⟩
  | 53 => ⟨S_, .i32⟩
  | 54 => ⟨S1600000, .i32⟩
  | 55 => ⟨S1600000, .i1⟩
  | 56 => ⟨S_, .i32⟩
  | 57 => ⟨S1600000, .i32⟩
  | 58 => ⟨S1600000, .i32⟩
  | 59 => ⟨S1600000, .i32⟩
  | 60 => ⟨S1600000x1, .i32⟩
  | 61 => ⟨S1600000, .f32⟩
  | 62 => ⟨S1600000, .f32⟩
  | 63 => ⟨S1600000x1, .f32⟩
  | 64 => ⟨S_, .i32⟩
  | 65 => ⟨S1600000, .i32⟩
  | 66 => ⟨S1600000, .i1⟩
  | 67 => ⟨S_, .i32⟩
  | 68 => ⟨S1600000, .i32⟩
  | 69 => ⟨S1600000, .i32⟩
  | 70 => ⟨S1600000, .i32⟩
  | 71 => ⟨S1600000x1, .i32⟩
  | 72 => ⟨S1600000x64, .f32⟩
  | 73 => ⟨S1600000x64, .f32⟩
  | 74 => ⟨S1600000x64, .f32⟩
  | 75 => ⟨S_, .f32⟩
  | 76 => ⟨S100000x64, .f32⟩
  | 77 => ⟨S1600000x1, .i32⟩
  | 78 => ⟨S100000x64, .f32⟩
  | 79 => ⟨S1600000x1, .f32⟩
  | 80 => ⟨S_, .i32⟩
  | 81 => ⟨S1600000, .i32⟩
  | 82 => ⟨S1600000, .i1⟩
  | 83 => ⟨S_, .i32⟩
  | 84 => ⟨S1600000, .i32⟩
  | 85 => ⟨S1600000, .i32⟩
  | 86 => ⟨S1600000, .i32⟩
  | 87 => ⟨S1600000x1, .i32⟩
  | 88 => ⟨S1600000x64, .f32⟩
  | 89 => ⟨S1600000x64, .f32⟩
  | 90 => ⟨S1600000x64, .f32⟩
  | 91 => ⟨S_, .f32⟩
  | 92 => ⟨S100000x64, .f32⟩
  | 93 => ⟨S1600000x1, .i32⟩
  | 94 => ⟨S100000x64, .f32⟩
  | 95 => ⟨S_, .f32⟩
  | 96 => ⟨S100000x64, .f32⟩
  | 97 => ⟨S100000x64, .f32⟩
  | 98 => ⟨S100000x64, .f32⟩
  | 99 => ⟨S1600000x1, .f32⟩
  | 100 => ⟨S_, .i32⟩
  | 101 => ⟨S1600000, .i32⟩
  | 102 => ⟨S1600000, .i1⟩
  | 103 => ⟨S_, .i32⟩
  | 104 => ⟨S1600000, .i32⟩
  | 105 => ⟨S1600000, .i32⟩
  | 106 => ⟨S1600000, .i32⟩
  | 107 => ⟨S1600000x1, .i32⟩
  | 108 => ⟨S1600000x64, .f32⟩
  | 109 => ⟨S1600000x64, .f32⟩
  | 110 => ⟨S1600000x64, .f32⟩
  | 111 => ⟨S_, .f32⟩
  | 112 => ⟨S100000x64, .f32⟩
  | 113 => ⟨S1600000x1, .i32⟩
  | 114 => ⟨S100000x64, .f32⟩
  | 115 => ⟨S_, .f32⟩
  | 116 => ⟨S100000x64, .f32⟩
  | 117 => ⟨S100000x64, .f32⟩
  | 118 => ⟨S100000x64, .f32⟩
  | 119 => ⟨S1x100000x64, .f32⟩
  | 120 => ⟨S1x100000x64, .f32⟩
  | 121 => ⟨S1x100000x64, .f32⟩
  | 122 => ⟨S1x100000x64, .f32⟩
  | 123 => ⟨S4x100000x64, .f32⟩
  | 124 => ⟨S1x64, .f32⟩
  | 125 => ⟨S1x64, .f32⟩
  | 126 => ⟨S1x64, .f32⟩
  | 127 => ⟨S1x64, .f32⟩
  | _ => ⟨S100000x64, .f32⟩

abbrev hbmTy0_1 (i : Nat) : BufTy := match i % 128 with
  | 0 => ⟨S1x64, .f32⟩
  | 1 => ⟨S100000x64, .f32⟩
  | 2 => ⟨S1600000x1, .f32⟩
  | 3 => ⟨S_, .i32⟩
  | 4 => ⟨S1600000, .i32⟩
  | 5 => ⟨S1600000, .i1⟩
  | 6 => ⟨S_, .i32⟩
  | 7 => ⟨S1600000, .i32⟩
  | 8 => ⟨S1600000, .i32⟩
  | 9 => ⟨S1600000, .i32⟩
  | 10 => ⟨S1600000x1, .i32⟩
  | 11 => ⟨S1600000x64, .f32⟩
  | 12 => ⟨S1600000x64, .f32⟩
  | 13 => ⟨S1600000x64, .f32⟩
  | 14 => ⟨S_, .f32⟩
  | 15 => ⟨S100000x64, .f32⟩
  | 16 => ⟨S1600000x1, .i32⟩
  | 17 => ⟨S100000x64, .f32⟩
  | 18 => ⟨S1600000x1, .f32⟩
  | 19 => ⟨S_, .i32⟩
  | 20 => ⟨S1600000, .i32⟩
  | 21 => ⟨S1600000, .i1⟩
  | 22 => ⟨S_, .i32⟩
  | 23 => ⟨S1600000, .i32⟩
  | 24 => ⟨S1600000, .i32⟩
  | 25 => ⟨S1600000, .i32⟩
  | 26 => ⟨S1600000x1, .i32⟩
  | 27 => ⟨S1600000x64, .f32⟩
  | 28 => ⟨S1600000x64, .f32⟩
  | 29 => ⟨S1600000x64, .f32⟩
  | 30 => ⟨S_, .f32⟩
  | 31 => ⟨S100000x64, .f32⟩
  | 32 => ⟨S1600000x1, .i32⟩
  | 33 => ⟨S100000x64, .f32⟩
  | 34 => ⟨S_, .f32⟩
  | 35 => ⟨S100000x64, .f32⟩
  | 36 => ⟨S100000x64, .f32⟩
  | 37 => ⟨S100000x64, .f32⟩
  | 38 => ⟨S1600000x1, .f32⟩
  | 39 => ⟨S_, .i32⟩
  | 40 => ⟨S1600000, .i32⟩
  | 41 => ⟨S1600000, .i1⟩
  | 42 => ⟨S_, .i32⟩
  | 43 => ⟨S1600000, .i32⟩
  | 44 => ⟨S1600000, .i32⟩
  | 45 => ⟨S1600000, .i32⟩
  | 46 => ⟨S1600000x1, .i32⟩
  | 47 => ⟨S1600000x64, .f32⟩
  | 48 => ⟨S1600000x64, .f32⟩
  | 49 => ⟨S1600000x64, .f32⟩
  | 50 => ⟨S_, .f32⟩
  | 51 => ⟨S100000x64, .f32⟩
  | 52 => ⟨S1600000x1, .i32⟩
  | 53 => ⟨S100000x64, .f32⟩
  | 54 => ⟨S_, .f32⟩
  | 55 => ⟨S100000x64, .f32⟩
  | 56 => ⟨S100000x64, .f32⟩
  | 57 => ⟨S100000x64, .f32⟩
  | 58 => ⟨S1x100000x64, .f32⟩
  | 59 => ⟨S1x100000x64, .f32⟩
  | 60 => ⟨S1x100000x64, .f32⟩
  | 61 => ⟨S1x100000x64, .f32⟩
  | 62 => ⟨S4x100000x64, .f32⟩
  | 63 => ⟨S1x64, .f32⟩
  | 64 => ⟨S1x64, .f32⟩
  | 65 => ⟨S1x64, .f32⟩
  | 66 => ⟨S1x64, .f32⟩
  | 67 => ⟨S1x64, .f32⟩
  | 68 => ⟨S100000x64, .f32⟩
  | 69 => ⟨S1600000x1, .f32⟩
  | 70 => ⟨S_, .i32⟩
  | 71 => ⟨S1600000, .i32⟩
  | 72 => ⟨S1600000, .i1⟩
  | 73 => ⟨S_, .i32⟩
  | 74 => ⟨S1600000, .i32⟩
  | 75 => ⟨S1600000, .i32⟩
  | 76 => ⟨S1600000, .i32⟩
  | 77 => ⟨S1600000x1, .i32⟩
  | 78 => ⟨S1600000x64, .f32⟩
  | 79 => ⟨S1600000x64, .f32⟩
  | 80 => ⟨S1600000x64, .f32⟩
  | 81 => ⟨S_, .f32⟩
  | 82 => ⟨S100000x64, .f32⟩
  | 83 => ⟨S1600000x1, .i32⟩
  | 84 => ⟨S100000x64, .f32⟩
  | 85 => ⟨S1600000x1, .f32⟩
  | 86 => ⟨S_, .i32⟩
  | 87 => ⟨S1600000, .i32⟩
  | 88 => ⟨S1600000, .i1⟩
  | 89 => ⟨S_, .i32⟩
  | 90 => ⟨S1600000, .i32⟩
  | 91 => ⟨S1600000, .i32⟩
  | 92 => ⟨S1600000, .i32⟩
  | 93 => ⟨S1600000x1, .i32⟩
  | 94 => ⟨S1600000x64, .f32⟩
  | 95 => ⟨S1600000x64, .f32⟩
  | 96 => ⟨S1600000x64, .f32⟩
  | 97 => ⟨S_, .f32⟩
  | 98 => ⟨S100000x64, .f32⟩
  | 99 => ⟨S1600000x1, .i32⟩
  | 100 => ⟨S100000x64, .f32⟩
  | 101 => ⟨S_, .f32⟩
  | 102 => ⟨S100000x64, .f32⟩
  | 103 => ⟨S100000x64, .f32⟩
  | 104 => ⟨S100000x64, .f32⟩
  | 105 => ⟨S1600000x1, .f32⟩
  | 106 => ⟨S_, .i32⟩
  | 107 => ⟨S1600000, .i32⟩
  | 108 => ⟨S1600000, .i1⟩
  | 109 => ⟨S_, .i32⟩
  | 110 => ⟨S1600000, .i32⟩
  | 111 => ⟨S1600000, .i32⟩
  | 112 => ⟨S1600000, .i32⟩
  | 113 => ⟨S1600000x1, .i32⟩
  | 114 => ⟨S1600000x64, .f32⟩
  | 115 => ⟨S1600000x64, .f32⟩
  | 116 => ⟨S1600000x64, .f32⟩
  | 117 => ⟨S_, .f32⟩
  | 118 => ⟨S100000x64, .f32⟩
  | 119 => ⟨S1600000x1, .i32⟩
  | 120 => ⟨S100000x64, .f32⟩
  | 121 => ⟨S_, .f32⟩
  | 122 => ⟨S100000x64, .f32⟩
  | 123 => ⟨S100000x64, .f32⟩
  | 124 => ⟨S100000x64, .f32⟩
  | 125 => ⟨S1x100000x64, .f32⟩
  | 126 => ⟨S1x100000x64, .f32⟩
  | 127 => ⟨S1x100000x64, .f32⟩
  | _ => ⟨S100000x64, .f32⟩

abbrev hbmTy0_2 (i : Nat) : BufTy := match i % 128 with
  | 0 => ⟨S1x100000x64, .f32⟩
  | 1 => ⟨S4x100000x64, .f32⟩
  | 2 => ⟨S1x64, .f32⟩
  | 3 => ⟨S1x64, .f32⟩
  | 4 => ⟨S1x64, .f32⟩
  | 5 => ⟨S1x64, .f32⟩
  | 6 => ⟨S1x64, .f32⟩
  | 7 => ⟨S1x16, .f32⟩
  | 8 => ⟨S100000x16, .f32⟩
  | _ => ⟨S100000x64, .f32⟩

abbrev hbmTy (i : Nat) : BufTy := match i / 128 with
  | 0 => hbmTy0_0 i
  | 1 => hbmTy0_1 i
  | 2 => hbmTy0_2 i
  | _ => ⟨S100000x64, .f32⟩

abbrev bufTy : (tb : Table) → Fin (tcTables nBuf tb) → BufTy
  | .hbm, ⟨i, _⟩ => hbmTy i
  | .local _ .vmem, ⟨0, _⟩ => ⟨S4x5000x64, .f32⟩
  | .local _ .vmem, ⟨1, _⟩ => ⟨S4x5000x64, .f32⟩
  | .local _ .vmem, ⟨2, _⟩ => ⟨S4x64x64, .f32⟩
  | .local _ .vmem, ⟨3, _⟩ => ⟨S1x64, .f32⟩
  | .local _ .vmem, ⟨4, _⟩ => ⟨S1x64, .f32⟩
  | .local _ .vmem, ⟨5, _⟩ => ⟨S1x64, .f32⟩
  | .local _ .vmem, ⟨6, _⟩ => ⟨S1x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S4x5000x64, .f32⟩
  | .local _ .vmem, ⟨11, _⟩ => ⟨S4x5000x64, .f32⟩
  | .local _ .vmem, ⟨12, _⟩ => ⟨S4x64x64, .f32⟩
  | .local _ .vmem, ⟨13, _⟩ => ⟨S1x64, .f32⟩
  | .local _ .vmem, ⟨14, _⟩ => ⟨S1x64, .f32⟩
  | .local _ .vmem, ⟨15, _⟩ => ⟨S1x64, .f32⟩
  | .local _ .vmem, ⟨16, _⟩ => ⟨S1x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | .local _ .vmem, ⟨20, _⟩ => ⟨S4x5000x64, .f32⟩
  | .local _ .vmem, ⟨21, _⟩ => ⟨S4x5000x64, .f32⟩
  | .local _ .vmem, ⟨22, _⟩ => ⟨S4x64x64, .f32⟩
  | .local _ .vmem, ⟨23, _⟩ => ⟨S1x64, .f32⟩
  | .local _ .vmem, ⟨24, _⟩ => ⟨S1x64, .f32⟩
  | .local _ .vmem, ⟨25, _⟩ => ⟨S1x64, .f32⟩
  | .local _ .vmem, ⟨26, _⟩ => ⟨S1x64, .f32⟩
  | .local _ .vmem, ⟨27, _⟩ => ⟨S1x64, .f32⟩
  | .local _ .vmem, ⟨28, _⟩ => ⟨S64x16, .f32⟩
  | .local _ .vmem, ⟨29, _⟩ => ⟨S1x16, .f32⟩
  | .local _ .vmem, ⟨30, _⟩ => ⟨S5000x16, .f32⟩
  | .local _ .vmem, ⟨31, _⟩ => ⟨S5000x16, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_cst : Ref sig .tc := ⟨.hbm, 26, rfl⟩
abbrev main_v4 : Ref sig .tc := ⟨.hbm, 27, rfl⟩
abbrev main_cst_0 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_cst_1 : Ref sig .tc := ⟨.hbm, 32, rfl⟩
abbrev main_v8 : Ref sig .tc := ⟨.hbm, 33, rfl⟩
abbrev main_v9 : Ref sig .tc := ⟨.hbm, 34, rfl⟩
abbrev main_cst_2 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_cst_3 : Ref sig .tc := ⟨.hbm, 39, rfl⟩
abbrev main_call0_v0 : Ref sig .tc := ⟨.hbm, 40, rfl⟩
abbrev main_call0_v1 : Ref sig .tc := ⟨.hbm, 41, rfl⟩
abbrev main_v13 : Ref sig .tc := ⟨.hbm, 42, rfl⟩
abbrev main_c : Ref sig .tc := ⟨.hbm, 43, rfl⟩
abbrev main_v14 : Ref sig .tc := ⟨.hbm, 44, rfl⟩
abbrev main_v15 : Ref sig .tc := ⟨.hbm, 45, rfl⟩
abbrev main_c_4 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_c_5 : Ref sig .tc := ⟨.hbm, 53, rfl⟩
abbrev main_v22 : Ref sig .tc := ⟨.hbm, 54, rfl⟩
abbrev main_v23 : Ref sig .tc := ⟨.hbm, 55, rfl⟩
abbrev main_c_6 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_c_7 : Ref sig .tc := ⟨.hbm, 64, rfl⟩
abbrev main_v31 : Ref sig .tc := ⟨.hbm, 65, rfl⟩
abbrev main_v32 : Ref sig .tc := ⟨.hbm, 66, rfl⟩
abbrev main_c_8 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_cst_9 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_c_10 : Ref sig .tc := ⟨.hbm, 80, rfl⟩
abbrev main_v44 : Ref sig .tc := ⟨.hbm, 81, rfl⟩
abbrev main_v45 : Ref sig .tc := ⟨.hbm, 82, rfl⟩
abbrev main_c_11 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_cst_12 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_cst_13 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_c_14 : Ref sig .tc := ⟨.hbm, 100, rfl⟩
abbrev main_v60 : Ref sig .tc := ⟨.hbm, 101, rfl⟩
abbrev main_v61 : Ref sig .tc := ⟨.hbm, 102, rfl⟩
abbrev main_c_15 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_cst_16 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_cst_17 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_c_18 : Ref sig .tc := ⟨.hbm, 131, rfl⟩
abbrev main_v87 : Ref sig .tc := ⟨.hbm, 132, rfl⟩
abbrev main_v88 : Ref sig .tc := ⟨.hbm, 133, rfl⟩
abbrev main_c_19 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_cst_20 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_c_21 : Ref sig .tc := ⟨.hbm, 147, rfl⟩
abbrev main_v100 : Ref sig .tc := ⟨.hbm, 148, rfl⟩
abbrev main_v101 : Ref sig .tc := ⟨.hbm, 149, rfl⟩
abbrev main_c_22 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_cst_23 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_cst_24 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_c_25 : Ref sig .tc := ⟨.hbm, 167, rfl⟩
abbrev main_v116 : Ref sig .tc := ⟨.hbm, 168, rfl⟩
abbrev main_v117 : Ref sig .tc := ⟨.hbm, 169, rfl⟩
abbrev main_c_26 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_cst_27 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_cst_28 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩
abbrev main_c_29 : Ref sig .tc := ⟨.hbm, 198, rfl⟩
abbrev main_v143 : Ref sig .tc := ⟨.hbm, 199, rfl⟩
abbrev main_v144 : Ref sig .tc := ⟨.hbm, 200, rfl⟩
abbrev main_c_30 : Ref sig .tc := ⟨.hbm, 201, rfl⟩
abbrev main_v145 : Ref sig .tc := ⟨.hbm, 202, rfl⟩
abbrev main_v146 : Ref sig .tc := ⟨.hbm, 203, rfl⟩
abbrev main_v147 : Ref sig .tc := ⟨.hbm, 204, rfl⟩
abbrev main_v148 : Ref sig .tc := ⟨.hbm, 205, rfl⟩
abbrev main_v149 : Ref sig .tc := ⟨.hbm, 206, rfl⟩
abbrev main_v150 : Ref sig .tc := ⟨.hbm, 207, rfl⟩
abbrev main_v151 : Ref sig .tc := ⟨.hbm, 208, rfl⟩
abbrev main_cst_31 : Ref sig .tc := ⟨.hbm, 209, rfl⟩
abbrev main_v152 : Ref sig .tc := ⟨.hbm, 210, rfl⟩
abbrev main_v153 : Ref sig .tc := ⟨.hbm, 211, rfl⟩
abbrev main_v154 : Ref sig .tc := ⟨.hbm, 212, rfl⟩
abbrev main_v155 : Ref sig .tc := ⟨.hbm, 213, rfl⟩
abbrev main_c_32 : Ref sig .tc := ⟨.hbm, 214, rfl⟩
abbrev main_v156 : Ref sig .tc := ⟨.hbm, 215, rfl⟩
abbrev main_v157 : Ref sig .tc := ⟨.hbm, 216, rfl⟩
abbrev main_c_33 : Ref sig .tc := ⟨.hbm, 217, rfl⟩
abbrev main_v158 : Ref sig .tc := ⟨.hbm, 218, rfl⟩
abbrev main_v159 : Ref sig .tc := ⟨.hbm, 219, rfl⟩
abbrev main_v160 : Ref sig .tc := ⟨.hbm, 220, rfl⟩
abbrev main_v161 : Ref sig .tc := ⟨.hbm, 221, rfl⟩
abbrev main_v162 : Ref sig .tc := ⟨.hbm, 222, rfl⟩
abbrev main_v163 : Ref sig .tc := ⟨.hbm, 223, rfl⟩
abbrev main_v164 : Ref sig .tc := ⟨.hbm, 224, rfl⟩
abbrev main_cst_34 : Ref sig .tc := ⟨.hbm, 225, rfl⟩
abbrev main_v165 : Ref sig .tc := ⟨.hbm, 226, rfl⟩
abbrev main_v166 : Ref sig .tc := ⟨.hbm, 227, rfl⟩
abbrev main_v167 : Ref sig .tc := ⟨.hbm, 228, rfl⟩
abbrev main_cst_35 : Ref sig .tc := ⟨.hbm, 229, rfl⟩
abbrev main_v168 : Ref sig .tc := ⟨.hbm, 230, rfl⟩
abbrev main_v169 : Ref sig .tc := ⟨.hbm, 231, rfl⟩
abbrev main_v170 : Ref sig .tc := ⟨.hbm, 232, rfl⟩
abbrev main_v171 : Ref sig .tc := ⟨.hbm, 233, rfl⟩
abbrev main_c_36 : Ref sig .tc := ⟨.hbm, 234, rfl⟩
abbrev main_v172 : Ref sig .tc := ⟨.hbm, 235, rfl⟩
abbrev main_v173 : Ref sig .tc := ⟨.hbm, 236, rfl⟩
abbrev main_c_37 : Ref sig .tc := ⟨.hbm, 237, rfl⟩
abbrev main_v174 : Ref sig .tc := ⟨.hbm, 238, rfl⟩
abbrev main_v175 : Ref sig .tc := ⟨.hbm, 239, rfl⟩
abbrev main_v176 : Ref sig .tc := ⟨.hbm, 240, rfl⟩
abbrev main_v177 : Ref sig .tc := ⟨.hbm, 241, rfl⟩
abbrev main_v178 : Ref sig .tc := ⟨.hbm, 242, rfl⟩
abbrev main_v179 : Ref sig .tc := ⟨.hbm, 243, rfl⟩
abbrev main_v180 : Ref sig .tc := ⟨.hbm, 244, rfl⟩
abbrev main_cst_38 : Ref sig .tc := ⟨.hbm, 245, rfl⟩
abbrev main_v181 : Ref sig .tc := ⟨.hbm, 246, rfl⟩
abbrev main_v182 : Ref sig .tc := ⟨.hbm, 247, rfl⟩
abbrev main_v183 : Ref sig .tc := ⟨.hbm, 248, rfl⟩
abbrev main_cst_39 : Ref sig .tc := ⟨.hbm, 249, rfl⟩
abbrev main_v184 : Ref sig .tc := ⟨.hbm, 250, rfl⟩
abbrev main_v185 : Ref sig .tc := ⟨.hbm, 251, rfl⟩
abbrev main_v186 : Ref sig .tc := ⟨.hbm, 252, rfl⟩
abbrev main_v187 : Ref sig .tc := ⟨.hbm, 253, rfl⟩
abbrev main_v188 : Ref sig .tc := ⟨.hbm, 254, rfl⟩
abbrev main_v189 : Ref sig .tc := ⟨.hbm, 255, rfl⟩
abbrev main_v190 : Ref sig .tc := ⟨.hbm, 256, rfl⟩
abbrev main_v191 : Ref sig .tc := ⟨.hbm, 257, rfl⟩
abbrev main_v192 : Ref sig .tc := ⟨.hbm, 258, rfl⟩
abbrev main_v193 : Ref sig .tc := ⟨.hbm, 259, rfl⟩
abbrev main_v194 : Ref sig .tc := ⟨.hbm, 260, rfl⟩
abbrev main_v195 : Ref sig .tc := ⟨.hbm, 261, rfl⟩
abbrev main_v196 : Ref sig .tc := ⟨.hbm, 262, rfl⟩
abbrev main_v197 : Ref sig .tc := ⟨.hbm, 263, rfl⟩
abbrev main_v198 : Ref sig .tc := ⟨.hbm, 264, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg6_0 : Ref sig .tc := ⟨.vmem, 27, rfl⟩
abbrev cc2_stg7_0 : Ref sig .tc := ⟨.vmem, 28, rfl⟩
abbrev cc2_stg8_0 : Ref sig .tc := ⟨.vmem, 29, rfl⟩
abbrev cc2_stg9_0 : Ref sig .tc := ⟨.vmem, 30, rfl⟩
abbrev cc2_stg9_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem6_0 : DmaSem sig := 27
abbrev cc2_sem7_0 : DmaSem sig := 28
abbrev cc2_sem8_0 : DmaSem sig := 29
abbrev cc2_sem9_0 : DmaSem sig := 30
abbrev cc2_sem9_1 : DmaSem sig := 31

abbrev nD : Nat := 1
abbrev τ : Topo := Topo.v7x

variable {F : FTy → Type} [FloatOps F]

abbrev grid0 : Pipeline.Grid := ⟨1, ![20], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![20], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4x5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4x64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![20], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4x5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4x64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S64x16 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x16 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S5000x16 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000x64_S1x100000x64_1_2 : S100000x64.BroadcastsInDim S1x100000x64 (![1, 2] : Fin 2 → Fin S1x100000x64.rank)
  concatenates_S1x100000x64_S1x100000x64_S1x100000x64_S1x100000x64_S4x100000x64_d0 : Shape.Concatenates [S1x100000x64, S1x100000x64, S1x100000x64, S1x100000x64] S4x100000x64 0
  shapeCasts_S64_S1x64 : S64.ShapeCasts S1x64
  inb_S4x5000x64_S1x5000x64_0_0_0 : ∀ a, (![0, 0, 0] : Fin 3 → Nat) a + S1x5000x64.size a ≤ S4x5000x64.size a
  h_S1x5000x64 : 0 < S1x5000x64.numel
  shapeCasts_S1x5000x64_S5000x64 : S1x5000x64.ShapeCasts S5000x64
  bitsLt_bf16_f32 : FTy.bits .bf16 < FTy.bits .f32
  inb_S4x64x64_S1x64x64_0_0_0 : ∀ a, (![0, 0, 0] : Fin 3 → Nat) a + S1x64x64.size a ≤ S4x64x64.size a
  h_S1x64x64 : 0 < S1x64x64.numel
  shapeCasts_S1x64x64_S64x64 : S1x64x64.ShapeCasts S64x64
  inb_S4x5000x64_S1x5000x64_1_0_0 : ∀ a, (![1, 0, 0] : Fin 3 → Nat) a + S1x5000x64.size a ≤ S4x5000x64.size a
  inb_S4x64x64_S1x64x64_1_0_0 : ∀ a, (![1, 0, 0] : Fin 3 → Nat) a + S1x64x64.size a ≤ S4x64x64.size a
  inb_S4x5000x64_S1x5000x64_2_0_0 : ∀ a, (![2, 0, 0] : Fin 3 → Nat) a + S1x5000x64.size a ≤ S4x5000x64.size a
  inb_S4x64x64_S1x64x64_2_0_0 : ∀ a, (![2, 0, 0] : Fin 3 → Nat) a + S1x64x64.size a ≤ S4x64x64.size a
  inb_S4x5000x64_S1x5000x64_3_0_0 : ∀ a, (![3, 0, 0] : Fin 3 → Nat) a + S1x5000x64.size a ≤ S4x5000x64.size a
  inb_S4x64x64_S1x64x64_3_0_0 : ∀ a, (![3, 0, 0] : Fin 3 → Nat) a + S1x64x64.size a ≤ S4x64x64.size a
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  shapeCasts_S16_S1x16 : S16.ShapeCasts S1x16
  inb_S64x16_S64x16_0_0 : ∀ a, (![0, 0] : Fin 2 → Nat) a + S64x16.size a ≤ S64x16.size a
  h_S64x16 : 0 < S64x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S5000x16_S5000x16_0_0 : ∀ a, (![0, 0] : Fin 2 → Nat) a + S5000x16.size a ≤ S5000x16.size a
  h_S5000x16 : 0 < S5000x16.numel
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  dot_S5000x64_S64x16_S5000x16_1_0_0_1_n_n_wf : DotDims.WF S5000x64 S64x16 S5000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x5000x64.size a ≤ S4x100000x64.size a
  hwx0_0 : ∀ i : grid0.Coords, EltTy.bits .f32 = 32 ∨ (Rect.block (s := S4x100000x64) S4x5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x64x64.size a ≤ S4x64x64.size a
  hwx0_1 : ∀ i : grid0.Coords, EltTy.bits .f32 = 32 ∨ (Rect.block (s := S4x64x64) S4x64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x64.size a ≤ S100000x64.size a
  hwx0_7 : ∀ i : grid0.Coords, EltTy.bits .f32 = 32 ∨ (Rect.block (s := S100000x64) S5000x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x5000x64.size a ≤ S4x100000x64.size a
  hwx1_0 : ∀ i : grid1.Coords, EltTy.bits .f32 = 32 ∨ (Rect.block (s := S4x100000x64) S4x5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4x64x64.size a ≤ S4x64x64.size a
  hwx1_1 : ∀ i : grid1.Coords, EltTy.bits .f32 = 32 ∨ (Rect.block (s := S4x64x64) S4x64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x64.size a ≤ S100000x64.size a
  hwx1_7 : ∀ i : grid1.Coords, EltTy.bits .f32 = 32 ∨ (Rect.block (s := S100000x64) S5000x64.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4x5000x64.size a ≤ S4x100000x64.size a
  hwx2_0 : ∀ i : grid2.Coords, EltTy.bits .f32 = 32 ∨ (Rect.block (s := S4x100000x64) S4x5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S4x64x64.size a ≤ S4x64x64.size a
  hwx2_1 : ∀ i : grid2.Coords, EltTy.bits .f32 = 32 ∨ (Rect.block (s := S4x64x64) S4x64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S64x16.size a ≤ S64x16.size a
  hwx2_7 : ∀ i : grid2.Coords, EltTy.bits .f32 = 32 ∨ (Rect.block (s := S64x16) S64x16.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x16.size a ≤ S1x16.size a
  hwx2_8 : ∀ i : grid2.Coords, EltTy.bits .f32 = 32 ∨ (Rect.block (s := S1x16) S1x16.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S5000x16.size a ≤ S100000x16.size a
  hwx2_9 : ∀ i : grid2.Coords, EltTy.bits .f32 = 32 ∨ (Rect.block (s := S100000x16) S5000x16.size (cc2_transform_9 i) (hinb2_9 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x16_S5000x16_1_0_0_1_n_n : DotDims S5000x64 S64x16 S5000x16 where
  lhsContracting := [1]
  rhsContracting := [0]
  lhsNonContracting := [0]
  rhsNonContracting := [1]
  lhsBatch := []
  rhsBatch := []
  wf := dot_S5000x64_S64x16_S5000x16_1_0_0_1_n_n_wf

abbrev win0_0 : Pipeline.Window sig grid0 :=
  Pipeline.Window.ofSpec (Memref.whole main_v79) S4x5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S4x64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v80) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v81) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v82) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v83) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v84) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v85) S5000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v135) S4x5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S4x64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v136) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v137) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v138) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v139) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v140) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v141) S5000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v191) S4x5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S4x64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v192) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v193) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v194) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v195) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v196) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg20) S64x16.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v197) S1x16.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v198) S5000x16.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S4x64x64 : Shape := ⟨3, ![4, 64, 64]⟩
abbrev S64 : Shape := ⟨1, ![64]⟩
abbrev S64x16 : Shape := ⟨2, ![64, 16]⟩
abbrev S16 : Shape := ⟨1, ![16]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1x64x64 : Shape := ⟨3, ![1, 64, 64]⟩
abbrev S64x64 : Shape := ⟨2, ![64, 64]⟩
abbrev S1600000x64 : Shape := ⟨2, ![1600000, 64]⟩
abbrev S1x64 : Shape := ⟨2, ![1, 64]⟩
abbrev S100000x16 : Shape := ⟨2, ![100000, 16]⟩
abbrev S1x16 : Shape := ⟨2, ![1, 16]⟩

abbrev nBuf : Space → Nat
  | .hbm => 340
  | .vmem => 0
  | .smem => 0
  | _ => 0

abbrev hbmTy0_0 (i : Nat) : BufTy := match i % 128 with
  | 0 => ⟨S100000x64, .f32⟩
  | 1 => ⟨S2x1600000, .i32⟩
  | 2 => ⟨S4x64x64, .f32⟩
  | 3 => ⟨S64, .f32⟩
  | 4 => ⟨S4x64x64, .f32⟩
  | 5 => ⟨S64, .f32⟩
  | 6 => ⟨S4x64x64, .f32⟩
  | 7 => ⟨S64, .f32⟩
  | 8 => ⟨S64, .f32⟩
  | 9 => ⟨S64, .f32⟩
  | 10 => ⟨S64, .f32⟩
  | 11 => ⟨S64, .f32⟩
  | 12 => ⟨S64, .f32⟩
  | 13 => ⟨S64, .f32⟩
  | 14 => ⟨S64, .f32⟩
  | 15 => ⟨S64, .f32⟩
  | 16 => ⟨S64, .f32⟩
  | 17 => ⟨S64, .f32⟩
  | 18 => ⟨S64, .f32⟩
  | 19 => ⟨S64, .f32⟩
  | 20 => ⟨S64x16, .f32⟩
  | 21 => ⟨S16, .f32⟩
  | 22 => ⟨S1x1600000, .i32⟩
  | 23 => ⟨S1600000, .i32⟩
  | 24 => ⟨S1x1600000, .i32⟩
  | 25 => ⟨S1600000, .i32⟩
  | 26 => ⟨S_, .f32⟩
  | 27 => ⟨S1600000, .f32⟩
  | 28 => ⟨S_, .f32⟩
  | 29 => ⟨S100000, .f32⟩
  | 30 => ⟨S1600000x1, .i32⟩
  | 31 => ⟨S100000, .f32⟩
  | 32 => ⟨S_, .f32⟩
  | 33 => ⟨S100000, .f32⟩
  | 34 => ⟨S100000, .i1⟩
  | 35 => ⟨S_, .f32⟩
  | 36 => ⟨S100000, .f32⟩
  | 37 => ⟨S100000, .f32⟩
  | 38 => ⟨S100000, .f32⟩
  | 39 => ⟨S_, .f32⟩
  | 40 => ⟨S_, .f32⟩
  | 41 => ⟨S100000, .f32⟩
  | 42 => ⟨S100000, .f32⟩
  | 43 => ⟨S_, .i32⟩
  | 44 => ⟨S1600000, .i32⟩
  | 45 => ⟨S1600000, .i1⟩
  | 46 => ⟨S_, .i32⟩
  | 47 => ⟨S1600000, .i32⟩
  | 48 => ⟨S1600000, .i32⟩
  | 49 => ⟨S1600000, .i32⟩
  | 50 => ⟨S1600000x1, .i32⟩
  | 51 => ⟨S1600000, .f32⟩
  | 52 => ⟨S1600000, .f32⟩
  | 53 => ⟨S_, .i32⟩
  | 54 => ⟨S1600000, .i32⟩
  | 55 => ⟨S1600000, .i1⟩
  | 56 => ⟨S_, .i32⟩
  | 57 => ⟨S1600000, .i32⟩
  | 58 => ⟨S1600000, .i32⟩
  | 59 => ⟨S1600000, .i32⟩
  | 60 => ⟨S1600000x1, .i32⟩
  | 61 => ⟨S1600000, .f32⟩
  | 62 => ⟨S1600000, .f32⟩
  | 63 => ⟨S1x64x64, .f32⟩
  | 64 => ⟨S64x64, .f32⟩
  | 65 => ⟨S100000x64, .f32⟩
  | 66 => ⟨S1600000x1, .f32⟩
  | 67 => ⟨S_, .i32⟩
  | 68 => ⟨S1600000, .i32⟩
  | 69 => ⟨S1600000, .i1⟩
  | 70 => ⟨S_, .i32⟩
  | 71 => ⟨S1600000, .i32⟩
  | 72 => ⟨S1600000, .i32⟩
  | 73 => ⟨S1600000, .i32⟩
  | 74 => ⟨S1600000x1, .i32⟩
  | 75 => ⟨S1600000x64, .f32⟩
  | 76 => ⟨S1600000x64, .f32⟩
  | 77 => ⟨S1600000x64, .f32⟩
  | 78 => ⟨S_, .f32⟩
  | 79 => ⟨S100000x64, .f32⟩
  | 80 => ⟨S1600000x1, .i32⟩
  | 81 => ⟨S100000x64, .f32⟩
  | 82 => ⟨S1x64x64, .f32⟩
  | 83 => ⟨S64x64, .f32⟩
  | 84 => ⟨S100000x64, .f32⟩
  | 85 => ⟨S100000x64, .f32⟩
  | 86 => ⟨S1600000x1, .f32⟩
  | 87 => ⟨S_, .i32⟩
  | 88 => ⟨S1600000, .i32⟩
  | 89 => ⟨S1600000, .i1⟩
  | 90 => ⟨S_, .i32⟩
  | 91 => ⟨S1600000, .i32⟩
  | 92 => ⟨S1600000, .i32⟩
  | 93 => ⟨S1600000, .i32⟩
  | 94 => ⟨S1600000x1, .i32⟩
  | 95 => ⟨S1600000x64, .f32⟩
  | 96 => ⟨S1600000x64, .f32⟩
  | 97 => ⟨S1600000x64, .f32⟩
  | 98 => ⟨S_, .f32⟩
  | 99 => ⟨S100000x64, .f32⟩
  | 100 => ⟨S1600000x1, .i32⟩
  | 101 => ⟨S100000x64, .f32⟩
  | 102 => ⟨S_, .f32⟩
  | 103 => ⟨S100000x64, .f32⟩
  | 104 => ⟨S100000x64, .f32⟩
  | 105 => ⟨S100000x64, .f32⟩
  | 106 => ⟨S1x64x64, .f32⟩
  | 107 => ⟨S64x64, .f32⟩
  | 108 => ⟨S100000x64, .f32⟩
  | 109 => ⟨S100000x64, .f32⟩
  | 110 => ⟨S1600000x1, .f32⟩
  | 111 => ⟨S_, .i32⟩
  | 112 => ⟨S1600000, .i32⟩
  | 113 => ⟨S1600000, .i1⟩
  | 114 => ⟨S_, .i32⟩
  | 115 => ⟨S1600000, .i32⟩
  | 116 => ⟨S1600000, .i32⟩
  | 117 => ⟨S1600000, .i32⟩
  | 118 => ⟨S1600000x1, .i32⟩
  | 119 => ⟨S1600000x64, .f32⟩
  | 120 => ⟨S1600000x64, .f32⟩
  | 121 => ⟨S1600000x64, .f32⟩
  | 122 => ⟨S_, .f32⟩
  | 123 => ⟨S100000x64, .f32⟩
  | 124 => ⟨S1600000x1, .i32⟩
  | 125 => ⟨S100000x64, .f32⟩
  | 126 => ⟨S_, .f32⟩
  | 127 => ⟨S100000x64, .f32⟩
  | _ => ⟨S100000x64, .f32⟩

abbrev hbmTy0_1 (i : Nat) : BufTy := match i % 128 with
  | 0 => ⟨S100000x64, .f32⟩
  | 1 => ⟨S100000x64, .f32⟩
  | 2 => ⟨S1x64x64, .f32⟩
  | 3 => ⟨S64x64, .f32⟩
  | 4 => ⟨S100000x64, .f32⟩
  | 5 => ⟨S100000x64, .f32⟩
  | 6 => ⟨S1x64, .f32⟩
  | 7 => ⟨S100000x64, .f32⟩
  | 8 => ⟨S100000x64, .f32⟩
  | 9 => ⟨S1x64, .f32⟩
  | 10 => ⟨S100000x64, .f32⟩
  | 11 => ⟨S100000x64, .f32⟩
  | 12 => ⟨S_, .f32⟩
  | 13 => ⟨S64, .f32⟩
  | 14 => ⟨S64, .f32⟩
  | 15 => ⟨S64, .f32⟩
  | 16 => ⟨S64, .f32⟩
  | 17 => ⟨S1x64, .f32⟩
  | 18 => ⟨S100000x64, .f32⟩
  | 19 => ⟨S100000x64, .f32⟩
  | 20 => ⟨S1x64, .f32⟩
  | 21 => ⟨S100000x64, .f32⟩
  | 22 => ⟨S100000x64, .f32⟩
  | 23 => ⟨S_, .f32⟩
  | 24 => ⟨S100000x64, .f32⟩
  | 25 => ⟨S100000x64, .f32⟩
  | 26 => ⟨S1x64x64, .f32⟩
  | 27 => ⟨S64x64, .f32⟩
  | 28 => ⟨S100000x64, .f32⟩
  | 29 => ⟨S1600000x1, .f32⟩
  | 30 => ⟨S_, .i32⟩
  | 31 => ⟨S1600000, .i32⟩
  | 32 => ⟨S1600000, .i1⟩
  | 33 => ⟨S_, .i32⟩
  | 34 => ⟨S1600000, .i32⟩
  | 35 => ⟨S1600000, .i32⟩
  | 36 => ⟨S1600000, .i32⟩
  | 37 => ⟨S1600000x1, .i32⟩
  | 38 => ⟨S1600000x64, .f32⟩
  | 39 => ⟨S1600000x64, .f32⟩
  | 40 => ⟨S1600000x64, .f32⟩
  | 41 => ⟨S_, .f32⟩
  | 42 => ⟨S100000x64, .f32⟩
  | 43 => ⟨S1600000x1, .i32⟩
  | 44 => ⟨S100000x64, .f32⟩
  | 45 => ⟨S1x64x64, .f32⟩
  | 46 => ⟨S64x64, .f32⟩
  | 47 => ⟨S100000x64, .f32⟩
  | 48 => ⟨S100000x64, .f32⟩
  | 49 => ⟨S1600000x1, .f32⟩
  | 50 => ⟨S_, .i32⟩
  | 51 => ⟨S1600000, .i32⟩
  | 52 => ⟨S1600000, .i1⟩
  | 53 => ⟨S_, .i32⟩
  | 54 => ⟨S1600000, .i32⟩
  | 55 => ⟨S1600000, .i32⟩
  | 56 => ⟨S1600000, .i32⟩
  | 57 => ⟨S1600000x1, .i32⟩
  | 58 => ⟨S1600000x64, .f32⟩
  | 59 => ⟨S1600000x64, .f32⟩
  | 60 => ⟨S1600000x64, .f32⟩
  | 61 => ⟨S_, .f32⟩
  | 62 => ⟨S100000x64, .f32⟩
  | 63 => ⟨S1600000x1, .i32⟩
  | 64 => ⟨S100000x64, .f32⟩
  | 65 => ⟨S_, .f32⟩
  | 66 => ⟨S100000x64, .f32⟩
  | 67 => ⟨S100000x64, .f32⟩
  | 68 => ⟨S100000x64, .f32⟩
  | 69 => ⟨S1x64x64, .f32⟩
  | 70 => ⟨S64x64, .f32⟩
  | 71 => ⟨S100000x64, .f32⟩
  | 72 => ⟨S100000x64, .f32⟩
  | 73 => ⟨S1600000x1, .f32⟩
  | 74 => ⟨S_, .i32⟩
  | 75 => ⟨S1600000, .i32⟩
  | 76 => ⟨S1600000, .i1⟩
  | 77 => ⟨S_, .i32⟩
  | 78 => ⟨S1600000, .i32⟩
  | 79 => ⟨S1600000, .i32⟩
  | 80 => ⟨S1600000, .i32⟩
  | 81 => ⟨S1600000x1, .i32⟩
  | 82 => ⟨S1600000x64, .f32⟩
  | 83 => ⟨S1600000x64, .f32⟩
  | 84 => ⟨S1600000x64, .f32⟩
  | 85 => ⟨S_, .f32⟩
  | 86 => ⟨S100000x64, .f32⟩
  | 87 => ⟨S1600000x1, .i32⟩
  | 88 => ⟨S100000x64, .f32⟩
  | 89 => ⟨S_, .f32⟩
  | 90 => ⟨S100000x64, .f32⟩
  | 91 => ⟨S100000x64, .f32⟩
  | 92 => ⟨S100000x64, .f32⟩
  | 93 => ⟨S1x64x64, .f32⟩
  | 94 => ⟨S64x64, .f32⟩
  | 95 => ⟨S100000x64, .f32⟩
  | 96 => ⟨S100000x64, .f32⟩
  | 97 => ⟨S1x64, .f32⟩
  | 98 => ⟨S100000x64, .f32⟩
  | 99 => ⟨S100000x64, .f32⟩
  | 100 => ⟨S1x64, .f32⟩
  | 101 => ⟨S100000x64, .f32⟩
  | 102 => ⟨S100000x64, .f32⟩
  | 103 => ⟨S_, .f32⟩
  | 104 => ⟨S64, .f32⟩
  | 105 => ⟨S64, .f32⟩
  | 106 => ⟨S64, .f32⟩
  | 107 => ⟨S64, .f32⟩
  | 108 => ⟨S1x64, .f32⟩
  | 109 => ⟨S100000x64, .f32⟩
  | 110 => ⟨S100000x64, .f32⟩
  | 111 => ⟨S1x64, .f32⟩
  | 112 => ⟨S100000x64, .f32⟩
  | 113 => ⟨S100000x64, .f32⟩
  | 114 => ⟨S_, .f32⟩
  | 115 => ⟨S100000x64, .f32⟩
  | 116 => ⟨S100000x64, .f32⟩
  | 117 => ⟨S1x64x64, .f32⟩
  | 118 => ⟨S64x64, .f32⟩
  | 119 => ⟨S100000x64, .f32⟩
  | 120 => ⟨S1600000x1, .f32⟩
  | 121 => ⟨S_, .i32⟩
  | 122 => ⟨S1600000, .i32⟩
  | 123 => ⟨S1600000, .i1⟩
  | 124 => ⟨S_, .i32⟩
  | 125 => ⟨S1600000, .i32⟩
  | 126 => ⟨S1600000, .i32⟩
  | 127 => ⟨S1600000, .i32⟩
  | _ => ⟨S100000x64, .f32⟩

abbrev hbmTy0_2 (i : Nat) : BufTy := match i % 128 with
  | 0 => ⟨S1600000x1, .i32⟩
  | 1 => ⟨S1600000x64, .f32⟩
  | 2 => ⟨S1600000x64, .f32⟩
  | 3 => ⟨S1600000x64, .f32⟩
  | 4 => ⟨S_, .f32⟩
  | 5 => ⟨S100000x64, .f32⟩
  | 6 => ⟨S1600000x1, .i32⟩
  | 7 => ⟨S100000x64, .f32⟩
  | 8 => ⟨S1x64x64, .f32⟩
  | 9 => ⟨S64x64, .f32⟩
  | 10 => ⟨S100000x64, .f32⟩
  | 11 => ⟨S100000x64, .f32⟩
  | 12 => ⟨S1600000x1, .f32⟩
  | 13 => ⟨S_, .i32⟩
  | 14 => ⟨S1600000, .i32⟩
  | 15 => ⟨S1600000, .i1⟩
  | 16 => ⟨S_, .i32⟩
  | 17 => ⟨S1600000, .i32⟩
  | 18 => ⟨S1600000, .i32⟩
  | 19 => ⟨S1600000, .i32⟩
  | 20 => ⟨S1600000x1, .i32⟩
  | 21 => ⟨S1600000x64, .f32⟩
  | 22 => ⟨S1600000x64, .f32⟩
  | 23 => ⟨S1600000x64, .f32⟩
  | 24 => ⟨S_, .f32⟩
  | 25 => ⟨S100000x64, .f32⟩
  | 26 => ⟨S1600000x1, .i32⟩
  | 27 => ⟨S100000x64, .f32⟩
  | 28 => ⟨S_, .f32⟩
  | 29 => ⟨S100000x64, .f32⟩
  | 30 => ⟨S100000x64, .f32⟩
  | 31 => ⟨S100000x64, .f32⟩
  | 32 => ⟨S1x64x64, .f32⟩
  | 33 => ⟨S64x64, .f32⟩
  | 34 => ⟨S100000x64, .f32⟩
  | 35 => ⟨S100000x64, .f32⟩
  | 36 => ⟨S1600000x1, .f32⟩
  | 37 => ⟨S_, .i32⟩
  | 38 => ⟨S1600000, .i32⟩
  | 39 => ⟨S1600000, .i1⟩
  | 40 => ⟨S_, .i32⟩
  | 41 => ⟨S1600000, .i32⟩
  | 42 => ⟨S1600000, .i32⟩
  | 43 => ⟨S1600000, .i32⟩
  | 44 => ⟨S1600000x1, .i32⟩
  | 45 => ⟨S1600000x64, .f32⟩
  | 46 => ⟨S1600000x64, .f32⟩
  | 47 => ⟨S1600000x64, .f32⟩
  | 48 => ⟨S_, .f32⟩
  | 49 => ⟨S100000x64, .f32⟩
  | 50 => ⟨S1600000x1, .i32⟩
  | 51 => ⟨S100000x64, .f32⟩
  | 52 => ⟨S_, .f32⟩
  | 53 => ⟨S100000x64, .f32⟩
  | 54 => ⟨S100000x64, .f32⟩
  | 55 => ⟨S100000x64, .f32⟩
  | 56 => ⟨S1x64x64, .f32⟩
  | 57 => ⟨S64x64, .f32⟩
  | 58 => ⟨S100000x64, .f32⟩
  | 59 => ⟨S100000x64, .f32⟩
  | 60 => ⟨S1x64, .f32⟩
  | 61 => ⟨S100000x64, .f32⟩
  | 62 => ⟨S100000x64, .f32⟩
  | 63 => ⟨S1x64, .f32⟩
  | 64 => ⟨S100000x64, .f32⟩
  | 65 => ⟨S100000x64, .f32⟩
  | 66 => ⟨S_, .f32⟩
  | 67 => ⟨S64, .f32⟩
  | 68 => ⟨S64, .f32⟩
  | 69 => ⟨S64, .f32⟩
  | 70 => ⟨S64, .f32⟩
  | 71 => ⟨S1x64, .f32⟩
  | 72 => ⟨S100000x64, .f32⟩
  | 73 => ⟨S100000x64, .f32⟩
  | 74 => ⟨S1x64, .f32⟩
  | 75 => ⟨S100000x64, .f32⟩
  | 76 => ⟨S100000x64, .f32⟩
  | 77 => ⟨S_, .f32⟩
  | 78 => ⟨S100000x64, .f32⟩
  | 79 => ⟨S100000x64, .f32⟩
  | 80 => ⟨S100000x16, .f32⟩
  | 81 => ⟨S1x16, .f32⟩
  | 82 => ⟨S100000x16, .f32⟩
  | 83 => ⟨S100000x16, .f32⟩
  | _ => ⟨S100000x64, .f32⟩

abbrev hbmTy (i : Nat) : BufTy := match i / 128 with
  | 0 => hbmTy0_0 i
  | 1 => hbmTy0_1 i
  | 2 => hbmTy0_2 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_cst : Ref sig .tc := ⟨.hbm, 26, rfl⟩
abbrev main_v4 : Ref sig .tc := ⟨.hbm, 27, rfl⟩
abbrev main_cst_0 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_cst_1 : Ref sig .tc := ⟨.hbm, 32, rfl⟩
abbrev main_v8 : Ref sig .tc := ⟨.hbm, 33, rfl⟩
abbrev main_v9 : Ref sig .tc := ⟨.hbm, 34, rfl⟩
abbrev main_cst_2 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_cst_3 : Ref sig .tc := ⟨.hbm, 39, rfl⟩
abbrev main_call0_v0 : Ref sig .tc := ⟨.hbm, 40, rfl⟩
abbrev main_call0_v1 : Ref sig .tc := ⟨.hbm, 41, rfl⟩
abbrev main_v13 : Ref sig .tc := ⟨.hbm, 42, rfl⟩
abbrev main_c : Ref sig .tc := ⟨.hbm, 43, rfl⟩
abbrev main_v14 : Ref sig .tc := ⟨.hbm, 44, rfl⟩
abbrev main_v15 : Ref sig .tc := ⟨.hbm, 45, rfl⟩
abbrev main_c_4 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_c_5 : Ref sig .tc := ⟨.hbm, 53, rfl⟩
abbrev main_v22 : Ref sig .tc := ⟨.hbm, 54, rfl⟩
abbrev main_v23 : Ref sig .tc := ⟨.hbm, 55, rfl⟩
abbrev main_c_6 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_c_7 : Ref sig .tc := ⟨.hbm, 67, rfl⟩
abbrev main_v34 : Ref sig .tc := ⟨.hbm, 68, rfl⟩
abbrev main_v35 : Ref sig .tc := ⟨.hbm, 69, rfl⟩
abbrev main_c_8 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_cst_9 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_c_10 : Ref sig .tc := ⟨.hbm, 87, rfl⟩
abbrev main_v51 : Ref sig .tc := ⟨.hbm, 88, rfl⟩
abbrev main_v52 : Ref sig .tc := ⟨.hbm, 89, rfl⟩
abbrev main_c_11 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_cst_12 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_cst_13 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_c_14 : Ref sig .tc := ⟨.hbm, 111, rfl⟩
abbrev main_v71 : Ref sig .tc := ⟨.hbm, 112, rfl⟩
abbrev main_v72 : Ref sig .tc := ⟨.hbm, 113, rfl⟩
abbrev main_c_15 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_cst_16 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_cst_17 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_cst_18 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_call1_cst : Ref sig .tc := ⟨.hbm, 151, rfl⟩
abbrev main_call1_v0 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_c_19 : Ref sig .tc := ⟨.hbm, 158, rfl⟩
abbrev main_v111 : Ref sig .tc := ⟨.hbm, 159, rfl⟩
abbrev main_v112 : Ref sig .tc := ⟨.hbm, 160, rfl⟩
abbrev main_c_20 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_cst_21 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_c_22 : Ref sig .tc := ⟨.hbm, 178, rfl⟩
abbrev main_v128 : Ref sig .tc := ⟨.hbm, 179, rfl⟩
abbrev main_v129 : Ref sig .tc := ⟨.hbm, 180, rfl⟩
abbrev main_c_23 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_cst_24 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_cst_25 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩
abbrev main_v146 : Ref sig .tc := ⟨.hbm, 200, rfl⟩
abbrev main_v147 : Ref sig .tc := ⟨.hbm, 201, rfl⟩
abbrev main_c_26 : Ref sig .tc := ⟨.hbm, 202, rfl⟩
abbrev main_v148 : Ref sig .tc := ⟨.hbm, 203, rfl⟩
abbrev main_v149 : Ref sig .tc := ⟨.hbm, 204, rfl⟩
abbrev main_c_27 : Ref sig .tc := ⟨.hbm, 205, rfl⟩
abbrev main_v150 : Ref sig .tc := ⟨.hbm, 206, rfl⟩
abbrev main_v151 : Ref sig .tc := ⟨.hbm, 207, rfl⟩
abbrev main_v152 : Ref sig .tc := ⟨.hbm, 208, rfl⟩
abbrev main_v153 : Ref sig .tc := ⟨.hbm, 209, rfl⟩
abbrev main_v154 : Ref sig .tc := ⟨.hbm, 210, rfl⟩
abbrev main_v155 : Ref sig .tc := ⟨.hbm, 211, rfl⟩
abbrev main_v156 : Ref sig .tc := ⟨.hbm, 212, rfl⟩
abbrev main_cst_28 : Ref sig .tc := ⟨.hbm, 213, rfl⟩
abbrev main_v157 : Ref sig .tc := ⟨.hbm, 214, rfl⟩
abbrev main_v158 : Ref sig .tc := ⟨.hbm, 215, rfl⟩
abbrev main_v159 : Ref sig .tc := ⟨.hbm, 216, rfl⟩
abbrev main_cst_29 : Ref sig .tc := ⟨.hbm, 217, rfl⟩
abbrev main_v160 : Ref sig .tc := ⟨.hbm, 218, rfl⟩
abbrev main_v161 : Ref sig .tc := ⟨.hbm, 219, rfl⟩
abbrev main_v162 : Ref sig .tc := ⟨.hbm, 220, rfl⟩
abbrev main_v163 : Ref sig .tc := ⟨.hbm, 221, rfl⟩
abbrev main_v164 : Ref sig .tc := ⟨.hbm, 222, rfl⟩
abbrev main_v165 : Ref sig .tc := ⟨.hbm, 223, rfl⟩
abbrev main_v166 : Ref sig .tc := ⟨.hbm, 224, rfl⟩
abbrev main_v167 : Ref sig .tc := ⟨.hbm, 225, rfl⟩
abbrev main_v168 : Ref sig .tc := ⟨.hbm, 226, rfl⟩
abbrev main_v169 : Ref sig .tc := ⟨.hbm, 227, rfl⟩
abbrev main_v170 : Ref sig .tc := ⟨.hbm, 228, rfl⟩
abbrev main_v171 : Ref sig .tc := ⟨.hbm, 229, rfl⟩
abbrev main_v172 : Ref sig .tc := ⟨.hbm, 230, rfl⟩
abbrev main_cst_30 : Ref sig .tc := ⟨.hbm, 231, rfl⟩
abbrev main_v173 : Ref sig .tc := ⟨.hbm, 232, rfl⟩
abbrev main_v174 : Ref sig .tc := ⟨.hbm, 233, rfl⟩
abbrev main_v175 : Ref sig .tc := ⟨.hbm, 234, rfl⟩
abbrev main_v176 : Ref sig .tc := ⟨.hbm, 235, rfl⟩
abbrev main_v177 : Ref sig .tc := ⟨.hbm, 236, rfl⟩
abbrev main_v178 : Ref sig .tc := ⟨.hbm, 237, rfl⟩
abbrev main_v179 : Ref sig .tc := ⟨.hbm, 238, rfl⟩
abbrev main_v180 : Ref sig .tc := ⟨.hbm, 239, rfl⟩
abbrev main_v181 : Ref sig .tc := ⟨.hbm, 240, rfl⟩
abbrev main_v182 : Ref sig .tc := ⟨.hbm, 241, rfl⟩
abbrev main_call2_cst : Ref sig .tc := ⟨.hbm, 242, rfl⟩
abbrev main_call2_v0 : Ref sig .tc := ⟨.hbm, 243, rfl⟩
abbrev main_v183 : Ref sig .tc := ⟨.hbm, 244, rfl⟩
abbrev main_v184 : Ref sig .tc := ⟨.hbm, 245, rfl⟩
abbrev main_v185 : Ref sig .tc := ⟨.hbm, 246, rfl⟩
abbrev main_v186 : Ref sig .tc := ⟨.hbm, 247, rfl⟩
abbrev main_v187 : Ref sig .tc := ⟨.hbm, 248, rfl⟩
abbrev main_c_31 : Ref sig .tc := ⟨.hbm, 249, rfl⟩
abbrev main_v188 : Ref sig .tc := ⟨.hbm, 250, rfl⟩
abbrev main_v189 : Ref sig .tc := ⟨.hbm, 251, rfl⟩
abbrev main_c_32 : Ref sig .tc := ⟨.hbm, 252, rfl⟩
abbrev main_v190 : Ref sig .tc := ⟨.hbm, 253, rfl⟩
abbrev main_v191 : Ref sig .tc := ⟨.hbm, 254, rfl⟩
abbrev main_v192 : Ref sig .tc := ⟨.hbm, 255, rfl⟩
abbrev main_v193 : Ref sig .tc := ⟨.hbm, 256, rfl⟩
abbrev main_v194 : Ref sig .tc := ⟨.hbm, 257, rfl⟩
abbrev main_v195 : Ref sig .tc := ⟨.hbm, 258, rfl⟩
abbrev main_v196 : Ref sig .tc := ⟨.hbm, 259, rfl⟩
abbrev main_cst_33 : Ref sig .tc := ⟨.hbm, 260, rfl⟩
abbrev main_v197 : Ref sig .tc := ⟨.hbm, 261, rfl⟩
abbrev main_v198 : Ref sig .tc := ⟨.hbm, 262, rfl⟩
abbrev main_v199 : Ref sig .tc := ⟨.hbm, 263, rfl⟩
abbrev main_v200 : Ref sig .tc := ⟨.hbm, 264, rfl⟩
abbrev main_v201 : Ref sig .tc := ⟨.hbm, 265, rfl⟩
abbrev main_v202 : Ref sig .tc := ⟨.hbm, 266, rfl⟩
abbrev main_v203 : Ref sig .tc := ⟨.hbm, 267, rfl⟩
abbrev main_v204 : Ref sig .tc := ⟨.hbm, 268, rfl⟩
abbrev main_c_34 : Ref sig .tc := ⟨.hbm, 269, rfl⟩
abbrev main_v205 : Ref sig .tc := ⟨.hbm, 270, rfl⟩
abbrev main_v206 : Ref sig .tc := ⟨.hbm, 271, rfl⟩
abbrev main_c_35 : Ref sig .tc := ⟨.hbm, 272, rfl⟩
abbrev main_v207 : Ref sig .tc := ⟨.hbm, 273, rfl⟩
abbrev main_v208 : Ref sig .tc := ⟨.hbm, 274, rfl⟩
abbrev main_v209 : Ref sig .tc := ⟨.hbm, 275, rfl⟩
abbrev main_v210 : Ref sig .tc := ⟨.hbm, 276, rfl⟩
abbrev main_v211 : Ref sig .tc := ⟨.hbm, 277, rfl⟩
abbrev main_v212 : Ref sig .tc := ⟨.hbm, 278, rfl⟩
abbrev main_v213 : Ref sig .tc := ⟨.hbm, 279, rfl⟩
abbrev main_cst_36 : Ref sig .tc := ⟨.hbm, 280, rfl⟩
abbrev main_v214 : Ref sig .tc := ⟨.hbm, 281, rfl⟩
abbrev main_v215 : Ref sig .tc := ⟨.hbm, 282, rfl⟩
abbrev main_v216 : Ref sig .tc := ⟨.hbm, 283, rfl⟩
abbrev main_cst_37 : Ref sig .tc := ⟨.hbm, 284, rfl⟩
abbrev main_v217 : Ref sig .tc := ⟨.hbm, 285, rfl⟩
abbrev main_v218 : Ref sig .tc := ⟨.hbm, 286, rfl⟩
abbrev main_v219 : Ref sig .tc := ⟨.hbm, 287, rfl⟩
abbrev main_v220 : Ref sig .tc := ⟨.hbm, 288, rfl⟩
abbrev main_v221 : Ref sig .tc := ⟨.hbm, 289, rfl⟩
abbrev main_v222 : Ref sig .tc := ⟨.hbm, 290, rfl⟩
abbrev main_v223 : Ref sig .tc := ⟨.hbm, 291, rfl⟩
abbrev main_v224 : Ref sig .tc := ⟨.hbm, 292, rfl⟩
abbrev main_c_38 : Ref sig .tc := ⟨.hbm, 293, rfl⟩
abbrev main_v225 : Ref sig .tc := ⟨.hbm, 294, rfl⟩
abbrev main_v226 : Ref sig .tc := ⟨.hbm, 295, rfl⟩
abbrev main_c_39 : Ref sig .tc := ⟨.hbm, 296, rfl⟩
abbrev main_v227 : Ref sig .tc := ⟨.hbm, 297, rfl⟩
abbrev main_v228 : Ref sig .tc := ⟨.hbm, 298, rfl⟩
abbrev main_v229 : Ref sig .tc := ⟨.hbm, 299, rfl⟩
abbrev main_v230 : Ref sig .tc := ⟨.hbm, 300, rfl⟩
abbrev main_v231 : Ref sig .tc := ⟨.hbm, 301, rfl⟩
abbrev main_v232 : Ref sig .tc := ⟨.hbm, 302, rfl⟩
abbrev main_v233 : Ref sig .tc := ⟨.hbm, 303, rfl⟩
abbrev main_cst_40 : Ref sig .tc := ⟨.hbm, 304, rfl⟩
abbrev main_v234 : Ref sig .tc := ⟨.hbm, 305, rfl⟩
abbrev main_v235 : Ref sig .tc := ⟨.hbm, 306, rfl⟩
abbrev main_v236 : Ref sig .tc := ⟨.hbm, 307, rfl⟩
abbrev main_cst_41 : Ref sig .tc := ⟨.hbm, 308, rfl⟩
abbrev main_v237 : Ref sig .tc := ⟨.hbm, 309, rfl⟩
abbrev main_v238 : Ref sig .tc := ⟨.hbm, 310, rfl⟩
abbrev main_v239 : Ref sig .tc := ⟨.hbm, 311, rfl⟩
abbrev main_v240 : Ref sig .tc := ⟨.hbm, 312, rfl⟩
abbrev main_v241 : Ref sig .tc := ⟨.hbm, 313, rfl⟩
abbrev main_v242 : Ref sig .tc := ⟨.hbm, 314, rfl⟩
abbrev main_v243 : Ref sig .tc := ⟨.hbm, 315, rfl⟩
abbrev main_v244 : Ref sig .tc := ⟨.hbm, 316, rfl⟩
abbrev main_v245 : Ref sig .tc := ⟨.hbm, 317, rfl⟩
abbrev main_v246 : Ref sig .tc := ⟨.hbm, 318, rfl⟩
abbrev main_v247 : Ref sig .tc := ⟨.hbm, 319, rfl⟩
abbrev main_v248 : Ref sig .tc := ⟨.hbm, 320, rfl⟩
abbrev main_v249 : Ref sig .tc := ⟨.hbm, 321, rfl⟩
abbrev main_cst_42 : Ref sig .tc := ⟨.hbm, 322, rfl⟩
abbrev main_v250 : Ref sig .tc := ⟨.hbm, 323, rfl⟩
abbrev main_v251 : Ref sig .tc := ⟨.hbm, 324, rfl⟩
abbrev main_v252 : Ref sig .tc := ⟨.hbm, 325, rfl⟩
abbrev main_v253 : Ref sig .tc := ⟨.hbm, 326, rfl⟩
abbrev main_v254 : Ref sig .tc := ⟨.hbm, 327, rfl⟩
abbrev main_v255 : Ref sig .tc := ⟨.hbm, 328, rfl⟩
abbrev main_v256 : Ref sig .tc := ⟨.hbm, 329, rfl⟩
abbrev main_v257 : Ref sig .tc := ⟨.hbm, 330, rfl⟩
abbrev main_v258 : Ref sig .tc := ⟨.hbm, 331, rfl⟩
abbrev main_v259 : Ref sig .tc := ⟨.hbm, 332, rfl⟩
abbrev main_call3_cst : Ref sig .tc := ⟨.hbm, 333, rfl⟩
abbrev main_call3_v0 : Ref sig .tc := ⟨.hbm, 334, rfl⟩
abbrev main_v260 : Ref sig .tc := ⟨.hbm, 335, rfl⟩
abbrev main_v261 : Ref sig .tc := ⟨.hbm, 336, rfl⟩
abbrev main_v262 : Ref sig .tc := ⟨.hbm, 337, rfl⟩
abbrev main_v263 : Ref sig .tc := ⟨.hbm, 338, rfl⟩
abbrev main_v264 : Ref sig .tc := ⟨.hbm, 339, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  slices_S4x64x64_S1x64x64_0_0_0 : S4x64x64.Slices ![0, 0, 0] S1x64x64
  shapeCasts_S1x64x64_S64x64 : S1x64x64.ShapeCasts S64x64
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  slices_S4x64x64_S1x64x64_1_0_0 : S4x64x64.Slices ![1, 0, 0] S1x64x64
  slices_S4x64x64_S1x64x64_2_0_0 : S4x64x64.Slices ![2, 0, 0] S1x64x64
  slices_S4x64x64_S1x64x64_3_0_0 : S4x64x64.Slices ![3, 0, 0] S1x64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64 : S_.BroadcastsInDim S64 (![] : Fin 0 → Fin S64.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S100000x64_S64x64_S100000x64_1_0_0_1_n_n_wf : DotDims.WF S100000x64 S64x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x16_S100000x16_1_0_0_1_n_n_wf : DotDims.WF S100000x64 S64x16 S100000x16 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf

class Facts : Prop extends Facts₀ where

variable [Facts]
-- ==== Proof.BitsBodies.lean ====
/-
  The run of the three-layer program: every weakly fair execution of @main ends, nothing faults, and every unscoped
  buffer ends at a named content. @main is three stretches of host operations, the first node-block kernel, a stretch,
  the second node-block kernel, a stretch, the last kernel. Each kernel works on one block of 5000 node rows per grid
  point: it reads the block of the stacked polynomials, the whole weight and parameter arrays, and stores the block of its
  result whole, so after the body the result's staging buffer holds one expression of the input blocks. Between two
  items every unscoped buffer is held at a valuation obtained from the launch memory by folding the host stretches
  and, at a region, replacing the region's arrays by what its write-backs leave.
-/
import proofs.«127831_j29308856828499_2_alg».proof.Proof.Gen.Kernel.Launch
import proofs.«127831_j29308856828499_2_alg».proof.Proof.Gen.Kernel.Skeleton
import proofs.«127831_j29308856828499_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Layers

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The rectangles the bodies load and store through -/

/-- Slab k of the stacked polynomials' block, slab k of the weights, a whole parameter row, the whole result block. -/
abbrev rT0 : Rect S4x5000x64 := Rect.unit (s := S4x5000x64) ![0, 0, 0] S1x5000x64.size inb_S4x5000x64_S1x5000x64_0_0_0
abbrev rT1 : Rect S4x5000x64 := Rect.unit (s := S4x5000x64) ![1, 0, 0] S1x5000x64.size inb_S4x5000x64_S1x5000x64_1_0_0
abbrev rT2 : Rect S4x5000x64 := Rect.unit (s := S4x5000x64) ![2, 0, 0] S1x5000x64.size inb_S4x5000x64_S1x5000x64_2_0_0
abbrev rT3 : Rect S4x5000x64 := Rect.unit (s := S4x5000x64) ![3, 0, 0] S1x5000x64.size inb_S4x5000x64_S1x5000x64_3_0_0
abbrev rW0 : Rect S4x64x64 := Rect.unit (s := S4x64x64) ![0, 0, 0] S1x64x64.size inb_S4x64x64_S1x64x64_0_0_0
abbrev rW1 : Rect S4x64x64 := Rect.unit (s := S4x64x64) ![1, 0, 0] S1x64x64.size inb_S4x64x64_S1x64x64_1_0_0
abbrev rW2 : Rect S4x64x64 := Rect.unit (s := S4x64x64) ![2, 0, 0] S1x64x64.size inb_S4x64x64_S1x64x64_2_0_0
abbrev rW3 : Rect S4x64x64 := Rect.unit (s := S4x64x64) ![3, 0, 0] S1x64x64.size inb_S4x64x64_S1x64x64_3_0_0
abbrev rP : Rect S1x64 := Rect.unit (s := S1x64) ![0, 0] S1x64.size inb_S1x64_S1x64_0_0
abbrev rO : Rect S5000x64 := Rect.unit (s := S5000x64) ![0, 0] S5000x64.size inb_S5000x64_S5000x64_0_0
abbrev rH : Rect S64x16 := Rect.unit (s := S64x16) ![0, 0] S64x16.size inb_S64x16_S64x16_0_0
abbrev rQ : Rect S1x16 := Rect.unit (s := S1x16) ![0, 0] S1x16.size inb_S1x16_S1x16_0_0
abbrev rZ : Rect S5000x16 := Rect.unit (s := S5000x16) ![0, 0] S5000x16.size inb_S5000x16_S5000x16_0_0

section Regions
variable (V : (c : Dev nD) → (b : Ref sig .tc) → Buf (Elt F) ((c : Thread nD τ).loc b))

/-! # Region 0: kernel 0, at the entry contents `V` -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not: where the pipeline does
    not fetch, the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's staging buffer holds its block at every point, fetched there or not: where the pipeline does
    not fetch, the block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's staging buffer holds its block at every point, fetched there or not: where the pipeline does
    not fetch, the block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's staging buffer holds its block at every point, fetched there or not: where the pipeline does
    not fetch, the block index has not moved. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's staging buffer holds its block at every point, fetched there or not: where the pipeline does
    not fetch, the block index has not moved. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's staging buffer holds its block at every point, fetched there or not: where the pipeline does
    not fetch, the block index has not moved. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's staging buffer holds its block at every point, fetched there or not: where the pipeline does
    not fetch, the block index has not moved. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- The result window's staging buffer after the body, from the input windows' blocks: one store of the whole block. -/
def out0_7 (x0 : Vec F S4x5000x64 .f32) (x1 : Vec F S4x64x64 .f32) (x2 : Vec F S1x64 .f32) (x3 : Vec F S1x64 .f32) (x4 : Vec F S1x64 .f32) (x5 : Vec F S1x64 .f32) (x6 : Vec F S1x64 .f32) : Vec F S5000x64 .f32 :=
  View.canon [⟨rO, k0_pay1 (k0_pay2 (View.ld x0 rT0) (View.ld x1 rW0) (View.ld x0 rT1) (View.ld x1 rW1) (View.ld x0 rT2) (View.ld x1 rW2)) (k0_pay3 (View.ld x0 rT3)) (k0_pay4 (View.ld x1 rW3)) (View.ld x2 rP) (View.ld x3 rP) (View.ld x6 rP) (View.ld x5 rP) (View.ld x4 rP)⟩]

/-- The one store covers the buffer. -/
theorem cover0_7 (p0 : Vec F S5000x64 .f32) (y : S5000x64.Idx) :
    ∃ pc ∈ ([⟨rO, p0⟩] : List (View.Piece (Elt F) S5000x64 .f32)), y ∈ pc.1.set :=
  View.cover_of_tiled [⟨rO, p0⟩] S5000x64.size (by rfl) y

set_option maxHeartbeats 4000000 in
/-- The kernel body on whole staging memrefs, the inputs' at read contents `xW` and the result's at anything, runs to
    the continuation holding the inputs' as they were and the result's at `out0_7` of the inputs'. -/
theorem sound_kernel0 (c : Dev nD) (E : Set ℕ) (i : grid0.Coords) (arg0 : Memref sig .tc .vmem S4x5000x64 .f32) (harg0 : arg0.IsWhole) (arg1 : Memref sig .tc .vmem S4x64x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S5000x64 .f32) (harg7 : arg7.IsWhole)
    (x0 : Vec F S4x5000x64 .f32) (x1 : Vec F S4x64x64 .f32) (x2 : Vec F S1x64 .f32) (x3 : Vec F S1x64 .f32) (x4 : Vec F S1x64 .f32) (x5 : Vec F S1x64 .f32) (x6 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out0_7 x0 x1 x2 x3 x4 x5 x6)) -∗ K ⟨⟩))
      ⊢ wp frame (wpE (defs₀ (F := F)) Variants.none c none) E (cc0__cheb_layer_kernel i arg0 harg0 arg1 harg1 arg2 harg2 arg3 harg3 arg4 harg4 arg5 harg5 arg6 harg6 arg7 harg7) K := by
  simp only [cc0__cheb_layer_kernel_eq_skeleton]; unfold cc0__cheb_layer_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (cover0_7 _)

/-- The proof data of pipeline 0 on core `c`: the arrays as the region finds them; after the body at point `t` each
    input's buffer at its block and the result's at `out0_7` of the input blocks; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) (iblk0 V c 6 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the inputs' memrefs hold their blocks, so `sound_kernel0` applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation0 (c : Dev nD) : BodyObligation (dat0 (F := F) V c) (defs₀ (F := F)) Variants.none () Set.univ := fun t => by
  rw [bigSep_W0, bigSep_W0]
  exact sound_body0 V c t

/-! # Region 1: kernel 1, at the entry contents `V` -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not: where the pipeline does
    not fetch, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's staging buffer holds its block at every point, fetched there or not: where the pipeline does
    not fetch, the block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's staging buffer holds its block at every point, fetched there or not: where the pipeline does
    not fetch, the block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's staging buffer holds its block at every point, fetched there or not: where the pipeline does
    not fetch, the block index has not moved. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's staging buffer holds its block at every point, fetched there or not: where the pipeline does
    not fetch, the block index has not moved. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's staging buffer holds its block at every point, fetched there or not: where the pipeline does
    not fetch, the block index has not moved. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's staging buffer holds its block at every point, fetched there or not: where the pipeline does
    not fetch, the block index has not moved. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- The result window's staging buffer after the body, from the input windows' blocks: one store of the whole block. -/
def out1_7 (x0 : Vec F S4x5000x64 .f32) (x1 : Vec F S4x64x64 .f32) (x2 : Vec F S1x64 .f32) (x3 : Vec F S1x64 .f32) (x4 : Vec F S1x64 .f32) (x5 : Vec F S1x64 .f32) (x6 : Vec F S1x64 .f32) : Vec F S5000x64 .f32 :=
  View.canon [⟨rO, k1_pay1 (k1_pay2 (View.ld x0 rT0) (View.ld x1 rW0) (View.ld x0 rT1) (View.ld x1 rW1) (View.ld x0 rT2) (View.ld x1 rW2)) (k1_pay3 (View.ld x0 rT3)) (k1_pay4 (View.ld x1 rW3)) (View.ld x2 rP) (View.ld x3 rP) (View.ld x6 rP) (View.ld x5 rP) (View.ld x4 rP)⟩]

/-- The one store covers the buffer. -/
theorem cover1_7 (p0 : Vec F S5000x64 .f32) (y : S5000x64.Idx) :
    ∃ pc ∈ ([⟨rO, p0⟩] : List (View.Piece (Elt F) S5000x64 .f32)), y ∈ pc.1.set :=
  View.cover_of_tiled [⟨rO, p0⟩] S5000x64.size (by rfl) y

set_option maxHeartbeats 4000000 in
/-- The kernel body on whole staging memrefs, the inputs' at read contents `xW` and the result's at anything, runs to
    the continuation holding the inputs' as they were and the result's at `out1_7` of the inputs'. -/
theorem sound_kernel1 (c : Dev nD) (E : Set ℕ) (i : grid1.Coords) (arg0 : Memref sig .tc .vmem S4x5000x64 .f32) (harg0 : arg0.IsWhole) (arg1 : Memref sig .tc .vmem S4x64x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S5000x64 .f32) (harg7 : arg7.IsWhole)
    (x0 : Vec F S4x5000x64 .f32) (x1 : Vec F S4x64x64 .f32) (x2 : Vec F S1x64 .f32) (x3 : Vec F S1x64 .f32) (x4 : Vec F S1x64 .f32) (x5 : Vec F S1x64 .f32) (x6 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out1_7 x0 x1 x2 x3 x4 x5 x6)) -∗ K ⟨⟩))
      ⊢ wp frame (wpE (defs₀ (F := F)) Variants.none c none) E (cc1__cheb_layer_kernel i arg0 harg0 arg1 harg1 arg2 harg2 arg3 harg3 arg4 harg4 arg5 harg5 arg6 harg6 arg7 harg7) K := by
  simp only [cc1__cheb_layer_kernel_eq_skeleton]; unfold cc1__cheb_layer_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (cover1_7 _)

/-- The proof data of pipeline 1 on core `c`: the arrays as the region finds them; after the body at point `t` each
    input's buffer at its block and the result's at `out1_7` of the input blocks; the invariant the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' memrefs hold their blocks, so `sound_kernel1` applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation1 (c : Dev nD) : BodyObligation (dat1 (F := F) V c) (defs₀ (F := F)) Variants.none () Set.univ := fun t => by
  rw [bigSep_W1, bigSep_W1]
  exact sound_body1 V c t

/-! # Region 2: kernel 2, at the entry contents `V` -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or not: where the pipeline does
    not fetch, the block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's staging buffer holds its block at every point, fetched there or not: where the pipeline does
    not fetch, the block index has not moved. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's staging buffer holds its block at every point, fetched there or not: where the pipeline does
    not fetch, the block index has not moved. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's staging buffer holds its block at every point, fetched there or not: where the pipeline does
    not fetch, the block index has not moved. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's staging buffer holds its block at every point, fetched there or not: where the pipeline does
    not fetch, the block index has not moved. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5's staging buffer holds its block at every point, fetched there or not: where the pipeline does
    not fetch, the block index has not moved. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
/-- Input window 6's staging buffer holds its block at every point, fetched there or not: where the pipeline does
    not fetch, the block index has not moved. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
/-- Input window 7's staging buffer holds its block at every point, fetched there or not: where the pipeline does
    not fetch, the block index has not moved. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)
/-- Input window 8's staging buffer holds its block at every point, fetched there or not: where the pipeline does
    not fetch, the block index has not moved. -/
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

/-- The result window's staging buffer after the body, from the input windows' blocks: one store of the whole block. -/
def out2_9 (x0 : Vec F S4x5000x64 .f32) (x1 : Vec F S4x64x64 .f32) (x2 : Vec F S1x64 .f32) (x3 : Vec F S1x64 .f32) (x4 : Vec F S1x64 .f32) (x5 : Vec F S1x64 .f32) (x6 : Vec F S1x64 .f32) (x7 : Vec F S64x16 .f32) (x8 : Vec F S1x16 .f32) : Vec F S5000x16 .f32 :=
  View.canon [⟨rZ, k2_pay1 (k2_pay2 (View.ld x0 rT0) (View.ld x1 rW0) (View.ld x0 rT1) (View.ld x1 rW1) (View.ld x0 rT2) (View.ld x1 rW2)) (k2_pay3 (View.ld x0 rT3)) (k2_pay4 (View.ld x1 rW3)) (View.ld x2 rP) (View.ld x3 rP) (View.ld x6 rP) (View.ld x5 rP) (View.ld x4 rP) (View.ld x7 rH) (View.ld x8 rQ)⟩]

/-- The one store covers the buffer. -/
theorem cover2_9 (p0 : Vec F S5000x16 .f32) (y : S5000x16.Idx) :
    ∃ pc ∈ ([⟨rZ, p0⟩] : List (View.Piece (Elt F) S5000x16 .f32)), y ∈ pc.1.set :=
  View.cover_of_tiled [⟨rZ, p0⟩] S5000x16.size (by rfl) y

set_option maxHeartbeats 4000000 in
/-- The kernel body on whole staging memrefs, the inputs' at read contents `xW` and the result's at anything, runs to
    the continuation holding the inputs' as they were and the result's at `out2_9` of the inputs'. -/
theorem sound_kernel2 (c : Dev nD) (E : Set ℕ) (i : grid2.Coords) (arg0 : Memref sig .tc .vmem S4x5000x64 .f32) (harg0 : arg0.IsWhole) (arg1 : Memref sig .tc .vmem S4x64x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S64x16 .f32) (harg7 : arg7.IsWhole) (arg8 : Memref sig .tc .vmem S1x16 .f32) (harg8 : arg8.IsWhole) (arg9 : Memref sig .tc .vmem S5000x16 .f32) (harg9 : arg9.IsWhole)
    (x0 : Vec F S4x5000x64 .f32) (x1 : Vec F S4x64x64 .f32) (x2 : Vec F S1x64 .f32) (x3 : Vec F S1x64 .f32) (x4 : Vec F S1x64 .f32) (x5 : Vec F S1x64 .f32) (x6 : Vec F S1x64 .f32) (x7 : Vec F S64x16 .f32) (x8 : Vec F S1x16 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (out2_9 x0 x1 x2 x3 x4 x5 x6 x7 x8)) -∗ K ⟨⟩))
      ⊢ wp frame (wpE (defs₀ (F := F)) Variants.none c none) E (cc2__cheb_final_kernel i arg0 harg0 arg1 harg1 arg2 harg2 arg3 harg3 arg4 harg4 arg5 harg5 arg6 harg6 arg7 harg7 arg8 harg8 arg9 harg9) K := by
  simp only [cc2__cheb_final_kernel_eq_skeleton]; unfold cc2__cheb_final_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover2_9 _)

/-- The proof data of pipeline 2 on core `c`: the arrays as the region finds them; after the body at point `t` each
    input's buffer at its block and the result's at `out2_9` of the input blocks; the invariant the scoped rest and the
    generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => out2_9 (iblk2 V c 0 t) (iblk2 V c 1 t) (iblk2 V c 2 t) (iblk2 V c 3 t) (iblk2 V c 4 t) (iblk2 V c 5 t) (iblk2 V c 6 t) (iblk2 V c 7 t) (iblk2 V c 8 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = out2_9 (iblk2 V c 0 t) (iblk2 V c 1 t) (iblk2 V c 2 t) (iblk2 V c 3 t) (iblk2 V c 4 t) (iblk2 V c 5 t) (iblk2 V c 6 t) (iblk2 V c 7 t) (iblk2 V c 8 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t))

/-- The body at any point: the inputs' memrefs hold their blocks, so `sound_kernel2` applies; the invariant and the core's
    dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel2 c Set.univ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem body_obligation2 (c : Dev nD) : BodyObligation (dat2 (F := F) V c) (defs₀ (F := F)) Variants.none () Set.univ := fun t => by
  rw [bigSep_W2, bigSep_W2]
  exact sound_body2 V c t

end Regions

end Cert.Kernel.Layers

end
-- ==== Proof.BitsRun.lean ====
/-
  The launch of the three-layer program as a list of segments: a host segment per stretch of host operations from the
  valuation its boundary is held at, a region per kernel. The valuations are a fold through @main: the launch memory,
  then each stretch applied, and at a region its arrays replaced by what the pipeline's write-backs leave. No item writes
  an argument array: a stretch writes only the buffers of its own results, a region only its result window's array.
-/
import proofs.«127831_j29308856828499_2_alg».proof.Proof.BitsBodies

set_option maxRecDepth 16384

noncomputable section

namespace Cert.Kernel.Layers

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each stretch of host operations writes, and that none allocates -/

set_option maxHeartbeats 4000000 in
theorem hostOps0_fresh : (hostOps0 : List (HloOp τ sig (Elt F))).Forall fun op => op.fresh = ∅ := by
  simp only [List.Forall]; repeat' constructor
/-- The buffers `hostOps0`'s operations write: each operation's own result. -/
abbrev hostOps0_W : List (Ref sig .tc) := [main_v0, main_v1, main_v2, main_v3, main_cst, main_v4, main_cst_0, main_v5, main_v6, main_v7, main_cst_1, main_v8, main_v9, main_cst_2, main_v10, main_v11, main_v12, main_cst_3]
set_option maxHeartbeats 4000000 in
theorem hostOps0_writes : (hostOps0 : List (HloOp τ sig (Elt F))).Forall fun op => op.writes ⊆ (hostOps0_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

set_option maxHeartbeats 4000000 in
theorem hostOps0_1_fresh : (hostOps0_1 : List (HloOp τ sig (Elt F))).Forall fun op => op.fresh = ∅ := by
  simp only [List.Forall]; repeat' constructor
/-- The buffers `hostOps0_1`'s operations write: each operation's own result. -/
abbrev hostOps0_1_W : List (Ref sig .tc) := [main_call0_v0, main_call0_v1, main_v13]
set_option maxHeartbeats 4000000 in
theorem hostOps0_1_writes : (hostOps0_1 : List (HloOp τ sig (Elt F))).Forall fun op => op.writes ⊆ (hostOps0_1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

set_option maxHeartbeats 4000000 in
theorem hostOps0_2_fresh : (hostOps0_2 : List (HloOp τ sig (Elt F))).Forall fun op => op.fresh = ∅ := by
  simp only [List.Forall]; repeat' constructor
/-- The buffers `hostOps0_2`'s operations write: each operation's own result. -/
abbrev hostOps0_2_W : List (Ref sig .tc) := [main_c, main_v14, main_v15, main_c_4, main_v16, main_v17, main_v18, main_v19, main_v20, main_v21, main_c_5, main_v22, main_v23, main_c_6, main_v24, main_v25, main_v26, main_v27, main_v28, main_v29, main_v30, main_c_7, main_v31, main_v32, main_c_8, main_v33, main_v34, main_v35, main_v36, main_v37, main_v38, main_v39, main_cst_9, main_v40, main_v41, main_v42, main_v43, main_c_10, main_v44, main_v45, main_c_11, main_v46, main_v47, main_v48, main_v49, main_v50, main_v51, main_v52, main_cst_12, main_v53, main_v54, main_v55, main_cst_13, main_v56, main_v57, main_v58, main_v59, main_c_14, main_v60, main_v61, main_c_15, main_v62, main_v63, main_v64, main_v65, main_v66, main_v67, main_v68, main_cst_16, main_v69, main_v70, main_v71, main_cst_17, main_v72, main_v73, main_v74, main_v75, main_v76, main_v77, main_v78, main_v79, main_v80, main_v81, main_v82, main_v83, main_v84]
set_option maxHeartbeats 4000000 in
theorem hostOps0_2_writes : (hostOps0_2 : List (HloOp τ sig (Elt F))).Forall fun op => op.writes ⊆ (hostOps0_2_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

set_option maxHeartbeats 4000000 in
theorem hostOps1_fresh : (hostOps1 : List (HloOp τ sig (Elt F))).Forall fun op => op.fresh = ∅ := by
  simp only [List.Forall]; repeat' constructor
/-- The buffers `hostOps1`'s operations write: each operation's own result. -/
abbrev hostOps1_W : List (Ref sig .tc) := [main_v86, main_c_18, main_v87, main_v88, main_c_19, main_v89, main_v90, main_v91, main_v92, main_v93, main_v94, main_v95, main_cst_20, main_v96, main_v97, main_v98, main_v99, main_c_21, main_v100, main_v101, main_c_22, main_v102, main_v103, main_v104, main_v105, main_v106, main_v107, main_v108, main_cst_23, main_v109, main_v110, main_v111, main_cst_24, main_v112, main_v113, main_v114, main_v115, main_c_25, main_v116, main_v117, main_c_26, main_v118, main_v119, main_v120, main_v121, main_v122, main_v123, main_v124, main_cst_27, main_v125, main_v126, main_v127, main_cst_28, main_v128, main_v129, main_v130, main_v131, main_v132, main_v133, main_v134, main_v135, main_v136, main_v137, main_v138, main_v139, main_v140]
set_option maxHeartbeats 4000000 in
theorem hostOps1_writes : (hostOps1 : List (HloOp τ sig (Elt F))).Forall fun op => op.writes ⊆ (hostOps1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

set_option maxHeartbeats 4000000 in
theorem hostOps2_fresh : (hostOps2 : List (HloOp τ sig (Elt F))).Forall fun op => op.fresh = ∅ := by
  simp only [List.Forall]; repeat' constructor
/-- The buffers `hostOps2`'s operations write: each operation's own result. -/
abbrev hostOps2_W : List (Ref sig .tc) := [main_v142, main_c_29, main_v143, main_v144, main_c_30, main_v145, main_v146, main_v147, main_v148, main_v149, main_v150, main_v151, main_cst_31, main_v152, main_v153, main_v154, main_v155, main_c_32, main_v156, main_v157, main_c_33, main_v158, main_v159, main_v160, main_v161, main_v162, main_v163, main_v164, main_cst_34, main_v165, main_v166, main_v167, main_cst_35, main_v168, main_v169, main_v170, main_v171, main_c_36, main_v172, main_v173, main_c_37, main_v174, main_v175, main_v176, main_v177, main_v178, main_v179, main_v180, main_cst_38, main_v181, main_v182, main_v183, main_cst_39, main_v184, main_v185, main_v186, main_v187, main_v188, main_v189, main_v190, main_v191, main_v192, main_v193, main_v194, main_v195, main_v196, main_v197]
set_option maxHeartbeats 4000000 in
theorem hostOps2_writes : (hostOps2 : List (HloOp τ sig (Elt F))).Forall fun op => op.writes ⊆ (hostOps2_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-! ## The buffer contents at each segment boundary -/

/-- Core `c`'s buffers at launch. -/
abbrev W0 : Dev nD → Valuation τ sig (Elt F) := fun c b => (s₀ m ρ).mem ((c : Dev nD), b)
abbrev Wa : Dev nD → Valuation τ sig (Elt F) := fun c => StableHlo.after hostOps0 (W0 m ρ c)
abbrev Wb : Dev nD → Valuation τ sig (Elt F) := fun c => StableHlo.after hostOps0_1 (Wa m ρ c)
/-- At the first kernel's entry. -/
abbrev W1 : Dev nD → Valuation τ sig (Elt F) := fun c => StableHlo.after hostOps0_2 (Wb m ρ c)
abbrev V1 : (c : Dev nD) → (b : Ref sig .tc) → Buf (Elt F) ((c : Thread nD τ).loc b) := fun c b => W1 m ρ c b
/-- At kernel 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- At kernel 1's entry. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At kernel 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- At kernel 2's entry. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At kernel 2's exit: its arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-! ## The arguments end as launched -/

theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c main_arg0 (by decide)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = Wb m ρ c (Proc.devRef .tc main_arg0) := StableHlo.after_of_writes_sub hostOps0_2 _ hostOps0_2_writes (by decide)
    _ = Wa m ρ c (Proc.devRef .tc main_arg0) := StableHlo.after_of_writes_sub hostOps0_1 _ hostOps0_1_writes (by decide)
    _ = W0 m ρ c (Proc.devRef .tc main_arg0) := StableHlo.after_of_writes_sub hostOps0 _ hostOps0_writes (by decide)
    _ = m ((c : Thread nD τ).loc main_arg0) := rfl
theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = Wb m ρ c (Proc.devRef .tc main_arg1) := StableHlo.after_of_writes_sub hostOps0_2 _ hostOps0_2_writes (by decide)
    _ = Wa m ρ c (Proc.devRef .tc main_arg1) := StableHlo.after_of_writes_sub hostOps0_1 _ hostOps0_1_writes (by decide)
    _ = W0 m ρ c (Proc.devRef .tc main_arg1) := StableHlo.after_of_writes_sub hostOps0 _ hostOps0_writes (by decide)
    _ = m ((c : Thread nD τ).loc main_arg1) := rfl
theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := (W2_arr m ρ c 1).trans (((dat0 (V1 m ρ) c).arrAt_in 1 rfl _).trans (A_eq0 (V1 m ρ) c 1))
    _ = Wb m ρ c (Proc.devRef .tc main_arg2) := StableHlo.after_of_writes_sub hostOps0_2 _ hostOps0_2_writes (by decide)
    _ = Wa m ρ c (Proc.devRef .tc main_arg2) := StableHlo.after_of_writes_sub hostOps0_1 _ hostOps0_1_writes (by decide)
    _ = W0 m ρ c (Proc.devRef .tc main_arg2) := StableHlo.after_of_writes_sub hostOps0 _ hostOps0_writes (by decide)
    _ = m ((c : Thread nD τ).loc main_arg2) := rfl
theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := StableHlo.after_of_writes_sub hostOps2 _ hostOps2_writes (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = Wb m ρ c (Proc.devRef .tc main_arg3) := StableHlo.after_of_writes_sub hostOps0_2 _ hostOps0_2_writes (by decide)
    _ = Wa m ρ c (Proc.devRef .tc main_arg3) := StableHlo.after_of_writes_sub hostOps0_1 _ hostOps0_1_writes (by decide)
    _ = W0 m ρ c (Proc.devRef .tc main_arg3) := StableHlo.after_of_writes_sub hostOps0 _ hostOps0_writes (by decide)
    _ = m ((c : Thread nD τ).loc main_arg3) := rfl
theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := StableHlo.after_of_writes_sub hostOps2 _ hostOps2_writes (by decide)
    _ = W3 m ρ c (Proc.devRef .tc main_arg4) := (W4_arr m ρ c 1).trans (((dat1 (V3 m ρ) c).arrAt_in 1 rfl _).trans (A_eq1 (V3 m ρ) c 1))
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = Wb m ρ c (Proc.devRef .tc main_arg4) := StableHlo.after_of_writes_sub hostOps0_2 _ hostOps0_2_writes (by decide)
    _ = Wa m ρ c (Proc.devRef .tc main_arg4) := StableHlo.after_of_writes_sub hostOps0_1 _ hostOps0_1_writes (by decide)
    _ = W0 m ρ c (Proc.devRef .tc main_arg4) := StableHlo.after_of_writes_sub hostOps0 _ hostOps0_writes (by decide)
    _ = m ((c : Thread nD τ).loc main_arg4) := rfl
theorem W6_main_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := StableHlo.after_of_writes_sub hostOps2 _ hostOps2_writes (by decide)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = Wb m ρ c (Proc.devRef .tc main_arg5) := StableHlo.after_of_writes_sub hostOps0_2 _ hostOps0_2_writes (by decide)
    _ = Wa m ρ c (Proc.devRef .tc main_arg5) := StableHlo.after_of_writes_sub hostOps0_1 _ hostOps0_1_writes (by decide)
    _ = W0 m ρ c (Proc.devRef .tc main_arg5) := StableHlo.after_of_writes_sub hostOps0 _ hostOps0_writes (by decide)
    _ = m ((c : Thread nD τ).loc main_arg5) := rfl
theorem W6_main_arg6 (c : Dev nD) : W6 m ρ c (Proc.devRef .tc main_arg6) = m ((c : Thread nD τ).loc main_arg6) :=
  calc W6 m ρ c (Proc.devRef .tc main_arg6)
    _ = W5 m ρ c (Proc.devRef .tc main_arg6) := (W6_arr m ρ c 1).trans (((dat2 (V5 m ρ) c).arrAt_in 1 rfl _).trans (A_eq2 (V5 m ρ) c 1))
    _ = W4 m ρ c (Proc.devRef .tc main_arg6) := StableHlo.after_of_writes_sub hostOps2 _ hostOps2_writes (by decide)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = Wb m ρ c (Proc.devRef .tc main_arg6) := StableHlo.after_of_writes_sub hostOps0_2 _ hostOps0_2_writes (by decide)
    _ = Wa m ρ c (Proc.devRef .tc main_arg6) := StableHlo.after_of_writes_sub hostOps0_1 _ hostOps0_1_writes (by decide)
    _ = W0 m ρ c (Proc.devRef .tc main_arg6) := StableHlo.after_of_writes_sub hostOps0 _ hostOps0_writes (by decide)
    _ = m ((c : Thread nD τ).loc main_arg6) := rfl
theorem W6_main_arg7 (c : Dev nD) : W6 m ρ c (Proc.devRef .tc main_arg7) = m ((c : Thread nD τ).loc main_arg7) :=
  calc W6 m ρ c (Proc.devRef .tc main_arg7)
    _ = W5 m ρ c (Proc.devRef .tc main_arg7) := W6_of_ne m ρ c main_arg7 (by decide)
    _ = W4 m ρ c (Proc.devRef .tc main_arg7) := StableHlo.after_of_writes_sub hostOps2 _ hostOps2_writes (by decide)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = Wb m ρ c (Proc.devRef .tc main_arg7) := StableHlo.after_of_writes_sub hostOps0_2 _ hostOps0_2_writes (by decide)
    _ = Wa m ρ c (Proc.devRef .tc main_arg7) := StableHlo.after_of_writes_sub hostOps0_1 _ hostOps0_1_writes (by decide)
    _ = W0 m ρ c (Proc.devRef .tc main_arg7) := StableHlo.after_of_writes_sub hostOps0 _ hostOps0_writes (by decide)
    _ = m ((c : Thread nD τ).loc main_arg7) := rfl
theorem W6_main_arg8 (c : Dev nD) : W6 m ρ c (Proc.devRef .tc main_arg8) = m ((c : Thread nD τ).loc main_arg8) :=
  calc W6 m ρ c (Proc.devRef .tc main_arg8)
    _ = W5 m ρ c (Proc.devRef .tc main_arg8) := W6_of_ne m ρ c main_arg8 (by decide)
    _ = W4 m ρ c (Proc.devRef .tc main_arg8) := StableHlo.after_of_writes_sub hostOps2 _ hostOps2_writes (by decide)
    _ = W3 m ρ c (Proc.devRef .tc main_arg8) := W4_of_ne m ρ c main_arg8 (by decide)
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = Wb m ρ c (Proc.devRef .tc main_arg8) := StableHlo.after_of_writes_sub hostOps0_2 _ hostOps0_2_writes (by decide)
    _ = Wa m ρ c (Proc.devRef .tc main_arg8) := StableHlo.after_of_writes_sub hostOps0_1 _ hostOps0_1_writes (by decide)
    _ = W0 m ρ c (Proc.devRef .tc main_arg8) := StableHlo.after_of_writes_sub hostOps0 _ hostOps0_writes (by decide)
    _ = m ((c : Thread nD τ).loc main_arg8) := rfl
theorem W6_main_arg9 (c : Dev nD) : W6 m ρ c (Proc.devRef .tc main_arg9) = m ((c : Thread nD τ).loc main_arg9) :=
  calc W6 m ρ c (Proc.devRef .tc main_arg9)
    _ = W5 m ρ c (Proc.devRef .tc main_arg9) := W6_of_ne m ρ c main_arg9 (by decide)
    _ = W4 m ρ c (Proc.devRef .tc main_arg9) := StableHlo.after_of_writes_sub hostOps2 _ hostOps2_writes (by decide)
    _ = W3 m ρ c (Proc.devRef .tc main_arg9) := W4_of_ne m ρ c main_arg9 (by decide)
    _ = W2 m ρ c (Proc.devRef .tc main_arg9) := StableHlo.after_of_writes_sub hostOps1 _ hostOps1_writes (by decide)
    _ = W1 m ρ c (Proc.devRef .tc main_arg9) := W2_of_ne m ρ c main_arg9 (by decide)
    _ = Wb m ρ c (Proc.devRef .tc main_arg9) := StableHlo.after_of_writes_sub hostOps0_2 _ hostOps0_2_writes (by decide)
    _ = Wa m ρ c (Proc.devRef .tc main_arg9) := StableHlo.after_of_writes_sub hostOps0_1 _ hostOps0_1_writes (by decide)
    _ = W0 m ρ c (Proc.devRef .tc main_arg9) := StableHlo.after_of_writes_sub hostOps0 _ hostOps0_writes (by decide)
    _ = m ((c : Thread nD τ).loc main_arg9) := rfl
theorem W6_main_arg10 (c : Dev nD) : W6 m ρ c (Proc.devRef .tc main_arg10) = m ((c : Thread nD τ).loc main_arg10) :=
  calc W6 m ρ c (Proc.devRef .tc main_arg10)
    _ = W5 m ρ c (Proc.devRef .tc main_arg10) := W6_of_ne m ρ c main_arg10 (by decide)
    _ = W4 m ρ c (Proc.devRef .tc main_arg10) := StableHlo.after_of_writes_sub hostOps2 _ hostOps2_writes (by decide)
    _ = W3 m ρ c (Proc.devRef .tc main_arg10) := W4_of_ne m ρ c main_arg10 (by decide)
    _ = W2 m ρ c (Proc.devRef .tc main_arg10) := StableHlo.after_of_writes_sub hostOps1 _ hostOps1_writes (by decide)
    _ = W1 m ρ c (Proc.devRef .tc main_arg10) := W2_of_ne m ρ c main_arg10 (by decide)
    _ = Wb m ρ c (Proc.devRef .tc main_arg10) := StableHlo.after_of_writes_sub hostOps0_2 _ hostOps0_2_writes (by decide)
    _ = Wa m ρ c (Proc.devRef .tc main_arg10) := StableHlo.after_of_writes_sub hostOps0_1 _ hostOps0_1_writes (by decide)
    _ = W0 m ρ c (Proc.devRef .tc main_arg10) := StableHlo.after_of_writes_sub hostOps0 _ hostOps0_writes (by decide)
    _ = m ((c : Thread nD τ).loc main_arg10) := rfl
theorem W6_main_arg11 (c : Dev nD) : W6 m ρ c (Proc.devRef .tc main_arg11) = m ((c : Thread nD τ).loc main_arg11) :=
  calc W6 m ρ c (Proc.devRef .tc main_arg11)
    _ = W5 m ρ c (Proc.devRef .tc main_arg11) := W6_of_ne m ρ c main_arg11 (by decide)
    _ = W4 m ρ c (Proc.devRef .tc main_arg11) := StableHlo.after_of_writes_sub hostOps2 _ hostOps2_writes (by decide)
    _ = W3 m ρ c (Proc.devRef .tc main_arg11) := W4_of_ne m ρ c main_arg11 (by decide)
    _ = W2 m ρ c (Proc.devRef .tc main_arg11) := StableHlo.after_of_writes_sub hostOps1 _ hostOps1_writes (by decide)
    _ = W1 m ρ c (Proc.devRef .tc main_arg11) := W2_of_ne m ρ c main_arg11 (by decide)
    _ = Wb m ρ c (Proc.devRef .tc main_arg11) := StableHlo.after_of_writes_sub hostOps0_2 _ hostOps0_2_writes (by decide)
    _ = Wa m ρ c (Proc.devRef .tc main_arg11) := StableHlo.after_of_writes_sub hostOps0_1 _ hostOps0_1_writes (by decide)
    _ = W0 m ρ c (Proc.devRef .tc main_arg11) := StableHlo.after_of_writes_sub hostOps0 _ hostOps0_writes (by decide)
    _ = m ((c : Thread nD τ).loc main_arg11) := rfl
theorem W6_main_arg12 (c : Dev nD) : W6 m ρ c (Proc.devRef .tc main_arg12) = m ((c : Thread nD τ).loc main_arg12) :=
  calc W6 m ρ c (Proc.devRef .tc main_arg12)
    _ = W5 m ρ c (Proc.devRef .tc main_arg12) := W6_of_ne m ρ c main_arg12 (by decide)
    _ = W4 m ρ c (Proc.devRef .tc main_arg12) := StableHlo.after_of_writes_sub hostOps2 _ hostOps2_writes (by decide)
    _ = W3 m ρ c (Proc.devRef .tc main_arg12) := W4_of_ne m ρ c main_arg12 (by decide)
    _ = W2 m ρ c (Proc.devRef .tc main_arg12) := StableHlo.after_of_writes_sub hostOps1 _ hostOps1_writes (by decide)
    _ = W1 m ρ c (Proc.devRef .tc main_arg12) := W2_of_ne m ρ c main_arg12 (by decide)
    _ = Wb m ρ c (Proc.devRef .tc main_arg12) := StableHlo.after_of_writes_sub hostOps0_2 _ hostOps0_2_writes (by decide)
    _ = Wa m ρ c (Proc.devRef .tc main_arg12) := StableHlo.after_of_writes_sub hostOps0_1 _ hostOps0_1_writes (by decide)
    _ = W0 m ρ c (Proc.devRef .tc main_arg12) := StableHlo.after_of_writes_sub hostOps0 _ hostOps0_writes (by decide)
    _ = m ((c : Thread nD τ).loc main_arg12) := rfl
theorem W6_main_arg13 (c : Dev nD) : W6 m ρ c (Proc.devRef .tc main_arg13) = m ((c : Thread nD τ).loc main_arg13) :=
  calc W6 m ρ c (Proc.devRef .tc main_arg13)
    _ = W5 m ρ c (Proc.devRef .tc main_arg13) := W6_of_ne m ρ c main_arg13 (by decide)
    _ = W4 m ρ c (Proc.devRef .tc main_arg13) := StableHlo.after_of_writes_sub hostOps2 _ hostOps2_writes (by decide)
    _ = W3 m ρ c (Proc.devRef .tc main_arg13) := W4_of_ne m ρ c main_arg13 (by decide)
    _ = W2 m ρ c (Proc.devRef .tc main_arg13) := StableHlo.after_of_writes_sub hostOps1 _ hostOps1_writes (by decide)
    _ = W1 m ρ c (Proc.devRef .tc main_arg13) := W2_of_ne m ρ c main_arg13 (by decide)
    _ = Wb m ρ c (Proc.devRef .tc main_arg13) := StableHlo.after_of_writes_sub hostOps0_2 _ hostOps0_2_writes (by decide)
    _ = Wa m ρ c (Proc.devRef .tc main_arg13) := StableHlo.after_of_writes_sub hostOps0_1 _ hostOps0_1_writes (by decide)
    _ = W0 m ρ c (Proc.devRef .tc main_arg13) := StableHlo.after_of_writes_sub hostOps0 _ hostOps0_writes (by decide)
    _ = m ((c : Thread nD τ).loc main_arg13) := rfl
theorem W6_main_arg14 (c : Dev nD) : W6 m ρ c (Proc.devRef .tc main_arg14) = m ((c : Thread nD τ).loc main_arg14) :=
  calc W6 m ρ c (Proc.devRef .tc main_arg14)
    _ = W5 m ρ c (Proc.devRef .tc main_arg14) := W6_of_ne m ρ c main_arg14 (by decide)
    _ = W4 m ρ c (Proc.devRef .tc main_arg14) := StableHlo.after_of_writes_sub hostOps2 _ hostOps2_writes (by decide)
    _ = W3 m ρ c (Proc.devRef .tc main_arg14) := W4_of_ne m ρ c main_arg14 (by decide)
    _ = W2 m ρ c (Proc.devRef .tc main_arg14) := StableHlo.after_of_writes_sub hostOps1 _ hostOps1_writes (by decide)
    _ = W1 m ρ c (Proc.devRef .tc main_arg14) := W2_of_ne m ρ c main_arg14 (by decide)
    _ = Wb m ρ c (Proc.devRef .tc main_arg14) := StableHlo.after_of_writes_sub hostOps0_2 _ hostOps0_2_writes (by decide)
    _ = Wa m ρ c (Proc.devRef .tc main_arg14) := StableHlo.after_of_writes_sub hostOps0_1 _ hostOps0_1_writes (by decide)
    _ = W0 m ρ c (Proc.devRef .tc main_arg14) := StableHlo.after_of_writes_sub hostOps0 _ hostOps0_writes (by decide)
    _ = m ((c : Thread nD τ).loc main_arg14) := rfl
theorem W6_main_arg15 (c : Dev nD) : W6 m ρ c (Proc.devRef .tc main_arg15) = m ((c : Thread nD τ).loc main_arg15) :=
  calc W6 m ρ c (Proc.devRef .tc main_arg15)
    _ = W5 m ρ c (Proc.devRef .tc main_arg15) := W6_of_ne m ρ c main_arg15 (by decide)
    _ = W4 m ρ c (Proc.devRef .tc main_arg15) := StableHlo.after_of_writes_sub hostOps2 _ hostOps2_writes (by decide)
    _ = W3 m ρ c (Proc.devRef .tc main_arg15) := W4_of_ne m ρ c main_arg15 (by decide)
    _ = W2 m ρ c (Proc.devRef .tc main_arg15) := StableHlo.after_of_writes_sub hostOps1 _ hostOps1_writes (by decide)
    _ = W1 m ρ c (Proc.devRef .tc main_arg15) := W2_of_ne m ρ c main_arg15 (by decide)
    _ = Wb m ρ c (Proc.devRef .tc main_arg15) := StableHlo.after_of_writes_sub hostOps0_2 _ hostOps0_2_writes (by decide)
    _ = Wa m ρ c (Proc.devRef .tc main_arg15) := StableHlo.after_of_writes_sub hostOps0_1 _ hostOps0_1_writes (by decide)
    _ = W0 m ρ c (Proc.devRef .tc main_arg15) := StableHlo.after_of_writes_sub hostOps0 _ hostOps0_writes (by decide)
    _ = m ((c : Thread nD τ).loc main_arg15) := rfl
theorem W6_main_arg16 (c : Dev nD) : W6 m ρ c (Proc.devRef .tc main_arg16) = m ((c : Thread nD τ).loc main_arg16) :=
  calc W6 m ρ c (Proc.devRef .tc main_arg16)
    _ = W5 m ρ c (Proc.devRef .tc main_arg16) := W6_of_ne m ρ c main_arg16 (by decide)
    _ = W4 m ρ c (Proc.devRef .tc main_arg16) := StableHlo.after_of_writes_sub hostOps2 _ hostOps2_writes (by decide)
    _ = W3 m ρ c (Proc.devRef .tc main_arg16) := W4_of_ne m ρ c main_arg16 (by decide)
    _ = W2 m ρ c (Proc.devRef .tc main_arg16) := StableHlo.after_of_writes_sub hostOps1 _ hostOps1_writes (by decide)
    _ = W1 m ρ c (Proc.devRef .tc main_arg16) := W2_of_ne m ρ c main_arg16 (by decide)
    _ = Wb m ρ c (Proc.devRef .tc main_arg16) := StableHlo.after_of_writes_sub hostOps0_2 _ hostOps0_2_writes (by decide)
    _ = Wa m ρ c (Proc.devRef .tc main_arg16) := StableHlo.after_of_writes_sub hostOps0_1 _ hostOps0_1_writes (by decide)
    _ = W0 m ρ c (Proc.devRef .tc main_arg16) := StableHlo.after_of_writes_sub hostOps0 _ hostOps0_writes (by decide)
    _ = m ((c : Thread nD τ).loc main_arg16) := rfl
theorem W6_main_arg17 (c : Dev nD) : W6 m ρ c (Proc.devRef .tc main_arg17) = m ((c : Thread nD τ).loc main_arg17) :=
  calc W6 m ρ c (Proc.devRef .tc main_arg17)
    _ = W5 m ρ c (Proc.devRef .tc main_arg17) := W6_of_ne m ρ c main_arg17 (by decide)
    _ = W4 m ρ c (Proc.devRef .tc main_arg17) := StableHlo.after_of_writes_sub hostOps2 _ hostOps2_writes (by decide)
    _ = W3 m ρ c (Proc.devRef .tc main_arg17) := W4_of_ne m ρ c main_arg17 (by decide)
    _ = W2 m ρ c (Proc.devRef .tc main_arg17) := StableHlo.after_of_writes_sub hostOps1 _ hostOps1_writes (by decide)
    _ = W1 m ρ c (Proc.devRef .tc main_arg17) := W2_of_ne m ρ c main_arg17 (by decide)
    _ = Wb m ρ c (Proc.devRef .tc main_arg17) := StableHlo.after_of_writes_sub hostOps0_2 _ hostOps0_2_writes (by decide)
    _ = Wa m ρ c (Proc.devRef .tc main_arg17) := StableHlo.after_of_writes_sub hostOps0_1 _ hostOps0_1_writes (by decide)
    _ = W0 m ρ c (Proc.devRef .tc main_arg17) := StableHlo.after_of_writes_sub hostOps0 _ hostOps0_writes (by decide)
    _ = m ((c : Thread nD τ).loc main_arg17) := rfl
theorem W6_main_arg18 (c : Dev nD) : W6 m ρ c (Proc.devRef .tc main_arg18) = m ((c : Thread nD τ).loc main_arg18) :=
  calc W6 m ρ c (Proc.devRef .tc main_arg18)
    _ = W5 m ρ c (Proc.devRef .tc main_arg18) := W6_of_ne m ρ c main_arg18 (by decide)
    _ = W4 m ρ c (Proc.devRef .tc main_arg18) := StableHlo.after_of_writes_sub hostOps2 _ hostOps2_writes (by decide)
    _ = W3 m ρ c (Proc.devRef .tc main_arg18) := W4_of_ne m ρ c main_arg18 (by decide)
    _ = W2 m ρ c (Proc.devRef .tc main_arg18) := StableHlo.after_of_writes_sub hostOps1 _ hostOps1_writes (by decide)
    _ = W1 m ρ c (Proc.devRef .tc main_arg18) := W2_of_ne m ρ c main_arg18 (by decide)
    _ = Wb m ρ c (Proc.devRef .tc main_arg18) := StableHlo.after_of_writes_sub hostOps0_2 _ hostOps0_2_writes (by decide)
    _ = Wa m ρ c (Proc.devRef .tc main_arg18) := StableHlo.after_of_writes_sub hostOps0_1 _ hostOps0_1_writes (by decide)
    _ = W0 m ρ c (Proc.devRef .tc main_arg18) := StableHlo.after_of_writes_sub hostOps0 _ hostOps0_writes (by decide)
    _ = m ((c : Thread nD τ).loc main_arg18) := rfl
theorem W6_main_arg19 (c : Dev nD) : W6 m ρ c (Proc.devRef .tc main_arg19) = m ((c : Thread nD τ).loc main_arg19) :=
  calc W6 m ρ c (Proc.devRef .tc main_arg19)
    _ = W5 m ρ c (Proc.devRef .tc main_arg19) := W6_of_ne m ρ c main_arg19 (by decide)
    _ = W4 m ρ c (Proc.devRef .tc main_arg19) := StableHlo.after_of_writes_sub hostOps2 _ hostOps2_writes (by decide)
    _ = W3 m ρ c (Proc.devRef .tc main_arg19) := W4_of_ne m ρ c main_arg19 (by decide)
    _ = W2 m ρ c (Proc.devRef .tc main_arg19) := StableHlo.after_of_writes_sub hostOps1 _ hostOps1_writes (by decide)
    _ = W1 m ρ c (Proc.devRef .tc main_arg19) := W2_of_ne m ρ c main_arg19 (by decide)
    _ = Wb m ρ c (Proc.devRef .tc main_arg19) := StableHlo.after_of_writes_sub hostOps0_2 _ hostOps0_2_writes (by decide)
    _ = Wa m ρ c (Proc.devRef .tc main_arg19) := StableHlo.after_of_writes_sub hostOps0_1 _ hostOps0_1_writes (by decide)
    _ = W0 m ρ c (Proc.devRef .tc main_arg19) := StableHlo.after_of_writes_sub hostOps0 _ hostOps0_writes (by decide)
    _ = m ((c : Thread nD τ).loc main_arg19) := rfl
theorem W6_main_arg20 (c : Dev nD) : W6 m ρ c (Proc.devRef .tc main_arg20) = m ((c : Thread nD τ).loc main_arg20) :=
  calc W6 m ρ c (Proc.devRef .tc main_arg20)
    _ = W5 m ρ c (Proc.devRef .tc main_arg20) := (W6_arr m ρ c 7).trans (((dat2 (V5 m ρ) c).arrAt_in 7 rfl _).trans (A_eq2 (V5 m ρ) c 7))
    _ = W4 m ρ c (Proc.devRef .tc main_arg20) := StableHlo.after_of_writes_sub hostOps2 _ hostOps2_writes (by decide)
    _ = W3 m ρ c (Proc.devRef .tc main_arg20) := W4_of_ne m ρ c main_arg20 (by decide)
    _ = W2 m ρ c (Proc.devRef .tc main_arg20) := StableHlo.after_of_writes_sub hostOps1 _ hostOps1_writes (by decide)
    _ = W1 m ρ c (Proc.devRef .tc main_arg20) := W2_of_ne m ρ c main_arg20 (by decide)
    _ = Wb m ρ c (Proc.devRef .tc main_arg20) := StableHlo.after_of_writes_sub hostOps0_2 _ hostOps0_2_writes (by decide)
    _ = Wa m ρ c (Proc.devRef .tc main_arg20) := StableHlo.after_of_writes_sub hostOps0_1 _ hostOps0_1_writes (by decide)
    _ = W0 m ρ c (Proc.devRef .tc main_arg20) := StableHlo.after_of_writes_sub hostOps0 _ hostOps0_writes (by decide)
    _ = m ((c : Thread nD τ).loc main_arg20) := rfl
theorem W6_main_arg21 (c : Dev nD) : W6 m ρ c (Proc.devRef .tc main_arg21) = m ((c : Thread nD τ).loc main_arg21) :=
  calc W6 m ρ c (Proc.devRef .tc main_arg21)
    _ = W5 m ρ c (Proc.devRef .tc main_arg21) := W6_of_ne m ρ c main_arg21 (by decide)
    _ = W4 m ρ c (Proc.devRef .tc main_arg21) := StableHlo.after_of_writes_sub hostOps2 _ hostOps2_writes (by decide)
    _ = W3 m ρ c (Proc.devRef .tc main_arg21) := W4_of_ne m ρ c main_arg21 (by decide)
    _ = W2 m ρ c (Proc.devRef .tc main_arg21) := StableHlo.after_of_writes_sub hostOps1 _ hostOps1_writes (by decide)
    _ = W1 m ρ c (Proc.devRef .tc main_arg21) := W2_of_ne m ρ c main_arg21 (by decide)
    _ = Wb m ρ c (Proc.devRef .tc main_arg21) := StableHlo.after_of_writes_sub hostOps0_2 _ hostOps0_2_writes (by decide)
    _ = Wa m ρ c (Proc.devRef .tc main_arg21) := StableHlo.after_of_writes_sub hostOps0_1 _ hostOps0_1_writes (by decide)
    _ = W0 m ρ c (Proc.devRef .tc main_arg21) := StableHlo.after_of_writes_sub hostOps0 _ hostOps0_writes (by decide)
    _ = m ((c : Thread nD τ).loc main_arg21) := rfl

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core's dues, at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- Kernel 0 over the thread state: entered from every unscoped buffer at `W1`, left at `W2`. Its arrays are split
    out of the unscoped buffers and put back at the exit contents; the generator register goes into the invariant and
    comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel 1 over the thread state: entered from every unscoped buffer at `W3`, left at `W4`. Its arrays are split
    out of the unscoped buffers and put back at the exit contents; the generator register goes into the invariant and
    comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel 2 over the thread state: entered from every unscoped buffer at `W5`, left at `W6`. Its arrays are split
    out of the unscoped buffers and put back at the exit contents; the generator register goes into the invariant and
    comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (Wa m ρ)),
    .host (hseg hostOps0_2 hostOps0_2_sub hostOps0_2_fresh (Wb m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]

set_option maxHeartbeats 4000000 in
/-- @main is the run of the segments. -/
theorem main_run (c : Dev nD) : main (F := F) c = Pipeline.Seg.run (segs m ρ) := by
  rw [main_chain c, Pipeline.Seg.run_eq_chain]; rfl

set_option backward.isDefEq.respectTransparency.types false in
set_option maxHeartbeats 4000000 in
/-- From any memory with zero counters every weakly fair execution of @main on the TensorCores terminates, nothing
    faulting, and every final state has every unscoped buffer at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W6 m ρ c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun s h c => ⟨(h c _ (mem_uc main_arg0 (by decide))).trans (W6_main_arg0 m ρ c),
      (h c _ (mem_uc main_arg1 (by decide))).trans (W6_main_arg1 m ρ c),
      (h c _ (mem_uc main_arg2 (by decide))).trans (W6_main_arg2 m ρ c),
      (h c _ (mem_uc main_arg3 (by decide))).trans (W6_main_arg3 m ρ c),
      (h c _ (mem_uc main_arg4 (by decide))).trans (W6_main_arg4 m ρ c),
      (h c _ (mem_uc main_arg5 (by decide))).trans (W6_main_arg5 m ρ c),
      (h c _ (mem_uc main_arg6 (by decide))).trans (W6_main_arg6 m ρ c),
      (h c _ (mem_uc main_arg7 (by decide))).trans (W6_main_arg7 m ρ c),
      (h c _ (mem_uc main_arg8 (by decide))).trans (W6_main_arg8 m ρ c),
      (h c _ (mem_uc main_arg9 (by decide))).trans (W6_main_arg9 m ρ c),
      (h c _ (mem_uc main_arg10 (by decide))).trans (W6_main_arg10 m ρ c),
      (h c _ (mem_uc main_arg11 (by decide))).trans (W6_main_arg11 m ρ c),
      (h c _ (mem_uc main_arg12 (by decide))).trans (W6_main_arg12 m ρ c),
      (h c _ (mem_uc main_arg13 (by decide))).trans (W6_main_arg13 m ρ c),
      (h c _ (mem_uc main_arg14 (by decide))).trans (W6_main_arg14 m ρ c),
      (h c _ (mem_uc main_arg15 (by decide))).trans (W6_main_arg15 m ρ c),
      (h c _ (mem_uc main_arg16 (by decide))).trans (W6_main_arg16 m ρ c),
      (h c _ (mem_uc main_arg17 (by decide))).trans (W6_main_arg17 m ρ c),
      (h c _ (mem_uc main_arg18 (by decide))).trans (W6_main_arg18 m ρ c),
      (h c _ (mem_uc main_arg19 (by decide))).trans (W6_main_arg19 m ρ c),
      (h c _ (mem_uc main_arg20 (by decide))).trans (W6_main_arg20 m ρ c),
      (h c _ (mem_uc main_arg21 (by decide))).trans (W6_main_arg21 m ρ c)⟩) (run_all m ρ)

end Cert.Kernel.Layers

end
-- ==== Proof.IdealBodies.lean ====
/-
  The run of the three-layer program: every weakly fair execution of @main ends, nothing faults, and every unscoped
  buffer ends at a named content. @main is three stretches of host operations, the first node-block kernel, a stretch,
  the second node-block kernel, a stretch, the last kernel. Each kernel works on one block of 5000 node rows per grid
  point: it reads the block of the stacked polynomials, the whole weight and parameter arrays, and stores the block of its
  result whole, so after the body the result's staging buffer holds one expression of the input blocks. Between two
  items every unscoped buffer is held at a valuation obtained from the launch memory by folding the host stretches
  and, at a region, replacing the region's arrays by what its write-backs leave.
-/
import proofs.«127831_j29308856828499_2_alg».proof.Proof.Gen.KernelIdeal.Launch
import proofs.«127831_j29308856828499_2_alg».proof.Proof.Gen.KernelIdeal.Skeleton
import proofs.«127831_j29308856828499_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Layers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The rectangles the bodies load and store through -/

/-- Slab k of the stacked polynomials' block, slab k of the weights, a whole parameter row, the whole result block. -/
abbrev rT0 : Rect S4x5000x64 := Rect.unit (s := S4x5000x64) ![0, 0, 0] S1x5000x64.size inb_S4x5000x64_S1x5000x64_0_0_0
abbrev rT1 : Rect S4x5000x64 := Rect.unit (s := S4x5000x64) ![1, 0, 0] S1x5000x64.size inb_S4x5000x64_S1x5000x64_1_0_0
abbrev rT2 : Rect S4x5000x64 := Rect.unit (s := S4x5000x64) ![2, 0, 0] S1x5000x64.size inb_S4x5000x64_S1x5000x64_2_0_0
abbrev rT3 : Rect S4x5000x64 := Rect.unit (s := S4x5000x64) ![3, 0, 0] S1x5000x64.size inb_S4x5000x64_S1x5000x64_3_0_0
abbrev rW0 : Rect S4x64x64 := Rect.unit (s := S4x64x64) ![0, 0, 0] S1x64x64.size inb_S4x64x64_S1x64x64_0_0_0
abbrev rW1 : Rect S4x64x64 := Rect.unit (s := S4x64x64) ![1, 0, 0] S1x64x64.size inb_S4x64x64_S1x64x64_1_0_0
abbrev rW2 : Rect S4x64x64 := Rect.unit (s := S4x64x64) ![2, 0, 0] S1x64x64.size inb_S4x64x64_S1x64x64_2_0_0
abbrev rW3 : Rect S4x64x64 := Rect.unit (s := S4x64x64) ![3, 0, 0] S1x64x64.size inb_S4x64x64_S1x64x64_3_0_0
abbrev rP : Rect S1x64 := Rect.unit (s := S1x64) ![0, 0] S1x64.size inb_S1x64_S1x64_0_0
abbrev rO : Rect S5000x64 := Rect.unit (s := S5000x64) ![0, 0] S5000x64.size inb_S5000x64_S5000x64_0_0
abbrev rH : Rect S64x16 := Rect.unit (s := S64x16) ![0, 0] S64x16.size inb_S64x16_S64x16_0_0
abbrev rQ : Rect S1x16 := Rect.unit (s := S1x16) ![0, 0] S1x16.size inb_S1x16_S1x16_0_0
abbrev rZ : Rect S5000x16 := Rect.unit (s := S5000x16) ![0, 0] S5000x16.size inb_S5000x16_S5000x16_0_0

section Regions
variable (V : (c : Dev nD) → (b : Ref sig .tc) → Buf (Elt F) ((c : Thread nD τ).loc b))

/-! # Region 0: kernel 0, at the entry contents `V` -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not: where the pipeline does
    not fetch, the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's staging buffer holds its block at every point, fetched there or not: where the pipeline does
    not fetch, the block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's staging buffer holds its block at every point, fetched there or not: where the pipeline does
    not fetch, the block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's staging buffer holds its block at every point, fetched there or not: where the pipeline does
    not fetch, the block index has not moved. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's staging buffer holds its block at every point, fetched there or not: where the pipeline does
    not fetch, the block index has not moved. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's staging buffer holds its block at every point, fetched there or not: where the pipeline does
    not fetch, the block index has not moved. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's staging buffer holds its block at every point, fetched there or not: where the pipeline does
    not fetch, the block index has not moved. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- The result window's staging buffer after the body, from the input windows' blocks: one store of the whole block. -/
def out0_7 (x0 : Vec F S4x5000x64 .f32) (x1 : Vec F S4x64x64 .f32) (x2 : Vec F S1x64 .f32) (x3 : Vec F S1x64 .f32) (x4 : Vec F S1x64 .f32) (x5 : Vec F S1x64 .f32) (x6 : Vec F S1x64 .f32) : Vec F S5000x64 .f32 :=
  View.canon [⟨rO, k0_pay1 (k0_pay2 (View.ld x0 rT0) (View.ld x1 rW0) (View.ld x0 rT1) (View.ld x1 rW1) (View.ld x0 rT2) (View.ld x1 rW2)) (k0_pay3 (View.ld x0 rT3)) (k0_pay4 (View.ld x1 rW3)) (View.ld x2 rP) (View.ld x3 rP) (View.ld x6 rP) (View.ld x5 rP) (View.ld x4 rP)⟩]

/-- The one store covers the buffer. -/
theorem cover0_7 (p0 : Vec F S5000x64 .f32) (y : S5000x64.Idx) :
    ∃ pc ∈ ([⟨rO, p0⟩] : List (View.Piece (Elt F) S5000x64 .f32)), y ∈ pc.1.set :=
  View.cover_of_tiled [⟨rO, p0⟩] S5000x64.size (by rfl) y

set_option maxHeartbeats 4000000 in
/-- The kernel body on whole staging memrefs, the inputs' at read contents `xW` and the result's at anything, runs to
    the continuation holding the inputs' as they were and the result's at `out0_7` of the inputs'. -/
theorem sound_kernel0 (c : Dev nD) (E : Set ℕ) (i : grid0.Coords) (arg0 : Memref sig .tc .vmem S4x5000x64 .f32) (harg0 : arg0.IsWhole) (arg1 : Memref sig .tc .vmem S4x64x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S5000x64 .f32) (harg7 : arg7.IsWhole)
    (x0 : Vec F S4x5000x64 .f32) (x1 : Vec F S4x64x64 .f32) (x2 : Vec F S1x64 .f32) (x3 : Vec F S1x64 .f32) (x4 : Vec F S1x64 .f32) (x5 : Vec F S1x64 .f32) (x6 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out0_7 x0 x1 x2 x3 x4 x5 x6)) -∗ K ⟨⟩))
      ⊢ wp frame (wpE (defs₀ (F := F)) Variants.none c none) E (cc0__cheb_layer_kernel i arg0 harg0 arg1 harg1 arg2 harg2 arg3 harg3 arg4 harg4 arg5 harg5 arg6 harg6 arg7 harg7) K := by
  simp only [cc0__cheb_layer_kernel_eq_skeleton]; unfold cc0__cheb_layer_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (cover0_7 _)

/-- The proof data of pipeline 0 on core `c`: the arrays as the region finds them; after the body at point `t` each
    input's buffer at its block and the result's at `out0_7` of the input blocks; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) (iblk0 V c 6 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the inputs' memrefs hold their blocks, so `sound_kernel0` applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation0 (c : Dev nD) : BodyObligation (dat0 (F := F) V c) (defs₀ (F := F)) Variants.none () Set.univ := fun t => by
  rw [bigSep_W0, bigSep_W0]
  exact sound_body0 V c t

/-! # Region 1: kernel 1, at the entry contents `V` -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not: where the pipeline does
    not fetch, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's staging buffer holds its block at every point, fetched there or not: where the pipeline does
    not fetch, the block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's staging buffer holds its block at every point, fetched there or not: where the pipeline does
    not fetch, the block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's staging buffer holds its block at every point, fetched there or not: where the pipeline does
    not fetch, the block index has not moved. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's staging buffer holds its block at every point, fetched there or not: where the pipeline does
    not fetch, the block index has not moved. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's staging buffer holds its block at every point, fetched there or not: where the pipeline does
    not fetch, the block index has not moved. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's staging buffer holds its block at every point, fetched there or not: where the pipeline does
    not fetch, the block index has not moved. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- The result window's staging buffer after the body, from the input windows' blocks: one store of the whole block. -/
def out1_7 (x0 : Vec F S4x5000x64 .f32) (x1 : Vec F S4x64x64 .f32) (x2 : Vec F S1x64 .f32) (x3 : Vec F S1x64 .f32) (x4 : Vec F S1x64 .f32) (x5 : Vec F S1x64 .f32) (x6 : Vec F S1x64 .f32) : Vec F S5000x64 .f32 :=
  View.canon [⟨rO, k1_pay1 (k1_pay2 (View.ld x0 rT0) (View.ld x1 rW0) (View.ld x0 rT1) (View.ld x1 rW1) (View.ld x0 rT2) (View.ld x1 rW2)) (k1_pay3 (View.ld x0 rT3)) (k1_pay4 (View.ld x1 rW3)) (View.ld x2 rP) (View.ld x3 rP) (View.ld x6 rP) (View.ld x5 rP) (View.ld x4 rP)⟩]

/-- The one store covers the buffer. -/
theorem cover1_7 (p0 : Vec F S5000x64 .f32) (y : S5000x64.Idx) :
    ∃ pc ∈ ([⟨rO, p0⟩] : List (View.Piece (Elt F) S5000x64 .f32)), y ∈ pc.1.set :=
  View.cover_of_tiled [⟨rO, p0⟩] S5000x64.size (by rfl) y

set_option maxHeartbeats 4000000 in
/-- The kernel body on whole staging memrefs, the inputs' at read contents `xW` and the result's at anything, runs to
    the continuation holding the inputs' as they were and the result's at `out1_7` of the inputs'. -/
theorem sound_kernel1 (c : Dev nD) (E : Set ℕ) (i : grid1.Coords) (arg0 : Memref sig .tc .vmem S4x5000x64 .f32) (harg0 : arg0.IsWhole) (arg1 : Memref sig .tc .vmem S4x64x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S5000x64 .f32) (harg7 : arg7.IsWhole)
    (x0 : Vec F S4x5000x64 .f32) (x1 : Vec F S4x64x64 .f32) (x2 : Vec F S1x64 .f32) (x3 : Vec F S1x64 .f32) (x4 : Vec F S1x64 .f32) (x5 : Vec F S1x64 .f32) (x6 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out1_7 x0 x1 x2 x3 x4 x5 x6)) -∗ K ⟨⟩))
      ⊢ wp frame (wpE (defs₀ (F := F)) Variants.none c none) E (cc1__cheb_layer_kernel i arg0 harg0 arg1 harg1 arg2 harg2 arg3 harg3 arg4 harg4 arg5 harg5 arg6 harg6 arg7 harg7) K := by
  simp only [cc1__cheb_layer_kernel_eq_skeleton]; unfold cc1__cheb_layer_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (cover1_7 _)

/-- The proof data of pipeline 1 on core `c`: the arrays as the region finds them; after the body at point `t` each
    input's buffer at its block and the result's at `out1_7` of the input blocks; the invariant the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' memrefs hold their blocks, so `sound_kernel1` applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation1 (c : Dev nD) : BodyObligation (dat1 (F := F) V c) (defs₀ (F := F)) Variants.none () Set.univ := fun t => by
  rw [bigSep_W1, bigSep_W1]
  exact sound_body1 V c t

/-! # Region 2: kernel 2, at the entry contents `V` -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or not: where the pipeline does
    not fetch, the block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's staging buffer holds its block at every point, fetched there or not: where the pipeline does
    not fetch, the block index has not moved. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's staging buffer holds its block at every point, fetched there or not: where the pipeline does
    not fetch, the block index has not moved. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's staging buffer holds its block at every point, fetched there or not: where the pipeline does
    not fetch, the block index has not moved. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's staging buffer holds its block at every point, fetched there or not: where the pipeline does
    not fetch, the block index has not moved. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5's staging buffer holds its block at every point, fetched there or not: where the pipeline does
    not fetch, the block index has not moved. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
/-- Input window 6's staging buffer holds its block at every point, fetched there or not: where the pipeline does
    not fetch, the block index has not moved. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
/-- Input window 7's staging buffer holds its block at every point, fetched there or not: where the pipeline does
    not fetch, the block index has not moved. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)
/-- Input window 8's staging buffer holds its block at every point, fetched there or not: where the pipeline does
    not fetch, the block index has not moved. -/
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

/-- The result window's staging buffer after the body, from the input windows' blocks: one store of the whole block. -/
def out2_9 (x0 : Vec F S4x5000x64 .f32) (x1 : Vec F S4x64x64 .f32) (x2 : Vec F S1x64 .f32) (x3 : Vec F S1x64 .f32) (x4 : Vec F S1x64 .f32) (x5 : Vec F S1x64 .f32) (x6 : Vec F S1x64 .f32) (x7 : Vec F S64x16 .f32) (x8 : Vec F S1x16 .f32) : Vec F S5000x16 .f32 :=
  View.canon [⟨rZ, k2_pay1 (k2_pay2 (View.ld x0 rT0) (View.ld x1 rW0) (View.ld x0 rT1) (View.ld x1 rW1) (View.ld x0 rT2) (View.ld x1 rW2)) (k2_pay3 (View.ld x0 rT3)) (k2_pay4 (View.ld x1 rW3)) (View.ld x2 rP) (View.ld x3 rP) (View.ld x6 rP) (View.ld x5 rP) (View.ld x4 rP) (View.ld x7 rH) (View.ld x8 rQ)⟩]

/-- The one store covers the buffer. -/
theorem cover2_9 (p0 : Vec F S5000x16 .f32) (y : S5000x16.Idx) :
    ∃ pc ∈ ([⟨rZ, p0⟩] : List (View.Piece (Elt F) S5000x16 .f32)), y ∈ pc.1.set :=
  View.cover_of_tiled [⟨rZ, p0⟩] S5000x16.size (by rfl) y

set_option maxHeartbeats 4000000 in
/-- The kernel body on whole staging memrefs, the inputs' at read contents `xW` and the result's at anything, runs to
    the continuation holding the inputs' as they were and the result's at `out2_9` of the inputs'. -/
theorem sound_kernel2 (c : Dev nD) (E : Set ℕ) (i : grid2.Coords) (arg0 : Memref sig .tc .vmem S4x5000x64 .f32) (harg0 : arg0.IsWhole) (arg1 : Memref sig .tc .vmem S4x64x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S64x16 .f32) (harg7 : arg7.IsWhole) (arg8 : Memref sig .tc .vmem S1x16 .f32) (harg8 : arg8.IsWhole) (arg9 : Memref sig .tc .vmem S5000x16 .f32) (harg9 : arg9.IsWhole)
    (x0 : Vec F S4x5000x64 .f32) (x1 : Vec F S4x64x64 .f32) (x2 : Vec F S1x64 .f32) (x3 : Vec F S1x64 .f32) (x4 : Vec F S1x64 .f32) (x5 : Vec F S1x64 .f32) (x6 : Vec F S1x64 .f32) (x7 : Vec F S64x16 .f32) (x8 : Vec F S1x16 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (out2_9 x0 x1 x2 x3 x4 x5 x6 x7 x8)) -∗ K ⟨⟩))
      ⊢ wp frame (wpE (defs₀ (F := F)) Variants.none c none) E (cc2__cheb_final_kernel i arg0 harg0 arg1 harg1 arg2 harg2 arg3 harg3 arg4 harg4 arg5 harg5 arg6 harg6 arg7 harg7 arg8 harg8 arg9 harg9) K := by
  simp only [cc2__cheb_final_kernel_eq_skeleton]; unfold cc2__cheb_final_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover2_9 _)

/-- The proof data of pipeline 2 on core `c`: the arrays as the region finds them; after the body at point `t` each
    input's buffer at its block and the result's at `out2_9` of the input blocks; the invariant the scoped rest and the
    generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => out2_9 (iblk2 V c 0 t) (iblk2 V c 1 t) (iblk2 V c 2 t) (iblk2 V c 3 t) (iblk2 V c 4 t) (iblk2 V c 5 t) (iblk2 V c 6 t) (iblk2 V c 7 t) (iblk2 V c 8 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = out2_9 (iblk2 V c 0 t) (iblk2 V c 1 t) (iblk2 V c 2 t) (iblk2 V c 3 t) (iblk2 V c 4 t) (iblk2 V c 5 t) (iblk2 V c 6 t) (iblk2 V c 7 t) (iblk2 V c 8 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t))

/-- The body at any point: the inputs' memrefs hold their blocks, so `sound_kernel2` applies; the invariant and the core's
    dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel2 c Set.univ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem body_obligation2 (c : Dev nD) : BodyObligation (dat2 (F := F) V c) (defs₀ (F := F)) Variants.none () Set.univ := fun t => by
  rw [bigSep_W2, bigSep_W2]
  exact sound_body2 V c t

end Regions

end Cert.KernelIdeal.Layers

end
-- ==== Proof.IdealRun.lean ====
/-
  The launch of the three-layer program as a list of segments: a host segment per stretch of host operations from the
  valuation its boundary is held at, a region per kernel. The valuations are a fold through @main: the launch memory,
  then each stretch applied, and at a region its arrays replaced by what the pipeline's write-backs leave. No item writes
  an argument array: a stretch writes only the buffers of its own results, a region only its result window's array.
-/
import proofs.«127831_j29308856828499_2_alg».proof.Proof.IdealBodies

set_option maxRecDepth 16384

noncomputable section

namespace Cert.KernelIdeal.Layers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each stretch of host operations writes, and that none allocates -/

set_option maxHeartbeats 4000000 in
theorem hostOps0_fresh : (hostOps0 : List (HloOp τ sig (Elt F))).Forall fun op => op.fresh = ∅ := by
  simp only [List.Forall]; repeat' constructor
/-- The buffers `hostOps0`'s operations write: each operation's own result. -/
abbrev hostOps0_W : List (Ref sig .tc) := [main_v0, main_v1, main_v2, main_v3, main_cst, main_v4, main_cst_0, main_v5, main_v6, main_v7, main_cst_1, main_v8, main_v9, main_cst_2, main_v10, main_v11, main_v12, main_cst_3]
set_option maxHeartbeats 4000000 in
theorem hostOps0_writes : (hostOps0 : List (HloOp τ sig (Elt F))).Forall fun op => op.writes ⊆ (hostOps0_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

set_option maxHeartbeats 4000000 in
theorem hostOps0_1_fresh : (hostOps0_1 : List (HloOp τ sig (Elt F))).Forall fun op => op.fresh = ∅ := by
  simp only [List.Forall]; repeat' constructor
/-- The buffers `hostOps0_1`'s operations write: each operation's own result. -/
abbrev hostOps0_1_W : List (Ref sig .tc) := [main_call0_v0, main_call0_v1, main_v13]
set_option maxHeartbeats 4000000 in
theorem hostOps0_1_writes : (hostOps0_1 : List (HloOp τ sig (Elt F))).Forall fun op => op.writes ⊆ (hostOps0_1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

set_option maxHeartbeats 4000000 in
theorem hostOps0_2_fresh : (hostOps0_2 : List (HloOp τ sig (Elt F))).Forall fun op => op.fresh = ∅ := by
  simp only [List.Forall]; repeat' constructor
/-- The buffers `hostOps0_2`'s operations write: each operation's own result. -/
abbrev hostOps0_2_W : List (Ref sig .tc) := [main_c, main_v14, main_v15, main_c_4, main_v16, main_v17, main_v18, main_v19, main_v20, main_v21, main_c_5, main_v22, main_v23, main_c_6, main_v24, main_v25, main_v26, main_v27, main_v28, main_v29, main_v30, main_c_7, main_v31, main_v32, main_c_8, main_v33, main_v34, main_v35, main_v36, main_v37, main_v38, main_v39, main_cst_9, main_v40, main_v41, main_v42, main_v43, main_c_10, main_v44, main_v45, main_c_11, main_v46, main_v47, main_v48, main_v49, main_v50, main_v51, main_v52, main_cst_12, main_v53, main_v54, main_v55, main_cst_13, main_v56, main_v57, main_v58, main_v59, main_c_14, main_v60, main_v61, main_c_15, main_v62, main_v63, main_v64, main_v65, main_v66, main_v67, main_v68, main_cst_16, main_v69, main_v70, main_v71, main_cst_17, main_v72, main_v73, main_v74, main_v75, main_v76, main_v77, main_v78, main_v79, main_v80, main_v81, main_v82, main_v83, main_v84]
set_option maxHeartbeats 4000000 in
theorem hostOps0_2_writes : (hostOps0_2 : List (HloOp τ sig (Elt F))).Forall fun op => op.writes ⊆ (hostOps0_2_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

set_option maxHeartbeats 4000000 in
theorem hostOps1_fresh : (hostOps1 : List (HloOp τ sig (Elt F))).Forall fun op => op.fresh = ∅ := by
  simp only [List.Forall]; repeat' constructor
/-- The buffers `hostOps1`'s operations write: each operation's own result. -/
abbrev hostOps1_W : List (Ref sig .tc) := [main_v86, main_c_18, main_v87, main_v88, main_c_19, main_v89, main_v90, main_v91, main_v92, main_v93, main_v94, main_v95, main_cst_20, main_v96, main_v97, main_v98, main_v99, main_c_21, main_v100, main_v101, main_c_22, main_v102, main_v103, main_v104, main_v105, main_v106, main_v107, main_v108, main_cst_23, main_v109, main_v110, main_v111, main_cst_24, main_v112, main_v113, main_v114, main_v115, main_c_25, main_v116, main_v117, main_c_26, main_v118, main_v119, main_v120, main_v121, main_v122, main_v123, main_v124, main_cst_27, main_v125, main_v126, main_v127, main_cst_28, main_v128, main_v129, main_v130, main_v131, main_v132, main_v133, main_v134, main_v135, main_v136, main_v137, main_v138, main_v139, main_v140]
set_option maxHeartbeats 4000000 in
theorem hostOps1_writes : (hostOps1 : List (HloOp τ sig (Elt F))).Forall fun op => op.writes ⊆ (hostOps1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

set_option maxHeartbeats 4000000 in
theorem hostOps2_fresh : (hostOps2 : List (HloOp τ sig (Elt F))).Forall fun op => op.fresh = ∅ := by
  simp only [List.Forall]; repeat' constructor
/-- The buffers `hostOps2`'s operations write: each operation's own result. -/
abbrev hostOps2_W : List (Ref sig .tc) := [main_v142, main_c_29, main_v143, main_v144, main_c_30, main_v145, main_v146, main_v147, main_v148, main_v149, main_v150, main_v151, main_cst_31, main_v152, main_v153, main_v154, main_v155, main_c_32, main_v156, main_v157, main_c_33, main_v158, main_v159, main_v160, main_v161, main_v162, main_v163, main_v164, main_cst_34, main_v165, main_v166, main_v167, main_cst_35, main_v168, main_v169, main_v170, main_v171, main_c_36, main_v172, main_v173, main_c_37, main_v174, main_v175, main_v176, main_v177, main_v178, main_v179, main_v180, main_cst_38, main_v181, main_v182, main_v183, main_cst_39, main_v184, main_v185, main_v186, main_v187, main_v188, main_v189, main_v190, main_v191, main_v192, main_v193, main_v194, main_v195, main_v196, main_v197]
set_option maxHeartbeats 4000000 in
theorem hostOps2_writes : (hostOps2 : List (HloOp τ sig (Elt F))).Forall fun op => op.writes ⊆ (hostOps2_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-! ## The buffer contents at each segment boundary -/

/-- Core `c`'s buffers at launch. -/
abbrev W0 : Dev nD → Valuation τ sig (Elt F) := fun c b => (s₀ m ρ).mem ((c : Dev nD), b)
abbrev Wa : Dev nD → Valuation τ sig (Elt F) := fun c => StableHlo.after hostOps0 (W0 m ρ c)
abbrev Wb : Dev nD → Valuation τ sig (Elt F) := fun c => StableHlo.after hostOps0_1 (Wa m ρ c)
/-- At the first kernel's entry. -/
abbrev W1 : Dev nD → Valuation τ sig (Elt F) := fun c => StableHlo.after hostOps0_2 (Wb m ρ c)
abbrev V1 : (c : Dev nD) → (b : Ref sig .tc) → Buf (Elt F) ((c : Thread nD τ).loc b) := fun c b => W1 m ρ c b
/-- At kernel 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- At kernel 1's entry. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At kernel 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- At kernel 2's entry. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At kernel 2's exit: its arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-! ## The arguments end as launched -/

theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c main_arg0 (by decide)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = Wb m ρ c (Proc.devRef .tc main_arg0) := StableHlo.after_of_writes_sub hostOps0_2 _ hostOps0_2_writes (by decide)
    _ = Wa m ρ c (Proc.devRef .tc main_arg0) := StableHlo.after_of_writes_sub hostOps0_1 _ hostOps0_1_writes (by decide)
    _ = W0 m ρ c (Proc.devRef .tc main_arg0) := StableHlo.after_of_writes_sub hostOps0 _ hostOps0_writes (by decide)
    _ = m ((c : Thread nD τ).loc main_arg0) := rfl
theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = Wb m ρ c (Proc.devRef .tc main_arg1) := StableHlo.after_of_writes_sub hostOps0_2 _ hostOps0_2_writes (by decide)
    _ = Wa m ρ c (Proc.devRef .tc main_arg1) := StableHlo.after_of_writes_sub hostOps0_1 _ hostOps0_1_writes (by decide)
    _ = W0 m ρ c (Proc.devRef .tc main_arg1) := StableHlo.after_of_writes_sub hostOps0 _ hostOps0_writes (by decide)
    _ = m ((c : Thread nD τ).loc main_arg1) := rfl
theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := (W2_arr m ρ c 1).trans (((dat0 (V1 m ρ) c).arrAt_in 1 rfl _).trans (A_eq0 (V1 m ρ) c 1))
    _ = Wb m ρ c (Proc.devRef .tc main_arg2) := StableHlo.after_of_writes_sub hostOps0_2 _ hostOps0_2_writes (by decide)
    _ = Wa m ρ c (Proc.devRef .tc main_arg2) := StableHlo.after_of_writes_sub hostOps0_1 _ hostOps0_1_writes (by decide)
    _ = W0 m ρ c (Proc.devRef .tc main_arg2) := StableHlo.after_of_writes_sub hostOps0 _ hostOps0_writes (by decide)
    _ = m ((c : Thread nD τ).loc main_arg2) := rfl
theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := StableHlo.after_of_writes_sub hostOps2 _ hostOps2_writes (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = Wb m ρ c (Proc.devRef .tc main_arg3) := StableHlo.after_of_writes_sub hostOps0_2 _ hostOps0_2_writes (by decide)
    _ = Wa m ρ c (Proc.devRef .tc main_arg3) := StableHlo.after_of_writes_sub hostOps0_1 _ hostOps0_1_writes (by decide)
    _ = W0 m ρ c (Proc.devRef .tc main_arg3) := StableHlo.after_of_writes_sub hostOps0 _ hostOps0_writes (by decide)
    _ = m ((c : Thread nD τ).loc main_arg3) := rfl
theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := StableHlo.after_of_writes_sub hostOps2 _ hostOps2_writes (by decide)
    _ = W3 m ρ c (Proc.devRef .tc main_arg4) := (W4_arr m ρ c 1).trans (((dat1 (V3 m ρ) c).arrAt_in 1 rfl _).trans (A_eq1 (V3 m ρ) c 1))
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = Wb m ρ c (Proc.devRef .tc main_arg4) := StableHlo.after_of_writes_sub hostOps0_2 _ hostOps0_2_writes (by decide)
    _ = Wa m ρ c (Proc.devRef .tc main_arg4) := StableHlo.after_of_writes_sub hostOps0_1 _ hostOps0_1_writes (by decide)
    _ = W0 m ρ c (Proc.devRef .tc main_arg4) := StableHlo.after_of_writes_sub hostOps0 _ hostOps0_writes (by decide)
    _ = m ((c : Thread nD τ).loc main_arg4) := rfl
theorem W6_main_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := StableHlo.after_of_writes_sub hostOps2 _ hostOps2_writes (by decide)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = Wb m ρ c (Proc.devRef .tc main_arg5) := StableHlo.after_of_writes_sub hostOps0_2 _ hostOps0_2_writes (by decide)
    _ = Wa m ρ c (Proc.devRef .tc main_arg5) := StableHlo.after_of_writes_sub hostOps0_1 _ hostOps0_1_writes (by decide)
    _ = W0 m ρ c (Proc.devRef .tc main_arg5) := StableHlo.after_of_writes_sub hostOps0 _ hostOps0_writes (by decide)
    _ = m ((c : Thread nD τ).loc main_arg5) := rfl
theorem W6_main_arg6 (c : Dev nD) : W6 m ρ c (Proc.devRef .tc main_arg6) = m ((c : Thread nD τ).loc main_arg6) :=
  calc W6 m ρ c (Proc.devRef .tc main_arg6)
    _ = W5 m ρ c (Proc.devRef .tc main_arg6) := (W6_arr m ρ c 1).trans (((dat2 (V5 m ρ) c).arrAt_in 1 rfl _).trans (A_eq2 (V5 m ρ) c 1))
    _ = W4 m ρ c (Proc.devRef .tc main_arg6) := StableHlo.after_of_writes_sub hostOps2 _ hostOps2_writes (by decide)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = Wb m ρ c (Proc.devRef .tc main_arg6) := StableHlo.after_of_writes_sub hostOps0_2 _ hostOps0_2_writes (by decide)
    _ = Wa m ρ c (Proc.devRef .tc main_arg6) := StableHlo.after_of_writes_sub hostOps0_1 _ hostOps0_1_writes (by decide)
    _ = W0 m ρ c (Proc.devRef .tc main_arg6) := StableHlo.after_of_writes_sub hostOps0 _ hostOps0_writes (by decide)
    _ = m ((c : Thread nD τ).loc main_arg6) := rfl
theorem W6_main_arg7 (c : Dev nD) : W6 m ρ c (Proc.devRef .tc main_arg7) = m ((c : Thread nD τ).loc main_arg7) :=
  calc W6 m ρ c (Proc.devRef .tc main_arg7)
    _ = W5 m ρ c (Proc.devRef .tc main_arg7) := W6_of_ne m ρ c main_arg7 (by decide)
    _ = W4 m ρ c (Proc.devRef .tc main_arg7) := StableHlo.after_of_writes_sub hostOps2 _ hostOps2_writes (by decide)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = Wb m ρ c (Proc.devRef .tc main_arg7) := StableHlo.after_of_writes_sub hostOps0_2 _ hostOps0_2_writes (by decide)
    _ = Wa m ρ c (Proc.devRef .tc main_arg7) := StableHlo.after_of_writes_sub hostOps0_1 _ hostOps0_1_writes (by decide)
    _ = W0 m ρ c (Proc.devRef .tc main_arg7) := StableHlo.after_of_writes_sub hostOps0 _ hostOps0_writes (by decide)
    _ = m ((c : Thread nD τ).loc main_arg7) := rfl
theorem W6_main_arg8 (c : Dev nD) : W6 m ρ c (Proc.devRef .tc main_arg8) = m ((c : Thread nD τ).loc main_arg8) :=
  calc W6 m ρ c (Proc.devRef .tc main_arg8)
    _ = W5 m ρ c (Proc.devRef .tc main_arg8) := W6_of_ne m ρ c main_arg8 (by decide)
    _ = W4 m ρ c (Proc.devRef .tc main_arg8) := StableHlo.after_of_writes_sub hostOps2 _ hostOps2_writes (by decide)
    _ = W3 m ρ c (Proc.devRef .tc main_arg8) := W4_of_ne m ρ c main_arg8 (by decide)
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = Wb m ρ c (Proc.devRef .tc main_arg8) := StableHlo.after_of_writes_sub hostOps0_2 _ hostOps0_2_writes (by decide)
    _ = Wa m ρ c (Proc.devRef .tc main_arg8) := StableHlo.after_of_writes_sub hostOps0_1 _ hostOps0_1_writes (by decide)
    _ = W0 m ρ c (Proc.devRef .tc main_arg8) := StableHlo.after_of_writes_sub hostOps0 _ hostOps0_writes (by decide)
    _ = m ((c : Thread nD τ).loc main_arg8) := rfl
theorem W6_main_arg9 (c : Dev nD) : W6 m ρ c (Proc.devRef .tc main_arg9) = m ((c : Thread nD τ).loc main_arg9) :=
  calc W6 m ρ c (Proc.devRef .tc main_arg9)
    _ = W5 m ρ c (Proc.devRef .tc main_arg9) := W6_of_ne m ρ c main_arg9 (by decide)
    _ = W4 m ρ c (Proc.devRef .tc main_arg9) := StableHlo.after_of_writes_sub hostOps2 _ hostOps2_writes (by decide)
    _ = W3 m ρ c (Proc.devRef .tc main_arg9) := W4_of_ne m ρ c main_arg9 (by decide)
    _ = W2 m ρ c (Proc.devRef .tc main_arg9) := StableHlo.after_of_writes_sub hostOps1 _ hostOps1_writes (by decide)
    _ = W1 m ρ c (Proc.devRef .tc main_arg9) := W2_of_ne m ρ c main_arg9 (by decide)
    _ = Wb m ρ c (Proc.devRef .tc main_arg9) := StableHlo.after_of_writes_sub hostOps0_2 _ hostOps0_2_writes (by decide)
    _ = Wa m ρ c (Proc.devRef .tc main_arg9) := StableHlo.after_of_writes_sub hostOps0_1 _ hostOps0_1_writes (by decide)
    _ = W0 m ρ c (Proc.devRef .tc main_arg9) := StableHlo.after_of_writes_sub hostOps0 _ hostOps0_writes (by decide)
    _ = m ((c : Thread nD τ).loc main_arg9) := rfl
theorem W6_main_arg10 (c : Dev nD) : W6 m ρ c (Proc.devRef .tc main_arg10) = m ((c : Thread nD τ).loc main_arg10) :=
  calc W6 m ρ c (Proc.devRef .tc main_arg10)
    _ = W5 m ρ c (Proc.devRef .tc main_arg10) := W6_of_ne m ρ c main_arg10 (by decide)
    _ = W4 m ρ c (Proc.devRef .tc main_arg10) := StableHlo.after_of_writes_sub hostOps2 _ hostOps2_writes (by decide)
    _ = W3 m ρ c (Proc.devRef .tc main_arg10) := W4_of_ne m ρ c main_arg10 (by decide)
    _ = W2 m ρ c (Proc.devRef .tc main_arg10) := StableHlo.after_of_writes_sub hostOps1 _ hostOps1_writes (by decide)
    _ = W1 m ρ c (Proc.devRef .tc main_arg10) := W2_of_ne m ρ c main_arg10 (by decide)
    _ = Wb m ρ c (Proc.devRef .tc main_arg10) := StableHlo.after_of_writes_sub hostOps0_2 _ hostOps0_2_writes (by decide)
    _ = Wa m ρ c (Proc.devRef .tc main_arg10) := StableHlo.after_of_writes_sub hostOps0_1 _ hostOps0_1_writes (by decide)
    _ = W0 m ρ c (Proc.devRef .tc main_arg10) := StableHlo.after_of_writes_sub hostOps0 _ hostOps0_writes (by decide)
    _ = m ((c : Thread nD τ).loc main_arg10) := rfl
theorem W6_main_arg11 (c : Dev nD) : W6 m ρ c (Proc.devRef .tc main_arg11) = m ((c : Thread nD τ).loc main_arg11) :=
  calc W6 m ρ c (Proc.devRef .tc main_arg11)
    _ = W5 m ρ c (Proc.devRef .tc main_arg11) := W6_of_ne m ρ c main_arg11 (by decide)
    _ = W4 m ρ c (Proc.devRef .tc main_arg11) := StableHlo.after_of_writes_sub hostOps2 _ hostOps2_writes (by decide)
    _ = W3 m ρ c (Proc.devRef .tc main_arg11) := W4_of_ne m ρ c main_arg11 (by decide)
    _ = W2 m ρ c (Proc.devRef .tc main_arg11) := StableHlo.after_of_writes_sub hostOps1 _ hostOps1_writes (by decide)
    _ = W1 m ρ c (Proc.devRef .tc main_arg11) := W2_of_ne m ρ c main_arg11 (by decide)
    _ = Wb m ρ c (Proc.devRef .tc main_arg11) := StableHlo.after_of_writes_sub hostOps0_2 _ hostOps0_2_writes (by decide)
    _ = Wa m ρ c (Proc.devRef .tc main_arg11) := StableHlo.after_of_writes_sub hostOps0_1 _ hostOps0_1_writes (by decide)
    _ = W0 m ρ c (Proc.devRef .tc main_arg11) := StableHlo.after_of_writes_sub hostOps0 _ hostOps0_writes (by decide)
    _ = m ((c : Thread nD τ).loc main_arg11) := rfl
theorem W6_main_arg12 (c : Dev nD) : W6 m ρ c (Proc.devRef .tc main_arg12) = m ((c : Thread nD τ).loc main_arg12) :=
  calc W6 m ρ c (Proc.devRef .tc main_arg12)
    _ = W5 m ρ c (Proc.devRef .tc main_arg12) := W6_of_ne m ρ c main_arg12 (by decide)
    _ = W4 m ρ c (Proc.devRef .tc main_arg12) := StableHlo.after_of_writes_sub hostOps2 _ hostOps2_writes (by decide)
    _ = W3 m ρ c (Proc.devRef .tc main_arg12) := W4_of_ne m ρ c main_arg12 (by decide)
    _ = W2 m ρ c (Proc.devRef .tc main_arg12) := StableHlo.after_of_writes_sub hostOps1 _ hostOps1_writes (by decide)
    _ = W1 m ρ c (Proc.devRef .tc main_arg12) := W2_of_ne m ρ c main_arg12 (by decide)
    _ = Wb m ρ c (Proc.devRef .tc main_arg12) := StableHlo.after_of_writes_sub hostOps0_2 _ hostOps0_2_writes (by decide)
    _ = Wa m ρ c (Proc.devRef .tc main_arg12) := StableHlo.after_of_writes_sub hostOps0_1 _ hostOps0_1_writes (by decide)
    _ = W0 m ρ c (Proc.devRef .tc main_arg12) := StableHlo.after_of_writes_sub hostOps0 _ hostOps0_writes (by decide)
    _ = m ((c : Thread nD τ).loc main_arg12) := rfl
theorem W6_main_arg13 (c : Dev nD) : W6 m ρ c (Proc.devRef .tc main_arg13) = m ((c : Thread nD τ).loc main_arg13) :=
  calc W6 m ρ c (Proc.devRef .tc main_arg13)
    _ = W5 m ρ c (Proc.devRef .tc main_arg13) := W6_of_ne m ρ c main_arg13 (by decide)
    _ = W4 m ρ c (Proc.devRef .tc main_arg13) := StableHlo.after_of_writes_sub hostOps2 _ hostOps2_writes (by decide)
    _ = W3 m ρ c (Proc.devRef .tc main_arg13) := W4_of_ne m ρ c main_arg13 (by decide)
    _ = W2 m ρ c (Proc.devRef .tc main_arg13) := StableHlo.after_of_writes_sub hostOps1 _ hostOps1_writes (by decide)
    _ = W1 m ρ c (Proc.devRef .tc main_arg13) := W2_of_ne m ρ c main_arg13 (by decide)
    _ = Wb m ρ c (Proc.devRef .tc main_arg13) := StableHlo.after_of_writes_sub hostOps0_2 _ hostOps0_2_writes (by decide)
    _ = Wa m ρ c (Proc.devRef .tc main_arg13) := StableHlo.after_of_writes_sub hostOps0_1 _ hostOps0_1_writes (by decide)
    _ = W0 m ρ c (Proc.devRef .tc main_arg13) := StableHlo.after_of_writes_sub hostOps0 _ hostOps0_writes (by decide)
    _ = m ((c : Thread nD τ).loc main_arg13) := rfl
theorem W6_main_arg14 (c : Dev nD) : W6 m ρ c (Proc.devRef .tc main_arg14) = m ((c : Thread nD τ).loc main_arg14) :=
  calc W6 m ρ c (Proc.devRef .tc main_arg14)
    _ = W5 m ρ c (Proc.devRef .tc main_arg14) := W6_of_ne m ρ c main_arg14 (by decide)
    _ = W4 m ρ c (Proc.devRef .tc main_arg14) := StableHlo.after_of_writes_sub hostOps2 _ hostOps2_writes (by decide)
    _ = W3 m ρ c (Proc.devRef .tc main_arg14) := W4_of_ne m ρ c main_arg14 (by decide)
    _ = W2 m ρ c (Proc.devRef .tc main_arg14) := StableHlo.after_of_writes_sub hostOps1 _ hostOps1_writes (by decide)
    _ = W1 m ρ c (Proc.devRef .tc main_arg14) := W2_of_ne m ρ c main_arg14 (by decide)
    _ = Wb m ρ c (Proc.devRef .tc main_arg14) := StableHlo.after_of_writes_sub hostOps0_2 _ hostOps0_2_writes (by decide)
    _ = Wa m ρ c (Proc.devRef .tc main_arg14) := StableHlo.after_of_writes_sub hostOps0_1 _ hostOps0_1_writes (by decide)
    _ = W0 m ρ c (Proc.devRef .tc main_arg14) := StableHlo.after_of_writes_sub hostOps0 _ hostOps0_writes (by decide)
    _ = m ((c : Thread nD τ).loc main_arg14) := rfl
theorem W6_main_arg15 (c : Dev nD) : W6 m ρ c (Proc.devRef .tc main_arg15) = m ((c : Thread nD τ).loc main_arg15) :=
  calc W6 m ρ c (Proc.devRef .tc main_arg15)
    _ = W5 m ρ c (Proc.devRef .tc main_arg15) := W6_of_ne m ρ c main_arg15 (by decide)
    _ = W4 m ρ c (Proc.devRef .tc main_arg15) := StableHlo.after_of_writes_sub hostOps2 _ hostOps2_writes (by decide)
    _ = W3 m ρ c (Proc.devRef .tc main_arg15) := W4_of_ne m ρ c main_arg15 (by decide)
    _ = W2 m ρ c (Proc.devRef .tc main_arg15) := StableHlo.after_of_writes_sub hostOps1 _ hostOps1_writes (by decide)
    _ = W1 m ρ c (Proc.devRef .tc main_arg15) := W2_of_ne m ρ c main_arg15 (by decide)
    _ = Wb m ρ c (Proc.devRef .tc main_arg15) := StableHlo.after_of_writes_sub hostOps0_2 _ hostOps0_2_writes (by decide)
    _ = Wa m ρ c (Proc.devRef .tc main_arg15) := StableHlo.after_of_writes_sub hostOps0_1 _ hostOps0_1_writes (by decide)
    _ = W0 m ρ c (Proc.devRef .tc main_arg15) := StableHlo.after_of_writes_sub hostOps0 _ hostOps0_writes (by decide)
    _ = m ((c : Thread nD τ).loc main_arg15) := rfl
theorem W6_main_arg16 (c : Dev nD) : W6 m ρ c (Proc.devRef .tc main_arg16) = m ((c : Thread nD τ).loc main_arg16) :=
  calc W6 m ρ c (Proc.devRef .tc main_arg16)
    _ = W5 m ρ c (Proc.devRef .tc main_arg16) := W6_of_ne m ρ c main_arg16 (by decide)
    _ = W4 m ρ c (Proc.devRef .tc main_arg16) := StableHlo.after_of_writes_sub hostOps2 _ hostOps2_writes (by decide)
    _ = W3 m ρ c (Proc.devRef .tc main_arg16) := W4_of_ne m ρ c main_arg16 (by decide)
    _ = W2 m ρ c (Proc.devRef .tc main_arg16) := StableHlo.after_of_writes_sub hostOps1 _ hostOps1_writes (by decide)
    _ = W1 m ρ c (Proc.devRef .tc main_arg16) := W2_of_ne m ρ c main_arg16 (by decide)
    _ = Wb m ρ c (Proc.devRef .tc main_arg16) := StableHlo.after_of_writes_sub hostOps0_2 _ hostOps0_2_writes (by decide)
    _ = Wa m ρ c (Proc.devRef .tc main_arg16) := StableHlo.after_of_writes_sub hostOps0_1 _ hostOps0_1_writes (by decide)
    _ = W0 m ρ c (Proc.devRef .tc main_arg16) := StableHlo.after_of_writes_sub hostOps0 _ hostOps0_writes (by decide)
    _ = m ((c : Thread nD τ).loc main_arg16) := rfl
theorem W6_main_arg17 (c : Dev nD) : W6 m ρ c (Proc.devRef .tc main_arg17) = m ((c : Thread nD τ).loc main_arg17) :=
  calc W6 m ρ c (Proc.devRef .tc main_arg17)
    _ = W5 m ρ c (Proc.devRef .tc main_arg17) := W6_of_ne m ρ c main_arg17 (by decide)
    _ = W4 m ρ c (Proc.devRef .tc main_arg17) := StableHlo.after_of_writes_sub hostOps2 _ hostOps2_writes (by decide)
    _ = W3 m ρ c (Proc.devRef .tc main_arg17) := W4_of_ne m ρ c main_arg17 (by decide)
    _ = W2 m ρ c (Proc.devRef .tc main_arg17) := StableHlo.after_of_writes_sub hostOps1 _ hostOps1_writes (by decide)
    _ = W1 m ρ c (Proc.devRef .tc main_arg17) := W2_of_ne m ρ c main_arg17 (by decide)
    _ = Wb m ρ c (Proc.devRef .tc main_arg17) := StableHlo.after_of_writes_sub hostOps0_2 _ hostOps0_2_writes (by decide)
    _ = Wa m ρ c (Proc.devRef .tc main_arg17) := StableHlo.after_of_writes_sub hostOps0_1 _ hostOps0_1_writes (by decide)
    _ = W0 m ρ c (Proc.devRef .tc main_arg17) := StableHlo.after_of_writes_sub hostOps0 _ hostOps0_writes (by decide)
    _ = m ((c : Thread nD τ).loc main_arg17) := rfl
theorem W6_main_arg18 (c : Dev nD) : W6 m ρ c (Proc.devRef .tc main_arg18) = m ((c : Thread nD τ).loc main_arg18) :=
  calc W6 m ρ c (Proc.devRef .tc main_arg18)
    _ = W5 m ρ c (Proc.devRef .tc main_arg18) := W6_of_ne m ρ c main_arg18 (by decide)
    _ = W4 m ρ c (Proc.devRef .tc main_arg18) := StableHlo.after_of_writes_sub hostOps2 _ hostOps2_writes (by decide)
    _ = W3 m ρ c (Proc.devRef .tc main_arg18) := W4_of_ne m ρ c main_arg18 (by decide)
    _ = W2 m ρ c (Proc.devRef .tc main_arg18) := StableHlo.after_of_writes_sub hostOps1 _ hostOps1_writes (by decide)
    _ = W1 m ρ c (Proc.devRef .tc main_arg18) := W2_of_ne m ρ c main_arg18 (by decide)
    _ = Wb m ρ c (Proc.devRef .tc main_arg18) := StableHlo.after_of_writes_sub hostOps0_2 _ hostOps0_2_writes (by decide)
    _ = Wa m ρ c (Proc.devRef .tc main_arg18) := StableHlo.after_of_writes_sub hostOps0_1 _ hostOps0_1_writes (by decide)
    _ = W0 m ρ c (Proc.devRef .tc main_arg18) := StableHlo.after_of_writes_sub hostOps0 _ hostOps0_writes (by decide)
    _ = m ((c : Thread nD τ).loc main_arg18) := rfl
theorem W6_main_arg19 (c : Dev nD) : W6 m ρ c (Proc.devRef .tc main_arg19) = m ((c : Thread nD τ).loc main_arg19) :=
  calc W6 m ρ c (Proc.devRef .tc main_arg19)
    _ = W5 m ρ c (Proc.devRef .tc main_arg19) := W6_of_ne m ρ c main_arg19 (by decide)
    _ = W4 m ρ c (Proc.devRef .tc main_arg19) := StableHlo.after_of_writes_sub hostOps2 _ hostOps2_writes (by decide)
    _ = W3 m ρ c (Proc.devRef .tc main_arg19) := W4_of_ne m ρ c main_arg19 (by decide)
    _ = W2 m ρ c (Proc.devRef .tc main_arg19) := StableHlo.after_of_writes_sub hostOps1 _ hostOps1_writes (by decide)
    _ = W1 m ρ c (Proc.devRef .tc main_arg19) := W2_of_ne m ρ c main_arg19 (by decide)
    _ = Wb m ρ c (Proc.devRef .tc main_arg19) := StableHlo.after_of_writes_sub hostOps0_2 _ hostOps0_2_writes (by decide)
    _ = Wa m ρ c (Proc.devRef .tc main_arg19) := StableHlo.after_of_writes_sub hostOps0_1 _ hostOps0_1_writes (by decide)
    _ = W0 m ρ c (Proc.devRef .tc main_arg19) := StableHlo.after_of_writes_sub hostOps0 _ hostOps0_writes (by decide)
    _ = m ((c : Thread nD τ).loc main_arg19) := rfl
theorem W6_main_arg20 (c : Dev nD) : W6 m ρ c (Proc.devRef .tc main_arg20) = m ((c : Thread nD τ).loc main_arg20) :=
  calc W6 m ρ c (Proc.devRef .tc main_arg20)
    _ = W5 m ρ c (Proc.devRef .tc main_arg20) := (W6_arr m ρ c 7).trans (((dat2 (V5 m ρ) c).arrAt_in 7 rfl _).trans (A_eq2 (V5 m ρ) c 7))
    _ = W4 m ρ c (Proc.devRef .tc main_arg20) := StableHlo.after_of_writes_sub hostOps2 _ hostOps2_writes (by decide)
    _ = W3 m ρ c (Proc.devRef .tc main_arg20) := W4_of_ne m ρ c main_arg20 (by decide)
    _ = W2 m ρ c (Proc.devRef .tc main_arg20) := StableHlo.after_of_writes_sub hostOps1 _ hostOps1_writes (by decide)
    _ = W1 m ρ c (Proc.devRef .tc main_arg20) := W2_of_ne m ρ c main_arg20 (by decide)
    _ = Wb m ρ c (Proc.devRef .tc main_arg20) := StableHlo.after_of_writes_sub hostOps0_2 _ hostOps0_2_writes (by decide)
    _ = Wa m ρ c (Proc.devRef .tc main_arg20) := StableHlo.after_of_writes_sub hostOps0_1 _ hostOps0_1_writes (by decide)
    _ = W0 m ρ c (Proc.devRef .tc main_arg20) := StableHlo.after_of_writes_sub hostOps0 _ hostOps0_writes (by decide)
    _ = m ((c : Thread nD τ).loc main_arg20) := rfl
theorem W6_main_arg21 (c : Dev nD) : W6 m ρ c (Proc.devRef .tc main_arg21) = m ((c : Thread nD τ).loc main_arg21) :=
  calc W6 m ρ c (Proc.devRef .tc main_arg21)
    _ = W5 m ρ c (Proc.devRef .tc main_arg21) := W6_of_ne m ρ c main_arg21 (by decide)
    _ = W4 m ρ c (Proc.devRef .tc main_arg21) := StableHlo.after_of_writes_sub hostOps2 _ hostOps2_writes (by decide)
    _ = W3 m ρ c (Proc.devRef .tc main_arg21) := W4_of_ne m ρ c main_arg21 (by decide)
    _ = W2 m ρ c (Proc.devRef .tc main_arg21) := StableHlo.after_of_writes_sub hostOps1 _ hostOps1_writes (by decide)
    _ = W1 m ρ c (Proc.devRef .tc main_arg21) := W2_of_ne m ρ c main_arg21 (by decide)
    _ = Wb m ρ c (Proc.devRef .tc main_arg21) := StableHlo.after_of_writes_sub hostOps0_2 _ hostOps0_2_writes (by decide)
    _ = Wa m ρ c (Proc.devRef .tc main_arg21) := StableHlo.after_of_writes_sub hostOps0_1 _ hostOps0_1_writes (by decide)
    _ = W0 m ρ c (Proc.devRef .tc main_arg21) := StableHlo.after_of_writes_sub hostOps0 _ hostOps0_writes (by decide)
    _ = m ((c : Thread nD τ).loc main_arg21) := rfl

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core's dues, at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- Kernel 0 over the thread state: entered from every unscoped buffer at `W1`, left at `W2`. Its arrays are split
    out of the unscoped buffers and put back at the exit contents; the generator register goes into the invariant and
    comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel 1 over the thread state: entered from every unscoped buffer at `W3`, left at `W4`. Its arrays are split
    out of the unscoped buffers and put back at the exit contents; the generator register goes into the invariant and
    comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel 2 over the thread state: entered from every unscoped buffer at `W5`, left at `W6`. Its arrays are split
    out of the unscoped buffers and put back at the exit contents; the generator register goes into the invariant and
    comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (Wa m ρ)),
    .host (hseg hostOps0_2 hostOps0_2_sub hostOps0_2_fresh (Wb m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]

set_option maxHeartbeats 4000000 in
/-- @main is the run of the segments. -/
theorem main_run (c : Dev nD) : main (F := F) c = Pipeline.Seg.run (segs m ρ) := by
  rw [main_chain c, Pipeline.Seg.run_eq_chain]; rfl

set_option backward.isDefEq.respectTransparency.types false in
set_option maxHeartbeats 4000000 in
/-- From any memory with zero counters every weakly fair execution of @main on the TensorCores terminates, nothing
    faulting, and every final state has every unscoped buffer at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W6 m ρ c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun s h c => ⟨(h c _ (mem_uc main_arg0 (by decide))).trans (W6_main_arg0 m ρ c),
      (h c _ (mem_uc main_arg1 (by decide))).trans (W6_main_arg1 m ρ c),
      (h c _ (mem_uc main_arg2 (by decide))).trans (W6_main_arg2 m ρ c),
      (h c _ (mem_uc main_arg3 (by decide))).trans (W6_main_arg3 m ρ c),
      (h c _ (mem_uc main_arg4 (by decide))).trans (W6_main_arg4 m ρ c),
      (h c _ (mem_uc main_arg5 (by decide))).trans (W6_main_arg5 m ρ c),
      (h c _ (mem_uc main_arg6 (by decide))).trans (W6_main_arg6 m ρ c),
      (h c _ (mem_uc main_arg7 (by decide))).trans (W6_main_arg7 m ρ c),
      (h c _ (mem_uc main_arg8 (by decide))).trans (W6_main_arg8 m ρ c),
      (h c _ (mem_uc main_arg9 (by decide))).trans (W6_main_arg9 m ρ c),
      (h c _ (mem_uc main_arg10 (by decide))).trans (W6_main_arg10 m ρ c),
      (h c _ (mem_uc main_arg11 (by decide))).trans (W6_main_arg11 m ρ c),
      (h c _ (mem_uc main_arg12 (by decide))).trans (W6_main_arg12 m ρ c),
      (h c _ (mem_uc main_arg13 (by decide))).trans (W6_main_arg13 m ρ c),
      (h c _ (mem_uc main_arg14 (by decide))).trans (W6_main_arg14 m ρ c),
      (h c _ (mem_uc main_arg15 (by decide))).trans (W6_main_arg15 m ρ c),
      (h c _ (mem_uc main_arg16 (by decide))).trans (W6_main_arg16 m ρ c),
      (h c _ (mem_uc main_arg17 (by decide))).trans (W6_main_arg17 m ρ c),
      (h c _ (mem_uc main_arg18 (by decide))).trans (W6_main_arg18 m ρ c),
      (h c _ (mem_uc main_arg19 (by decide))).trans (W6_main_arg19 m ρ c),
      (h c _ (mem_uc main_arg20 (by decide))).trans (W6_main_arg20 m ρ c),
      (h c _ (mem_uc main_arg21 (by decide))).trans (W6_main_arg21 m ρ c)⟩) (run_all m ρ)

end Cert.KernelIdeal.Layers

end
-- ==== Proof.LibAfterAppend.lean ====
/-
  Reading buffers back through two stretches of whole-array operations.

  `StableHlo.after ops V` is what every buffer of a device holds after the operations `ops`, run in order from the
  contents `V`. Running one stretch and then another is running them in a row: the contents after `l₁ ++ l₂` are the
  contents after `l₂`, started from the contents after `l₁`. This lets a long straight-line program be read back one
  stretch at a time, each over contents that are no further specified.
-/
import Idealize.ShloMosaic.Lib.StableHlo.Run

namespace AfterAppend

open Idealize.ShloMosaic Idealize.ShloMosaic.StableHlo

variable {τ : Topo} {sig : RefSig} {Val : EltTy → Type}

/-- The contents after two stretches in a row are the contents after the second, from those after the first. -/
theorem after_append : ∀ (l₁ l₂ : List (HloOp τ sig Val)) (V : Valuation τ sig Val),
    after (l₁ ++ l₂) V = after l₂ (after l₁ V)
  | [], _, _ => rfl
  | op :: l₁, l₂, V => by
    rw [List.cons_append, after_cons, after_cons]
    exact after_append l₁ l₂ _

end AfterAppend
-- ==== Proof.IdealCut.lean ====
/-
  The last stretch before the first kernel, cut in two: its first twenty operations end at the edge weights, the other
  sixty-six compute the input's four polynomials, stack them, and reshape the first layer's parameter vectors to rows.
  Running the stretch is running the two pieces in a row.
-/
import proofs.«127831_j29308856828499_2_alg».proof.Proof.IdealRun
import proofs.«127831_j29308856828499_2_alg».proof.Proof.LibAfterAppend

set_option maxRecDepth 16384

noncomputable section

namespace Cert.KernelIdeal.Layers

open Cert.KernelIdeal Cert.KernelIdeal.Gen
open Idealize.ShloMosaic Idealize.ShloMosaic.TcCoe Idealize.SL.Sem Idealize.ShloMosaic.StableHlo
open Idealize.ShloMosaic.Pipeline (Dat)

variable {F : FTy → Type} [FloatOps F]

/-- The stretch's first twenty operations: both gathers of the inverse square-root degrees and their product. -/
abbrev preW : List (HloOp τ sig (Elt F)) :=
  ( StableHlo.nullary main_c (constantI S_ 32 0#32)
  :: StableHlo.unary main_c main_v14 (broadcastInDim S1600000 ![] bcast_S_S1600000 : (⟨S_, .i32⟩ : BufTy).Contents (Elt F) → (⟨S1600000, .i32⟩ : BufTy).Contents (Elt F))
  :: StableHlo.binary main_v1 main_v14 main_v15 (cmpi .slt : (⟨S1600000, .i32⟩ : BufTy).Contents (Elt F) → (⟨S1600000, .i32⟩ : BufTy).Contents (Elt F) → (⟨S1600000, .i1⟩ : BufTy).Contents (Elt F))
  :: StableHlo.nullary main_c_4 (constantI S_ 32 100000#32)
  :: StableHlo.unary main_c_4 main_v16 (broadcastInDim S1600000 ![] bcast_S_S1600000 : (⟨S_, .i32⟩ : BufTy).Contents (Elt F) → (⟨S1600000, .i32⟩ : BufTy).Contents (Elt F))
  :: StableHlo.binary main_v1 main_v16 main_v17 (addi : (⟨S1600000, .i32⟩ : BufTy).Contents (Elt F) → (⟨S1600000, .i32⟩ : BufTy).Contents (Elt F) → (⟨S1600000, .i32⟩ : BufTy).Contents (Elt F))
  :: StableHlo.ternary main_v15 main_v17 main_v1 main_v18 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F))
  :: StableHlo.unary main_v18 main_v19 (broadcastInDim S1600000x1 ![0] bcast_S1600000_S1600000x1_0 : (⟨S1600000, .i32⟩ : BufTy).Contents (Elt F) → (⟨S1600000x1, .i32⟩ : BufTy).Contents (Elt F))
  :: StableHlo.binary main_v13 main_v19 main_v20 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F))
  :: StableHlo.unary main_v20 main_v21 (Host.negf : (⟨S1600000, .f32⟩ : BufTy).Contents (Elt F) → (⟨S1600000, .f32⟩ : BufTy).Contents (Elt F))
  :: StableHlo.nullary main_c_5 (constantI S_ 32 0#32)
  :: StableHlo.unary main_c_5 main_v22 (broadcastInDim S1600000 ![] bcast_S_S1600000 : (⟨S_, .i32⟩ : BufTy).Contents (Elt F) → (⟨S1600000, .i32⟩ : BufTy).Contents (Elt F))
  :: StableHlo.binary main_v3 main_v22 main_v23 (cmpi .slt : (⟨S1600000, .i32⟩ : BufTy).Contents (Elt F) → (⟨S1600000, .i32⟩ : BufTy).Contents (Elt F) → (⟨S1600000, .i1⟩ : BufTy).Contents (Elt F))
  :: StableHlo.nullary main_c_6 (constantI S_ 32 100000#32)
  :: StableHlo.unary main_c_6 main_v24 (broadcastInDim S1600000 ![] bcast_S_S1600000 : (⟨S_, .i32⟩ : BufTy).Contents (Elt F) → (⟨S1600000, .i32⟩ : BufTy).Contents (Elt F))
  :: StableHlo.binary main_v3 main_v24 main_v25 (addi : (⟨S1600000, .i32⟩ : BufTy).Contents (Elt F) → (⟨S1600000, .i32⟩ : BufTy).Contents (Elt F) → (⟨S1600000, .i32⟩ : BufTy).Contents (Elt F))
  :: StableHlo.ternary main_v23 main_v25 main_v3 main_v26 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F))
  :: StableHlo.unary main_v26 main_v27 (broadcastInDim S1600000x1 ![0] bcast_S1600000_S1600000x1_0 : (⟨S1600000, .i32⟩ : BufTy).Contents (Elt F) → (⟨S1600000x1, .i32⟩ : BufTy).Contents (Elt F))
  :: StableHlo.binary main_v13 main_v27 main_v28 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F))
  :: StableHlo.binary main_v21 main_v28 main_v29 (mulf : (⟨S1600000, .f32⟩ : BufTy).Contents (Elt F) → (⟨S1600000, .f32⟩ : BufTy).Contents (Elt F) → (⟨S1600000, .f32⟩ : BufTy).Contents (Elt F))
  :: [] )

/-- The other sixty-six: three propagations, the recursion, the stack, the parameter rows. -/
abbrev preS : List (HloOp τ sig (Elt F)) :=
  ( StableHlo.unary main_v29 main_v30 (broadcastInDim S1600000x1 ![0] bcast_S1600000_S1600000x1_0 : (⟨S1600000, .f32⟩ : BufTy).Contents (Elt F) → (⟨S1600000x1, .f32⟩ : BufTy).Contents (Elt F))
  :: StableHlo.nullary main_c_7 (constantI S_ 32 0#32)
  :: StableHlo.unary main_c_7 main_v31 (broadcastInDim S1600000 ![] bcast_S_S1600000 : (⟨S_, .i32⟩ : BufTy).Contents (Elt F) → (⟨S1600000, .i32⟩ : BufTy).Contents (Elt F))
  :: StableHlo.binary main_v1 main_v31 main_v32 (cmpi .slt : (⟨S1600000, .i32⟩ : BufTy).Contents (Elt F) → (⟨S1600000, .i32⟩ : BufTy).Contents (Elt F) → (⟨S1600000, .i1⟩ : BufTy).Contents (Elt F))
  :: StableHlo.nullary main_c_8 (constantI S_ 32 100000#32)
  :: StableHlo.unary main_c_8 main_v33 (broadcastInDim S1600000 ![] bcast_S_S1600000 : (⟨S_, .i32⟩ : BufTy).Contents (Elt F) → (⟨S1600000, .i32⟩ : BufTy).Contents (Elt F))
  :: StableHlo.binary main_v1 main_v33 main_v34 (addi : (⟨S1600000, .i32⟩ : BufTy).Contents (Elt F) → (⟨S1600000, .i32⟩ : BufTy).Contents (Elt F) → (⟨S1600000, .i32⟩ : BufTy).Contents (Elt F))
  :: StableHlo.ternary main_v32 main_v34 main_v1 main_v35 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F))
  :: StableHlo.unary main_v35 main_v36 (broadcastInDim S1600000x1 ![0] bcast_S1600000_S1600000x1_0 : (⟨S1600000, .i32⟩ : BufTy).Contents (Elt F) → (⟨S1600000x1, .i32⟩ : BufTy).Contents (Elt F))
  :: StableHlo.binary main_arg0 main_v36 main_v37 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F))
  :: StableHlo.unary main_v30 main_v38 (broadcastInDim S1600000x64 ![0, 1] bcast_S1600000x1_S1600000x64_0_1 : (⟨S1600000x1, .f32⟩ : BufTy).Contents (Elt F) → (⟨S1600000x64, .f32⟩ : BufTy).Contents (Elt F))
  :: StableHlo.binary main_v38 main_v37 main_v39 (mulf : (⟨S1600000x64, .f32⟩ : BufTy).Contents (Elt F) → (⟨S1600000x64, .f32⟩ : BufTy).Contents (Elt F) → (⟨S1600000x64, .f32⟩ : BufTy).Contents (Elt F))
  :: StableHlo.nullary main_cst_9 (constant S_ .f32 0x00000000#32)
  :: StableHlo.unary main_cst_9 main_v40 (broadcastInDim S100000x64 ![] bcast_S_S100000x64 : (⟨S_, .f32⟩ : BufTy).Contents (Elt F) → (⟨S100000x64, .f32⟩ : BufTy).Contents (Elt F))
  :: StableHlo.unary main_v3 main_v41 (broadcastInDim S1600000x1 ![0] bcast_S1600000_S1600000x1_0 : (⟨S1600000, .i32⟩ : BufTy).Contents (Elt F) → (⟨S1600000x1, .i32⟩ : BufTy).Contents (Elt F))
  :: StableHlo.ternary main_v40 main_v41 main_v39 main_v42 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F))
  :: StableHlo.unary main_v29 main_v43 (broadcastInDim S1600000x1 ![0] bcast_S1600000_S1600000x1_0 : (⟨S1600000, .f32⟩ : BufTy).Contents (Elt F) → (⟨S1600000x1, .f32⟩ : BufTy).Contents (Elt F))
  :: StableHlo.nullary main_c_10 (constantI S_ 32 0#32)
  :: StableHlo.unary main_c_10 main_v44 (broadcastInDim S1600000 ![] bcast_S_S1600000 : (⟨S_, .i32⟩ : BufTy).Contents (Elt F) → (⟨S1600000, .i32⟩ : BufTy).Contents (Elt F))
  :: StableHlo.binary main_v1 main_v44 main_v45 (cmpi .slt : (⟨S1600000, .i32⟩ : BufTy).Contents (Elt F) → (⟨S1600000, .i32⟩ : BufTy).Contents (Elt F) → (⟨S1600000, .i1⟩ : BufTy).Contents (Elt F))
  :: StableHlo.nullary main_c_11 (constantI S_ 32 100000#32)
  :: StableHlo.unary main_c_11 main_v46 (broadcastInDim S1600000 ![] bcast_S_S1600000 : (⟨S_, .i32⟩ : BufTy).Contents (Elt F) → (⟨S1600000, .i32⟩ : BufTy).Contents (Elt F))
  :: StableHlo.binary main_v1 main_v46 main_v47 (addi : (⟨S1600000, .i32⟩ : BufTy).Contents (Elt F) → (⟨S1600000, .i32⟩ : BufTy).Contents (Elt F) → (⟨S1600000, .i32⟩ : BufTy).Contents (Elt F))
  :: StableHlo.ternary main_v45 main_v47 main_v1 main_v48 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F))
  :: StableHlo.unary main_v48 main_v49 (broadcastInDim S1600000x1 ![0] bcast_S1600000_S1600000x1_0 : (⟨S1600000, .i32⟩ : BufTy).Contents (Elt F) → (⟨S1600000x1, .i32⟩ : BufTy).Contents (Elt F))
  :: StableHlo.binary main_v42 main_v49 main_v50 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F))
  :: StableHlo.unary main_v43 main_v51 (broadcastInDim S1600000x64 ![0, 1] bcast_S1600000x1_S1600000x64_0_1 : (⟨S1600000x1, .f32⟩ : BufTy).Contents (Elt F) → (⟨S1600000x64, .f32⟩ : BufTy).Contents (Elt F))
  :: StableHlo.binary main_v51 main_v50 main_v52 (mulf : (⟨S1600000x64, .f32⟩ : BufTy).Contents (Elt F) → (⟨S1600000x64, .f32⟩ : BufTy).Contents (Elt F) → (⟨S1600000x64, .f32⟩ : BufTy).Contents (Elt F))
  :: StableHlo.nullary main_cst_12 (constant S_ .f32 0x00000000#32)
  :: StableHlo.unary main_cst_12 main_v53 (broadcastInDim S100000x64 ![] bcast_S_S100000x64 : (⟨S_, .f32⟩ : BufTy).Contents (Elt F) → (⟨S100000x64, .f32⟩ : BufTy).Contents (Elt F))
  :: StableHlo.unary main_v3 main_v54 (broadcastInDim S1600000x1 ![0] bcast_S1600000_S1600000x1_0 : (⟨S1600000, .i32⟩ : BufTy).Contents (Elt F) → (⟨S1600000x1, .i32⟩ : BufTy).Contents (Elt F))
  :: StableHlo.ternary main_v53 main_v54 main_v52 main_v55 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F))
  :: StableHlo.nullary main_cst_13 (constant S_ .f32 0x40000000#32)
  :: StableHlo.unary main_cst_13 main_v56 (broadcastInDim S100000x64 ![] bcast_S_S100000x64 : (⟨S_, .f32⟩ : BufTy).Contents (Elt F) → (⟨S100000x64, .f32⟩ : BufTy).Contents (Elt F))
  :: StableHlo.binary main_v56 main_v55 main_v57 (mulf : (⟨S100000x64, .f32⟩ : BufTy).Contents (Elt F) → (⟨S100000x64, .f32⟩ : BufTy).Contents (Elt F) → (⟨S100000x64, .f32⟩ : BufTy).Contents (Elt F))
  :: StableHlo.binary main_v57 main_arg0 main_v58 (subf : (⟨S100000x64, .f32⟩ : BufTy).Contents (Elt F) → (⟨S100000x64, .f32⟩ : BufTy).Contents (Elt F) → (⟨S100000x64, .f32⟩ : BufTy).Contents (Elt F))
  :: StableHlo.unary main_v29 main_v59 (broadcastInDim S1600000x1 ![0] bcast_S1600000_S1600000x1_0 : (⟨S1600000, .f32⟩ : BufTy).Contents (Elt F) → (⟨S1600000x1, .f32⟩ : BufTy).Contents (Elt F))
  :: StableHlo.nullary main_c_14 (constantI S_ 32 0#32)
  :: StableHlo.unary main_c_14 main_v60 (broadcastInDim S1600000 ![] bcast_S_S1600000 : (⟨S_, .i32⟩ : BufTy).Contents (Elt F) → (⟨S1600000, .i32⟩ : BufTy).Contents (Elt F))
  :: StableHlo.binary main_v1 main_v60 main_v61 (cmpi .slt : (⟨S1600000, .i32⟩ : BufTy).Contents (Elt F) → (⟨S1600000, .i32⟩ : BufTy).Contents (Elt F) → (⟨S1600000, .i1⟩ : BufTy).Contents (Elt F))
  :: StableHlo.nullary main_c_15 (constantI S_ 32 100000#32)
  :: StableHlo.unary main_c_15 main_v62 (broadcastInDim S1600000 ![] bcast_S_S1600000 : (⟨S_, .i32⟩ : BufTy).Contents (Elt F) → (⟨S1600000, .i32⟩ : BufTy).Contents (Elt F))
  :: StableHlo.binary main_v1 main_v62 main_v63 (addi : (⟨S1600000, .i32⟩ : BufTy).Contents (Elt F) → (⟨S1600000, .i32⟩ : BufTy).Contents (Elt F) → (⟨S1600000, .i32⟩ : BufTy).Contents (Elt F))
  :: StableHlo.ternary main_v61 main_v63 main_v1 main_v64 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F))
  :: StableHlo.unary main_v64 main_v65 (broadcastInDim S1600000x1 ![0] bcast_S1600000_S1600000x1_0 : (⟨S1600000, .i32⟩ : BufTy).Contents (Elt F) → (⟨S1600000x1, .i32⟩ : BufTy).Contents (Elt F))
  :: StableHlo.binary main_v58 main_v65 main_v66 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F))
  :: StableHlo.unary main_v59 main_v67 (broadcastInDim S1600000x64 ![0, 1] bcast_S1600000x1_S1600000x64_0_1 : (⟨S1600000x1, .f32⟩ : BufTy).Contents (Elt F) → (⟨S1600000x64, .f32⟩ : BufTy).Contents (Elt F))
  :: StableHlo.binary main_v67 main_v66 main_v68 (mulf : (⟨S1600000x64, .f32⟩ : BufTy).Contents (Elt F) → (⟨S1600000x64, .f32⟩ : BufTy).Contents (Elt F) → (⟨S1600000x64, .f32⟩ : BufTy).Contents (Elt F))
  :: StableHlo.nullary main_cst_16 (constant S_ .f32 0x00000000#32)
  :: StableHlo.unary main_cst_16 main_v69 (broadcastInDim S100000x64 ![] bcast_S_S100000x64 : (⟨S_, .f32⟩ : BufTy).Contents (Elt F) → (⟨S100000x64, .f32⟩ : BufTy).Contents (Elt F))
  :: StableHlo.unary main_v3 main_v70 (broadcastInDim S1600000x1 ![0] bcast_S1600000_S1600000x1_0 : (⟨S1600000, .i32⟩ : BufTy).Contents (Elt F) → (⟨S1600000x1, .i32⟩ : BufTy).Contents (Elt F))
  :: StableHlo.ternary main_v69 main_v70 main_v68 main_v71 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F))
  :: StableHlo.nullary main_cst_17 (constant S_ .f32 0x40000000#32)
  :: StableHlo.unary main_cst_17 main_v72 (broadcastInDim S100000x64 ![] bcast_S_S100000x64 : (⟨S_, .f32⟩ : BufTy).Contents (Elt F) → (⟨S100000x64, .f32⟩ : BufTy).Contents (Elt F))
  :: StableHlo.binary main_v72 main_v71 main_v73 (mulf : (⟨S100000x64, .f32⟩ : BufTy).Contents (Elt F) → (⟨S100000x64, .f32⟩ : BufTy).Contents (Elt F) → (⟨S100000x64, .f32⟩ : BufTy).Contents (Elt F))
  :: StableHlo.binary main_v73 main_v42 main_v74 (subf : (⟨S100000x64, .f32⟩ : BufTy).Contents (Elt F) → (⟨S100000x64, .f32⟩ : BufTy).Contents (Elt F) → (⟨S100000x64, .f32⟩ : BufTy).Contents (Elt F))
  :: StableHlo.unary main_arg0 main_v75 (broadcastInDim S1x100000x64 ![1, 2] bcast_S100000x64_S1x100000x64_1_2 : (⟨S100000x64, .f32⟩ : BufTy).Contents (Elt F) → (⟨S1x100000x64, .f32⟩ : BufTy).Contents (Elt F))
  :: StableHlo.unary main_v42 main_v76 (broadcastInDim S1x100000x64 ![1, 2] bcast_S100000x64_S1x100000x64_1_2 : (⟨S100000x64, .f32⟩ : BufTy).Contents (Elt F) → (⟨S1x100000x64, .f32⟩ : BufTy).Contents (Elt F))
  :: StableHlo.unary main_v58 main_v77 (broadcastInDim S1x100000x64 ![1, 2] bcast_S100000x64_S1x100000x64_1_2 : (⟨S100000x64, .f32⟩ : BufTy).Contents (Elt F) → (⟨S1x100000x64, .f32⟩ : BufTy).Contents (Elt F))
  :: StableHlo.unary main_v74 main_v78 (broadcastInDim S1x100000x64 ![1, 2] bcast_S100000x64_S1x100000x64_1_2 : (⟨S100000x64, .f32⟩ : BufTy).Contents (Elt F) → (⟨S1x100000x64, .f32⟩ : BufTy).Contents (Elt F))
  :: StableHlo.nary ![main_v75, main_v76, main_v77, main_v78] main_v79 (fun u => concatenate S4x100000x64 0 [⟨S1x100000x64, u 0⟩, ⟨S1x100000x64, u 1⟩, ⟨S1x100000x64, u 2⟩, ⟨S1x100000x64, u 3⟩] concatenates_S1x100000x64_S1x100000x64_S1x100000x64_S1x100000x64_S4x100000x64_d0)
  :: StableHlo.reshape main_arg3 main_v80 rfl shapeCasts_S64_S1x64
  :: StableHlo.reshape main_arg8 main_v81 rfl shapeCasts_S64_S1x64
  :: StableHlo.reshape main_arg9 main_v82 rfl shapeCasts_S64_S1x64
  :: StableHlo.reshape main_arg10 main_v83 rfl shapeCasts_S64_S1x64
  :: StableHlo.reshape main_arg11 main_v84 rfl shapeCasts_S64_S1x64
  :: [] )

set_option maxHeartbeats 40000000 in
theorem hostOps0_2_cut : (hostOps0_2 : List (HloOp τ sig (Elt F))) = preW ++ preS := rfl

theorem after_hostOps0_2 (Y : Valuation τ sig (Elt F)) : StableHlo.after hostOps0_2 Y = StableHlo.after preS (StableHlo.after preW Y) := by
  rw [hostOps0_2_cut, AfterAppend.after_append]

abbrev preW_W : List (Ref sig .tc) := [main_c, main_v14, main_v15, main_c_4, main_v16, main_v17, main_v18, main_v19, main_v20, main_v21, main_c_5, main_v22, main_v23, main_c_6, main_v24, main_v25, main_v26, main_v27, main_v28, main_v29]
abbrev preS_W : List (Ref sig .tc) := [main_v30, main_c_7, main_v31, main_v32, main_c_8, main_v33, main_v34, main_v35, main_v36, main_v37, main_v38, main_v39, main_cst_9, main_v40, main_v41, main_v42, main_v43, main_c_10, main_v44, main_v45, main_c_11, main_v46, main_v47, main_v48, main_v49, main_v50, main_v51, main_v52, main_cst_12, main_v53, main_v54, main_v55, main_cst_13, main_v56, main_v57, main_v58, main_v59, main_c_14, main_v60, main_v61, main_c_15, main_v62, main_v63, main_v64, main_v65, main_v66, main_v67, main_v68, main_cst_16, main_v69, main_v70, main_v71, main_cst_17, main_v72, main_v73, main_v74, main_v75, main_v76, main_v77, main_v78, main_v79, main_v80, main_v81, main_v82, main_v83, main_v84]
set_option maxHeartbeats 4000000 in
theorem preW_writes : (preW : List (HloOp τ sig (Elt F))).Forall fun op => op.writes ⊆ (preW_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
set_option maxHeartbeats 4000000 in
theorem preS_writes : (preS : List (HloOp τ sig (Elt F))).Forall fun op => op.writes ⊆ (preS_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

end Cert.KernelIdeal.Layers

end
-- ==== Proof.Net.lean ====
/-
  The network both programs compute, written once over the reference's host operations. An edge list gives source and
  destination rows; the degree normalisation gives one weight per edge; one propagation gathers the source rows of an
  array, scales each by its edge's weight and adds it into its destination row. A layer takes the array h, its
  propagation T1 = P h, T2 = 2·P T1 − h and T3 = 2·P T2 − T1, multiplies each by its own 64×64 weight, adds the four
  products and the bias, applies the running-statistics affine map and clamps at zero. The head is one more product
  and a bias. The gather and the scatter-add are kept as the operations they are: both programs apply the same ones.
-/
import proofs.«127831_j29308856828499_2_alg».proof.ReferenceIdeal

noncomputable section

namespace Cert.Net

open Cert.ReferenceIdeal Idealize.ShloMosaic

variable {F : FTy → Type} [FloatOps F] [Cert.ReferenceIdeal.Facts]
open Cert.ReferenceIdeal.Facts₀ Cert.ReferenceIdeal.Facts

/-- The source row of every edge. -/
def srcOf (E : (⟨S2x1600000, .i32⟩ : BufTy).Contents (Elt F)) : (⟨S1600000, .i32⟩ : BufTy).Contents (Elt F) :=
  (shapeCast S1600000 (extractStridedSlice S1x1600000 ![0, 0] E slices_S2x1600000_S1x1600000_0_0) shapeCasts_S1x1600000_S1600000)

/-- The destination row of every edge. -/
def dstOf (E : (⟨S2x1600000, .i32⟩ : BufTy).Contents (Elt F)) : (⟨S1600000, .i32⟩ : BufTy).Contents (Elt F) :=
  (shapeCast S1600000 (extractStridedSlice S1x1600000 ![1, 0] E slices_S2x1600000_S1x1600000_1_0) shapeCasts_S1x1600000_S1600000)

/-- The weight of every edge: minus the product of the inverse square roots of its two end rows' degrees (zero for a row
    of degree zero), the degree of a row being the number of edges that leave it. -/
def edgeW (s d : (⟨S1600000, .i32⟩ : BufTy).Contents (Elt F)) : (⟨S1600000, .f32⟩ : BufTy).Contents (Elt F) :=
  (mulf (Host.negf (F := F) (Host.gather gather_S100000_S1600000x1_S1600000_n_0_n_n_0_1_1 (select (cmpf .ogt (Host.scatterAdd (F := F) scatter_S100000_S1600000x1_S1600000_n_0_0_1 (broadcastInDim S100000 ![] bcast_S_S100000 (constant (F := F) S_ .f32 0x00000000#32)) (broadcastInDim S1600000x1 ![0] bcast_S1600000_S1600000x1_0 s) (broadcastInDim S1600000 ![] bcast_S_S1600000 (constant (F := F) S_ .f32 0x3F800000#32))) (broadcastInDim S100000 ![] bcast_S_S100000 (constant (F := F) S_ .f32 0x00000000#32))) (Host.rsqrt (F := F) (maximumf (Host.scatterAdd (F := F) scatter_S100000_S1600000x1_S1600000_n_0_0_1 (broadcastInDim S100000 ![] bcast_S_S100000 (constant (F := F) S_ .f32 0x00000000#32)) (broadcastInDim S1600000x1 ![0] bcast_S1600000_S1600000x1_0 s) (broadcastInDim S1600000 ![] bcast_S_S1600000 (constant (F := F) S_ .f32 0x3F800000#32))) (broadcastInDim S100000 ![] bcast_S_S100000 (constant (F := F) S_ .f32 0x3F800000#32)))) (broadcastInDim S100000 ![] bcast_S_S100000 (constant (F := F) S_ .f32 0x00000000#32))) (broadcastInDim S1600000x1 ![0] bcast_S1600000_S1600000x1_0 (select (cmpi .slt s (broadcastInDim S1600000 ![] bcast_S_S1600000 (constantI S_ 32 0#32))) (addi s (broadcastInDim S1600000 ![] bcast_S_S1600000 (constantI S_ 32 100000#32))) s)))) (Host.gather gather_S100000_S1600000x1_S1600000_n_0_n_n_0_1_1 (select (cmpf .ogt (Host.scatterAdd (F := F) scatter_S100000_S1600000x1_S1600000_n_0_0_1 (broadcastInDim S100000 ![] bcast_S_S100000 (constant (F := F) S_ .f32 0x00000000#32)) (broadcastInDim S1600000x1 ![0] bcast_S1600000_S1600000x1_0 s) (broadcastInDim S1600000 ![] bcast_S_S1600000 (constant (F := F) S_ .f32 0x3F800000#32))) (broadcastInDim S100000 ![] bcast_S_S100000 (constant (F := F) S_ .f32 0x00000000#32))) (Host.rsqrt (F := F) (maximumf (Host.scatterAdd (F := F) scatter_S100000_S1600000x1_S1600000_n_0_0_1 (broadcastInDim S100000 ![] bcast_S_S100000 (constant (F := F) S_ .f32 0x00000000#32)) (broadcastInDim S1600000x1 ![0] bcast_S1600000_S1600000x1_0 s) (broadcastInDim S1600000 ![] bcast_S_S1600000 (constant (F := F) S_ .f32 0x3F800000#32))) (broadcastInDim S100000 ![] bcast_S_S100000 (constant (F := F) S_ .f32 0x3F800000#32)))) (broadcastInDim S100000 ![] bcast_S_S100000 (constant (F := F) S_ .f32 0x00000000#32))) (broadcastInDim S1600000x1 ![0] bcast_S1600000_S1600000x1_0 (select (cmpi .slt d (broadcastInDim S1600000 ![] bcast_S_S1600000 (constantI S_ 32 0#32))) (addi d (broadcastInDim S1600000 ![] bcast_S_S1600000 (constantI S_ 32 100000#32))) d))))

/-- One propagation: row r of the result is the sum over the edges arriving at r of the edge's weight times the source
    row of x. -/
def prop (s d : (⟨S1600000, .i32⟩ : BufTy).Contents (Elt F)) (w : (⟨S1600000, .f32⟩ : BufTy).Contents (Elt F)) (x : (⟨S100000x64, .f32⟩ : BufTy).Contents (Elt F)) : (⟨S100000x64, .f32⟩ : BufTy).Contents (Elt F) :=
  (Host.scatterAdd (F := F) scatter_S100000x64_S1600000x1_S1600000x64_1_0_0_1 (broadcastInDim S100000x64 ![] bcast_S_S100000x64 (constant (F := F) S_ .f32 0x00000000#32)) (broadcastInDim S1600000x1 ![0] bcast_S1600000_S1600000x1_0 d) (mulf (broadcastInDim S1600000x64 ![0, 1] bcast_S1600000x1_S1600000x64_0_1 (broadcastInDim S1600000x1 ![0] bcast_S1600000_S1600000x1_0 w)) (Host.gather gather_S100000x64_S1600000x1_S1600000x64_1_0_n_n_0_1_164 x (broadcastInDim S1600000x1 ![0] bcast_S1600000_S1600000x1_0 (select (cmpi .slt s (broadcastInDim S1600000 ![] bcast_S_S1600000 (constantI S_ 32 0#32))) (addi s (broadcastInDim S1600000 ![] bcast_S_S1600000 (constantI S_ 32 100000#32))) s)))))

/-- The next polynomial of the recursion: 2·P t1 − t0. -/
def nextT (s d : (⟨S1600000, .i32⟩ : BufTy).Contents (Elt F)) (w : (⟨S1600000, .f32⟩ : BufTy).Contents (Elt F)) (t1 t0 : (⟨S100000x64, .f32⟩ : BufTy).Contents (Elt F)) : (⟨S100000x64, .f32⟩ : BufTy).Contents (Elt F) :=
  (subf (mulf (broadcastInDim S100000x64 ![] bcast_S_S100000x64 (constant (F := F) S_ .f32 0x40000000#32)) (Host.scatterAdd (F := F) scatter_S100000x64_S1600000x1_S1600000x64_1_0_0_1 (broadcastInDim S100000x64 ![] bcast_S_S100000x64 (constant (F := F) S_ .f32 0x00000000#32)) (broadcastInDim S1600000x1 ![0] bcast_S1600000_S1600000x1_0 d) (mulf (broadcastInDim S1600000x64 ![0, 1] bcast_S1600000x1_S1600000x64_0_1 (broadcastInDim S1600000x1 ![0] bcast_S1600000_S1600000x1_0 w)) (Host.gather gather_S100000x64_S1600000x1_S1600000x64_1_0_n_n_0_1_164 t1 (broadcastInDim S1600000x1 ![0] bcast_S1600000_S1600000x1_0 (select (cmpi .slt s (broadcastInDim S1600000 ![] bcast_S_S1600000 (constantI S_ 32 0#32))) (addi s (broadcastInDim S1600000 ![] bcast_S_S1600000 (constantI S_ 32 100000#32))) s)))))) t0)

/-- One layer's dense part from its four polynomials: the four products with the slabs of the weight summed, the bias
    added, the running mean subtracted, the scale g·rsqrt(var + ε) applied, the shift added, clamped at zero. -/
def layer (t0 t1 t2 t3 : (⟨S100000x64, .f32⟩ : BufTy).Contents (Elt F)) (Wk : (⟨S4x64x64, .f32⟩ : BufTy).Contents (Elt F)) (b g be rm rv : (⟨S64, .f32⟩ : BufTy).Contents (Elt F)) : (⟨S100000x64, .f32⟩ : BufTy).Contents (Elt F) :=
  (maximumf (addf (mulf (subf (addf (addf (addf (addf (Host.dotGeneral (F := F) dot_S100000x64_S64x64_S100000x64_1_0_0_1_n_n none t0 (shapeCast S64x64 (extractStridedSlice S1x64x64 ![0, 0, 0] Wk slices_S4x64x64_S1x64x64_0_0_0) shapeCasts_S1x64x64_S64x64)) (Host.dotGeneral (F := F) dot_S100000x64_S64x64_S100000x64_1_0_0_1_n_n none t1 (shapeCast S64x64 (extractStridedSlice S1x64x64 ![1, 0, 0] Wk slices_S4x64x64_S1x64x64_1_0_0) shapeCasts_S1x64x64_S64x64))) (Host.dotGeneral (F := F) dot_S100000x64_S64x64_S100000x64_1_0_0_1_n_n none t2 (shapeCast S64x64 (extractStridedSlice S1x64x64 ![2, 0, 0] Wk slices_S4x64x64_S1x64x64_2_0_0) shapeCasts_S1x64x64_S64x64))) (Host.dotGeneral (F := F) dot_S100000x64_S64x64_S100000x64_1_0_0_1_n_n none t3 (shapeCast S64x64 (extractStridedSlice S1x64x64 ![3, 0, 0] Wk slices_S4x64x64_S1x64x64_3_0_0) shapeCasts_S1x64x64_S64x64))) (broadcastInDim S100000x64 ![0, 1] bcast_S1x64_S100000x64_0_1 (broadcastInDim S1x64 ![1] bcast_S64_S1x64_1 b))) (broadcastInDim S100000x64 ![0, 1] bcast_S1x64_S100000x64_0_1 (broadcastInDim S1x64 ![1] bcast_S64_S1x64_1 rm))) (broadcastInDim S100000x64 ![0, 1] bcast_S1x64_S100000x64_0_1 (broadcastInDim S1x64 ![1] bcast_S64_S1x64_1 (mulf g (Host.rsqrt (F := F) (addf rv (broadcastInDim S64 ![] bcast_S_S64 (constant (F := F) S_ .f32 0x3727C5AC#32)))))))) (broadcastInDim S100000x64 ![0, 1] bcast_S1x64_S100000x64_0_1 (broadcastInDim S1x64 ![1] bcast_S64_S1x64_1 be))) (broadcastInDim S100000x64 ![] bcast_S_S100000x64 (constant (F := F) S_ .f32 0x00000000#32)))

/-- The head: h times the head weight plus the head bias. -/
def head (h : (⟨S100000x64, .f32⟩ : BufTy).Contents (Elt F)) (HW : (⟨S64x16, .f32⟩ : BufTy).Contents (Elt F)) (hb : (⟨S16, .f32⟩ : BufTy).Contents (Elt F)) : (⟨S100000x16, .f32⟩ : BufTy).Contents (Elt F) :=
  (addf (Host.dotGeneral (F := F) dot_S100000x64_S64x16_S100000x16_1_0_0_1_n_n none h HW) (broadcastInDim S100000x16 ![0, 1] bcast_S1x16_S100000x16_0_1 (broadcastInDim S1x16 ![1] bcast_S16_S1x16_1 hb)))

/-- One whole layer of an array h. -/
def conv (s d : (⟨S1600000, .i32⟩ : BufTy).Contents (Elt F)) (w : (⟨S1600000, .f32⟩ : BufTy).Contents (Elt F)) (h : (⟨S100000x64, .f32⟩ : BufTy).Contents (Elt F)) (Wk : (⟨S4x64x64, .f32⟩ : BufTy).Contents (Elt F)) (b g be rm rv : (⟨S64, .f32⟩ : BufTy).Contents (Elt F)) : (⟨S100000x64, .f32⟩ : BufTy).Contents (Elt F) :=
  layer h (prop s d w h) (nextT s d w (prop s d w h) h) (nextT s d w (nextT s d w (prop s d w h) h) (prop s d w h)) Wk b g be rm rv

/-- The network: three layers and the head. The parameters in the order of the programs' arguments. -/
def net (x : (⟨S100000x64, .f32⟩ : BufTy).Contents (Elt F)) (E : (⟨S2x1600000, .i32⟩ : BufTy).Contents (Elt F)) (W1 : (⟨S4x64x64, .f32⟩ : BufTy).Contents (Elt F)) (bc1 : (⟨S64, .f32⟩ : BufTy).Contents (Elt F)) (W2 : (⟨S4x64x64, .f32⟩ : BufTy).Contents (Elt F)) (bc2 : (⟨S64, .f32⟩ : BufTy).Contents (Elt F)) (W3 : (⟨S4x64x64, .f32⟩ : BufTy).Contents (Elt F)) (bc3 : (⟨S64, .f32⟩ : BufTy).Contents (Elt F))
    (g1 be1 rm1 rv1 g2 be2 rm2 rv2 g3 be3 rm3 rv3 : (⟨S64, .f32⟩ : BufTy).Contents (Elt F)) (headW : (⟨S64x16, .f32⟩ : BufTy).Contents (Elt F)) (headB : (⟨S16, .f32⟩ : BufTy).Contents (Elt F)) : (⟨S100000x16, .f32⟩ : BufTy).Contents (Elt F) :=
  head (conv (srcOf E) (dstOf E) (edgeW (srcOf E) (dstOf E))
        (conv (srcOf E) (dstOf E) (edgeW (srcOf E) (dstOf E))
          (conv (srcOf E) (dstOf E) (edgeW (srcOf E) (dstOf E)) x W1 bc1 g1 be1 rm1 rv1)
          W2 bc2 g2 be2 rm2 rv2)
        W3 bc3 g3 be3 rm3 rv3) headW headB

end Cert.Net

end
-- ==== Proof.KNet.lean ====
/-
  The kernel program's own host operations, composed: the edge list's two rows, the edge weights, one propagation and
  the recursion's next polynomial, each the program's term of that buffer. They are the network's pieces: the reference
  applies the same operations.
-/
import proofs.«127831_j29308856828499_2_alg».proof.Proof.Gen.KernelIdeal
import proofs.«127831_j29308856828499_2_alg».proof.Proof.Gen.ReferenceIdeal
import proofs.«127831_j29308856828499_2_alg».proof.Proof.Net

noncomputable section

namespace Cert.KernelIdeal.Layers

open Cert.KernelIdeal Cert.KernelIdeal.Gen Idealize.ShloMosaic

variable {F : FTy → Type} [FloatOps F]

def srcOfK (E : (⟨S2x1600000, .i32⟩ : BufTy).Contents (Elt F)) : (⟨S1600000, .i32⟩ : BufTy).Contents (Elt F) :=
  (shapeCast S1600000 (extractStridedSlice S1x1600000 ![0, 0] E slices_S2x1600000_S1x1600000_0_0) shapeCasts_S1x1600000_S1600000)

def dstOfK (E : (⟨S2x1600000, .i32⟩ : BufTy).Contents (Elt F)) : (⟨S1600000, .i32⟩ : BufTy).Contents (Elt F) :=
  (shapeCast S1600000 (extractStridedSlice S1x1600000 ![1, 0] E slices_S2x1600000_S1x1600000_1_0) shapeCasts_S1x1600000_S1600000)

def edgeWK (s d : (⟨S1600000, .i32⟩ : BufTy).Contents (Elt F)) : (⟨S1600000, .f32⟩ : BufTy).Contents (Elt F) :=
  (mulf (Host.negf (F := F) (Host.gather gather_S100000_S1600000x1_S1600000_n_0_n_n_0_1_1 (select (cmpf .ogt (Host.scatterAdd (F := F) scatter_S100000_S1600000x1_S1600000_n_0_0_1 (broadcastInDim S100000 ![] bcast_S_S100000 (constant (F := F) S_ .f32 0x00000000#32)) (broadcastInDim S1600000x1 ![0] bcast_S1600000_S1600000x1_0 s) (broadcastInDim S1600000 ![] bcast_S_S1600000 (constant (F := F) S_ .f32 0x3F800000#32))) (broadcastInDim S100000 ![] bcast_S_S100000 (constant (F := F) S_ .f32 0x00000000#32))) (Host.rsqrt (F := F) (maximumf (Host.scatterAdd (F := F) scatter_S100000_S1600000x1_S1600000_n_0_0_1 (broadcastInDim S100000 ![] bcast_S_S100000 (constant (F := F) S_ .f32 0x00000000#32)) (broadcastInDim S1600000x1 ![0] bcast_S1600000_S1600000x1_0 s) (broadcastInDim S1600000 ![] bcast_S_S1600000 (constant (F := F) S_ .f32 0x3F800000#32))) (broadcastInDim S100000 ![] bcast_S_S100000 (constant (F := F) S_ .f32 0x3F800000#32)))) (broadcastInDim S100000 ![] bcast_S_S100000 (constant (F := F) S_ .f32 0x00000000#32))) (broadcastInDim S1600000x1 ![0] bcast_S1600000_S1600000x1_0 (select (cmpi .slt s (broadcastInDim S1600000 ![] bcast_S_S1600000 (constantI S_ 32 0#32))) (addi s (broadcastInDim S1600000 ![] bcast_S_S1600000 (constantI S_ 32 100000#32))) s)))) (Host.gather gather_S100000_S1600000x1_S1600000_n_0_n_n_0_1_1 (select (cmpf .ogt (Host.scatterAdd (F := F) scatter_S100000_S1600000x1_S1600000_n_0_0_1 (broadcastInDim S100000 ![] bcast_S_S100000 (constant (F := F) S_ .f32 0x00000000#32)) (broadcastInDim S1600000x1 ![0] bcast_S1600000_S1600000x1_0 s) (broadcastInDim S1600000 ![] bcast_S_S1600000 (constant (F := F) S_ .f32 0x3F800000#32))) (broadcastInDim S100000 ![] bcast_S_S100000 (constant (F := F) S_ .f32 0x00000000#32))) (Host.rsqrt (F := F) (maximumf (Host.scatterAdd (F := F) scatter_S100000_S1600000x1_S1600000_n_0_0_1 (broadcastInDim S100000 ![] bcast_S_S100000 (constant (F := F) S_ .f32 0x00000000#32)) (broadcastInDim S1600000x1 ![0] bcast_S1600000_S1600000x1_0 s) (broadcastInDim S1600000 ![] bcast_S_S1600000 (constant (F := F) S_ .f32 0x3F800000#32))) (broadcastInDim S100000 ![] bcast_S_S100000 (constant (F := F) S_ .f32 0x3F800000#32)))) (broadcastInDim S100000 ![] bcast_S_S100000 (constant (F := F) S_ .f32 0x00000000#32))) (broadcastInDim S1600000x1 ![0] bcast_S1600000_S1600000x1_0 (select (cmpi .slt d (broadcastInDim S1600000 ![] bcast_S_S1600000 (constantI S_ 32 0#32))) (addi d (broadcastInDim S1600000 ![] bcast_S_S1600000 (constantI S_ 32 100000#32))) d))))

def propK (s d : (⟨S1600000, .i32⟩ : BufTy).Contents (Elt F)) (w : (⟨S1600000, .f32⟩ : BufTy).Contents (Elt F)) (x : (⟨S100000x64, .f32⟩ : BufTy).Contents (Elt F)) : (⟨S100000x64, .f32⟩ : BufTy).Contents (Elt F) :=
  (Host.scatterAdd (F := F) scatter_S100000x64_S1600000x1_S1600000x64_1_0_0_1 (broadcastInDim S100000x64 ![] bcast_S_S100000x64 (constant (F := F) S_ .f32 0x00000000#32)) (broadcastInDim S1600000x1 ![0] bcast_S1600000_S1600000x1_0 d) (mulf (broadcastInDim S1600000x64 ![0, 1] bcast_S1600000x1_S1600000x64_0_1 (broadcastInDim S1600000x1 ![0] bcast_S1600000_S1600000x1_0 w)) (Host.gather gather_S100000x64_S1600000x1_S1600000x64_1_0_n_n_0_1_164 x (broadcastInDim S1600000x1 ![0] bcast_S1600000_S1600000x1_0 (select (cmpi .slt s (broadcastInDim S1600000 ![] bcast_S_S1600000 (constantI S_ 32 0#32))) (addi s (broadcastInDim S1600000 ![] bcast_S_S1600000 (constantI S_ 32 100000#32))) s)))))

def nextTK (s d : (⟨S1600000, .i32⟩ : BufTy).Contents (Elt F)) (w : (⟨S1600000, .f32⟩ : BufTy).Contents (Elt F)) (t1 t0 : (⟨S100000x64, .f32⟩ : BufTy).Contents (Elt F)) : (⟨S100000x64, .f32⟩ : BufTy).Contents (Elt F) :=
  (subf (mulf (broadcastInDim S100000x64 ![] bcast_S_S100000x64 (constant (F := F) S_ .f32 0x40000000#32)) (Host.scatterAdd (F := F) scatter_S100000x64_S1600000x1_S1600000x64_1_0_0_1 (broadcastInDim S100000x64 ![] bcast_S_S100000x64 (constant (F := F) S_ .f32 0x00000000#32)) (broadcastInDim S1600000x1 ![0] bcast_S1600000_S1600000x1_0 d) (mulf (broadcastInDim S1600000x64 ![0, 1] bcast_S1600000x1_S1600000x64_0_1 (broadcastInDim S1600000x1 ![0] bcast_S1600000_S1600000x1_0 w)) (Host.gather gather_S100000x64_S1600000x1_S1600000x64_1_0_n_n_0_1_164 t1 (broadcastInDim S1600000x1 ![0] bcast_S1600000_S1600000x1_0 (select (cmpi .slt s (broadcastInDim S1600000 ![] bcast_S_S1600000 (constantI S_ 32 0#32))) (addi s (broadcastInDim S1600000 ![] bcast_S_S1600000 (constantI S_ 32 100000#32))) s)))))) t0)

/-- Whether a row has an edge leaving it, from the source rows. -/
def hasDegK (s : (⟨S1600000, .i32⟩ : BufTy).Contents (Elt F)) : (⟨S100000, .i1⟩ : BufTy).Contents (Elt F) :=
  (cmpf .ogt (Host.scatterAdd (F := F) scatter_S100000_S1600000x1_S1600000_n_0_0_1 (broadcastInDim S100000 ![] bcast_S_S100000 (constant (F := F) S_ .f32 0x00000000#32)) (broadcastInDim S1600000x1 ![0] bcast_S1600000_S1600000x1_0 s) (broadcastInDim S1600000 ![] bcast_S_S1600000 (constant (F := F) S_ .f32 0x3F800000#32))) (broadcastInDim S100000 ![] bcast_S_S100000 (constant (F := F) S_ .f32 0x00000000#32)))

/-- The inverse square root of a row's degree, the degree taken at least one. -/
def rsqDegK (s : (⟨S1600000, .i32⟩ : BufTy).Contents (Elt F)) : (⟨S100000, .f32⟩ : BufTy).Contents (Elt F) :=
  (Host.rsqrt (F := F) (maximumf (Host.scatterAdd (F := F) scatter_S100000_S1600000x1_S1600000_n_0_0_1 (broadcastInDim S100000 ![] bcast_S_S100000 (constant (F := F) S_ .f32 0x00000000#32)) (broadcastInDim S1600000x1 ![0] bcast_S1600000_S1600000x1_0 s) (broadcastInDim S1600000 ![] bcast_S_S1600000 (constant (F := F) S_ .f32 0x3F800000#32))) (broadcastInDim S100000 ![] bcast_S_S100000 (constant (F := F) S_ .f32 0x3F800000#32))))

/-- The edge weights from the rows' inverse square-root degrees. -/
def edgeWofK (dinv : (⟨S100000, .f32⟩ : BufTy).Contents (Elt F)) (s d : (⟨S1600000, .i32⟩ : BufTy).Contents (Elt F)) : (⟨S1600000, .f32⟩ : BufTy).Contents (Elt F) :=
  (mulf (Host.negf (F := F) (Host.gather gather_S100000_S1600000x1_S1600000_n_0_n_n_0_1_1 dinv (broadcastInDim S1600000x1 ![0] bcast_S1600000_S1600000x1_0 (select (cmpi .slt s (broadcastInDim S1600000 ![] bcast_S_S1600000 (constantI S_ 32 0#32))) (addi s (broadcastInDim S1600000 ![] bcast_S_S1600000 (constantI S_ 32 100000#32))) s)))) (Host.gather gather_S100000_S1600000x1_S1600000_n_0_n_n_0_1_1 dinv (broadcastInDim S1600000x1 ![0] bcast_S1600000_S1600000x1_0 (select (cmpi .slt d (broadcastInDim S1600000 ![] bcast_S_S1600000 (constantI S_ 32 0#32))) (addi d (broadcastInDim S1600000 ![] bcast_S_S1600000 (constantI S_ 32 100000#32))) d))))

theorem edgeWK_split (s d : (⟨S1600000, .i32⟩ : BufTy).Contents (Elt F)) :
    edgeWK s d = edgeWofK (select (hasDegK s) (rsqDegK s) (broadcastInDim S100000 ![] bcast_S_S100000 (constant (F := F) S_ .f32 0x00000000#32))) s d := rfl

/-- Four arrays stacked along a new leading axis, as the host builds the stack. -/
def stackKF (t0 t1 t2 t3 : (⟨S100000x64, .f32⟩ : BufTy).Contents (Elt F)) : (⟨S4x100000x64, .f32⟩ : BufTy).Contents (Elt F) :=
  concatenate S4x100000x64 0 [⟨S1x100000x64, broadcastInDim S1x100000x64 ![1, 2] bcast_S100000x64_S1x100000x64_1_2 t0⟩, ⟨S1x100000x64, broadcastInDim S1x100000x64 ![1, 2] bcast_S100000x64_S1x100000x64_1_2 t1⟩, ⟨S1x100000x64, broadcastInDim S1x100000x64 ![1, 2] bcast_S100000x64_S1x100000x64_1_2 t2⟩, ⟨S1x100000x64, broadcastInDim S1x100000x64 ![1, 2] bcast_S100000x64_S1x100000x64_1_2 t3⟩] concatenates_S1x100000x64_S1x100000x64_S1x100000x64_S1x100000x64_S4x100000x64_d0

/-- The four polynomials of an array, stacked. -/
def polyStackKF (s d : (⟨S1600000, .i32⟩ : BufTy).Contents (Elt F)) (w : (⟨S1600000, .f32⟩ : BufTy).Contents (Elt F)) (h : (⟨S100000x64, .f32⟩ : BufTy).Contents (Elt F)) : (⟨S4x100000x64, .f32⟩ : BufTy).Contents (Elt F) :=
  stackKF h (propK s d w h) (nextTK s d w (propK s d w h) h) (nextTK s d w (nextTK s d w (propK s d w h) h) (propK s d w h))

theorem srcOfK_eq (E : (⟨S2x1600000, .i32⟩ : BufTy).Contents (Elt F)) : srcOfK E = Cert.Net.srcOf E := rfl
theorem dstOfK_eq (E : (⟨S2x1600000, .i32⟩ : BufTy).Contents (Elt F)) : dstOfK E = Cert.Net.dstOf E := rfl
theorem propK_eq (s d : (⟨S1600000, .i32⟩ : BufTy).Contents (Elt F)) (w : (⟨S1600000, .f32⟩ : BufTy).Contents (Elt F)) (x : (⟨S100000x64, .f32⟩ : BufTy).Contents (Elt F)) : propK s d w x = Cert.Net.prop s d w x := rfl
theorem nextTK_eq (s d : (⟨S1600000, .i32⟩ : BufTy).Contents (Elt F)) (w : (⟨S1600000, .f32⟩ : BufTy).Contents (Elt F)) (t1 t0 : (⟨S100000x64, .f32⟩ : BufTy).Contents (Elt F)) : nextTK s d w t1 t0 = Cert.Net.nextT s d w t1 t0 := rfl
theorem edgeWK_eq (s d : (⟨S1600000, .i32⟩ : BufTy).Contents (Elt F)) : edgeWK s d = Cert.Net.edgeW s d := rfl

end Cert.KernelIdeal.Layers

end
-- ==== Proof.LibTypedRefs.lean ====
/-
  Typed references: a round trip through a buffer's own type is the identity.

  A value of a module-local function lives in a buffer through a typed reference, which carries the equation between the
  buffer's declared type and the value's type; writing transports the value along that equation and reading transports
  it back. Reading what was just written gives the value back, and writing what was just read gives the contents back.
-/
import Idealize.ShloMosaic.Lib.StableHlo

namespace TypedRefs

open Idealize.ShloMosaic Idealize.ShloMosaic.StableHlo

variable {sig : RefSig} {T : BufTy} {Val : EltTy → Type}

/-- Reading back what was written through the same typed reference is the value. -/
theorem ofBuf_toBuf (x : TRef sig T) (v : T.Contents Val) : x.ofBuf (x.toBuf v) = v := by
  obtain ⟨r, h, _, _⟩ := x
  subst h
  rfl

/-- Writing back what was read through the same typed reference is the contents. -/
theorem toBuf_ofBuf (x : TRef sig T) (v : x.ref.ty.Contents Val) : x.toBuf (x.ofBuf v) = v := by
  obtain ⟨r, h, _, _⟩ := x
  subst h
  rfl

end TypedRefs
-- ==== Proof.GluePre.lean ====
/-
  The operations before the input's propagations, read as the network's pieces: the edge list's two rows, and the edge
  weights from the degrees. They are the same host operations as the reference's.
-/
import proofs.«127831_j29308856828499_2_alg».proof.Proof.IdealCut
import proofs.«127831_j29308856828499_2_alg».proof.Proof.KNet
import proofs.«127831_j29308856828499_2_alg».proof.Proof.LibTypedRefs
import Idealize.ShloMosaic.PureOps.Ideal

set_option maxRecDepth 16384

noncomputable section

namespace Cert.KernelIdeal.Layers

open Cert.KernelIdeal Cert.KernelIdeal.Gen
open Idealize.ShloMosaic Idealize.ShloMosaic.TcCoe Idealize.SL.Sem Idealize.ShloMosaic.StableHlo
open Idealize.ShloMosaic.Pipeline (Dat)

section
variable (X : Valuation τ sig (Elt Ideal))

/-! ## The first stretch: the two rows and the degrees -/

set_option maxHeartbeats 20000000 in
theorem a_src : StableHlo.after hostOps0 X (Proc.devRef .tc main_v1) = srcOfK (F := Ideal) (X (Proc.devRef .tc main_arg1)) := by
  after_results_simp <;> rfl
set_option maxHeartbeats 20000000 in
theorem a_dst : StableHlo.after hostOps0 X (Proc.devRef .tc main_v3) = dstOfK (F := Ideal) (X (Proc.devRef .tc main_arg1)) := by
  after_results_simp <;> rfl
set_option maxHeartbeats 20000000 in
theorem a_hasDeg : StableHlo.after hostOps0 X (Proc.devRef .tc main_v9) = hasDegK (F := Ideal) (srcOfK (F := Ideal) (X (Proc.devRef .tc main_arg1))) := by
  after_results_simp <;> rfl
set_option maxHeartbeats 20000000 in
theorem a_rsqDeg : StableHlo.after hostOps0 X (Proc.devRef .tc main_v12) = rsqDegK (F := Ideal) (srcOfK (F := Ideal) (X (Proc.devRef .tc main_arg1))) := by
  after_results_simp <;> rfl
set_option maxHeartbeats 20000000 in
theorem a_zero : StableHlo.after hostOps0 X (Proc.devRef .tc main_cst_3) = constant (F := Ideal) S_ .f32 0x00000000#32 := by
  after_results_simp <;> rfl

/-! ## The second: a row of degree zero gets weight zero -/

set_option maxHeartbeats 20000000 in
theorem b_dinv : StableHlo.after hostOps0_1 X (Proc.devRef .tc main_v13)
    = select (X (Proc.devRef .tc main_v9)) (X (Proc.devRef .tc main_v12)) (broadcastInDim S100000 ![] bcast_S_S100000 (X (Proc.devRef .tc main_cst_3))) := by
  after_results_simp
  try simp only [TypedRefs.ofBuf_toBuf, TypedRefs.toBuf_ofBuf]
  rfl
theorem b_keep (r : Ref sig .tc) (h : r ∉ hostOps0_1_W) : StableHlo.after hostOps0_1 X (Proc.devRef .tc r) = X (Proc.devRef .tc r) :=
  StableHlo.after_of_writes_sub hostOps0_1 _ hostOps0_1_writes h

/-! ## The third: the weights -/

set_option maxHeartbeats 20000000 in
theorem c_w : StableHlo.after preW X (Proc.devRef .tc main_v29) = edgeWofK (F := Ideal) (X (Proc.devRef .tc main_v13)) (X (Proc.devRef .tc main_v1)) (X (Proc.devRef .tc main_v3)) := by
  after_results_simp <;> rfl
theorem c_keep (r : Ref sig .tc) (h : r ∉ preW_W) : StableHlo.after preW X (Proc.devRef .tc r) = X (Proc.devRef .tc r) :=
  StableHlo.after_of_writes_sub preW _ preW_writes h

/-! ## Composed -/

/-- The buffers once the edge weights are computed. -/
abbrev preA : Valuation τ sig (Elt Ideal) := StableHlo.after preW (StableHlo.after hostOps0_1 (StableHlo.after hostOps0 X))

theorem preA_src : preA X (Proc.devRef .tc main_v1) = Cert.Net.srcOf (F := Ideal) (X (Proc.devRef .tc main_arg1)) :=
  (c_keep _ main_v1 (by decide)).trans ((b_keep _ main_v1 (by decide)).trans ((a_src X).trans (srcOfK_eq _)))
theorem preA_dst : preA X (Proc.devRef .tc main_v3) = Cert.Net.dstOf (F := Ideal) (X (Proc.devRef .tc main_arg1)) :=
  (c_keep _ main_v3 (by decide)).trans ((b_keep _ main_v3 (by decide)).trans ((a_dst X).trans (dstOfK_eq _)))
theorem preA_w : preA X (Proc.devRef .tc main_v29) = Cert.Net.edgeW (F := Ideal) (Cert.Net.srcOf (F := Ideal) (X (Proc.devRef .tc main_arg1))) (Cert.Net.dstOf (F := Ideal) (X (Proc.devRef .tc main_arg1))) := by
  refine (c_w _).trans ?_
  rw [b_dinv, b_keep _ main_v1 (by decide), b_keep _ main_v3 (by decide), a_hasDeg, a_rsqDeg, a_zero, a_src, a_dst, ← edgeWK_split, edgeWK_eq, srcOfK_eq, dstOfK_eq]
theorem preA_keep (r : Ref sig .tc) (h0 : r ∉ hostOps0_W) (h1 : r ∉ hostOps0_1_W) (h2 : r ∉ preW_W) : preA X (Proc.devRef .tc r) = X (Proc.devRef .tc r) :=
  (StableHlo.after_of_writes_sub preW _ preW_writes h2).trans
    ((StableHlo.after_of_writes_sub hostOps0_1 _ hostOps0_1_writes h1).trans (StableHlo.after_of_writes_sub hostOps0 _ hostOps0_writes h0))
end

end Cert.KernelIdeal.Layers

end
-- ==== Proof.IdealPoint.lean ====
/-
  The node-block kernels' results read at one entry. A block holds 5000 node rows. The body multiplies each of the four
  slabs of the stacked polynomials' block with the matching slab of the weights, adds the four products into a zero
  accumulator, adds the bias row, subtracts the running mean's row, multiplies by the row g·rsqrt(var + ε), adds the shift
  row and clamps at zero; the last kernel then multiplies with the head weight and adds the head bias. Entry (y, c) of a
  product reads row y of its left operand and column c of its right one, so entry (y, c) of the block's result depends
  on row y of each slab only.
-/
import proofs.«127831_j29308856828499_2_alg».proof.Proof.IdealBodies
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Layers

open Cert.KernelIdeal Cert.KernelIdeal.Gen
open Idealize.ShloMosaic Idealize.ShloMosaic.ValueIdx
open scoped BigOperators

theorem hz2 : (![0, 0] : Fin 2 → Nat) = fun _ => 0 := funext fun a => by fin_cases a <;> rfl

/-! ## The slabs of the two stacked blocks -/

theorem slabT0 (X0 : Vec Ideal S4x5000x64 .f32) (y : Fin 5000) (q : Fin 64) :
    shapeCast (s := S1x5000x64) S5000x64 (View.ld X0 rT0) shapeCasts_S1x5000x64_S5000x64 (ix2 y q) = X0 (ix3 (0 : Fin 4) y q) := by
  refine (shapeCast_1ab_ab_apply (a := 5000) (b := 64) _ _ y q).trans ?_
  show X0 (rT0.idx (ix3 (0 : Fin 1) y q)) = X0 (ix3 (0 : Fin 4) y q)
  refine congrArg X0 (funext fun a => Fin.ext ?_)
  match a with
  | ⟨0, _⟩ => show 0 + 1 * 0 = 0; rfl
  | ⟨1, _⟩ => show 0 + 1 * y.val = y.val; omega
  | ⟨2, _⟩ => show 0 + 1 * q.val = q.val; omega

theorem slabT1 (X0 : Vec Ideal S4x5000x64 .f32) (y : Fin 5000) (q : Fin 64) :
    shapeCast (s := S1x5000x64) S5000x64 (View.ld X0 rT1) shapeCasts_S1x5000x64_S5000x64 (ix2 y q) = X0 (ix3 (1 : Fin 4) y q) := by
  refine (shapeCast_1ab_ab_apply (a := 5000) (b := 64) _ _ y q).trans ?_
  show X0 (rT1.idx (ix3 (0 : Fin 1) y q)) = X0 (ix3 (1 : Fin 4) y q)
  refine congrArg X0 (funext fun a => Fin.ext ?_)
  match a with
  | ⟨0, _⟩ => show 1 + 1 * 0 = 1; rfl
  | ⟨1, _⟩ => show 0 + 1 * y.val = y.val; omega
  | ⟨2, _⟩ => show 0 + 1 * q.val = q.val; omega

theorem slabT2 (X0 : Vec Ideal S4x5000x64 .f32) (y : Fin 5000) (q : Fin 64) :
    shapeCast (s := S1x5000x64) S5000x64 (View.ld X0 rT2) shapeCasts_S1x5000x64_S5000x64 (ix2 y q) = X0 (ix3 (2 : Fin 4) y q) := by
  refine (shapeCast_1ab_ab_apply (a := 5000) (b := 64) _ _ y q).trans ?_
  show X0 (rT2.idx (ix3 (0 : Fin 1) y q)) = X0 (ix3 (2 : Fin 4) y q)
  refine congrArg X0 (funext fun a => Fin.ext ?_)
  match a with
  | ⟨0, _⟩ => show 2 + 1 * 0 = 2; rfl
  | ⟨1, _⟩ => show 0 + 1 * y.val = y.val; omega
  | ⟨2, _⟩ => show 0 + 1 * q.val = q.val; omega

theorem slabT3 (X0 : Vec Ideal S4x5000x64 .f32) (y : Fin 5000) (q : Fin 64) :
    shapeCast (s := S1x5000x64) S5000x64 (View.ld X0 rT3) shapeCasts_S1x5000x64_S5000x64 (ix2 y q) = X0 (ix3 (3 : Fin 4) y q) := by
  refine (shapeCast_1ab_ab_apply (a := 5000) (b := 64) _ _ y q).trans ?_
  show X0 (rT3.idx (ix3 (0 : Fin 1) y q)) = X0 (ix3 (3 : Fin 4) y q)
  refine congrArg X0 (funext fun a => Fin.ext ?_)
  match a with
  | ⟨0, _⟩ => show 3 + 1 * 0 = 3; rfl
  | ⟨1, _⟩ => show 0 + 1 * y.val = y.val; omega
  | ⟨2, _⟩ => show 0 + 1 * q.val = q.val; omega

theorem slabW0 (X1 : Vec Ideal S4x64x64 .f32) (q : Fin 64) (cc : Fin 64) :
    shapeCast (s := S1x64x64) S64x64 (View.ld X1 rW0) shapeCasts_S1x64x64_S64x64 (ix2 q cc) = X1 (ix3 (0 : Fin 4) q cc) := by
  refine (shapeCast_1ab_ab_apply (a := 64) (b := 64) _ _ q cc).trans ?_
  show X1 (rW0.idx (ix3 (0 : Fin 1) q cc)) = X1 (ix3 (0 : Fin 4) q cc)
  refine congrArg X1 (funext fun a => Fin.ext ?_)
  match a with
  | ⟨0, _⟩ => show 0 + 1 * 0 = 0; rfl
  | ⟨1, _⟩ => show 0 + 1 * q.val = q.val; omega
  | ⟨2, _⟩ => show 0 + 1 * cc.val = cc.val; omega

theorem slabW1 (X1 : Vec Ideal S4x64x64 .f32) (q : Fin 64) (cc : Fin 64) :
    shapeCast (s := S1x64x64) S64x64 (View.ld X1 rW1) shapeCasts_S1x64x64_S64x64 (ix2 q cc) = X1 (ix3 (1 : Fin 4) q cc) := by
  refine (shapeCast_1ab_ab_apply (a := 64) (b := 64) _ _ q cc).trans ?_
  show X1 (rW1.idx (ix3 (0 : Fin 1) q cc)) = X1 (ix3 (1 : Fin 4) q cc)
  refine congrArg X1 (funext fun a => Fin.ext ?_)
  match a with
  | ⟨0, _⟩ => show 1 + 1 * 0 = 1; rfl
  | ⟨1, _⟩ => show 0 + 1 * q.val = q.val; omega
  | ⟨2, _⟩ => show 0 + 1 * cc.val = cc.val; omega

theorem slabW2 (X1 : Vec Ideal S4x64x64 .f32) (q : Fin 64) (cc : Fin 64) :
    shapeCast (s := S1x64x64) S64x64 (View.ld X1 rW2) shapeCasts_S1x64x64_S64x64 (ix2 q cc) = X1 (ix3 (2 : Fin 4) q cc) := by
  refine (shapeCast_1ab_ab_apply (a := 64) (b := 64) _ _ q cc).trans ?_
  show X1 (rW2.idx (ix3 (0 : Fin 1) q cc)) = X1 (ix3 (2 : Fin 4) q cc)
  refine congrArg X1 (funext fun a => Fin.ext ?_)
  match a with
  | ⟨0, _⟩ => show 2 + 1 * 0 = 2; rfl
  | ⟨1, _⟩ => show 0 + 1 * q.val = q.val; omega
  | ⟨2, _⟩ => show 0 + 1 * cc.val = cc.val; omega

theorem slabW3 (X1 : Vec Ideal S4x64x64 .f32) (q : Fin 64) (cc : Fin 64) :
    shapeCast (s := S1x64x64) S64x64 (View.ld X1 rW3) shapeCasts_S1x64x64_S64x64 (ix2 q cc) = X1 (ix3 (3 : Fin 4) q cc) := by
  refine (shapeCast_1ab_ab_apply (a := 64) (b := 64) _ _ q cc).trans ?_
  show X1 (rW3.idx (ix3 (0 : Fin 1) q cc)) = X1 (ix3 (3 : Fin 4) q cc)
  refine congrArg X1 (funext fun a => Fin.ext ?_)
  match a with
  | ⟨0, _⟩ => show 3 + 1 * 0 = 3; rfl
  | ⟨1, _⟩ => show 0 + 1 * q.val = q.val; omega
  | ⟨2, _⟩ => show 0 + 1 * cc.val = cc.val; omega

/-! ## A parameter row repeated over the block's rows -/

theorem castP (P : Vec Ideal S1x64 .f32) : shapeCast (s := S1x64) S1x64 (View.ld P rP) shapeCasts_S1x64_S1x64 = P :=
  (shapeCast_self (s := S1x64) (View.ld P rP) shapeCasts_S1x64_S1x64).trans (View.ld_unit_zero (S := S1x64) hz2 _ P)

theorem rowP' (v : FVec Ideal S1x64 .f32) (y : Fin 5000) (cc : Fin 64) :
    broadcastTo (s := S1x64) S5000x64 v broadcasts_S1x64_S5000x64 (ix2 y cc) = v (ix2 (0 : Fin 1) cc) :=
  broadcastTo_1b_ab_apply (a := 5000) (b := 64) _ _ y cc

theorem rsqrt_at {s : Shape} {φ : FTy} (x : FVec Ideal s φ) (i : s.Idx) : rsqrt x i = Ideal.rsqrt (x i) := rfl

/-! ## The products -/

theorem mm64_l0 (i : S5000x64.Idx) (q : dot_S5000x64_S64x64_S5000x64_1_0_0_1_n_n.contr.Idx) : (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem mm64_l1 (i : S5000x64.Idx) (q : dot_S5000x64_S64x64_S5000x64_1_0_0_1_n_n.contr.Idx) : (dot_S5000x64_S64x64_S5000x64_1_0_0_1_n_n.lhsIdx i q 1).val = (q ⟨0, by decide⟩).val :=
  dot_S5000x64_S64x64_S5000x64_1_0_0_1_n_n.lhsIdx_val_of_single rfl i q
theorem mm64_r0 (i : S5000x64.Idx) (q : dot_S5000x64_S64x64_S5000x64_1_0_0_1_n_n.contr.Idx) : (dot_S5000x64_S64x64_S5000x64_1_0_0_1_n_n.rhsIdx i q 0).val = (q ⟨0, by decide⟩).val :=
  dot_S5000x64_S64x64_S5000x64_1_0_0_1_n_n.rhsIdx_val_of_single rfl i q
theorem mm64_r1 (i : S5000x64.Idx) (q : dot_S5000x64_S64x64_S5000x64_1_0_0_1_n_n.contr.Idx) : (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl
/-- Entry (r, c) of the product is the sum over the contracted coordinate of the row's entries times the column's. -/
theorem mm64 (A : FVec Ideal S5000x64 .bf16) (B : FVec Ideal S64x64 .bf16) (r : Fin 5000) (cc : Fin 64) :
    matmul dot_S5000x64_S64x64_S5000x64_1_0_0_1_n_n none A B (constant S5000x64 .f32 0x00000000#32) (ix2 r cc) = ∑ q : Fin 64, A (ix2 r q) * B (ix2 q cc) := by
  simp only [matmul]
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 r cc) ((contrEquiv1 dot_S5000x64_S64x64_S5000x64_1_0_0_1_n_n 64 rfl rfl).symm k) = ix2 r k := funext fun a => Fin.ext (by
    match a with
    | ⟨0, _⟩ => exact mm64_l0 _ _
    | ⟨1, _⟩ => exact (mm64_l1 _ _).trans hk)
  have er : dot_S5000x64_S64x64_S5000x64_1_0_0_1_n_n.rhsIdx (ix2 r cc) ((contrEquiv1 dot_S5000x64_S64x64_S5000x64_1_0_0_1_n_n 64 rfl rfl).symm k) = ix2 k cc := funext fun a => Fin.ext (by
    match a with
    | ⟨0, _⟩ => exact (mm64_r0 _ _).trans hk
    | ⟨1, _⟩ => exact mm64_r1 _ _)
  rw [el, er]

theorem mm16_l0 (i : S5000x16.Idx) (q : dot_S5000x64_S64x16_S5000x16_1_0_0_1_n_n.contr.Idx) : (dot_S5000x64_S64x16_S5000x16_1_0_0_1_n_n.lhsIdx i q 0).val = (i 0).val := by
  unfold DotDims.lhsIdx
  rw [dif_neg (show ¬(0 : Fin S5000x64.rank) ∈ dot_S5000x64_S64x16_S5000x16_1_0_0_1_n_n.lhsBatch by decide), dif_pos (show (0 : Fin S5000x64.rank) ∈ dot_S5000x64_S64x16_S5000x16_1_0_0_1_n_n.lhsNonContracting by decide)]
  rfl
theorem mm16_l1 (i : S5000x16.Idx) (q : dot_S5000x64_S64x16_S5000x16_1_0_0_1_n_n.contr.Idx) : (dot_S5000x64_S64x16_S5000x16_1_0_0_1_n_n.lhsIdx i q 1).val = (q ⟨0, by decide⟩).val :=
  dot_S5000x64_S64x16_S5000x16_1_0_0_1_n_n.lhsIdx_val_of_single rfl i q
theorem mm16_r0 (i : S5000x16.Idx) (q : dot_S5000x64_S64x16_S5000x16_1_0_0_1_n_n.contr.Idx) : (dot_S5000x64_S64x16_S5000x16_1_0_0_1_n_n.rhsIdx i q 0).val = (q ⟨0, by decide⟩).val :=
  dot_S5000x64_S64x16_S5000x16_1_0_0_1_n_n.rhsIdx_val_of_single rfl i q
theorem mm16_r1 (i : S5000x16.Idx) (q : dot_S5000x64_S64x16_S5000x16_1_0_0_1_n_n.contr.Idx) : (dot_S5000x64_S64x16_S5000x16_1_0_0_1_n_n.rhsIdx i q 1).val = (i 1).val := by
  unfold DotDims.rhsIdx
  rw [dif_neg (show ¬(1 : Fin S64x16.rank) ∈ dot_S5000x64_S64x16_S5000x16_1_0_0_1_n_n.rhsBatch by decide), dif_pos (show (1 : Fin S64x16.rank) ∈ dot_S5000x64_S64x16_S5000x16_1_0_0_1_n_n.rhsNonContracting by decide)]
  rfl
/-- Entry (r, c) of the product is the sum over the contracted coordinate of the row's entries times the column's. -/
theorem mm16 (A : FVec Ideal S5000x64 .bf16) (B : FVec Ideal S64x16 .bf16) (r : Fin 5000) (cc : Fin 16) :
    matmul dot_S5000x64_S64x16_S5000x16_1_0_0_1_n_n none A B (constant S5000x16 .f32 0x00000000#32) (ix2 r cc) = ∑ q : Fin 64, A (ix2 r q) * B (ix2 q cc) := by
  simp only [matmul]
  rw [Ideal.matmul_constant_zero_apply, ← Equiv.sum_comp (contrEquiv1 dot_S5000x64_S64x16_S5000x16_1_0_0_1_n_n 64 rfl rfl).symm]
  refine Finset.sum_congr rfl fun k _ => ?_
  have hk := contrEquiv1_symm_val dot_S5000x64_S64x16_S5000x16_1_0_0_1_n_n 64 rfl rfl k
  have el : dot_S5000x64_S64x16_S5000x16_1_0_0_1_n_n.lhsIdx (ix2 r cc) ((contrEquiv1 dot_S5000x64_S64x16_S5000x16_1_0_0_1_n_n 64 rfl rfl).symm k) = ix2 r k := funext fun a => Fin.ext (by
    match a with
    | ⟨0, _⟩ => exact mm16_l0 _ _
    | ⟨1, _⟩ => exact (mm16_l1 _ _).trans hk)
  have er : dot_S5000x64_S64x16_S5000x16_1_0_0_1_n_n.rhsIdx (ix2 r cc) ((contrEquiv1 dot_S5000x64_S64x16_S5000x16_1_0_0_1_n_n 64 rfl rfl).symm k) = ix2 k cc := funext fun a => Fin.ext (by
    match a with
    | ⟨0, _⟩ => exact (mm16_r0 _ _).trans hk
    | ⟨1, _⟩ => exact mm16_r1 _ _)
  rw [el, er]

/-! ## The four slab products, re-indexed -/

theorem msum0 (X0 : Vec Ideal S4x5000x64 .f32) (X1 : Vec Ideal S4x64x64 .f32) (y : Fin 5000) (cc : Fin 64) :
    (∑ q : Fin 64, shapeCast (s := S1x5000x64) S5000x64 (View.ld X0 rT0) shapeCasts_S1x5000x64_S5000x64 (ix2 y q)
        * shapeCast (s := S1x64x64) S64x64 (View.ld X1 rW0) shapeCasts_S1x64x64_S64x64 (ix2 q cc))
      = ∑ q : Fin 64, X0 (ix3 (0 : Fin 4) y q) * X1 (ix3 (0 : Fin 4) q cc) :=
  Finset.sum_congr rfl fun q _ => by rw [slabT0, slabW0]

theorem msum1 (X0 : Vec Ideal S4x5000x64 .f32) (X1 : Vec Ideal S4x64x64 .f32) (y : Fin 5000) (cc : Fin 64) :
    (∑ q : Fin 64, shapeCast (s := S1x5000x64) S5000x64 (View.ld X0 rT1) shapeCasts_S1x5000x64_S5000x64 (ix2 y q)
        * shapeCast (s := S1x64x64) S64x64 (View.ld X1 rW1) shapeCasts_S1x64x64_S64x64 (ix2 q cc))
      = ∑ q : Fin 64, X0 (ix3 (1 : Fin 4) y q) * X1 (ix3 (1 : Fin 4) q cc) :=
  Finset.sum_congr rfl fun q _ => by rw [slabT1, slabW1]

theorem msum2 (X0 : Vec Ideal S4x5000x64 .f32) (X1 : Vec Ideal S4x64x64 .f32) (y : Fin 5000) (cc : Fin 64) :
    (∑ q : Fin 64, shapeCast (s := S1x5000x64) S5000x64 (View.ld X0 rT2) shapeCasts_S1x5000x64_S5000x64 (ix2 y q)
        * shapeCast (s := S1x64x64) S64x64 (View.ld X1 rW2) shapeCasts_S1x64x64_S64x64 (ix2 q cc))
      = ∑ q : Fin 64, X0 (ix3 (2 : Fin 4) y q) * X1 (ix3 (2 : Fin 4) q cc) :=
  Finset.sum_congr rfl fun q _ => by rw [slabT2, slabW2]

theorem msum3 (X0 : Vec Ideal S4x5000x64 .f32) (X1 : Vec Ideal S4x64x64 .f32) (y : Fin 5000) (cc : Fin 64) :
    (∑ q : Fin 64, shapeCast (s := S1x5000x64) S5000x64 (View.ld X0 rT3) shapeCasts_S1x5000x64_S5000x64 (ix2 y q)
        * shapeCast (s := S1x64x64) S64x64 (View.ld X1 rW3) shapeCasts_S1x64x64_S64x64 (ix2 q cc))
      = ∑ q : Fin 64, X0 (ix3 (3 : Fin 4) y q) * X1 (ix3 (3 : Fin 4) q cc) :=
  Finset.sum_congr rfl fun q _ => by rw [slabT3, slabW3]

/-! ## The block results at an entry -/

/-- Entry (y, c) of kernel 0's block result, from the blocks it loads. -/
theorem pay0_at (X0 : Vec Ideal S4x5000x64 .f32) (X1 : Vec Ideal S4x64x64 .f32) (X2 X3 X4 X5 X6 : Vec Ideal S1x64 .f32) (y : Fin 5000) (cc : Fin 64) :
    out0_7 X0 X1 X2 X3 X4 X5 X6 (ix2 y cc) = max (((((((FloatOps.ofBits (F := Ideal) .f32 0x00000000#32 + ∑ q : Fin 64, X0 (ix3 (0 : Fin 4) y q) * X1 (ix3 (0 : Fin 4) q cc))
          + ∑ q : Fin 64, X0 (ix3 (1 : Fin 4) y q) * X1 (ix3 (1 : Fin 4) q cc))
          + ∑ q : Fin 64, X0 (ix3 (2 : Fin 4) y q) * X1 (ix3 (2 : Fin 4) q cc))
          + ∑ q : Fin 64, X0 (ix3 (3 : Fin 4) y q) * X1 (ix3 (3 : Fin 4) q cc))
          + X2 (ix2 (0 : Fin 1) cc)) - X5 (ix2 (0 : Fin 1) cc))
          * (X3 (ix2 (0 : Fin 1) cc) * Ideal.rsqrt (X6 (ix2 (0 : Fin 1) cc) + FloatOps.ofBits (F := Ideal) .f32 0x3727C5AC#32))
        + X4 (ix2 (0 : Fin 1) cc)) (FloatOps.ofBits (F := Ideal) .f32 0x00000000#32) := by
  unfold out0_7
  rw [View.canon_unit_zero hz2]
  simp only [k0_pay1, k0_pay2, k0_pay3, k0_pay4, maximumf_apply, addf_apply, mulf_apply, subf_apply, broadcast_apply, truncf_apply, rowP', rsqrt_at, mm64]
  rw [msum0, msum1, msum2, msum3, castP X2, castP X3, castP X4, castP X5, castP X6]

/-- Entry (y, c) of kernel 1's block result, from the blocks it loads. -/
theorem pay1_at (X0 : Vec Ideal S4x5000x64 .f32) (X1 : Vec Ideal S4x64x64 .f32) (X2 X3 X4 X5 X6 : Vec Ideal S1x64 .f32) (y : Fin 5000) (cc : Fin 64) :
    out1_7 X0 X1 X2 X3 X4 X5 X6 (ix2 y cc) = max (((((((FloatOps.ofBits (F := Ideal) .f32 0x00000000#32 + ∑ q : Fin 64, X0 (ix3 (0 : Fin 4) y q) * X1 (ix3 (0 : Fin 4) q cc))
          + ∑ q : Fin 64, X0 (ix3 (1 : Fin 4) y q) * X1 (ix3 (1 : Fin 4) q cc))
          + ∑ q : Fin 64, X0 (ix3 (2 : Fin 4) y q) * X1 (ix3 (2 : Fin 4) q cc))
          + ∑ q : Fin 64, X0 (ix3 (3 : Fin 4) y q) * X1 (ix3 (3 : Fin 4) q cc))
          + X2 (ix2 (0 : Fin 1) cc)) - X5 (ix2 (0 : Fin 1) cc))
          * (X3 (ix2 (0 : Fin 1) cc) * Ideal.rsqrt (X6 (ix2 (0 : Fin 1) cc) + FloatOps.ofBits (F := Ideal) .f32 0x3727C5AC#32))
        + X4 (ix2 (0 : Fin 1) cc)) (FloatOps.ofBits (F := Ideal) .f32 0x00000000#32) := by
  unfold out1_7
  rw [View.canon_unit_zero hz2]
  simp only [k1_pay1, k1_pay2, k1_pay3, k1_pay4, maximumf_apply, addf_apply, mulf_apply, subf_apply, broadcast_apply, truncf_apply, rowP', rsqrt_at, mm64]
  rw [msum0, msum1, msum2, msum3, castP X2, castP X3, castP X4, castP X5, castP X6]

theorem castH (X : Vec Ideal S64x16 .f32) : View.ld X rH = X := View.ld_unit_zero (S := S64x16) hz2 _ X

theorem castQ (P : Vec Ideal S1x16 .f32) : shapeCast (s := S1x16) S1x16 (View.ld P rQ) shapeCasts_S1x16_S1x16 = P :=
  (shapeCast_self (s := S1x16) (View.ld P rQ) shapeCasts_S1x16_S1x16).trans (View.ld_unit_zero (S := S1x16) hz2 _ P)

theorem rowQ' (v : FVec Ideal S1x16 .f32) (y : Fin 5000) (cc : Fin 16) :
    broadcastTo (s := S1x16) S5000x16 v broadcasts_S1x16_S5000x16 (ix2 y cc) = v (ix2 (0 : Fin 1) cc) :=
  broadcastTo_1b_ab_apply (a := 5000) (b := 16) _ _ y cc

/-- Entry (y, c) of the last kernel's block result: row y of the clamped layer times column c of the head weight, plus the
    head bias. -/
theorem pay2_at (X0 : Vec Ideal S4x5000x64 .f32) (X1 : Vec Ideal S4x64x64 .f32) (X2 X3 X4 X5 X6 : Vec Ideal S1x64 .f32)
    (X7 : Vec Ideal S64x16 .f32) (X8 : Vec Ideal S1x16 .f32) (y : Fin 5000) (cc : Fin 16) :
    out2_9 X0 X1 X2 X3 X4 X5 X6 X7 X8 (ix2 y cc) =
      (∑ p : Fin 64, (max (((((((FloatOps.ofBits (F := Ideal) .f32 0x00000000#32 + ∑ q' : Fin 64, X0 (ix3 (0 : Fin 4) y q') * X1 (ix3 (0 : Fin 4) q' p))
          + ∑ q' : Fin 64, X0 (ix3 (1 : Fin 4) y q') * X1 (ix3 (1 : Fin 4) q' p))
          + ∑ q' : Fin 64, X0 (ix3 (2 : Fin 4) y q') * X1 (ix3 (2 : Fin 4) q' p))
          + ∑ q' : Fin 64, X0 (ix3 (3 : Fin 4) y q') * X1 (ix3 (3 : Fin 4) q' p))
          + X2 (ix2 (0 : Fin 1) p)) - X5 (ix2 (0 : Fin 1) p))
          * (X3 (ix2 (0 : Fin 1) p) * Ideal.rsqrt (X6 (ix2 (0 : Fin 1) p) + FloatOps.ofBits (F := Ideal) .f32 0x3727C5AC#32))
        + X4 (ix2 (0 : Fin 1) p)) (FloatOps.ofBits (F := Ideal) .f32 0x00000000#32)) * X7 (ix2 p cc)) + X8 (ix2 (0 : Fin 1) cc) := by
  unfold out2_9
  rw [View.canon_unit_zero hz2]
  simp only [k2_pay1, k2_pay2, k2_pay3, k2_pay4, maximumf_apply, addf_apply, mulf_apply, subf_apply, broadcast_apply, truncf_apply, rowP', rowQ', rsqrt_at, mm64, mm16]
  refine congrArg₂ (· + ·) (Finset.sum_congr rfl fun p _ => ?_) ?_
  · rw [msum0, msum1, msum2, msum3, castP X2, castP X3, castP X4, castP X5, castP X6, castH]
  · rw [castQ]

end Cert.KernelIdeal.Layers

end
-- ==== Proof.NetAt.lean ====
/-
  The network's layer and head read at one entry: a product's entry is the sum over the contracted coordinate; slab k of
  the weight array read at (q, c) is the array at (k, q, c); a parameter vector repeated over the rows reads at (r, c) the
  vector at c.
-/
import proofs.«127831_j29308856828499_2_alg».proof.Proof.Net
import proofs.«127831_j29308856828499_2_alg».proof.Proof.Gen.ReferenceIdeal
import Idealize.ShloMosaic.Lib.ValueIdx
import Idealize.ShloMosaic.Lib.ValueLayout
import Idealize.ShloMosaic.Lib.Pipeline.Value
import Idealize.ShloMosaic.PureOps.Ideal.Laws

noncomputable section

namespace Cert.Net

open Cert.ReferenceIdeal
open Idealize.ShloMosaic Idealize.ShloMosaic.ValueIdx
open scoped BigOperators

open Cert.ReferenceIdeal.Facts₀ Cert.ReferenceIdeal.Facts

/-! ## The products -/

theorem dot64_l0 (i : S100000x64.Idx) (q : dot_S100000x64_S64x64_S100000x64_1_0_0_1_n_n.contr.Idx) : (dot_S100000x64_S64x64_S100000x64_1_0_0_1_n_n.lhsIdx i q 0).val = (i 0).val := by
  unfold DotDims.lhsIdx
  rw [dif_neg (show ¬(0 : Fin S100000x64.rank) ∈ dot_S100000x64_S64x64_S100000x64_1_0_0_1_n_n.lhsBatch by decide), dif_pos (show (0 : Fin S100000x64.rank) ∈ dot_S100000x64_S64x64_S100000x64_1_0_0_1_n_n.lhsNonContracting by decide)]
  rfl
theorem dot64_l1 (i : S100000x64.Idx) (q : dot_S100000x64_S64x64_S100000x64_1_0_0_1_n_n.contr.Idx) : (dot_S100000x64_S64x64_S100000x64_1_0_0_1_n_n.lhsIdx i q 1).val = (q ⟨0, by decide⟩).val :=
  dot_S100000x64_S64x64_S100000x64_1_0_0_1_n_n.lhsIdx_val_of_single rfl i q
theorem dot64_r0 (i : S100000x64.Idx) (q : dot_S100000x64_S64x64_S100000x64_1_0_0_1_n_n.contr.Idx) : (dot_S100000x64_S64x64_S100000x64_1_0_0_1_n_n.rhsIdx i q 0).val = (q ⟨0, by decide⟩).val :=
  dot_S100000x64_S64x64_S100000x64_1_0_0_1_n_n.rhsIdx_val_of_single rfl i q
theorem dot64_r1 (i : S100000x64.Idx) (q : dot_S100000x64_S64x64_S100000x64_1_0_0_1_n_n.contr.Idx) : (dot_S100000x64_S64x64_S100000x64_1_0_0_1_n_n.rhsIdx i q 1).val = (i 1).val := by
  unfold DotDims.rhsIdx
  rw [dif_neg (show ¬(1 : Fin S64x64.rank) ∈ dot_S100000x64_S64x64_S100000x64_1_0_0_1_n_n.rhsBatch by decide), dif_pos (show (1 : Fin S64x64.rank) ∈ dot_S100000x64_S64x64_S100000x64_1_0_0_1_n_n.rhsNonContracting by decide)]
  rfl
/-- Entry (r, c) of the product is the sum over the contracted coordinate of the row's entries times the column's. -/
theorem dot64 (A : FVec Ideal S100000x64 .f32) (B : FVec Ideal S64x64 .f32) (r : Fin 100000) (cc : Fin 64) :
    Host.dotGeneral (F := Ideal) dot_S100000x64_S64x64_S100000x64_1_0_0_1_n_n none A B (ix2 r cc) = ∑ q : Fin 64, A (ix2 r q) * B (ix2 q cc) := by
  simp only [Host.dotGeneral]
  rw [Ideal.dotGeneral_apply, ← Equiv.sum_comp (contrEquiv1 dot_S100000x64_S64x64_S100000x64_1_0_0_1_n_n 64 rfl rfl).symm]
  refine Finset.sum_congr rfl fun k _ => ?_
  have hk := contrEquiv1_symm_val dot_S100000x64_S64x64_S100000x64_1_0_0_1_n_n 64 rfl rfl k
  have el : dot_S100000x64_S64x64_S100000x64_1_0_0_1_n_n.lhsIdx (ix2 r cc) ((contrEquiv1 dot_S100000x64_S64x64_S100000x64_1_0_0_1_n_n 64 rfl rfl).symm k) = ix2 r k := funext fun a => Fin.ext (by
    match a with
    | ⟨0, _⟩ => exact dot64_l0 _ _
    | ⟨1, _⟩ => exact (dot64_l1 _ _).trans hk)
  have er : dot_S100000x64_S64x64_S100000x64_1_0_0_1_n_n.rhsIdx (ix2 r cc) ((contrEquiv1 dot_S100000x64_S64x64_S100000x64_1_0_0_1_n_n 64 rfl rfl).symm k) = ix2 k cc := funext fun a => Fin.ext (by
    match a with
    | ⟨0, _⟩ => exact (dot64_r0 _ _).trans hk
    | ⟨1, _⟩ => exact dot64_r1 _ _)
  rw [el, er]

theorem dot16_l0 (i : S100000x16.Idx) (q : dot_S100000x64_S64x16_S100000x16_1_0_0_1_n_n.contr.Idx) : (dot_S100000x64_S64x16_S100000x16_1_0_0_1_n_n.lhsIdx i q 0).val = (i 0).val := by
  unfold DotDims.lhsIdx
  rw [dif_neg (show ¬(0 : Fin S100000x64.rank) ∈ dot_S100000x64_S64x16_S100000x16_1_0_0_1_n_n.lhsBatch by decide), dif_pos (show (0 : Fin S100000x64.rank) ∈ dot_S100000x64_S64x16_S100000x16_1_0_0_1_n_n.lhsNonContracting by decide)]
  rfl
theorem dot16_l1 (i : S100000x16.Idx) (q : dot_S100000x64_S64x16_S100000x16_1_0_0_1_n_n.contr.Idx) : (dot_S100000x64_S64x16_S100000x16_1_0_0_1_n_n.lhsIdx i q 1).val = (q ⟨0, by decide⟩).val :=
  dot_S100000x64_S64x16_S100000x16_1_0_0_1_n_n.lhsIdx_val_of_single rfl i q
theorem dot16_r0 (i : S100000x16.Idx) (q : dot_S100000x64_S64x16_S100000x16_1_0_0_1_n_n.contr.Idx) : (dot_S100000x64_S64x16_S100000x16_1_0_0_1_n_n.rhsIdx i q 0).val = (q ⟨0, by decide⟩).val :=
  dot_S100000x64_S64x16_S100000x16_1_0_0_1_n_n.rhsIdx_val_of_single rfl i q
theorem dot16_r1 (i : S100000x16.Idx) (q : dot_S100000x64_S64x16_S100000x16_1_0_0_1_n_n.contr.Idx) : (dot_S100000x64_S64x16_S100000x16_1_0_0_1_n_n.rhsIdx i q 1).val = (i 1).val := by
  unfold DotDims.rhsIdx
  rw [dif_neg (show ¬(1 : Fin S64x16.rank) ∈ dot_S100000x64_S64x16_S100000x16_1_0_0_1_n_n.rhsBatch by decide), dif_pos (show (1 : Fin S64x16.rank) ∈ dot_S100000x64_S64x16_S100000x16_1_0_0_1_n_n.rhsNonContracting by decide)]
  rfl
/-- Entry (r, c) of the product is the sum over the contracted coordinate of the row's entries times the column's. -/
theorem dot16 (A : FVec Ideal S100000x64 .f32) (B : FVec Ideal S64x16 .f32) (r : Fin 100000) (cc : Fin 16) :
    Host.dotGeneral (F := Ideal) dot_S100000x64_S64x16_S100000x16_1_0_0_1_n_n none A B (ix2 r cc) = ∑ q : Fin 64, A (ix2 r q) * B (ix2 q cc) := by
  simp only [Host.dotGeneral]
  rw [Ideal.dotGeneral_apply, ← Equiv.sum_comp (contrEquiv1 dot_S100000x64_S64x16_S100000x16_1_0_0_1_n_n 64 rfl rfl).symm]
  refine Finset.sum_congr rfl fun k _ => ?_
  have hk := contrEquiv1_symm_val dot_S100000x64_S64x16_S100000x16_1_0_0_1_n_n 64 rfl rfl k
  have el : dot_S100000x64_S64x16_S100000x16_1_0_0_1_n_n.lhsIdx (ix2 r cc) ((contrEquiv1 dot_S100000x64_S64x16_S100000x16_1_0_0_1_n_n 64 rfl rfl).symm k) = ix2 r k := funext fun a => Fin.ext (by
    match a with
    | ⟨0, _⟩ => exact dot16_l0 _ _
    | ⟨1, _⟩ => exact (dot16_l1 _ _).trans hk)
  have er : dot_S100000x64_S64x16_S100000x16_1_0_0_1_n_n.rhsIdx (ix2 r cc) ((contrEquiv1 dot_S100000x64_S64x16_S100000x16_1_0_0_1_n_n 64 rfl rfl).symm k) = ix2 k cc := funext fun a => Fin.ext (by
    match a with
    | ⟨0, _⟩ => exact (dot16_r0 _ _).trans hk
    | ⟨1, _⟩ => exact dot16_r1 _ _)
  rw [el, er]

/-! ## The slabs of the weight array -/

theorem wslab0 (Wk : FVec Ideal S4x64x64 .f32) (q : Fin 64) (cc : Fin 64) :
    shapeCast S64x64 (extractStridedSlice S1x64x64 ![0, 0, 0] Wk slices_S4x64x64_S1x64x64_0_0_0) shapeCasts_S1x64x64_S64x64 (ix2 q cc) = Wk (ix3 (0 : Fin 4) q cc) := by
  refine (shapeCast_1ab_ab_apply (a := 64) (b := 64) _ _ q cc).trans ?_
  exact extractStridedSlice_apply ![0, 0, 0] Wk slices_S4x64x64_S1x64x64_0_0_0 (ix3 (0 : Fin 1) q cc) (ix3 (0 : Fin 4) q cc) (fun a => match a with
    | ⟨0, _⟩ => by show 0 = 0 + 0; rfl
    | ⟨1, _⟩ => by show q.val = 0 + q.val; omega
    | ⟨2, _⟩ => by show cc.val = 0 + cc.val; omega)

theorem wslab1 (Wk : FVec Ideal S4x64x64 .f32) (q : Fin 64) (cc : Fin 64) :
    shapeCast S64x64 (extractStridedSlice S1x64x64 ![1, 0, 0] Wk slices_S4x64x64_S1x64x64_1_0_0) shapeCasts_S1x64x64_S64x64 (ix2 q cc) = Wk (ix3 (1 : Fin 4) q cc) := by
  refine (shapeCast_1ab_ab_apply (a := 64) (b := 64) _ _ q cc).trans ?_
  exact extractStridedSlice_apply ![1, 0, 0] Wk slices_S4x64x64_S1x64x64_1_0_0 (ix3 (0 : Fin 1) q cc) (ix3 (1 : Fin 4) q cc) (fun a => match a with
    | ⟨0, _⟩ => by show 1 = 1 + 0; rfl
    | ⟨1, _⟩ => by show q.val = 0 + q.val; omega
    | ⟨2, _⟩ => by show cc.val = 0 + cc.val; omega)

theorem wslab2 (Wk : FVec Ideal S4x64x64 .f32) (q : Fin 64) (cc : Fin 64) :
    shapeCast S64x64 (extractStridedSlice S1x64x64 ![2, 0, 0] Wk slices_S4x64x64_S1x64x64_2_0_0) shapeCasts_S1x64x64_S64x64 (ix2 q cc) = Wk (ix3 (2 : Fin 4) q cc) := by
  refine (shapeCast_1ab_ab_apply (a := 64) (b := 64) _ _ q cc).trans ?_
  exact extractStridedSlice_apply ![2, 0, 0] Wk slices_S4x64x64_S1x64x64_2_0_0 (ix3 (0 : Fin 1) q cc) (ix3 (2 : Fin 4) q cc) (fun a => match a with
    | ⟨0, _⟩ => by show 2 = 2 + 0; rfl
    | ⟨1, _⟩ => by show q.val = 0 + q.val; omega
    | ⟨2, _⟩ => by show cc.val = 0 + cc.val; omega)

theorem wslab3 (Wk : FVec Ideal S4x64x64 .f32) (q : Fin 64) (cc : Fin 64) :
    shapeCast S64x64 (extractStridedSlice S1x64x64 ![3, 0, 0] Wk slices_S4x64x64_S1x64x64_3_0_0) shapeCasts_S1x64x64_S64x64 (ix2 q cc) = Wk (ix3 (3 : Fin 4) q cc) := by
  refine (shapeCast_1ab_ab_apply (a := 64) (b := 64) _ _ q cc).trans ?_
  exact extractStridedSlice_apply ![3, 0, 0] Wk slices_S4x64x64_S1x64x64_3_0_0 (ix3 (0 : Fin 1) q cc) (ix3 (3 : Fin 4) q cc) (fun a => match a with
    | ⟨0, _⟩ => by show 3 = 3 + 0; rfl
    | ⟨1, _⟩ => by show q.val = 0 + q.val; omega
    | ⟨2, _⟩ => by show cc.val = 0 + cc.val; omega)

/-! ## A parameter vector repeated over the rows, and the zero array -/

theorem prow (p : FVec Ideal S64 .f32) (r : Fin 100000) (cc : Fin 64) :
    broadcastInDim S100000x64 ![0, 1] bcast_S1x64_S100000x64_0_1 (broadcastInDim S1x64 ![1] bcast_S64_S1x64_1 p) (ix2 r cc) = p (ix1 cc) := by
  refine (broadcastInDim_apply _ bcast_S1x64_S100000x64_0_1 _ (ix2 r cc) (ix2 (0 : Fin 1) cc) (fun a => match a with
    | ⟨0, _⟩ => by show 0 = if (1 : Nat) = 1 then 0 else r.val; rw [if_pos rfl]
    | ⟨1, _⟩ => by show cc.val = if (64 : Nat) = 1 then 0 else cc.val; rw [if_neg (by decide)])).trans ?_
  exact broadcastInDim_apply _ bcast_S64_S1x64_1 p (ix2 (0 : Fin 1) cc) (ix1 cc) (fun a => match a with
    | ⟨0, _⟩ => by show cc.val = if (64 : Nat) = 1 then 0 else cc.val; rw [if_neg (by decide)])

theorem prow16 (p : FVec Ideal S16 .f32) (r : Fin 100000) (cc : Fin 16) :
    broadcastInDim S100000x16 ![0, 1] bcast_S1x16_S100000x16_0_1 (broadcastInDim S1x16 ![1] bcast_S16_S1x16_1 p) (ix2 r cc) = p (ix1 cc) := by
  refine (broadcastInDim_apply _ bcast_S1x16_S100000x16_0_1 _ (ix2 r cc) (ix2 (0 : Fin 1) cc) (fun a => match a with
    | ⟨0, _⟩ => by show 0 = if (1 : Nat) = 1 then 0 else r.val; rw [if_pos rfl]
    | ⟨1, _⟩ => by show cc.val = if (16 : Nat) = 1 then 0 else cc.val; rw [if_neg (by decide)])).trans ?_
  exact broadcastInDim_apply _ bcast_S16_S1x16_1 p (ix2 (0 : Fin 1) cc) (ix1 cc) (fun a => match a with
    | ⟨0, _⟩ => by show cc.val = if (16 : Nat) = 1 then 0 else cc.val; rw [if_neg (by decide)])

theorem zeros_at (w : BitVec 32) (i : S100000x64.Idx) :
    broadcastInDim S100000x64 ![] bcast_S_S100000x64 (constant (F := Ideal) S_ .f32 w) i = Ideal.ofBits .f32 w :=
  broadcastInDim_apply _ bcast_S_S100000x64 _ i ix0 (fun a => a.elim0)

theorem eps_at (w : BitVec 32) (i : S64.Idx) :
    broadcastInDim S64 ![] bcast_S_S64 (constant (F := Ideal) S_ .f32 w) i = Ideal.ofBits .f32 w :=
  broadcastInDim_apply _ bcast_S_S64 _ i ix0 (fun a => a.elim0)

theorem hrsqrt_at {s : Shape} {φ : FTy} (x : FVec Ideal s φ) (i : s.Idx) : Host.rsqrt x i = Ideal.rsqrt (x i) := rfl

/-! ## The layer and the head at an entry -/

/-- Entry (r, c) of a layer: the four products' entries summed, the bias added, the mean subtracted, the scale applied,
    the shift added, clamped at zero. -/
theorem layer_at (t0 t1 t2 t3 : FVec Ideal S100000x64 .f32) (Wk : FVec Ideal S4x64x64 .f32) (b g be rm rv : FVec Ideal S64 .f32) (r : Fin 100000) (cc : Fin 64) :
    layer (F := Ideal) t0 t1 t2 t3 Wk b g be rm rv (ix2 r cc) = max ((((((∑ q : Fin 64, t0 (ix2 r q) * Wk (ix3 (0 : Fin 4) q cc)) + ∑ q : Fin 64, t1 (ix2 r q) * Wk (ix3 (1 : Fin 4) q cc))
          + ∑ q : Fin 64, t2 (ix2 r q) * Wk (ix3 (2 : Fin 4) q cc)) + ∑ q : Fin 64, t3 (ix2 r q) * Wk (ix3 (3 : Fin 4) q cc))
          + b (ix1 cc) - rm (ix1 cc)) * (g (ix1 cc) * Ideal.rsqrt (rv (ix1 cc) + Ideal.ofBits .f32 0x3727C5AC#32)) + be (ix1 cc))
        (Ideal.ofBits .f32 0x00000000#32) := by
  unfold layer
  simp only [maximumf_apply, addf_apply, mulf_apply, subf_apply, dot64, wslab0, wslab1, wslab2, wslab3]
  rw [prow b r cc, prow rm r cc, prow be r cc, prow _ r cc, zeros_at]
  simp only [mulf_apply, addf_apply, hrsqrt_at]
  rw [eps_at]

/-- Entry (r, c) of the head. -/
theorem head_at (h : FVec Ideal S100000x64 .f32) (HW : FVec Ideal S64x16 .f32) (hb : FVec Ideal S16 .f32) (r : Fin 100000) (cc : Fin 16) :
    head (F := Ideal) h HW hb (ix2 r cc) = (∑ q : Fin 64, h (ix2 r q) * HW (ix2 q cc)) + hb (ix1 cc) := by
  unfold head
  simp only [addf_apply, dot16]
  rw [prow16 hb r cc]

end Cert.Net

end
-- ==== Proof.LayerPoint.lean ====
/-
  A block's entry and the network's entry agree. Row y of block t of an array is row r = 5000·t + y of the array; given
  that the loaded blocks are the rows r of the four polynomials, the whole weight array and the parameter rows, entry
  (y, c) of the kernel's block result and entry (r, c) of the layer are the same expression: the kernel starts its sum of
  four products from a zero array, and 0 + a = a on the extended reals; nothing else differs.
-/
import proofs.«127831_j29308856828499_2_alg».proof.Proof.IdealPoint
import proofs.«127831_j29308856828499_2_alg».proof.Proof.NetAt

noncomputable section

namespace Cert.LayerPoint

open Idealize.ShloMosaic Idealize.ShloMosaic.ValueIdx
open Cert.KernelIdeal.Layers
open scoped BigOperators

theorem layer_point0 (X0 : Vec Ideal Cert.KernelIdeal.S4x5000x64 .f32) (X1 : Vec Ideal Cert.KernelIdeal.S4x64x64 .f32) (X2 X3 X4 X5 X6 : Vec Ideal Cert.KernelIdeal.S1x64 .f32)
    (t0 t1 t2 t3 : FVec Ideal Cert.ReferenceIdeal.S100000x64 .f32) (Wk : FVec Ideal Cert.ReferenceIdeal.S4x64x64 .f32) (b g be rm rv : FVec Ideal Cert.ReferenceIdeal.S64 .f32)
    (r : Fin 100000) (y : Fin 5000) (cc : Fin 64)
    (h0 : ∀ q : Fin 64, X0 (ix3 (0 : Fin 4) y q) = t0 (ix2 r q)) (h1 : ∀ q : Fin 64, X0 (ix3 (1 : Fin 4) y q) = t1 (ix2 r q))
    (h2 : ∀ q : Fin 64, X0 (ix3 (2 : Fin 4) y q) = t2 (ix2 r q)) (h3 : ∀ q : Fin 64, X0 (ix3 (3 : Fin 4) y q) = t3 (ix2 r q))
    (hW : ∀ (k : Fin 4) (q p : Fin 64), X1 (ix3 k q p) = Wk (ix3 k q p))
    (hb : ∀ p : Fin 64, X2 (ix2 (0 : Fin 1) p) = b (ix1 p)) (hg : ∀ p : Fin 64, X3 (ix2 (0 : Fin 1) p) = g (ix1 p))
    (hbe : ∀ p : Fin 64, X4 (ix2 (0 : Fin 1) p) = be (ix1 p)) (hrm : ∀ p : Fin 64, X5 (ix2 (0 : Fin 1) p) = rm (ix1 p))
    (hrv : ∀ p : Fin 64, X6 (ix2 (0 : Fin 1) p) = rv (ix1 p)) :
    out0_7 X0 X1 X2 X3 X4 X5 X6 (ix2 y cc) = Cert.Net.layer (F := Ideal) t0 t1 t2 t3 Wk b g be rm rv (ix2 r cc) := by
  rw [pay0_at, Cert.Net.layer_at]
  simp only [h0, h1, h2, h3, hW, hb, hg, hbe, hrm, hrv, Ideal.ofBits_def]
  rw [Ideal.ofBits_zero_f32, zero_add]

theorem layer_point1 (X0 : Vec Ideal Cert.KernelIdeal.S4x5000x64 .f32) (X1 : Vec Ideal Cert.KernelIdeal.S4x64x64 .f32) (X2 X3 X4 X5 X6 : Vec Ideal Cert.KernelIdeal.S1x64 .f32)
    (t0 t1 t2 t3 : FVec Ideal Cert.ReferenceIdeal.S100000x64 .f32) (Wk : FVec Ideal Cert.ReferenceIdeal.S4x64x64 .f32) (b g be rm rv : FVec Ideal Cert.ReferenceIdeal.S64 .f32)
    (r : Fin 100000) (y : Fin 5000) (cc : Fin 64)
    (h0 : ∀ q : Fin 64, X0 (ix3 (0 : Fin 4) y q) = t0 (ix2 r q)) (h1 : ∀ q : Fin 64, X0 (ix3 (1 : Fin 4) y q) = t1 (ix2 r q))
    (h2 : ∀ q : Fin 64, X0 (ix3 (2 : Fin 4) y q) = t2 (ix2 r q)) (h3 : ∀ q : Fin 64, X0 (ix3 (3 : Fin 4) y q) = t3 (ix2 r q))
    (hW : ∀ (k : Fin 4) (q p : Fin 64), X1 (ix3 k q p) = Wk (ix3 k q p))
    (hb : ∀ p : Fin 64, X2 (ix2 (0 : Fin 1) p) = b (ix1 p)) (hg : ∀ p : Fin 64, X3 (ix2 (0 : Fin 1) p) = g (ix1 p))
    (hbe : ∀ p : Fin 64, X4 (ix2 (0 : Fin 1) p) = be (ix1 p)) (hrm : ∀ p : Fin 64, X5 (ix2 (0 : Fin 1) p) = rm (ix1 p))
    (hrv : ∀ p : Fin 64, X6 (ix2 (0 : Fin 1) p) = rv (ix1 p)) :
    out1_7 X0 X1 X2 X3 X4 X5 X6 (ix2 y cc) = Cert.Net.layer (F := Ideal) t0 t1 t2 t3 Wk b g be rm rv (ix2 r cc) := by
  rw [pay1_at, Cert.Net.layer_at]
  simp only [h0, h1, h2, h3, hW, hb, hg, hbe, hrm, hrv, Ideal.ofBits_def]
  rw [Ideal.ofBits_zero_f32, zero_add]

theorem head_point (X0 : Vec Ideal Cert.KernelIdeal.S4x5000x64 .f32) (X1 : Vec Ideal Cert.KernelIdeal.S4x64x64 .f32) (X2 X3 X4 X5 X6 : Vec Ideal Cert.KernelIdeal.S1x64 .f32)
    (t0 t1 t2 t3 : FVec Ideal Cert.ReferenceIdeal.S100000x64 .f32) (Wk : FVec Ideal Cert.ReferenceIdeal.S4x64x64 .f32) (b g be rm rv : FVec Ideal Cert.ReferenceIdeal.S64 .f32)
    (r : Fin 100000) (y : Fin 5000) (X7 : Vec Ideal Cert.KernelIdeal.S64x16 .f32) (X8 : Vec Ideal Cert.KernelIdeal.S1x16 .f32)
    (HW : FVec Ideal Cert.ReferenceIdeal.S64x16 .f32) (hv : FVec Ideal Cert.ReferenceIdeal.S16 .f32) (cc : Fin 16)
    (h0 : ∀ q : Fin 64, X0 (ix3 (0 : Fin 4) y q) = t0 (ix2 r q)) (h1 : ∀ q : Fin 64, X0 (ix3 (1 : Fin 4) y q) = t1 (ix2 r q))
    (h2 : ∀ q : Fin 64, X0 (ix3 (2 : Fin 4) y q) = t2 (ix2 r q)) (h3 : ∀ q : Fin 64, X0 (ix3 (3 : Fin 4) y q) = t3 (ix2 r q))
    (hW : ∀ (k : Fin 4) (q p : Fin 64), X1 (ix3 k q p) = Wk (ix3 k q p))
    (hb : ∀ p : Fin 64, X2 (ix2 (0 : Fin 1) p) = b (ix1 p)) (hg : ∀ p : Fin 64, X3 (ix2 (0 : Fin 1) p) = g (ix1 p))
    (hbe : ∀ p : Fin 64, X4 (ix2 (0 : Fin 1) p) = be (ix1 p)) (hrm : ∀ p : Fin 64, X5 (ix2 (0 : Fin 1) p) = rm (ix1 p))
    (hrv : ∀ p : Fin 64, X6 (ix2 (0 : Fin 1) p) = rv (ix1 p))
    (hH : ∀ (q : Fin 64) (p : Fin 16), X7 (ix2 q p) = HW (ix2 q p)) (hQ : ∀ p : Fin 16, X8 (ix2 (0 : Fin 1) p) = hv (ix1 p)) :
    out2_9 X0 X1 X2 X3 X4 X5 X6 X7 X8 (ix2 y cc)
      = Cert.Net.head (F := Ideal) (Cert.Net.layer (F := Ideal) t0 t1 t2 t3 Wk b g be rm rv) HW hv (ix2 r cc) := by
  rw [pay2_at, Cert.Net.head_at]
  refine congrArg₂ (· + ·) (Finset.sum_congr rfl fun p _ => ?_) (hQ cc)
  rw [Cert.Net.layer_at, hH]
  simp only [h0, h1, h2, h3, hW, hb, hg, hbe, hrm, hrv, Ideal.ofBits_def]
  rw [Ideal.ofBits_zero_f32, zero_add]

end Cert.LayerPoint

end
-- ==== Proof.IdealValue.lean ====
/-
  What each kernel leaves in its result array, as one function of the arrays it is entered with. The result's blocks
  tile the array by rows: block t is rows 5000·t … 5000·t + 4999. The stacked polynomials' block at t is the same rows of
  each of its four slabs; the weight array and the parameter rows are read whole at every point. So block t of the result
  is block t of the network's layer (for the last kernel: of the head of the layer), and the twenty blocks cover the array.
-/
import proofs.«127831_j29308856828499_2_alg».proof.Proof.LayerPoint

set_option maxRecDepth 16384

noncomputable section

namespace Cert.KernelIdeal.Layers

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

/-! ## The four polynomials stacked, read at an entry -/

/-- The stack of four arrays along a new leading axis, as the host builds it. -/
def stackK (t0 t1 t2 t3 : FVec Ideal S100000x64 .f32) : FVec Ideal S4x100000x64 .f32 :=
  concatenate S4x100000x64 0 [⟨S1x100000x64, broadcastInDim S1x100000x64 ![1, 2] bcast_S100000x64_S1x100000x64_1_2 t0⟩, ⟨S1x100000x64, broadcastInDim S1x100000x64 ![1, 2] bcast_S100000x64_S1x100000x64_1_2 t1⟩, ⟨S1x100000x64, broadcastInDim S1x100000x64 ![1, 2] bcast_S100000x64_S1x100000x64_1_2 t2⟩, ⟨S1x100000x64, broadcastInDim S1x100000x64 ![1, 2] bcast_S100000x64_S1x100000x64_1_2 t3⟩] concatenates_S1x100000x64_S1x100000x64_S1x100000x64_S1x100000x64_S4x100000x64_d0

theorem stack_at0 (t0 t1 t2 t3 : FVec Ideal S100000x64 .f32) (r : Fin 100000) (q : Fin 64) :
    stackK t0 t1 t2 t3 (ix3 (0 : Fin 4) r q) = t0 (ix2 r q) := by
  unfold stackK
  refine (concatenate_ofFn_unit_apply (t := S4x100000x64) (s₁ := S1x100000x64) (0 : Fin 3) (N := 4)
    (fun n : Fin 4 => broadcastInDim S1x100000x64 ![1, 2] bcast_S100000x64_S1x100000x64_1_2 ((![t0, t1, t2, t3] : Fin 4 → FVec Ideal S100000x64 .f32) n))
    concatenates_S1x100000x64_S1x100000x64_S1x100000x64_S1x100000x64_S4x100000x64_d0 rfl rfl (ix3 (0 : Fin 4) r q) (0 : Fin 4) rfl (ix3 (0 : Fin 1) r q)
    (fun b hb => match b with | ⟨0, _⟩ => absurd rfl hb | ⟨1, _⟩ => rfl | ⟨2, _⟩ => rfl)).trans ?_
  exact broadcastInDim_apply _ bcast_S100000x64_S1x100000x64_1_2 t0 (ix3 (0 : Fin 1) r q) (ix2 r q) (fun a => match a with
    | ⟨0, _⟩ => by show r.val = if (100000 : Nat) = 1 then 0 else r.val; rw [if_neg (by decide)]
    | ⟨1, _⟩ => by show q.val = if (64 : Nat) = 1 then 0 else q.val; rw [if_neg (by decide)])

theorem stack_at1 (t0 t1 t2 t3 : FVec Ideal S100000x64 .f32) (r : Fin 100000) (q : Fin 64) :
    stackK t0 t1 t2 t3 (ix3 (1 : Fin 4) r q) = t1 (ix2 r q) := by
  unfold stackK
  refine (concatenate_ofFn_unit_apply (t := S4x100000x64) (s₁ := S1x100000x64) (0 : Fin 3) (N := 4)
    (fun n : Fin 4 => broadcastInDim S1x100000x64 ![1, 2] bcast_S100000x64_S1x100000x64_1_2 ((![t0, t1, t2, t3] : Fin 4 → FVec Ideal S100000x64 .f32) n))
    concatenates_S1x100000x64_S1x100000x64_S1x100000x64_S1x100000x64_S4x100000x64_d0 rfl rfl (ix3 (1 : Fin 4) r q) (1 : Fin 4) rfl (ix3 (0 : Fin 1) r q)
    (fun b hb => match b with | ⟨0, _⟩ => absurd rfl hb | ⟨1, _⟩ => rfl | ⟨2, _⟩ => rfl)).trans ?_
  exact broadcastInDim_apply _ bcast_S100000x64_S1x100000x64_1_2 t1 (ix3 (0 : Fin 1) r q) (ix2 r q) (fun a => match a with
    | ⟨0, _⟩ => by show r.val = if (100000 : Nat) = 1 then 0 else r.val; rw [if_neg (by decide)]
    | ⟨1, _⟩ => by show q.val = if (64 : Nat) = 1 then 0 else q.val; rw [if_neg (by decide)])

theorem stack_at2 (t0 t1 t2 t3 : FVec Ideal S100000x64 .f32) (r : Fin 100000) (q : Fin 64) :
    stackK t0 t1 t2 t3 (ix3 (2 : Fin 4) r q) = t2 (ix2 r q) := by
  unfold stackK
  refine (concatenate_ofFn_unit_apply (t := S4x100000x64) (s₁ := S1x100000x64) (0 : Fin 3) (N := 4)
    (fun n : Fin 4 => broadcastInDim S1x100000x64 ![1, 2] bcast_S100000x64_S1x100000x64_1_2 ((![t0, t1, t2, t3] : Fin 4 → FVec Ideal S100000x64 .f32) n))
    concatenates_S1x100000x64_S1x100000x64_S1x100000x64_S1x100000x64_S4x100000x64_d0 rfl rfl (ix3 (2 : Fin 4) r q) (2 : Fin 4) rfl (ix3 (0 : Fin 1) r q)
    (fun b hb => match b with | ⟨0, _⟩ => absurd rfl hb | ⟨1, _⟩ => rfl | ⟨2, _⟩ => rfl)).trans ?_
  exact broadcastInDim_apply _ bcast_S100000x64_S1x100000x64_1_2 t2 (ix3 (0 : Fin 1) r q) (ix2 r q) (fun a => match a with
    | ⟨0, _⟩ => by show r.val = if (100000 : Nat) = 1 then 0 else r.val; rw [if_neg (by decide)]
    | ⟨1, _⟩ => by show q.val = if (64 : Nat) = 1 then 0 else q.val; rw [if_neg (by decide)])

theorem stack_at3 (t0 t1 t2 t3 : FVec Ideal S100000x64 .f32) (r : Fin 100000) (q : Fin 64) :
    stackK t0 t1 t2 t3 (ix3 (3 : Fin 4) r q) = t3 (ix2 r q) := by
  unfold stackK
  refine (concatenate_ofFn_unit_apply (t := S4x100000x64) (s₁ := S1x100000x64) (0 : Fin 3) (N := 4)
    (fun n : Fin 4 => broadcastInDim S1x100000x64 ![1, 2] bcast_S100000x64_S1x100000x64_1_2 ((![t0, t1, t2, t3] : Fin 4 → FVec Ideal S100000x64 .f32) n))
    concatenates_S1x100000x64_S1x100000x64_S1x100000x64_S1x100000x64_S4x100000x64_d0 rfl rfl (ix3 (3 : Fin 4) r q) (3 : Fin 4) rfl (ix3 (0 : Fin 1) r q)
    (fun b hb => match b with | ⟨0, _⟩ => absurd rfl hb | ⟨1, _⟩ => rfl | ⟨2, _⟩ => rfl)).trans ?_
  exact broadcastInDim_apply _ bcast_S100000x64_S1x100000x64_1_2 t3 (ix3 (0 : Fin 1) r q) (ix2 r q) (fun a => match a with
    | ⟨0, _⟩ => by show r.val = if (100000 : Nat) = 1 then 0 else r.val; rw [if_neg (by decide)]
    | ⟨1, _⟩ => by show q.val = if (64 : Nat) = 1 then 0 else q.val; rw [if_neg (by decide)])

/-- A parameter vector seen as one row, read at its entries. -/
theorem row_at (p : FVec Ideal S64 .f32) (c' : Fin 64) : shapeCast S1x64 p shapeCasts_S64_S1x64 (ix2 (0 : Fin 1) c') = p (ix1 c') :=
  shapeCast_a_1a_apply (a := 64) p shapeCasts_S64_S1x64 0 c'
theorem row16_at (p : FVec Ideal S16 .f32) (c' : Fin 16) : shapeCast S1x16 p shapeCasts_S16_S1x16 (ix2 (0 : Fin 1) c') = p (ix1 c') :=
  shapeCast_a_1a_apply (a := 16) p shapeCasts_S16_S1x16 0 c'

section Regions
variable (V : (c : Dev nD) → (b : Ref sig .tc) → Buf (Elt Ideal) ((c : Thread nD τ).loc b))

/-! # Kernel 0 -/

/-- The printed index maps, decided over the grid: the stack's block and the result's block move along the row axis with
    the point; every other window stays at block zero. -/
theorem idx_facts0 : ∀ t : Fin cfg0.N, win0_0.index t (0 : Fin 3) = 0
    ∧ win0_0.index t (1 : Fin 3) = t.val
    ∧ win0_0.index t (2 : Fin 3) = 0
    ∧ win0_1.index t (0 : Fin 3) = 0
    ∧ win0_1.index t (1 : Fin 3) = 0
    ∧ win0_1.index t (2 : Fin 3) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = t.val
    ∧ win0_7.index t (1 : Fin 2) = 0 :=
  (by decide +kernel : ∀ t : Fin grid0.N, _)

theorem t_lt0 (t : Fin cfg0.N) : t.val < 20 := lt_of_lt_of_eq t.isLt N_0

/-- The stack's block at point t is rows 5000·t … of each slab. -/
theorem blk0_0 (c : Dev nD) (t : Fin cfg0.N) (k : Fin 4) (y : Fin 5000) (q : Fin 64) :
    (iblk0 V c 0 t : Vec Ideal S4x5000x64 .f32) (ix3 k y q)
      = V c main_v79 (ix3 k (⟨t.val * 5000 + y.val, by have := t_lt0 t; have := y.isLt; omega⟩ : Fin 100000) q) := by
  obtain ⟨e0, e1, e2, e3, e4, e5, e6, e7, e8, e9, e10, e11, e12, e13, e14, e15, e16, e17⟩ := idx_facts0 t
  show V c main_v79 (((cfg0.win 0).blk t).view.emb (ix3 k y q)) = _
  refine congrArg (V c main_v79) (funext fun a => Fin.ext ?_)
  match a with
  | ⟨0, _⟩ => show win0_0.index t (0 : Fin 3) * 4 + 1 * k.val = k.val; omega
  | ⟨1, _⟩ => show win0_0.index t (1 : Fin 3) * 5000 + 1 * y.val = t.val * 5000 + y.val; omega
  | ⟨2, _⟩ => show win0_0.index t (2 : Fin 3) * 64 + 1 * q.val = q.val; omega

/-- The weights' block is the whole array at every point. -/
theorem blk0_1 (c : Dev nD) (t : Fin cfg0.N) (k : Fin 4) (q p : Fin 64) :
    (iblk0 V c 1 t : Vec Ideal S4x64x64 .f32) (ix3 k q p) = V c main_arg2 (ix3 k q p) := by
  obtain ⟨e0, e1, e2, e3, e4, e5, e6, e7, e8, e9, e10, e11, e12, e13, e14, e15, e16, e17⟩ := idx_facts0 t
  show V c main_arg2 (((cfg0.win 1).blk t).view.emb (ix3 k q p)) = _
  refine congrArg (V c main_arg2) (funext fun a => Fin.ext ?_)
  match a with
  | ⟨0, _⟩ => show win0_1.index t (0 : Fin 3) * 4 + 1 * k.val = k.val; omega
  | ⟨1, _⟩ => show win0_1.index t (1 : Fin 3) * 64 + 1 * q.val = q.val; omega
  | ⟨2, _⟩ => show win0_1.index t (2 : Fin 3) * 64 + 1 * p.val = p.val; omega

theorem blk0_2 (c : Dev nD) (t : Fin cfg0.N) (p : Fin 64) :
    (iblk0 V c 2 t : Vec Ideal S1x64 .f32) (ix2 (0 : Fin 1) p) = V c main_v80 (ix2 (0 : Fin 1) p) := by
  obtain ⟨e0, e1, e2, e3, e4, e5, e6, e7, e8, e9, e10, e11, e12, e13, e14, e15, e16, e17⟩ := idx_facts0 t
  show V c main_v80 (((cfg0.win 2).blk t).view.emb (ix2 (0 : Fin 1) p)) = _
  refine congrArg (V c main_v80) (funext fun a => Fin.ext ?_)
  match a with
  | ⟨0, _⟩ => show win0_2.index t (0 : Fin 2) * 1 + 1 * 0 = 0; omega
  | ⟨1, _⟩ => show win0_2.index t (1 : Fin 2) * 64 + 1 * p.val = p.val; omega

theorem blk0_3 (c : Dev nD) (t : Fin cfg0.N) (p : Fin 64) :
    (iblk0 V c 3 t : Vec Ideal S1x64 .f32) (ix2 (0 : Fin 1) p) = V c main_v81 (ix2 (0 : Fin 1) p) := by
  obtain ⟨e0, e1, e2, e3, e4, e5, e6, e7, e8, e9, e10, e11, e12, e13, e14, e15, e16, e17⟩ := idx_facts0 t
  show V c main_v81 (((cfg0.win 3).blk t).view.emb (ix2 (0 : Fin 1) p)) = _
  refine congrArg (V c main_v81) (funext fun a => Fin.ext ?_)
  match a with
  | ⟨0, _⟩ => show win0_3.index t (0 : Fin 2) * 1 + 1 * 0 = 0; omega
  | ⟨1, _⟩ => show win0_3.index t (1 : Fin 2) * 64 + 1 * p.val = p.val; omega

theorem blk0_4 (c : Dev nD) (t : Fin cfg0.N) (p : Fin 64) :
    (iblk0 V c 4 t : Vec Ideal S1x64 .f32) (ix2 (0 : Fin 1) p) = V c main_v82 (ix2 (0 : Fin 1) p) := by
  obtain ⟨e0, e1, e2, e3, e4, e5, e6, e7, e8, e9, e10, e11, e12, e13, e14, e15, e16, e17⟩ := idx_facts0 t
  show V c main_v82 (((cfg0.win 4).blk t).view.emb (ix2 (0 : Fin 1) p)) = _
  refine congrArg (V c main_v82) (funext fun a => Fin.ext ?_)
  match a with
  | ⟨0, _⟩ => show win0_4.index t (0 : Fin 2) * 1 + 1 * 0 = 0; omega
  | ⟨1, _⟩ => show win0_4.index t (1 : Fin 2) * 64 + 1 * p.val = p.val; omega

theorem blk0_5 (c : Dev nD) (t : Fin cfg0.N) (p : Fin 64) :
    (iblk0 V c 5 t : Vec Ideal S1x64 .f32) (ix2 (0 : Fin 1) p) = V c main_v83 (ix2 (0 : Fin 1) p) := by
  obtain ⟨e0, e1, e2, e3, e4, e5, e6, e7, e8, e9, e10, e11, e12, e13, e14, e15, e16, e17⟩ := idx_facts0 t
  show V c main_v83 (((cfg0.win 5).blk t).view.emb (ix2 (0 : Fin 1) p)) = _
  refine congrArg (V c main_v83) (funext fun a => Fin.ext ?_)
  match a with
  | ⟨0, _⟩ => show win0_5.index t (0 : Fin 2) * 1 + 1 * 0 = 0; omega
  | ⟨1, _⟩ => show win0_5.index t (1 : Fin 2) * 64 + 1 * p.val = p.val; omega

theorem blk0_6 (c : Dev nD) (t : Fin cfg0.N) (p : Fin 64) :
    (iblk0 V c 6 t : Vec Ideal S1x64 .f32) (ix2 (0 : Fin 1) p) = V c main_v84 (ix2 (0 : Fin 1) p) := by
  obtain ⟨e0, e1, e2, e3, e4, e5, e6, e7, e8, e9, e10, e11, e12, e13, e14, e15, e16, e17⟩ := idx_facts0 t
  show V c main_v84 (((cfg0.win 6).blk t).view.emb (ix2 (0 : Fin 1) p)) = _
  refine congrArg (V c main_v84) (funext fun a => Fin.ext ?_)
  match a with
  | ⟨0, _⟩ => show win0_6.index t (0 : Fin 2) * 1 + 1 * 0 = 0; omega
  | ⟨1, _⟩ => show win0_6.index t (1 : Fin 2) * 64 + 1 * p.val = p.val; omega

/-- An entry of the result's block at point t sits in the array at row 5000·t + y. -/
theorem emb0 (c : Dev nD) (t : Fin cfg0.N) (y : Fin 5000) (cc : Fin 64) :
    ((cfg0.win 7).blk t).view.emb (ix2 y cc) = ix2 (⟨t.val * 5000 + y.val, by have := t_lt0 t; have := y.isLt; omega⟩ : Fin 100000) cc := by
  obtain ⟨e0, e1, e2, e3, e4, e5, e6, e7, e8, e9, e10, e11, e12, e13, e14, e15, e16, e17⟩ := idx_facts0 t
  refine funext fun a => Fin.ext ?_
  match a with
  | ⟨0, _⟩ => show win0_7.index t (0 : Fin 2) * 5000 + 1 * y.val = t.val * 5000 + y.val; omega
  | ⟨1, _⟩ => show win0_7.index t (1 : Fin 2) * 64 + 1 * cc.val = cc.val; omega

theorem mem_blk0 (t : Fin cfg0.N) (i : S100000x64.Idx) :
    i ∈ ((cfg0.win 7).blk t).view.set ↔ ∀ a : Fin 2, win0_7.index t a * S5000x64.size a ≤ (i a).val ∧ (i a).val < win0_7.index t a * S5000x64.size a + S5000x64.size a := by
  show i ∈ ((View.whole main_v85).slice (win0_7.rect t)).set ↔ _
  rw [View.set_slice_whole, Rect.mem_set_unit]
  exact Iff.rfl

/-- The twenty blocks cover the result array. -/
theorem cover0 (i : S100000x64.Idx) : ∃ t : Fin cfg0.N, (cfg0.win 7).flush t = true ∧ i ∈ ((cfg0.win 7).blk t).view.set := by
  have hi0 : (i 0).val < 100000 := (i 0).isLt
  have hi1 : (i 1).val < 64 := (i 1).isLt
  have hN : cfg0.N = 20 := N_0
  let t : Fin cfg0.N := ⟨(i 0).val / 5000, by rw [hN]; omega⟩
  obtain ⟨e0, e1, e2, e3, e4, e5, e6, e7, e8, e9, e10, e11, e12, e13, e14, e15, e16, e17⟩ := idx_facts0 t
  refine ⟨t, flush0_7 t, ?_⟩
  rw [mem_blk0]
  intro a
  match a with
  | ⟨0, _⟩ => show win0_7.index t (0 : Fin 2) * 5000 ≤ (i 0).val ∧ (i 0).val < win0_7.index t (0 : Fin 2) * 5000 + 5000; rw [e16]; show (i 0).val / 5000 * 5000 ≤ (i 0).val ∧ (i 0).val < (i 0).val / 5000 * 5000 + 5000; omega
  | ⟨1, _⟩ => show win0_7.index t (1 : Fin 2) * 64 ≤ (i 1).val ∧ (i 1).val < win0_7.index t (1 : Fin 2) * 64 + 64; rw [e17]; omega

/-- What point t writes back is block t of the layer of the four polynomials the stack holds. -/
theorem flushed0 (c : Dev nD) (t0 t1 t2 t3 : FVec Ideal Cert.ReferenceIdeal.S100000x64 .f32) (Wk : FVec Ideal Cert.ReferenceIdeal.S4x64x64 .f32) (b g be rm rv : FVec Ideal Cert.ReferenceIdeal.S64 .f32)
    (hS : V c main_v79 = stackK t0 t1 t2 t3) (hW : V c main_arg2 = Wk)
    (hb : V c main_v80 = shapeCast S1x64 b shapeCasts_S64_S1x64) (hg : V c main_v81 = shapeCast S1x64 g shapeCasts_S64_S1x64)
    (hbe : V c main_v82 = shapeCast S1x64 be shapeCasts_S64_S1x64) (hrm : V c main_v83 = shapeCast S1x64 rm shapeCasts_S64_S1x64)
    (hrv : V c main_v84 = shapeCast S1x64 rv shapeCasts_S64_S1x64) (t : Fin cfg0.N) :
    (dat0 V c).flushed 7 t = ((cfg0.win 7).blk t).view.read (Elt Ideal) (Cert.Net.layer (F := Ideal) t0 t1 t2 t3 Wk b g be rm rv) := by
  show (cfg0.win 7).cut (grid0.coords t) ((dat0 V c).after 7 t) = _
  rw [after0_7]
  funext j
  obtain ⟨y, cc, rfl⟩ : ∃ (y : Fin 5000) (cc : Fin 64), j = ix2 y cc := ⟨j 0, j 1, eq_ix2 j⟩
  show out0_7 (iblk0 V c 0 t) (iblk0 V c 1 t) (iblk0 V c 2 t) (iblk0 V c 3 t) (iblk0 V c 4 t) (iblk0 V c 5 t) (iblk0 V c 6 t) (ix2 y cc)
    = (Cert.Net.layer (F := Ideal) t0 t1 t2 t3 Wk b g be rm rv) (((cfg0.win 7).blk t).view.emb (ix2 y cc))
  rw [emb0 c t y cc]
  exact Cert.LayerPoint.layer_point0 (iblk0 V c 0 t) (iblk0 V c 1 t) (iblk0 V c 2 t) (iblk0 V c 3 t) (iblk0 V c 4 t) (iblk0 V c 5 t) (iblk0 V c 6 t)
      t0 t1 t2 t3 Wk b g be rm rv _ y cc
      (fun q => (blk0_0 V c t 0 y q).trans (by rw [hS]; exact stack_at0 t0 t1 t2 t3 _ q))
      (fun q => (blk0_0 V c t 1 y q).trans (by rw [hS]; exact stack_at1 t0 t1 t2 t3 _ q))
      (fun q => (blk0_0 V c t 2 y q).trans (by rw [hS]; exact stack_at2 t0 t1 t2 t3 _ q))
      (fun q => (blk0_0 V c t 3 y q).trans (by rw [hS]; exact stack_at3 t0 t1 t2 t3 _ q))
      (fun k q p => (blk0_1 V c t k q p).trans (by rw [hW]))
      (fun p => (blk0_2 V c t p).trans (by rw [hb]; exact row_at b p))
      (fun p => (blk0_3 V c t p).trans (by rw [hg]; exact row_at g p))
      (fun p => (blk0_4 V c t p).trans (by rw [hbe]; exact row_at be p))
      (fun p => (blk0_5 V c t p).trans (by rw [hrm]; exact row_at rm p))
      (fun p => (blk0_6 V c t p).trans (by rw [hrv]; exact row_at rv p))

/-- After the region the result array holds the layer. -/
theorem final0 (c : Dev nD) (t0 t1 t2 t3 : FVec Ideal Cert.ReferenceIdeal.S100000x64 .f32) (Wk : FVec Ideal Cert.ReferenceIdeal.S4x64x64 .f32) (b g be rm rv : FVec Ideal Cert.ReferenceIdeal.S64 .f32)
    (hS : V c main_v79 = stackK t0 t1 t2 t3) (hW : V c main_arg2 = Wk)
    (hb : V c main_v80 = shapeCast S1x64 b shapeCasts_S64_S1x64) (hg : V c main_v81 = shapeCast S1x64 g shapeCasts_S64_S1x64)
    (hbe : V c main_v82 = shapeCast S1x64 be shapeCasts_S64_S1x64) (hrm : V c main_v83 = shapeCast S1x64 rm shapeCasts_S64_S1x64)
    (hrv : V c main_v84 = shapeCast S1x64 rv shapeCasts_S64_S1x64) :
    (dat0 V c).arrAt 7 cfg0.N = (Cert.Net.layer (F := Ideal) t0 t1 t2 t3 Wk b g be rm rv) :=
  (dat0 V c).arrAt_eq_of_cover 7 (Cert.Net.layer (F := Ideal) t0 t1 t2 t3 Wk b g be rm rv) (fun t _ => flushed0 V c t0 t1 t2 t3 Wk b g be rm rv hS hW hb hg hbe hrm hrv t) cover0

/-! # Kernel 1 -/

/-- The printed index maps, decided over the grid: the stack's block and the result's block move along the row axis with
    the point; every other window stays at block zero. -/
theorem idx_facts1 : ∀ t : Fin cfg1.N, win1_0.index t (0 : Fin 3) = 0
    ∧ win1_0.index t (1 : Fin 3) = t.val
    ∧ win1_0.index t (2 : Fin 3) = 0
    ∧ win1_1.index t (0 : Fin 3) = 0
    ∧ win1_1.index t (1 : Fin 3) = 0
    ∧ win1_1.index t (2 : Fin 3) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = t.val
    ∧ win1_7.index t (1 : Fin 2) = 0 :=
  (by decide +kernel : ∀ t : Fin grid1.N, _)

theorem t_lt1 (t : Fin cfg1.N) : t.val < 20 := lt_of_lt_of_eq t.isLt N_1

/-- The stack's block at point t is rows 5000·t … of each slab. -/
theorem blk1_0 (c : Dev nD) (t : Fin cfg1.N) (k : Fin 4) (y : Fin 5000) (q : Fin 64) :
    (iblk1 V c 0 t : Vec Ideal S4x5000x64 .f32) (ix3 k y q)
      = V c main_v135 (ix3 k (⟨t.val * 5000 + y.val, by have := t_lt1 t; have := y.isLt; omega⟩ : Fin 100000) q) := by
  obtain ⟨e0, e1, e2, e3, e4, e5, e6, e7, e8, e9, e10, e11, e12, e13, e14, e15, e16, e17⟩ := idx_facts1 t
  show V c main_v135 (((cfg1.win 0).blk t).view.emb (ix3 k y q)) = _
  refine congrArg (V c main_v135) (funext fun a => Fin.ext ?_)
  match a with
  | ⟨0, _⟩ => show win1_0.index t (0 : Fin 3) * 4 + 1 * k.val = k.val; omega
  | ⟨1, _⟩ => show win1_0.index t (1 : Fin 3) * 5000 + 1 * y.val = t.val * 5000 + y.val; omega
  | ⟨2, _⟩ => show win1_0.index t (2 : Fin 3) * 64 + 1 * q.val = q.val; omega

/-- The weights' block is the whole array at every point. -/
theorem blk1_1 (c : Dev nD) (t : Fin cfg1.N) (k : Fin 4) (q p : Fin 64) :
    (iblk1 V c 1 t : Vec Ideal S4x64x64 .f32) (ix3 k q p) = V c main_arg4 (ix3 k q p) := by
  obtain ⟨e0, e1, e2, e3, e4, e5, e6, e7, e8, e9, e10, e11, e12, e13, e14, e15, e16, e17⟩ := idx_facts1 t
  show V c main_arg4 (((cfg1.win 1).blk t).view.emb (ix3 k q p)) = _
  refine congrArg (V c main_arg4) (funext fun a => Fin.ext ?_)
  match a with
  | ⟨0, _⟩ => show win1_1.index t (0 : Fin 3) * 4 + 1 * k.val = k.val; omega
  | ⟨1, _⟩ => show win1_1.index t (1 : Fin 3) * 64 + 1 * q.val = q.val; omega
  | ⟨2, _⟩ => show win1_1.index t (2 : Fin 3) * 64 + 1 * p.val = p.val; omega

theorem blk1_2 (c : Dev nD) (t : Fin cfg1.N) (p : Fin 64) :
    (iblk1 V c 2 t : Vec Ideal S1x64 .f32) (ix2 (0 : Fin 1) p) = V c main_v136 (ix2 (0 : Fin 1) p) := by
  obtain ⟨e0, e1, e2, e3, e4, e5, e6, e7, e8, e9, e10, e11, e12, e13, e14, e15, e16, e17⟩ := idx_facts1 t
  show V c main_v136 (((cfg1.win 2).blk t).view.emb (ix2 (0 : Fin 1) p)) = _
  refine congrArg (V c main_v136) (funext fun a => Fin.ext ?_)
  match a with
  | ⟨0, _⟩ => show win1_2.index t (0 : Fin 2) * 1 + 1 * 0 = 0; omega
  | ⟨1, _⟩ => show win1_2.index t (1 : Fin 2) * 64 + 1 * p.val = p.val; omega

theorem blk1_3 (c : Dev nD) (t : Fin cfg1.N) (p : Fin 64) :
    (iblk1 V c 3 t : Vec Ideal S1x64 .f32) (ix2 (0 : Fin 1) p) = V c main_v137 (ix2 (0 : Fin 1) p) := by
  obtain ⟨e0, e1, e2, e3, e4, e5, e6, e7, e8, e9, e10, e11, e12, e13, e14, e15, e16, e17⟩ := idx_facts1 t
  show V c main_v137 (((cfg1.win 3).blk t).view.emb (ix2 (0 : Fin 1) p)) = _
  refine congrArg (V c main_v137) (funext fun a => Fin.ext ?_)
  match a with
  | ⟨0, _⟩ => show win1_3.index t (0 : Fin 2) * 1 + 1 * 0 = 0; omega
  | ⟨1, _⟩ => show win1_3.index t (1 : Fin 2) * 64 + 1 * p.val = p.val; omega

theorem blk1_4 (c : Dev nD) (t : Fin cfg1.N) (p : Fin 64) :
    (iblk1 V c 4 t : Vec Ideal S1x64 .f32) (ix2 (0 : Fin 1) p) = V c main_v138 (ix2 (0 : Fin 1) p) := by
  obtain ⟨e0, e1, e2, e3, e4, e5, e6, e7, e8, e9, e10, e11, e12, e13, e14, e15, e16, e17⟩ := idx_facts1 t
  show V c main_v138 (((cfg1.win 4).blk t).view.emb (ix2 (0 : Fin 1) p)) = _
  refine congrArg (V c main_v138) (funext fun a => Fin.ext ?_)
  match a with
  | ⟨0, _⟩ => show win1_4.index t (0 : Fin 2) * 1 + 1 * 0 = 0; omega
  | ⟨1, _⟩ => show win1_4.index t (1 : Fin 2) * 64 + 1 * p.val = p.val; omega

theorem blk1_5 (c : Dev nD) (t : Fin cfg1.N) (p : Fin 64) :
    (iblk1 V c 5 t : Vec Ideal S1x64 .f32) (ix2 (0 : Fin 1) p) = V c main_v139 (ix2 (0 : Fin 1) p) := by
  obtain ⟨e0, e1, e2, e3, e4, e5, e6, e7, e8, e9, e10, e11, e12, e13, e14, e15, e16, e17⟩ := idx_facts1 t
  show V c main_v139 (((cfg1.win 5).blk t).view.emb (ix2 (0 : Fin 1) p)) = _
  refine congrArg (V c main_v139) (funext fun a => Fin.ext ?_)
  match a with
  | ⟨0, _⟩ => show win1_5.index t (0 : Fin 2) * 1 + 1 * 0 = 0; omega
  | ⟨1, _⟩ => show win1_5.index t (1 : Fin 2) * 64 + 1 * p.val = p.val; omega

theorem blk1_6 (c : Dev nD) (t : Fin cfg1.N) (p : Fin 64) :
    (iblk1 V c 6 t : Vec Ideal S1x64 .f32) (ix2 (0 : Fin 1) p) = V c main_v140 (ix2 (0 : Fin 1) p) := by
  obtain ⟨e0, e1, e2, e3, e4, e5, e6, e7, e8, e9, e10, e11, e12, e13, e14, e15, e16, e17⟩ := idx_facts1 t
  show V c main_v140 (((cfg1.win 6).blk t).view.emb (ix2 (0 : Fin 1) p)) = _
  refine congrArg (V c main_v140) (funext fun a => Fin.ext ?_)
  match a with
  | ⟨0, _⟩ => show win1_6.index t (0 : Fin 2) * 1 + 1 * 0 = 0; omega
  | ⟨1, _⟩ => show win1_6.index t (1 : Fin 2) * 64 + 1 * p.val = p.val; omega

/-- An entry of the result's block at point t sits in the array at row 5000·t + y. -/
theorem emb1 (c : Dev nD) (t : Fin cfg1.N) (y : Fin 5000) (cc : Fin 64) :
    ((cfg1.win 7).blk t).view.emb (ix2 y cc) = ix2 (⟨t.val * 5000 + y.val, by have := t_lt1 t; have := y.isLt; omega⟩ : Fin 100000) cc := by
  obtain ⟨e0, e1, e2, e3, e4, e5, e6, e7, e8, e9, e10, e11, e12, e13, e14, e15, e16, e17⟩ := idx_facts1 t
  refine funext fun a => Fin.ext ?_
  match a with
  | ⟨0, _⟩ => show win1_7.index t (0 : Fin 2) * 5000 + 1 * y.val = t.val * 5000 + y.val; omega
  | ⟨1, _⟩ => show win1_7.index t (1 : Fin 2) * 64 + 1 * cc.val = cc.val; omega

theorem mem_blk1 (t : Fin cfg1.N) (i : S100000x64.Idx) :
    i ∈ ((cfg1.win 7).blk t).view.set ↔ ∀ a : Fin 2, win1_7.index t a * S5000x64.size a ≤ (i a).val ∧ (i a).val < win1_7.index t a * S5000x64.size a + S5000x64.size a := by
  show i ∈ ((View.whole main_v141).slice (win1_7.rect t)).set ↔ _
  rw [View.set_slice_whole, Rect.mem_set_unit]
  exact Iff.rfl

/-- The twenty blocks cover the result array. -/
theorem cover1 (i : S100000x64.Idx) : ∃ t : Fin cfg1.N, (cfg1.win 7).flush t = true ∧ i ∈ ((cfg1.win 7).blk t).view.set := by
  have hi0 : (i 0).val < 100000 := (i 0).isLt
  have hi1 : (i 1).val < 64 := (i 1).isLt
  have hN : cfg1.N = 20 := N_1
  let t : Fin cfg1.N := ⟨(i 0).val / 5000, by rw [hN]; omega⟩
  obtain ⟨e0, e1, e2, e3, e4, e5, e6, e7, e8, e9, e10, e11, e12, e13, e14, e15, e16, e17⟩ := idx_facts1 t
  refine ⟨t, flush1_7 t, ?_⟩
  rw [mem_blk1]
  intro a
  match a with
  | ⟨0, _⟩ => show win1_7.index t (0 : Fin 2) * 5000 ≤ (i 0).val ∧ (i 0).val < win1_7.index t (0 : Fin 2) * 5000 + 5000; rw [e16]; show (i 0).val / 5000 * 5000 ≤ (i 0).val ∧ (i 0).val < (i 0).val / 5000 * 5000 + 5000; omega
  | ⟨1, _⟩ => show win1_7.index t (1 : Fin 2) * 64 ≤ (i 1).val ∧ (i 1).val < win1_7.index t (1 : Fin 2) * 64 + 64; rw [e17]; omega

/-- What point t writes back is block t of the layer of the four polynomials the stack holds. -/
theorem flushed1 (c : Dev nD) (t0 t1 t2 t3 : FVec Ideal Cert.ReferenceIdeal.S100000x64 .f32) (Wk : FVec Ideal Cert.ReferenceIdeal.S4x64x64 .f32) (b g be rm rv : FVec Ideal Cert.ReferenceIdeal.S64 .f32)
    (hS : V c main_v135 = stackK t0 t1 t2 t3) (hW : V c main_arg4 = Wk)
    (hb : V c main_v136 = shapeCast S1x64 b shapeCasts_S64_S1x64) (hg : V c main_v137 = shapeCast S1x64 g shapeCasts_S64_S1x64)
    (hbe : V c main_v138 = shapeCast S1x64 be shapeCasts_S64_S1x64) (hrm : V c main_v139 = shapeCast S1x64 rm shapeCasts_S64_S1x64)
    (hrv : V c main_v140 = shapeCast S1x64 rv shapeCasts_S64_S1x64) (t : Fin cfg1.N) :
    (dat1 V c).flushed 7 t = ((cfg1.win 7).blk t).view.read (Elt Ideal) (Cert.Net.layer (F := Ideal) t0 t1 t2 t3 Wk b g be rm rv) := by
  show (cfg1.win 7).cut (grid1.coords t) ((dat1 V c).after 7 t) = _
  rw [after1_7]
  funext j
  obtain ⟨y, cc, rfl⟩ : ∃ (y : Fin 5000) (cc : Fin 64), j = ix2 y cc := ⟨j 0, j 1, eq_ix2 j⟩
  show out1_7 (iblk1 V c 0 t) (iblk1 V c 1 t) (iblk1 V c 2 t) (iblk1 V c 3 t) (iblk1 V c 4 t) (iblk1 V c 5 t) (iblk1 V c 6 t) (ix2 y cc)
    = (Cert.Net.layer (F := Ideal) t0 t1 t2 t3 Wk b g be rm rv) (((cfg1.win 7).blk t).view.emb (ix2 y cc))
  rw [emb1 c t y cc]
  exact Cert.LayerPoint.layer_point1 (iblk1 V c 0 t) (iblk1 V c 1 t) (iblk1 V c 2 t) (iblk1 V c 3 t) (iblk1 V c 4 t) (iblk1 V c 5 t) (iblk1 V c 6 t)
      t0 t1 t2 t3 Wk b g be rm rv _ y cc
      (fun q => (blk1_0 V c t 0 y q).trans (by rw [hS]; exact stack_at0 t0 t1 t2 t3 _ q))
      (fun q => (blk1_0 V c t 1 y q).trans (by rw [hS]; exact stack_at1 t0 t1 t2 t3 _ q))
      (fun q => (blk1_0 V c t 2 y q).trans (by rw [hS]; exact stack_at2 t0 t1 t2 t3 _ q))
      (fun q => (blk1_0 V c t 3 y q).trans (by rw [hS]; exact stack_at3 t0 t1 t2 t3 _ q))
      (fun k q p => (blk1_1 V c t k q p).trans (by rw [hW]))
      (fun p => (blk1_2 V c t p).trans (by rw [hb]; exact row_at b p))
      (fun p => (blk1_3 V c t p).trans (by rw [hg]; exact row_at g p))
      (fun p => (blk1_4 V c t p).trans (by rw [hbe]; exact row_at be p))
      (fun p => (blk1_5 V c t p).trans (by rw [hrm]; exact row_at rm p))
      (fun p => (blk1_6 V c t p).trans (by rw [hrv]; exact row_at rv p))

/-- After the region the result array holds the layer. -/
theorem final1 (c : Dev nD) (t0 t1 t2 t3 : FVec Ideal Cert.ReferenceIdeal.S100000x64 .f32) (Wk : FVec Ideal Cert.ReferenceIdeal.S4x64x64 .f32) (b g be rm rv : FVec Ideal Cert.ReferenceIdeal.S64 .f32)
    (hS : V c main_v135 = stackK t0 t1 t2 t3) (hW : V c main_arg4 = Wk)
    (hb : V c main_v136 = shapeCast S1x64 b shapeCasts_S64_S1x64) (hg : V c main_v137 = shapeCast S1x64 g shapeCasts_S64_S1x64)
    (hbe : V c main_v138 = shapeCast S1x64 be shapeCasts_S64_S1x64) (hrm : V c main_v139 = shapeCast S1x64 rm shapeCasts_S64_S1x64)
    (hrv : V c main_v140 = shapeCast S1x64 rv shapeCasts_S64_S1x64) :
    (dat1 V c).arrAt 7 cfg1.N = (Cert.Net.layer (F := Ideal) t0 t1 t2 t3 Wk b g be rm rv) :=
  (dat1 V c).arrAt_eq_of_cover 7 (Cert.Net.layer (F := Ideal) t0 t1 t2 t3 Wk b g be rm rv) (fun t _ => flushed1 V c t0 t1 t2 t3 Wk b g be rm rv hS hW hb hg hbe hrm hrv t) cover1

/-! # Kernel 2 -/

/-- The printed index maps, decided over the grid: the stack's block and the result's block move along the row axis with
    the point; every other window stays at block zero. -/
theorem idx_facts2 : ∀ t : Fin cfg2.N, win2_0.index t (0 : Fin 3) = 0
    ∧ win2_0.index t (1 : Fin 3) = t.val
    ∧ win2_0.index t (2 : Fin 3) = 0
    ∧ win2_1.index t (0 : Fin 3) = 0
    ∧ win2_1.index t (1 : Fin 3) = 0
    ∧ win2_1.index t (2 : Fin 3) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0
    ∧ win2_6.index t (0 : Fin 2) = 0
    ∧ win2_6.index t (1 : Fin 2) = 0
    ∧ win2_7.index t (0 : Fin 2) = 0
    ∧ win2_7.index t (1 : Fin 2) = 0
    ∧ win2_8.index t (0 : Fin 2) = 0
    ∧ win2_8.index t (1 : Fin 2) = 0
    ∧ win2_9.index t (0 : Fin 2) = t.val
    ∧ win2_9.index t (1 : Fin 2) = 0 :=
  (by decide +kernel : ∀ t : Fin grid2.N, _)

theorem t_lt2 (t : Fin cfg2.N) : t.val < 20 := lt_of_lt_of_eq t.isLt N_2

/-- The stack's block at point t is rows 5000·t … of each slab. -/
theorem blk2_0 (c : Dev nD) (t : Fin cfg2.N) (k : Fin 4) (y : Fin 5000) (q : Fin 64) :
    (iblk2 V c 0 t : Vec Ideal S4x5000x64 .f32) (ix3 k y q)
      = V c main_v191 (ix3 k (⟨t.val * 5000 + y.val, by have := t_lt2 t; have := y.isLt; omega⟩ : Fin 100000) q) := by
  obtain ⟨e0, e1, e2, e3, e4, e5, e6, e7, e8, e9, e10, e11, e12, e13, e14, e15, e16, e17, e18, e19, e20, e21⟩ := idx_facts2 t
  show V c main_v191 (((cfg2.win 0).blk t).view.emb (ix3 k y q)) = _
  refine congrArg (V c main_v191) (funext fun a => Fin.ext ?_)
  match a with
  | ⟨0, _⟩ => show win2_0.index t (0 : Fin 3) * 4 + 1 * k.val = k.val; omega
  | ⟨1, _⟩ => show win2_0.index t (1 : Fin 3) * 5000 + 1 * y.val = t.val * 5000 + y.val; omega
  | ⟨2, _⟩ => show win2_0.index t (2 : Fin 3) * 64 + 1 * q.val = q.val; omega

/-- The weights' block is the whole array at every point. -/
theorem blk2_1 (c : Dev nD) (t : Fin cfg2.N) (k : Fin 4) (q p : Fin 64) :
    (iblk2 V c 1 t : Vec Ideal S4x64x64 .f32) (ix3 k q p) = V c main_arg6 (ix3 k q p) := by
  obtain ⟨e0, e1, e2, e3, e4, e5, e6, e7, e8, e9, e10, e11, e12, e13, e14, e15, e16, e17, e18, e19, e20, e21⟩ := idx_facts2 t
  show V c main_arg6 (((cfg2.win 1).blk t).view.emb (ix3 k q p)) = _
  refine congrArg (V c main_arg6) (funext fun a => Fin.ext ?_)
  match a with
  | ⟨0, _⟩ => show win2_1.index t (0 : Fin 3) * 4 + 1 * k.val = k.val; omega
  | ⟨1, _⟩ => show win2_1.index t (1 : Fin 3) * 64 + 1 * q.val = q.val; omega
  | ⟨2, _⟩ => show win2_1.index t (2 : Fin 3) * 64 + 1 * p.val = p.val; omega

theorem blk2_2 (c : Dev nD) (t : Fin cfg2.N) (p : Fin 64) :
    (iblk2 V c 2 t : Vec Ideal S1x64 .f32) (ix2 (0 : Fin 1) p) = V c main_v192 (ix2 (0 : Fin 1) p) := by
  obtain ⟨e0, e1, e2, e3, e4, e5, e6, e7, e8, e9, e10, e11, e12, e13, e14, e15, e16, e17, e18, e19, e20, e21⟩ := idx_facts2 t
  show V c main_v192 (((cfg2.win 2).blk t).view.emb (ix2 (0 : Fin 1) p)) = _
  refine congrArg (V c main_v192) (funext fun a => Fin.ext ?_)
  match a with
  | ⟨0, _⟩ => show win2_2.index t (0 : Fin 2) * 1 + 1 * 0 = 0; omega
  | ⟨1, _⟩ => show win2_2.index t (1 : Fin 2) * 64 + 1 * p.val = p.val; omega

theorem blk2_3 (c : Dev nD) (t : Fin cfg2.N) (p : Fin 64) :
    (iblk2 V c 3 t : Vec Ideal S1x64 .f32) (ix2 (0 : Fin 1) p) = V c main_v193 (ix2 (0 : Fin 1) p) := by
  obtain ⟨e0, e1, e2, e3, e4, e5, e6, e7, e8, e9, e10, e11, e12, e13, e14, e15, e16, e17, e18, e19, e20, e21⟩ := idx_facts2 t
  show V c main_v193 (((cfg2.win 3).blk t).view.emb (ix2 (0 : Fin 1) p)) = _
  refine congrArg (V c main_v193) (funext fun a => Fin.ext ?_)
  match a with
  | ⟨0, _⟩ => show win2_3.index t (0 : Fin 2) * 1 + 1 * 0 = 0; omega
  | ⟨1, _⟩ => show win2_3.index t (1 : Fin 2) * 64 + 1 * p.val = p.val; omega

theorem blk2_4 (c : Dev nD) (t : Fin cfg2.N) (p : Fin 64) :
    (iblk2 V c 4 t : Vec Ideal S1x64 .f32) (ix2 (0 : Fin 1) p) = V c main_v194 (ix2 (0 : Fin 1) p) := by
  obtain ⟨e0, e1, e2, e3, e4, e5, e6, e7, e8, e9, e10, e11, e12, e13, e14, e15, e16, e17, e18, e19, e20, e21⟩ := idx_facts2 t
  show V c main_v194 (((cfg2.win 4).blk t).view.emb (ix2 (0 : Fin 1) p)) = _
  refine congrArg (V c main_v194) (funext fun a => Fin.ext ?_)
  match a with
  | ⟨0, _⟩ => show win2_4.index t (0 : Fin 2) * 1 + 1 * 0 = 0; omega
  | ⟨1, _⟩ => show win2_4.index t (1 : Fin 2) * 64 + 1 * p.val = p.val; omega

theorem blk2_5 (c : Dev nD) (t : Fin cfg2.N) (p : Fin 64) :
    (iblk2 V c 5 t : Vec Ideal S1x64 .f32) (ix2 (0 : Fin 1) p) = V c main_v195 (ix2 (0 : Fin 1) p) := by
  obtain ⟨e0, e1, e2, e3, e4, e5, e6, e7, e8, e9, e10, e11, e12, e13, e14, e15, e16, e17, e18, e19, e20, e21⟩ := idx_facts2 t
  show V c main_v195 (((cfg2.win 5).blk t).view.emb (ix2 (0 : Fin 1) p)) = _
  refine congrArg (V c main_v195) (funext fun a => Fin.ext ?_)
  match a with
  | ⟨0, _⟩ => show win2_5.index t (0 : Fin 2) * 1 + 1 * 0 = 0; omega
  | ⟨1, _⟩ => show win2_5.index t (1 : Fin 2) * 64 + 1 * p.val = p.val; omega

theorem blk2_6 (c : Dev nD) (t : Fin cfg2.N) (p : Fin 64) :
    (iblk2 V c 6 t : Vec Ideal S1x64 .f32) (ix2 (0 : Fin 1) p) = V c main_v196 (ix2 (0 : Fin 1) p) := by
  obtain ⟨e0, e1, e2, e3, e4, e5, e6, e7, e8, e9, e10, e11, e12, e13, e14, e15, e16, e17, e18, e19, e20, e21⟩ := idx_facts2 t
  show V c main_v196 (((cfg2.win 6).blk t).view.emb (ix2 (0 : Fin 1) p)) = _
  refine congrArg (V c main_v196) (funext fun a => Fin.ext ?_)
  match a with
  | ⟨0, _⟩ => show win2_6.index t (0 : Fin 2) * 1 + 1 * 0 = 0; omega
  | ⟨1, _⟩ => show win2_6.index t (1 : Fin 2) * 64 + 1 * p.val = p.val; omega

theorem blk2_7 (c : Dev nD) (t : Fin cfg2.N) (q : Fin 64) (p : Fin 16) :
    (iblk2 V c 7 t : Vec Ideal S64x16 .f32) (ix2 q p) = V c main_arg20 (ix2 q p) := by
  obtain ⟨e0, e1, e2, e3, e4, e5, e6, e7, e8, e9, e10, e11, e12, e13, e14, e15, e16, e17, e18, e19, e20, e21⟩ := idx_facts2 t
  show V c main_arg20 (((cfg2.win 7).blk t).view.emb (ix2 q p)) = _
  refine congrArg (V c main_arg20) (funext fun a => Fin.ext ?_)
  match a with
  | ⟨0, _⟩ => show win2_7.index t (0 : Fin 2) * 64 + 1 * q.val = q.val; omega
  | ⟨1, _⟩ => show win2_7.index t (1 : Fin 2) * 16 + 1 * p.val = p.val; omega

theorem blk2_8 (c : Dev nD) (t : Fin cfg2.N) (p : Fin 16) :
    (iblk2 V c 8 t : Vec Ideal S1x16 .f32) (ix2 (0 : Fin 1) p) = V c main_v197 (ix2 (0 : Fin 1) p) := by
  obtain ⟨e0, e1, e2, e3, e4, e5, e6, e7, e8, e9, e10, e11, e12, e13, e14, e15, e16, e17, e18, e19, e20, e21⟩ := idx_facts2 t
  show V c main_v197 (((cfg2.win 8).blk t).view.emb (ix2 (0 : Fin 1) p)) = _
  refine congrArg (V c main_v197) (funext fun a => Fin.ext ?_)
  match a with
  | ⟨0, _⟩ => show win2_8.index t (0 : Fin 2) * 1 + 1 * 0 = 0; omega
  | ⟨1, _⟩ => show win2_8.index t (1 : Fin 2) * 16 + 1 * p.val = p.val; omega

/-- An entry of the result's block at point t sits in the array at row 5000·t + y. -/
theorem emb2 (c : Dev nD) (t : Fin cfg2.N) (y : Fin 5000) (cc : Fin 16) :
    ((cfg2.win 9).blk t).view.emb (ix2 y cc) = ix2 (⟨t.val * 5000 + y.val, by have := t_lt2 t; have := y.isLt; omega⟩ : Fin 100000) cc := by
  obtain ⟨e0, e1, e2, e3, e4, e5, e6, e7, e8, e9, e10, e11, e12, e13, e14, e15, e16, e17, e18, e19, e20, e21⟩ := idx_facts2 t
  refine funext fun a => Fin.ext ?_
  match a with
  | ⟨0, _⟩ => show win2_9.index t (0 : Fin 2) * 5000 + 1 * y.val = t.val * 5000 + y.val; omega
  | ⟨1, _⟩ => show win2_9.index t (1 : Fin 2) * 16 + 1 * cc.val = cc.val; omega

theorem mem_blk2 (t : Fin cfg2.N) (i : S100000x16.Idx) :
    i ∈ ((cfg2.win 9).blk t).view.set ↔ ∀ a : Fin 2, win2_9.index t a * S5000x16.size a ≤ (i a).val ∧ (i a).val < win2_9.index t a * S5000x16.size a + S5000x16.size a := by
  show i ∈ ((View.whole main_v198).slice (win2_9.rect t)).set ↔ _
  rw [View.set_slice_whole, Rect.mem_set_unit]
  exact Iff.rfl

/-- The twenty blocks cover the result array. -/
theorem cover2 (i : S100000x16.Idx) : ∃ t : Fin cfg2.N, (cfg2.win 9).flush t = true ∧ i ∈ ((cfg2.win 9).blk t).view.set := by
  have hi0 : (i 0).val < 100000 := (i 0).isLt
  have hi1 : (i 1).val < 16 := (i 1).isLt
  have hN : cfg2.N = 20 := N_2
  let t : Fin cfg2.N := ⟨(i 0).val / 5000, by rw [hN]; omega⟩
  obtain ⟨e0, e1, e2, e3, e4, e5, e6, e7, e8, e9, e10, e11, e12, e13, e14, e15, e16, e17, e18, e19, e20, e21⟩ := idx_facts2 t
  refine ⟨t, flush2_9 t, ?_⟩
  rw [mem_blk2]
  intro a
  match a with
  | ⟨0, _⟩ => show win2_9.index t (0 : Fin 2) * 5000 ≤ (i 0).val ∧ (i 0).val < win2_9.index t (0 : Fin 2) * 5000 + 5000; rw [e20]; show (i 0).val / 5000 * 5000 ≤ (i 0).val ∧ (i 0).val < (i 0).val / 5000 * 5000 + 5000; omega
  | ⟨1, _⟩ => show win2_9.index t (1 : Fin 2) * 16 ≤ (i 1).val ∧ (i 1).val < win2_9.index t (1 : Fin 2) * 16 + 16; rw [e21]; omega

/-- What point t writes back is block t of the head of the layer. -/
theorem flushed2 (c : Dev nD) (t0 t1 t2 t3 : FVec Ideal Cert.ReferenceIdeal.S100000x64 .f32) (Wk : FVec Ideal Cert.ReferenceIdeal.S4x64x64 .f32) (b g be rm rv : FVec Ideal Cert.ReferenceIdeal.S64 .f32) (HW : FVec Ideal Cert.ReferenceIdeal.S64x16 .f32) (hv : FVec Ideal Cert.ReferenceIdeal.S16 .f32)
    (hS : V c main_v191 = stackK t0 t1 t2 t3) (hW : V c main_arg6 = Wk)
    (hb : V c main_v192 = shapeCast S1x64 b shapeCasts_S64_S1x64) (hg : V c main_v193 = shapeCast S1x64 g shapeCasts_S64_S1x64)
    (hbe : V c main_v194 = shapeCast S1x64 be shapeCasts_S64_S1x64) (hrm : V c main_v195 = shapeCast S1x64 rm shapeCasts_S64_S1x64)
    (hrv : V c main_v196 = shapeCast S1x64 rv shapeCasts_S64_S1x64) (hH : V c main_arg20 = HW) (hQ : V c main_v197 = shapeCast S1x16 hv shapeCasts_S16_S1x16) (t : Fin cfg2.N) :
    (dat2 V c).flushed 9 t = ((cfg2.win 9).blk t).view.read (Elt Ideal) (Cert.Net.head (F := Ideal) (Cert.Net.layer (F := Ideal) t0 t1 t2 t3 Wk b g be rm rv) HW hv) := by
  show (cfg2.win 9).cut (grid2.coords t) ((dat2 V c).after 9 t) = _
  rw [after2_9]
  funext j
  obtain ⟨y, cc, rfl⟩ : ∃ (y : Fin 5000) (cc : Fin 16), j = ix2 y cc := ⟨j 0, j 1, eq_ix2 j⟩
  show out2_9 (iblk2 V c 0 t) (iblk2 V c 1 t) (iblk2 V c 2 t) (iblk2 V c 3 t) (iblk2 V c 4 t) (iblk2 V c 5 t) (iblk2 V c 6 t) (iblk2 V c 7 t) (iblk2 V c 8 t) (ix2 y cc)
    = (Cert.Net.head (F := Ideal) (Cert.Net.layer (F := Ideal) t0 t1 t2 t3 Wk b g be rm rv) HW hv) (((cfg2.win 9).blk t).view.emb (ix2 y cc))
  rw [emb2 c t y cc]
  exact Cert.LayerPoint.head_point (iblk2 V c 0 t) (iblk2 V c 1 t) (iblk2 V c 2 t) (iblk2 V c 3 t) (iblk2 V c 4 t) (iblk2 V c 5 t) (iblk2 V c 6 t)
      t0 t1 t2 t3 Wk b g be rm rv _ y (iblk2 V c 7 t) (iblk2 V c 8 t) HW hv cc
      (fun q => (blk2_0 V c t 0 y q).trans (by rw [hS]; exact stack_at0 t0 t1 t2 t3 _ q))
      (fun q => (blk2_0 V c t 1 y q).trans (by rw [hS]; exact stack_at1 t0 t1 t2 t3 _ q))
      (fun q => (blk2_0 V c t 2 y q).trans (by rw [hS]; exact stack_at2 t0 t1 t2 t3 _ q))
      (fun q => (blk2_0 V c t 3 y q).trans (by rw [hS]; exact stack_at3 t0 t1 t2 t3 _ q))
      (fun k q p => (blk2_1 V c t k q p).trans (by rw [hW]))
      (fun p => (blk2_2 V c t p).trans (by rw [hb]; exact row_at b p))
      (fun p => (blk2_3 V c t p).trans (by rw [hg]; exact row_at g p))
      (fun p => (blk2_4 V c t p).trans (by rw [hbe]; exact row_at be p))
      (fun p => (blk2_5 V c t p).trans (by rw [hrm]; exact row_at rm p))
      (fun p => (blk2_6 V c t p).trans (by rw [hrv]; exact row_at rv p))
      (fun q p => (blk2_7 V c t q p).trans (by rw [hH]))
      (fun p => (blk2_8 V c t p).trans (by rw [hQ]; exact row16_at hv p))

theorem final2 (c : Dev nD) (t0 t1 t2 t3 : FVec Ideal Cert.ReferenceIdeal.S100000x64 .f32) (Wk : FVec Ideal Cert.ReferenceIdeal.S4x64x64 .f32) (b g be rm rv : FVec Ideal Cert.ReferenceIdeal.S64 .f32) (HW : FVec Ideal Cert.ReferenceIdeal.S64x16 .f32) (hv : FVec Ideal Cert.ReferenceIdeal.S16 .f32)
    (hS : V c main_v191 = stackK t0 t1 t2 t3) (hW : V c main_arg6 = Wk)
    (hb : V c main_v192 = shapeCast S1x64 b shapeCasts_S64_S1x64) (hg : V c main_v193 = shapeCast S1x64 g shapeCasts_S64_S1x64)
    (hbe : V c main_v194 = shapeCast S1x64 be shapeCasts_S64_S1x64) (hrm : V c main_v195 = shapeCast S1x64 rm shapeCasts_S64_S1x64)
    (hrv : V c main_v196 = shapeCast S1x64 rv shapeCasts_S64_S1x64) (hH : V c main_arg20 = HW) (hQ : V c main_v197 = shapeCast S1x16 hv shapeCasts_S16_S1x16) :
    (dat2 V c).arrAt 9 cfg2.N = (Cert.Net.head (F := Ideal) (Cert.Net.layer (F := Ideal) t0 t1 t2 t3 Wk b g be rm rv) HW hv) :=
  (dat2 V c).arrAt_eq_of_cover 9 (Cert.Net.head (F := Ideal) (Cert.Net.layer (F := Ideal) t0 t1 t2 t3 Wk b g be rm rv) HW hv) (fun t _ => flushed2 V c t0 t1 t2 t3 Wk b g be rm rv HW hv hS hW hb hg hbe hrm hrv hH hQ t) cover2

end Regions

end Cert.KernelIdeal.Layers

end
-- ==== Proof.PolyStack.lean ====
/-
  The four polynomials of an array h — h, P h, 2·P(P h) − h and 2·P of that minus P h — stacked along a new leading
  axis, P the propagation along the edges with the edge weights; once over the kernel program's own operations and once
  over the network's, which are the same.
-/
import proofs.«127831_j29308856828499_2_alg».proof.Proof.IdealValue
import proofs.«127831_j29308856828499_2_alg».proof.Proof.KNet

set_option maxRecDepth 16384

noncomputable section

namespace Cert.KernelIdeal.Layers

open Cert.KernelIdeal Cert.KernelIdeal.Gen
open Idealize.ShloMosaic Idealize.ShloMosaic.TcCoe Idealize.SL.Sem Idealize.ShloMosaic.StableHlo
open Idealize.ShloMosaic.Pipeline (Dat)

def polyStack (s d : (⟨S1600000, .i32⟩ : BufTy).Contents (Elt Ideal)) (w : (⟨S1600000, .f32⟩ : BufTy).Contents (Elt Ideal)) (h : (⟨S100000x64, .f32⟩ : BufTy).Contents (Elt Ideal)) : FVec Ideal S4x100000x64 .f32 :=
  stackK h (Cert.Net.prop (F := Ideal) s d w h) (Cert.Net.nextT (F := Ideal) s d w (Cert.Net.prop (F := Ideal) s d w h) h)
    (Cert.Net.nextT (F := Ideal) s d w (Cert.Net.nextT (F := Ideal) s d w (Cert.Net.prop (F := Ideal) s d w h) h) (Cert.Net.prop (F := Ideal) s d w h))

theorem stackKF_eq (t0 t1 t2 t3 : FVec Ideal S100000x64 .f32) : stackKF (F := Ideal) t0 t1 t2 t3 = stackK t0 t1 t2 t3 := rfl

theorem polyStackKF_eq (s d : (⟨S1600000, .i32⟩ : BufTy).Contents (Elt Ideal)) (w : (⟨S1600000, .f32⟩ : BufTy).Contents (Elt Ideal)) (h : (⟨S100000x64, .f32⟩ : BufTy).Contents (Elt Ideal)) :
    polyStackKF (F := Ideal) s d w h = polyStack s d w h := by
  unfold polyStackKF polyStack
  rw [stackKF_eq, propK_eq, nextTK_eq, nextTK_eq]

end Cert.KernelIdeal.Layers

end
-- ==== Proof.GlueStack0.lean ====
/-
  The stretch before kernel 0, read as the network's pieces: from the rows and weights of the edge list and the array
  it starts from it computes that array's four polynomials, stacked, and it reshapes the layer's parameter vectors to rows.
-/
import proofs.«127831_j29308856828499_2_alg».proof.Proof.IdealCut
import proofs.«127831_j29308856828499_2_alg».proof.Proof.PolyStack

set_option maxRecDepth 16384

noncomputable section

namespace Cert.KernelIdeal.Layers

open Cert.KernelIdeal Cert.KernelIdeal.Gen
open Idealize.ShloMosaic Idealize.ShloMosaic.TcCoe Idealize.SL.Sem Idealize.ShloMosaic.StableHlo
open Idealize.ShloMosaic.Pipeline (Dat)

section
variable {F : FTy → Type} [FloatOps F] (X : Valuation τ sig (Elt F))

set_option maxHeartbeats 40000000 in
theorem s0_stackF : StableHlo.after preS X (Proc.devRef .tc main_v79) = polyStackKF (X (Proc.devRef .tc main_v1)) (X (Proc.devRef .tc main_v3)) (X (Proc.devRef .tc main_v29)) (X (Proc.devRef .tc main_arg0)) := by
  after_results_simp <;> rfl

set_option maxHeartbeats 20000000 in
theorem s0_main_v80 : StableHlo.after preS X (Proc.devRef .tc main_v80) = shapeCast S1x64 (X (Proc.devRef .tc main_arg3)) shapeCasts_S64_S1x64 := by
  after_results_simp <;> rfl
set_option maxHeartbeats 20000000 in
theorem s0_main_v81 : StableHlo.after preS X (Proc.devRef .tc main_v81) = shapeCast S1x64 (X (Proc.devRef .tc main_arg8)) shapeCasts_S64_S1x64 := by
  after_results_simp <;> rfl
set_option maxHeartbeats 20000000 in
theorem s0_main_v82 : StableHlo.after preS X (Proc.devRef .tc main_v82) = shapeCast S1x64 (X (Proc.devRef .tc main_arg9)) shapeCasts_S64_S1x64 := by
  after_results_simp <;> rfl
set_option maxHeartbeats 20000000 in
theorem s0_main_v83 : StableHlo.after preS X (Proc.devRef .tc main_v83) = shapeCast S1x64 (X (Proc.devRef .tc main_arg10)) shapeCasts_S64_S1x64 := by
  after_results_simp <;> rfl
set_option maxHeartbeats 20000000 in
theorem s0_main_v84 : StableHlo.after preS X (Proc.devRef .tc main_v84) = shapeCast S1x64 (X (Proc.devRef .tc main_arg11)) shapeCasts_S64_S1x64 := by
  after_results_simp <;> rfl

theorem s0_keep (r : Ref sig .tc) (h : r ∉ preS_W) : StableHlo.after preS X (Proc.devRef .tc r) = X (Proc.devRef .tc r) :=
  StableHlo.after_of_writes_sub preS _ preS_writes h
end

theorem s0_stack (X : Valuation τ sig (Elt Ideal)) : StableHlo.after preS X (Proc.devRef .tc main_v79) = polyStack (X (Proc.devRef .tc main_v1)) (X (Proc.devRef .tc main_v3)) (X (Proc.devRef .tc main_v29)) (X (Proc.devRef .tc main_arg0)) :=
  (s0_stackF X).trans (polyStackKF_eq _ _ _ _)

end Cert.KernelIdeal.Layers

end
-- ==== Proof.GlueStack1.lean ====
/-
  The stretch before kernel 1, read as the network's pieces: from the rows and weights of the edge list and the array
  it starts from it computes that array's four polynomials, stacked, and it reshapes the layer's parameter vectors to rows.
-/
import proofs.«127831_j29308856828499_2_alg».proof.Proof.IdealRun
import proofs.«127831_j29308856828499_2_alg».proof.Proof.PolyStack

set_option maxRecDepth 16384

noncomputable section

namespace Cert.KernelIdeal.Layers

open Cert.KernelIdeal Cert.KernelIdeal.Gen
open Idealize.ShloMosaic Idealize.ShloMosaic.TcCoe Idealize.SL.Sem Idealize.ShloMosaic.StableHlo
open Idealize.ShloMosaic.Pipeline (Dat)

section
variable {F : FTy → Type} [FloatOps F] (X : Valuation τ sig (Elt F))

set_option maxHeartbeats 40000000 in
theorem s1_stackF : StableHlo.after hostOps1 X (Proc.devRef .tc main_v135) = polyStackKF (X (Proc.devRef .tc main_v1)) (X (Proc.devRef .tc main_v3)) (X (Proc.devRef .tc main_v29)) (X (Proc.devRef .tc main_v85)) := by
  after_results_simp <;> rfl

set_option maxHeartbeats 20000000 in
theorem s1_main_v136 : StableHlo.after hostOps1 X (Proc.devRef .tc main_v136) = shapeCast S1x64 (X (Proc.devRef .tc main_arg5)) shapeCasts_S64_S1x64 := by
  after_results_simp <;> rfl
set_option maxHeartbeats 20000000 in
theorem s1_main_v137 : StableHlo.after hostOps1 X (Proc.devRef .tc main_v137) = shapeCast S1x64 (X (Proc.devRef .tc main_arg12)) shapeCasts_S64_S1x64 := by
  after_results_simp <;> rfl
set_option maxHeartbeats 20000000 in
theorem s1_main_v138 : StableHlo.after hostOps1 X (Proc.devRef .tc main_v138) = shapeCast S1x64 (X (Proc.devRef .tc main_arg13)) shapeCasts_S64_S1x64 := by
  after_results_simp <;> rfl
set_option maxHeartbeats 20000000 in
theorem s1_main_v139 : StableHlo.after hostOps1 X (Proc.devRef .tc main_v139) = shapeCast S1x64 (X (Proc.devRef .tc main_arg14)) shapeCasts_S64_S1x64 := by
  after_results_simp <;> rfl
set_option maxHeartbeats 20000000 in
theorem s1_main_v140 : StableHlo.after hostOps1 X (Proc.devRef .tc main_v140) = shapeCast S1x64 (X (Proc.devRef .tc main_arg15)) shapeCasts_S64_S1x64 := by
  after_results_simp <;> rfl

theorem s1_keep (r : Ref sig .tc) (h : r ∉ hostOps1_W) : StableHlo.after hostOps1 X (Proc.devRef .tc r) = X (Proc.devRef .tc r) :=
  StableHlo.after_of_writes_sub hostOps1 _ hostOps1_writes h
end

theorem s1_stack (X : Valuation τ sig (Elt Ideal)) : StableHlo.after hostOps1 X (Proc.devRef .tc main_v135) = polyStack (X (Proc.devRef .tc main_v1)) (X (Proc.devRef .tc main_v3)) (X (Proc.devRef .tc main_v29)) (X (Proc.devRef .tc main_v85)) :=
  (s1_stackF X).trans (polyStackKF_eq _ _ _ _)

end Cert.KernelIdeal.Layers

end
-- ==== Proof.GlueStack2.lean ====
/-
  The stretch before kernel 2, read as the network's pieces: from the rows and weights of the edge list and the array
  it starts from it computes that array's four polynomials, stacked, and it reshapes the layer's parameter vectors to rows.
-/
import proofs.«127831_j29308856828499_2_alg».proof.Proof.IdealRun
import proofs.«127831_j29308856828499_2_alg».proof.Proof.PolyStack

set_option maxRecDepth 16384

noncomputable section

namespace Cert.KernelIdeal.Layers

open Cert.KernelIdeal Cert.KernelIdeal.Gen
open Idealize.ShloMosaic Idealize.ShloMosaic.TcCoe Idealize.SL.Sem Idealize.ShloMosaic.StableHlo
open Idealize.ShloMosaic.Pipeline (Dat)

section
variable {F : FTy → Type} [FloatOps F] (X : Valuation τ sig (Elt F))

set_option maxHeartbeats 40000000 in
theorem s2_stackF : StableHlo.after hostOps2 X (Proc.devRef .tc main_v191) = polyStackKF (X (Proc.devRef .tc main_v1)) (X (Proc.devRef .tc main_v3)) (X (Proc.devRef .tc main_v29)) (X (Proc.devRef .tc main_v141)) := by
  after_results_simp <;> rfl

set_option maxHeartbeats 20000000 in
theorem s2_main_v192 : StableHlo.after hostOps2 X (Proc.devRef .tc main_v192) = shapeCast S1x64 (X (Proc.devRef .tc main_arg7)) shapeCasts_S64_S1x64 := by
  after_results_simp <;> rfl
set_option maxHeartbeats 20000000 in
theorem s2_main_v193 : StableHlo.after hostOps2 X (Proc.devRef .tc main_v193) = shapeCast S1x64 (X (Proc.devRef .tc main_arg16)) shapeCasts_S64_S1x64 := by
  after_results_simp <;> rfl
set_option maxHeartbeats 20000000 in
theorem s2_main_v194 : StableHlo.after hostOps2 X (Proc.devRef .tc main_v194) = shapeCast S1x64 (X (Proc.devRef .tc main_arg17)) shapeCasts_S64_S1x64 := by
  after_results_simp <;> rfl
set_option maxHeartbeats 20000000 in
theorem s2_main_v195 : StableHlo.after hostOps2 X (Proc.devRef .tc main_v195) = shapeCast S1x64 (X (Proc.devRef .tc main_arg18)) shapeCasts_S64_S1x64 := by
  after_results_simp <;> rfl
set_option maxHeartbeats 20000000 in
theorem s2_main_v196 : StableHlo.after hostOps2 X (Proc.devRef .tc main_v196) = shapeCast S1x64 (X (Proc.devRef .tc main_arg19)) shapeCasts_S64_S1x64 := by
  after_results_simp <;> rfl
set_option maxHeartbeats 20000000 in
theorem s2_main_v197 : StableHlo.after hostOps2 X (Proc.devRef .tc main_v197) = shapeCast S1x16 (X (Proc.devRef .tc main_arg21)) shapeCasts_S16_S1x16 := by
  after_results_simp <;> rfl
theorem s2_keep (r : Ref sig .tc) (h : r ∉ hostOps2_W) : StableHlo.after hostOps2 X (Proc.devRef .tc r) = X (Proc.devRef .tc r) :=
  StableHlo.after_of_writes_sub hostOps2 _ hostOps2_writes h
end

theorem s2_stack (X : Valuation τ sig (Elt Ideal)) : StableHlo.after hostOps2 X (Proc.devRef .tc main_v191) = polyStack (X (Proc.devRef .tc main_v1)) (X (Proc.devRef .tc main_v3)) (X (Proc.devRef .tc main_v29)) (X (Proc.devRef .tc main_v141)) :=
  (s2_stackF X).trans (polyStackKF_eq _ _ _ _)

end Cert.KernelIdeal.Layers

end
-- ==== Proof.IdealGlue.lean ====
/-
  The three kernels' results, composed. The first kernel is entered with the input's four polynomials stacked, so it
  leaves the first layer of the input; the stretch after it stacks the polynomials of that array, from the same rows and
  weights of the edge list, so the second kernel leaves the second layer; likewise the last kernel leaves the head of the
  third layer: the network of the arguments.
-/
import proofs.«127831_j29308856828499_2_alg».proof.Proof.GluePre
import proofs.«127831_j29308856828499_2_alg».proof.Proof.GlueStack0
import proofs.«127831_j29308856828499_2_alg».proof.Proof.GlueStack1
import proofs.«127831_j29308856828499_2_alg».proof.Proof.GlueStack2

set_option maxRecDepth 16384

noncomputable section

namespace Cert.KernelIdeal.Layers

open Cert.KernelIdeal Cert.KernelIdeal.Gen
open Idealize.ShloMosaic Idealize.ShloMosaic.TcCoe Idealize.SL.Sem Idealize.ShloMosaic.StableHlo
open Idealize.ShloMosaic.Pipeline (Dat)

section Compose

/-- The rows and the weights of the edge list, from the launch memory. -/
abbrev sE (m : (ℓ : Loc nD τ sig) → Buf (Elt Ideal) ℓ) (c : Dev nD) := Cert.Net.srcOf (F := Ideal) (m ((c : Thread nD τ).loc main_arg1))
abbrev dE (m : (ℓ : Loc nD τ sig) → Buf (Elt Ideal) ℓ) (c : Dev nD) := Cert.Net.dstOf (F := Ideal) (m ((c : Thread nD τ).loc main_arg1))
abbrev wE (m : (ℓ : Loc nD τ sig) → Buf (Elt Ideal) ℓ) (c : Dev nD) := Cert.Net.edgeW (F := Ideal) (sE m c) (dE m c)
/-- The first two layers' results. -/
abbrev h1 (m : (ℓ : Loc nD τ sig) → Buf (Elt Ideal) ℓ) (c : Dev nD) := Cert.Net.conv (F := Ideal) (sE m c) (dE m c) (wE m c) (m ((c : Thread nD τ).loc main_arg0)) (m ((c : Thread nD τ).loc main_arg2)) (m ((c : Thread nD τ).loc main_arg3)) (m ((c : Thread nD τ).loc main_arg8)) (m ((c : Thread nD τ).loc main_arg9)) (m ((c : Thread nD τ).loc main_arg10)) (m ((c : Thread nD τ).loc main_arg11))
abbrev h2 (m : (ℓ : Loc nD τ sig) → Buf (Elt Ideal) ℓ) (c : Dev nD) := Cert.Net.conv (F := Ideal) (sE m c) (dE m c) (wE m c) (h1 m c) (m ((c : Thread nD τ).loc main_arg4)) (m ((c : Thread nD τ).loc main_arg5)) (m ((c : Thread nD τ).loc main_arg12)) (m ((c : Thread nD τ).loc main_arg13)) (m ((c : Thread nD τ).loc main_arg14)) (m ((c : Thread nD τ).loc main_arg15))

variable (m : (ℓ : Loc nD τ sig) → Buf (Elt Ideal) ℓ) (ρ : Dev nD → PrngReg) (c : Dev nD)

/-- The first kernel's entry contents, through the cut of the last stretch before it. -/
theorem W1_cut (r : DevRef τ sig) : W1 m ρ c r = StableHlo.after preS (preA (W0 m ρ c)) r :=
  congrFun (after_hostOps0_2 (Wb m ρ c)) r

theorem W1_keep (r : Ref sig .tc) (h0 : r ∉ hostOps0_W) (h1 : r ∉ hostOps0_1_W) (h2 : r ∉ hostOps0_2_W) : W1 m ρ c (Proc.devRef .tc r) = W0 m ρ c (Proc.devRef .tc r) :=
  (StableHlo.after_of_writes_sub hostOps0_2 _ hostOps0_2_writes h2).trans
    ((StableHlo.after_of_writes_sub hostOps0_1 _ hostOps0_1_writes h1).trans (StableHlo.after_of_writes_sub hostOps0 _ hostOps0_writes h0))

theorem W1_src : W1 m ρ c (Proc.devRef .tc main_v1) = sE m c :=
  (W1_cut m ρ c _).trans ((s0_keep (preA (W0 m ρ c)) main_v1 (by decide)).trans (preA_src (W0 m ρ c)))
theorem W1_dst : W1 m ρ c (Proc.devRef .tc main_v3) = dE m c :=
  (W1_cut m ρ c _).trans ((s0_keep (preA (W0 m ρ c)) main_v3 (by decide)).trans (preA_dst (W0 m ρ c)))
theorem W1_w : W1 m ρ c (Proc.devRef .tc main_v29) = wE m c :=
  (W1_cut m ρ c _).trans ((s0_keep (preA (W0 m ρ c)) main_v29 (by decide)).trans (preA_w (W0 m ρ c)))

theorem stack1_eq : V1 m ρ c main_v79 = polyStack (sE m c) (dE m c) (wE m c) (m ((c : Thread nD τ).loc main_arg0)) := by
  refine (W1_cut m ρ c _).trans ((s0_stack (preA (W0 m ρ c))).trans ?_)
  rw [preA_src, preA_dst, preA_w, preA_keep (W0 m ρ c) main_arg0 (by decide) (by decide) (by decide)]

/-- The first kernel leaves the first layer of the input. -/
theorem out1_eq : W2 m ρ c (Proc.devRef .tc main_v85) = h1 m c :=
  (W2_arr m ρ c 7).trans (final0 (V1 m ρ) c (m ((c : Thread nD τ).loc main_arg0)) _ _ _ (m ((c : Thread nD τ).loc main_arg2)) (m ((c : Thread nD τ).loc main_arg3)) (m ((c : Thread nD τ).loc main_arg8)) (m ((c : Thread nD τ).loc main_arg9)) (m ((c : Thread nD τ).loc main_arg10)) (m ((c : Thread nD τ).loc main_arg11))
    (stack1_eq m ρ c) (W1_keep m ρ c main_arg2 (by decide) (by decide) (by decide))
    ((W1_cut m ρ c _).trans ((s0_main_v80 (preA (W0 m ρ c))).trans (by rw [preA_keep (W0 m ρ c) main_arg3 (by decide) (by decide) (by decide)]))) ((W1_cut m ρ c _).trans ((s0_main_v81 (preA (W0 m ρ c))).trans (by rw [preA_keep (W0 m ρ c) main_arg8 (by decide) (by decide) (by decide)]))) ((W1_cut m ρ c _).trans ((s0_main_v82 (preA (W0 m ρ c))).trans (by rw [preA_keep (W0 m ρ c) main_arg9 (by decide) (by decide) (by decide)])))
    ((W1_cut m ρ c _).trans ((s0_main_v83 (preA (W0 m ρ c))).trans (by rw [preA_keep (W0 m ρ c) main_arg10 (by decide) (by decide) (by decide)]))) ((W1_cut m ρ c _).trans ((s0_main_v84 (preA (W0 m ρ c))).trans (by rw [preA_keep (W0 m ρ c) main_arg11 (by decide) (by decide) (by decide)]))))

/-- The rows, the weights and the arguments reach the later stretches unchanged. -/
theorem W2_src : W2 m ρ c (Proc.devRef .tc main_v1) = sE m c := (W2_of_ne m ρ c main_v1 (by decide)).trans (W1_src m ρ c)
theorem W2_dst : W2 m ρ c (Proc.devRef .tc main_v3) = dE m c := (W2_of_ne m ρ c main_v3 (by decide)).trans (W1_dst m ρ c)
theorem W2_w : W2 m ρ c (Proc.devRef .tc main_v29) = wE m c := (W2_of_ne m ρ c main_v29 (by decide)).trans (W1_w m ρ c)
theorem W2_arg (r : Ref sig .tc) (hn : ∀ w, Pipeline.arrRef spec0 w ≠ r) (h0 : r ∉ hostOps0_W) (h1 : r ∉ hostOps0_1_W) (h2 : r ∉ hostOps0_2_W) :
    W2 m ρ c (Proc.devRef .tc r) = W0 m ρ c (Proc.devRef .tc r) := (W2_of_ne m ρ c r hn).trans (W1_keep m ρ c r h0 h1 h2)

theorem stack2_eq : V3 m ρ c main_v135 = polyStack (sE m c) (dE m c) (wE m c) (h1 m c) := by
  refine (s1_stack (W2 m ρ c)).trans ?_
  rw [W2_src, W2_dst, W2_w, out1_eq]

/-- The second kernel leaves the second layer. -/
theorem out2_eq : W4 m ρ c (Proc.devRef .tc main_v141) = h2 m c :=
  (W4_arr m ρ c 7).trans (final1 (V3 m ρ) c (h1 m c) _ _ _ (m ((c : Thread nD τ).loc main_arg4)) (m ((c : Thread nD τ).loc main_arg5)) (m ((c : Thread nD τ).loc main_arg12)) (m ((c : Thread nD τ).loc main_arg13)) (m ((c : Thread nD τ).loc main_arg14)) (m ((c : Thread nD τ).loc main_arg15))
    (stack2_eq m ρ c)
    ((s1_keep (W2 m ρ c) main_arg4 (by decide)).trans (W2_arg m ρ c main_arg4 (by decide) (by decide) (by decide) (by decide)))
    ((s1_main_v136 (W2 m ρ c)).trans (by rw [W2_arg m ρ c main_arg5 (by decide) (by decide) (by decide) (by decide)]))
    ((s1_main_v137 (W2 m ρ c)).trans (by rw [W2_arg m ρ c main_arg12 (by decide) (by decide) (by decide) (by decide)]))
    ((s1_main_v138 (W2 m ρ c)).trans (by rw [W2_arg m ρ c main_arg13 (by decide) (by decide) (by decide) (by decide)]))
    ((s1_main_v139 (W2 m ρ c)).trans (by rw [W2_arg m ρ c main_arg14 (by decide) (by decide) (by decide) (by decide)]))
    ((s1_main_v140 (W2 m ρ c)).trans (by rw [W2_arg m ρ c main_arg15 (by decide) (by decide) (by decide) (by decide)])))

theorem W4_keep (r : Ref sig .tc) (hn1 : ∀ w, Pipeline.arrRef spec1 w ≠ r) (hm : r ∉ hostOps1_W) : W4 m ρ c (Proc.devRef .tc r) = W2 m ρ c (Proc.devRef .tc r) :=
  (W4_of_ne m ρ c r hn1).trans (s1_keep (W2 m ρ c) r hm)
theorem W4_arg (r : Ref sig .tc) (hn1 : ∀ w, Pipeline.arrRef spec1 w ≠ r) (hm : r ∉ hostOps1_W) (hn : ∀ w, Pipeline.arrRef spec0 w ≠ r) (h0 : r ∉ hostOps0_W) (h1 : r ∉ hostOps0_1_W) (h2 : r ∉ hostOps0_2_W) :
    W4 m ρ c (Proc.devRef .tc r) = W0 m ρ c (Proc.devRef .tc r) := (W4_keep m ρ c r hn1 hm).trans (W2_arg m ρ c r hn h0 h1 h2)

theorem stack3_eq : V5 m ρ c main_v191 = polyStack (sE m c) (dE m c) (wE m c) (h2 m c) := by
  refine (s2_stack (W4 m ρ c)).trans ?_
  rw [(W4_keep m ρ c main_v1 (by decide) (by decide)).trans (W2_src m ρ c), (W4_keep m ρ c main_v3 (by decide) (by decide)).trans (W2_dst m ρ c),
    (W4_keep m ρ c main_v29 (by decide) (by decide)).trans (W2_w m ρ c), out2_eq]

/-- The last kernel leaves the network of the arguments. -/
theorem result_eq : W6 m ρ c (Proc.devRef .tc main_v198) = Cert.Net.net (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) :=
  (W6_arr m ρ c 9).trans (final2 (V5 m ρ) c (h2 m c) _ _ _ (m ((c : Thread nD τ).loc main_arg6)) (m ((c : Thread nD τ).loc main_arg7)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21))
    (stack3_eq m ρ c)
    ((s2_keep (W4 m ρ c) main_arg6 (by decide)).trans (W4_arg m ρ c main_arg6 (by decide) (by decide) (by decide) (by decide) (by decide) (by decide)))
    ((s2_main_v192 (W4 m ρ c)).trans (by rw [W4_arg m ρ c main_arg7 (by decide) (by decide) (by decide) (by decide) (by decide) (by decide)]))
    ((s2_main_v193 (W4 m ρ c)).trans (by rw [W4_arg m ρ c main_arg16 (by decide) (by decide) (by decide) (by decide) (by decide) (by decide)]))
    ((s2_main_v194 (W4 m ρ c)).trans (by rw [W4_arg m ρ c main_arg17 (by decide) (by decide) (by decide) (by decide) (by decide) (by decide)]))
    ((s2_main_v195 (W4 m ρ c)).trans (by rw [W4_arg m ρ c main_arg18 (by decide) (by decide) (by decide) (by decide) (by decide) (by decide)]))
    ((s2_main_v196 (W4 m ρ c)).trans (by rw [W4_arg m ρ c main_arg19 (by decide) (by decide) (by decide) (by decide) (by decide) (by decide)]))
    ((s2_keep (W4 m ρ c) main_arg20 (by decide)).trans (W4_arg m ρ c main_arg20 (by decide) (by decide) (by decide) (by decide) (by decide) (by decide)))
    ((s2_main_v197 (W4 m ρ c)).trans (by rw [W4_arg m ρ c main_arg21 (by decide) (by decide) (by decide) (by decide) (by decide) (by decide)])))

end Compose

end Cert.KernelIdeal.Layers

end
-- ==== Proof.RefCut.lean ====
/-
  The reference program's 318 whole-array operations, cut into five stretches that run one after the other: the edge
  weights, the three layers, the head. Every operation writes exactly one buffer, its own result, and no two operations
  write the same one; so a buffer that is not among a stretch's results holds after the stretch what it held before it.
  That is stated here once per stretch, over contents that are no further specified, together with the fact that the
  five stretches in a row are the whole program.
-/
import proofs.«127831_j29308856828499_2_alg».proof.Proof.RefOps
import proofs.«127831_j29308856828499_2_alg».proof.Proof.LibAfterAppend

noncomputable section

namespace Cert.RefRun

open Cert.ReferenceIdeal Cert.ReferenceIdeal.Gen Idealize.ShloMosaic Idealize.ShloMosaic.TcCoe Idealize.SL.Sem Idealize.ShloMosaic.StableHlo
open Cert.ReferenceIdeal.ValueP

variable {F : FTy → Type} [FloatOps F]

set_option maxHeartbeats 8000000 in
/-- The first 41 operations: the two rows of the edge list, every row's degree, and from them the weight of every edge. -/
abbrev p0 : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_cst (constant S_ .f32 0x3F800000#32),
    unary main_cst main_v4 (broadcastInDim S1600000 ![] bcast_S_S1600000 : (⟨S_, .f32⟩ : BufTy).Contents (Elt F) → (⟨S1600000, .f32⟩ : BufTy).Contents (Elt F)),
    nullary main_cst_0 (constant S_ .f32 0x00000000#32),
    unary main_cst_0 main_v5 (broadcastInDim S100000 ![] bcast_S_S100000 : (⟨S_, .f32⟩ : BufTy).Contents (Elt F) → (⟨S100000, .f32⟩ : BufTy).Contents (Elt F)),
    unary main_v1 main_v6 (broadcastInDim S1600000x1 ![0] bcast_S1600000_S1600000x1_0 : (⟨S1600000, .i32⟩ : BufTy).Contents (Elt F) → (⟨S1600000x1, .i32⟩ : BufTy).Contents (Elt F)),
    ternary main_v5 main_v6 main_v4 main_v7 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_1 (constant S_ .f32 0x00000000#32),
    unary main_cst_1 main_v8 (broadcastInDim S100000 ![] bcast_S_S100000 : (⟨S_, .f32⟩ : BufTy).Contents (Elt F) → (⟨S100000, .f32⟩ : BufTy).Contents (Elt F)),
    binary main_v7 main_v8 main_v9 (cmpf .ogt : (⟨S100000, .f32⟩ : BufTy).Contents (Elt F) → (⟨S100000, .f32⟩ : BufTy).Contents (Elt F) → (⟨S100000, .i1⟩ : BufTy).Contents (Elt F)),
    nullary main_cst_2 (constant S_ .f32 0x3F800000#32),
    unary main_cst_2 main_v10 (broadcastInDim S100000 ![] bcast_S_S100000 : (⟨S_, .f32⟩ : BufTy).Contents (Elt F) → (⟨S100000, .f32⟩ : BufTy).Contents (Elt F)),
    binary main_v7 main_v10 main_v11 (maximumf : (⟨S100000, .f32⟩ : BufTy).Contents (Elt F) → (⟨S100000, .f32⟩ : BufTy).Contents (Elt F) → (⟨S100000, .f32⟩ : BufTy).Contents (Elt F)),
    unary main_v11 main_v12 (Host.rsqrt : (⟨S100000, .f32⟩ : BufTy).Contents (Elt F) → (⟨S100000, .f32⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v9) (TRef.of (T := ⟨S100000, .f32⟩) main_v12) (TRef.of (T := ⟨S100000, .f32⟩) main_call0_v1) (TRef.of (T := ⟨S100000, .f32⟩) main_v13) select,
    nullary main_c (constantI S_ 32 0#32),
    unary main_c main_v14 (broadcastInDim S1600000 ![] bcast_S_S1600000 : (⟨S_, .i32⟩ : BufTy).Contents (Elt F) → (⟨S1600000, .i32⟩ : BufTy).Contents (Elt F)),
    binary main_v1 main_v14 main_v15 (cmpi .slt : (⟨S1600000, .i32⟩ : BufTy).Contents (Elt F) → (⟨S1600000, .i32⟩ : BufTy).Contents (Elt F) → (⟨S1600000, .i1⟩ : BufTy).Contents (Elt F)),
    nullary main_c_4 (constantI S_ 32 100000#32),
    unary main_c_4 main_v16 (broadcastInDim S1600000 ![] bcast_S_S1600000 : (⟨S_, .i32⟩ : BufTy).Contents (Elt F) → (⟨S1600000, .i32⟩ : BufTy).Contents (Elt F)),
    binary main_v1 main_v16 main_v17 (addi : (⟨S1600000, .i32⟩ : BufTy).Contents (Elt F) → (⟨S1600000, .i32⟩ : BufTy).Contents (Elt F) → (⟨S1600000, .i32⟩ : BufTy).Contents (Elt F)),
    ternary main_v15 main_v17 main_v1 main_v18 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v18 main_v19 (broadcastInDim S1600000x1 ![0] bcast_S1600000_S1600000x1_0 : (⟨S1600000, .i32⟩ : BufTy).Contents (Elt F) → (⟨S1600000x1, .i32⟩ : BufTy).Contents (Elt F)),
    binary main_v13 main_v19 main_v20 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    unary main_v20 main_v21 (Host.negf : (⟨S1600000, .f32⟩ : BufTy).Contents (Elt F) → (⟨S1600000, .f32⟩ : BufTy).Contents (Elt F)),
    nullary main_c_5 (constantI S_ 32 0#32),
    unary main_c_5 main_v22 (broadcastInDim S1600000 ![] bcast_S_S1600000 : (⟨S_, .i32⟩ : BufTy).Contents (Elt F) → (⟨S1600000, .i32⟩ : BufTy).Contents (Elt F)),
    binary main_v3 main_v22 main_v23 (cmpi .slt : (⟨S1600000, .i32⟩ : BufTy).Contents (Elt F) → (⟨S1600000, .i32⟩ : BufTy).Contents (Elt F) → (⟨S1600000, .i1⟩ : BufTy).Contents (Elt F)),
    nullary main_c_6 (constantI S_ 32 100000#32),
    unary main_c_6 main_v24 (broadcastInDim S1600000 ![] bcast_S_S1600000 : (⟨S_, .i32⟩ : BufTy).Contents (Elt F) → (⟨S1600000, .i32⟩ : BufTy).Contents (Elt F)),
    binary main_v3 main_v24 main_v25 (addi : (⟨S1600000, .i32⟩ : BufTy).Contents (Elt F) → (⟨S1600000, .i32⟩ : BufTy).Contents (Elt F) → (⟨S1600000, .i32⟩ : BufTy).Contents (Elt F)),
    ternary main_v23 main_v25 main_v3 main_v26 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v26 main_v27 (broadcastInDim S1600000x1 ![0] bcast_S1600000_S1600000x1_0 : (⟨S1600000, .i32⟩ : BufTy).Contents (Elt F) → (⟨S1600000x1, .i32⟩ : BufTy).Contents (Elt F)),
    binary main_v13 main_v27 main_v28 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    binary main_v21 main_v28 main_v29 (mulf : (⟨S1600000, .f32⟩ : BufTy).Contents (Elt F) → (⟨S1600000, .f32⟩ : BufTy).Contents (Elt F) → (⟨S1600000, .f32⟩ : BufTy).Contents (Elt F)) ]

set_option maxHeartbeats 8000000 in
/-- The next 91 operations: the first layer, from the input array to its clamped result. -/
abbrev l1 : List (HloOp τ sig (Elt F)) :=
  [ unary main_arg2 main_v30 ((extractStridedSlice S1x64x64 ![0, 0, 0] · slices_S4x64x64_S1x64x64_0_0_0) : (⟨S4x64x64, .f32⟩ : BufTy).Contents (Elt F) → (⟨S1x64x64, .f32⟩ : BufTy).Contents (Elt F)),
    reshape main_v30 main_v31 rfl shapeCasts_S1x64x64_S64x64,
    binary main_arg0 main_v31 main_v32 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_v29 main_v33 (broadcastInDim S1600000x1 ![0] bcast_S1600000_S1600000x1_0 : (⟨S1600000, .f32⟩ : BufTy).Contents (Elt F) → (⟨S1600000x1, .f32⟩ : BufTy).Contents (Elt F)),
    nullary main_c_7 (constantI S_ 32 0#32),
    unary main_c_7 main_v34 (broadcastInDim S1600000 ![] bcast_S_S1600000 : (⟨S_, .i32⟩ : BufTy).Contents (Elt F) → (⟨S1600000, .i32⟩ : BufTy).Contents (Elt F)),
    binary main_v1 main_v34 main_v35 (cmpi .slt : (⟨S1600000, .i32⟩ : BufTy).Contents (Elt F) → (⟨S1600000, .i32⟩ : BufTy).Contents (Elt F) → (⟨S1600000, .i1⟩ : BufTy).Contents (Elt F)),
    nullary main_c_8 (constantI S_ 32 100000#32),
    unary main_c_8 main_v36 (broadcastInDim S1600000 ![] bcast_S_S1600000 : (⟨S_, .i32⟩ : BufTy).Contents (Elt F) → (⟨S1600000, .i32⟩ : BufTy).Contents (Elt F)),
    binary main_v1 main_v36 main_v37 (addi : (⟨S1600000, .i32⟩ : BufTy).Contents (Elt F) → (⟨S1600000, .i32⟩ : BufTy).Contents (Elt F) → (⟨S1600000, .i32⟩ : BufTy).Contents (Elt F)),
    ternary main_v35 main_v37 main_v1 main_v38 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v38 main_v39 (broadcastInDim S1600000x1 ![0] bcast_S1600000_S1600000x1_0 : (⟨S1600000, .i32⟩ : BufTy).Contents (Elt F) → (⟨S1600000x1, .i32⟩ : BufTy).Contents (Elt F)),
    binary main_arg0 main_v39 main_v40 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_v33 main_v41 (broadcastInDim S1600000x64 ![0, 1] bcast_S1600000x1_S1600000x64_0_1 : (⟨S1600000x1, .f32⟩ : BufTy).Contents (Elt F) → (⟨S1600000x64, .f32⟩ : BufTy).Contents (Elt F)),
    binary main_v41 main_v40 main_v42 (mulf : (⟨S1600000x64, .f32⟩ : BufTy).Contents (Elt F) → (⟨S1600000x64, .f32⟩ : BufTy).Contents (Elt F) → (⟨S1600000x64, .f32⟩ : BufTy).Contents (Elt F)),
    nullary main_cst_9 (constant S_ .f32 0x00000000#32),
    unary main_cst_9 main_v43 (broadcastInDim S100000x64 ![] bcast_S_S100000x64 : (⟨S_, .f32⟩ : BufTy).Contents (Elt F) → (⟨S100000x64, .f32⟩ : BufTy).Contents (Elt F)),
    unary main_v3 main_v44 (broadcastInDim S1600000x1 ![0] bcast_S1600000_S1600000x1_0 : (⟨S1600000, .i32⟩ : BufTy).Contents (Elt F) → (⟨S1600000x1, .i32⟩ : BufTy).Contents (Elt F)),
    ternary main_v43 main_v44 main_v42 main_v45 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    unary main_arg2 main_v46 ((extractStridedSlice S1x64x64 ![1, 0, 0] · slices_S4x64x64_S1x64x64_1_0_0) : (⟨S4x64x64, .f32⟩ : BufTy).Contents (Elt F) → (⟨S1x64x64, .f32⟩ : BufTy).Contents (Elt F)),
    reshape main_v46 main_v47 rfl shapeCasts_S1x64x64_S64x64,
    binary main_v45 main_v47 main_v48 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v32 main_v48 main_v49 (addf : (⟨S100000x64, .f32⟩ : BufTy).Contents (Elt F) → (⟨S100000x64, .f32⟩ : BufTy).Contents (Elt F) → (⟨S100000x64, .f32⟩ : BufTy).Contents (Elt F)),
    unary main_v29 main_v50 (broadcastInDim S1600000x1 ![0] bcast_S1600000_S1600000x1_0 : (⟨S1600000, .f32⟩ : BufTy).Contents (Elt F) → (⟨S1600000x1, .f32⟩ : BufTy).Contents (Elt F)),
    nullary main_c_10 (constantI S_ 32 0#32),
    unary main_c_10 main_v51 (broadcastInDim S1600000 ![] bcast_S_S1600000 : (⟨S_, .i32⟩ : BufTy).Contents (Elt F) → (⟨S1600000, .i32⟩ : BufTy).Contents (Elt F)),
    binary main_v1 main_v51 main_v52 (cmpi .slt : (⟨S1600000, .i32⟩ : BufTy).Contents (Elt F) → (⟨S1600000, .i32⟩ : BufTy).Contents (Elt F) → (⟨S1600000, .i1⟩ : BufTy).Contents (Elt F)),
    nullary main_c_11 (constantI S_ 32 100000#32),
    unary main_c_11 main_v53 (broadcastInDim S1600000 ![] bcast_S_S1600000 : (⟨S_, .i32⟩ : BufTy).Contents (Elt F) → (⟨S1600000, .i32⟩ : BufTy).Contents (Elt F)),
    binary main_v1 main_v53 main_v54 (addi : (⟨S1600000, .i32⟩ : BufTy).Contents (Elt F) → (⟨S1600000, .i32⟩ : BufTy).Contents (Elt F) → (⟨S1600000, .i32⟩ : BufTy).Contents (Elt F)),
    ternary main_v52 main_v54 main_v1 main_v55 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v55 main_v56 (broadcastInDim S1600000x1 ![0] bcast_S1600000_S1600000x1_0 : (⟨S1600000, .i32⟩ : BufTy).Contents (Elt F) → (⟨S1600000x1, .i32⟩ : BufTy).Contents (Elt F)),
    binary main_v45 main_v56 main_v57 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_v50 main_v58 (broadcastInDim S1600000x64 ![0, 1] bcast_S1600000x1_S1600000x64_0_1 : (⟨S1600000x1, .f32⟩ : BufTy).Contents (Elt F) → (⟨S1600000x64, .f32⟩ : BufTy).Contents (Elt F)),
    binary main_v58 main_v57 main_v59 (mulf : (⟨S1600000x64, .f32⟩ : BufTy).Contents (Elt F) → (⟨S1600000x64, .f32⟩ : BufTy).Contents (Elt F) → (⟨S1600000x64, .f32⟩ : BufTy).Contents (Elt F)),
    nullary main_cst_12 (constant S_ .f32 0x00000000#32),
    unary main_cst_12 main_v60 (broadcastInDim S100000x64 ![] bcast_S_S100000x64 : (⟨S_, .f32⟩ : BufTy).Contents (Elt F) → (⟨S100000x64, .f32⟩ : BufTy).Contents (Elt F)),
    unary main_v3 main_v61 (broadcastInDim S1600000x1 ![0] bcast_S1600000_S1600000x1_0 : (⟨S1600000, .i32⟩ : BufTy).Contents (Elt F) → (⟨S1600000x1, .i32⟩ : BufTy).Contents (Elt F)),
    ternary main_v60 main_v61 main_v59 main_v62 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    nullary main_cst_13 (constant S_ .f32 0x40000000#32),
    unary main_cst_13 main_v63 (broadcastInDim S100000x64 ![] bcast_S_S100000x64 : (⟨S_, .f32⟩ : BufTy).Contents (Elt F) → (⟨S100000x64, .f32⟩ : BufTy).Contents (Elt F)),
    binary main_v63 main_v62 main_v64 (mulf : (⟨S100000x64, .f32⟩ : BufTy).Contents (Elt F) → (⟨S100000x64, .f32⟩ : BufTy).Contents (Elt F) → (⟨S100000x64, .f32⟩ : BufTy).Contents (Elt F)),
    binary main_v64 main_arg0 main_v65 (subf : (⟨S100000x64, .f32⟩ : BufTy).Contents (Elt F) → (⟨S100000x64, .f32⟩ : BufTy).Contents (Elt F) → (⟨S100000x64, .f32⟩ : BufTy).Contents (Elt F)),
    unary main_arg2 main_v66 ((extractStridedSlice S1x64x64 ![2, 0, 0] · slices_S4x64x64_S1x64x64_2_0_0) : (⟨S4x64x64, .f32⟩ : BufTy).Contents (Elt F) → (⟨S1x64x64, .f32⟩ : BufTy).Contents (Elt F)),
    reshape main_v66 main_v67 rfl shapeCasts_S1x64x64_S64x64,
    binary main_v65 main_v67 main_v68 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v49 main_v68 main_v69 (addf : (⟨S100000x64, .f32⟩ : BufTy).Contents (Elt F) → (⟨S100000x64, .f32⟩ : BufTy).Contents (Elt F) → (⟨S100000x64, .f32⟩ : BufTy).Contents (Elt F)),
    unary main_v29 main_v70 (broadcastInDim S1600000x1 ![0] bcast_S1600000_S1600000x1_0 : (⟨S1600000, .f32⟩ : BufTy).Contents (Elt F) → (⟨S1600000x1, .f32⟩ : BufTy).Contents (Elt F)),
    nullary main_c_14 (constantI S_ 32 0#32),
    unary main_c_14 main_v71 (broadcastInDim S1600000 ![] bcast_S_S1600000 : (⟨S_, .i32⟩ : BufTy).Contents (Elt F) → (⟨S1600000, .i32⟩ : BufTy).Contents (Elt F)),
    binary main_v1 main_v71 main_v72 (cmpi .slt : (⟨S1600000, .i32⟩ : BufTy).Contents (Elt F) → (⟨S1600000, .i32⟩ : BufTy).Contents (Elt F) → (⟨S1600000, .i1⟩ : BufTy).Contents (Elt F)),
    nullary main_c_15 (constantI S_ 32 100000#32),
    unary main_c_15 main_v73 (broadcastInDim S1600000 ![] bcast_S_S1600000 : (⟨S_, .i32⟩ : BufTy).Contents (Elt F) → (⟨S1600000, .i32⟩ : BufTy).Contents (Elt F)),
    binary main_v1 main_v73 main_v74 (addi : (⟨S1600000, .i32⟩ : BufTy).Contents (Elt F) → (⟨S1600000, .i32⟩ : BufTy).Contents (Elt F) → (⟨S1600000, .i32⟩ : BufTy).Contents (Elt F)),
    ternary main_v72 main_v74 main_v1 main_v75 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v75 main_v76 (broadcastInDim S1600000x1 ![0] bcast_S1600000_S1600000x1_0 : (⟨S1600000, .i32⟩ : BufTy).Contents (Elt F) → (⟨S1600000x1, .i32⟩ : BufTy).Contents (Elt F)),
    binary main_v65 main_v76 main_v77 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_v70 main_v78 (broadcastInDim S1600000x64 ![0, 1] bcast_S1600000x1_S1600000x64_0_1 : (⟨S1600000x1, .f32⟩ : BufTy).Contents (Elt F) → (⟨S1600000x64, .f32⟩ : BufTy).Contents (Elt F)),
    binary main_v78 main_v77 main_v79 (mulf : (⟨S1600000x64, .f32⟩ : BufTy).Contents (Elt F) → (⟨S1600000x64, .f32⟩ : BufTy).Contents (Elt F) → (⟨S1600000x64, .f32⟩ : BufTy).Contents (Elt F)),
    nullary main_cst_16 (constant S_ .f32 0x00000000#32),
    unary main_cst_16 main_v80 (broadcastInDim S100000x64 ![] bcast_S_S100000x64 : (⟨S_, .f32⟩ : BufTy).Contents (Elt F) → (⟨S100000x64, .f32⟩ : BufTy).Contents (Elt F)),
    unary main_v3 main_v81 (broadcastInDim S1600000x1 ![0] bcast_S1600000_S1600000x1_0 : (⟨S1600000, .i32⟩ : BufTy).Contents (Elt F) → (⟨S1600000x1, .i32⟩ : BufTy).Contents (Elt F)),
    ternary main_v80 main_v81 main_v79 main_v82 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    nullary main_cst_17 (constant S_ .f32 0x40000000#32),
    unary main_cst_17 main_v83 (broadcastInDim S100000x64 ![] bcast_S_S100000x64 : (⟨S_, .f32⟩ : BufTy).Contents (Elt F) → (⟨S100000x64, .f32⟩ : BufTy).Contents (Elt F)),
    binary main_v83 main_v82 main_v84 (mulf : (⟨S100000x64, .f32⟩ : BufTy).Contents (Elt F) → (⟨S100000x64, .f32⟩ : BufTy).Contents (Elt F) → (⟨S100000x64, .f32⟩ : BufTy).Contents (Elt F)),
    binary main_v84 main_v45 main_v85 (subf : (⟨S100000x64, .f32⟩ : BufTy).Contents (Elt F) → (⟨S100000x64, .f32⟩ : BufTy).Contents (Elt F) → (⟨S100000x64, .f32⟩ : BufTy).Contents (Elt F)),
    unary main_arg2 main_v86 ((extractStridedSlice S1x64x64 ![3, 0, 0] · slices_S4x64x64_S1x64x64_3_0_0) : (⟨S4x64x64, .f32⟩ : BufTy).Contents (Elt F) → (⟨S1x64x64, .f32⟩ : BufTy).Contents (Elt F)),
    reshape main_v86 main_v87 rfl shapeCasts_S1x64x64_S64x64,
    binary main_v85 main_v87 main_v88 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v69 main_v88 main_v89 (addf : (⟨S100000x64, .f32⟩ : BufTy).Contents (Elt F) → (⟨S100000x64, .f32⟩ : BufTy).Contents (Elt F) → (⟨S100000x64, .f32⟩ : BufTy).Contents (Elt F)),
    unary main_arg3 main_v90 (broadcastInDim S1x64 ![1] bcast_S64_S1x64_1 : (⟨S64, .f32⟩ : BufTy).Contents (Elt F) → (⟨S1x64, .f32⟩ : BufTy).Contents (Elt F)),
    unary main_v90 main_v91 (broadcastInDim S100000x64 ![0, 1] bcast_S1x64_S100000x64_0_1 : (⟨S1x64, .f32⟩ : BufTy).Contents (Elt F) → (⟨S100000x64, .f32⟩ : BufTy).Contents (Elt F)),
    binary main_v89 main_v91 main_v92 (addf : (⟨S100000x64, .f32⟩ : BufTy).Contents (Elt F) → (⟨S100000x64, .f32⟩ : BufTy).Contents (Elt F) → (⟨S100000x64, .f32⟩ : BufTy).Contents (Elt F)),
    unary main_arg10 main_v93 (broadcastInDim S1x64 ![1] bcast_S64_S1x64_1 : (⟨S64, .f32⟩ : BufTy).Contents (Elt F) → (⟨S1x64, .f32⟩ : BufTy).Contents (Elt F)),
    unary main_v93 main_v94 (broadcastInDim S100000x64 ![0, 1] bcast_S1x64_S100000x64_0_1 : (⟨S1x64, .f32⟩ : BufTy).Contents (Elt F) → (⟨S100000x64, .f32⟩ : BufTy).Contents (Elt F)),
    binary main_v92 main_v94 main_v95 (subf : (⟨S100000x64, .f32⟩ : BufTy).Contents (Elt F) → (⟨S100000x64, .f32⟩ : BufTy).Contents (Elt F) → (⟨S100000x64, .f32⟩ : BufTy).Contents (Elt F)),
    nullary main_cst_18 (constant S_ .f32 0x3727C5AC#32),
    unary main_cst_18 main_v96 (broadcastInDim S64 ![] bcast_S_S64 : (⟨S_, .f32⟩ : BufTy).Contents (Elt F) → (⟨S64, .f32⟩ : BufTy).Contents (Elt F)),
    binary main_arg11 main_v96 main_v97 (addf : (⟨S64, .f32⟩ : BufTy).Contents (Elt F) → (⟨S64, .f32⟩ : BufTy).Contents (Elt F) → (⟨S64, .f32⟩ : BufTy).Contents (Elt F)),
    unary main_v97 main_v98 (Host.rsqrt : (⟨S64, .f32⟩ : BufTy).Contents (Elt F) → (⟨S64, .f32⟩ : BufTy).Contents (Elt F)),
    binary main_arg8 main_v98 main_v99 (mulf : (⟨S64, .f32⟩ : BufTy).Contents (Elt F) → (⟨S64, .f32⟩ : BufTy).Contents (Elt F) → (⟨S64, .f32⟩ : BufTy).Contents (Elt F)),
    unary main_v99 main_v100 (broadcastInDim S1x64 ![1] bcast_S64_S1x64_1 : (⟨S64, .f32⟩ : BufTy).Contents (Elt F) → (⟨S1x64, .f32⟩ : BufTy).Contents (Elt F)),
    unary main_v100 main_v101 (broadcastInDim S100000x64 ![0, 1] bcast_S1x64_S100000x64_0_1 : (⟨S1x64, .f32⟩ : BufTy).Contents (Elt F) → (⟨S100000x64, .f32⟩ : BufTy).Contents (Elt F)),
    binary main_v95 main_v101 main_v102 (mulf : (⟨S100000x64, .f32⟩ : BufTy).Contents (Elt F) → (⟨S100000x64, .f32⟩ : BufTy).Contents (Elt F) → (⟨S100000x64, .f32⟩ : BufTy).Contents (Elt F)),
    unary main_arg9 main_v103 (broadcastInDim S1x64 ![1] bcast_S64_S1x64_1 : (⟨S64, .f32⟩ : BufTy).Contents (Elt F) → (⟨S1x64, .f32⟩ : BufTy).Contents (Elt F)),
    unary main_v103 main_v104 (broadcastInDim S100000x64 ![0, 1] bcast_S1x64_S100000x64_0_1 : (⟨S1x64, .f32⟩ : BufTy).Contents (Elt F) → (⟨S100000x64, .f32⟩ : BufTy).Contents (Elt F)),
    binary main_v102 main_v104 main_v105 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v105) (TRef.of (T := ⟨S100000x64, .f32⟩) main_call1_v0) (TRef.of (T := ⟨S100000x64, .f32⟩) main_v106) maximumf ]

set_option maxHeartbeats 8000000 in
/-- The next 91 operations: the second layer, from the first layer's result to its own. -/
abbrev l2 : List (HloOp τ sig (Elt F)) :=
  [ unary main_arg4 main_v107 ((extractStridedSlice S1x64x64 ![0, 0, 0] · slices_S4x64x64_S1x64x64_0_0_0) : (⟨S4x64x64, .f32⟩ : BufTy).Contents (Elt F) → (⟨S1x64x64, .f32⟩ : BufTy).Contents (Elt F)),
    reshape main_v107 main_v108 rfl shapeCasts_S1x64x64_S64x64,
    binary main_v106 main_v108 main_v109 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_v29 main_v110 (broadcastInDim S1600000x1 ![0] bcast_S1600000_S1600000x1_0 : (⟨S1600000, .f32⟩ : BufTy).Contents (Elt F) → (⟨S1600000x1, .f32⟩ : BufTy).Contents (Elt F)),
    nullary main_c_19 (constantI S_ 32 0#32),
    unary main_c_19 main_v111 (broadcastInDim S1600000 ![] bcast_S_S1600000 : (⟨S_, .i32⟩ : BufTy).Contents (Elt F) → (⟨S1600000, .i32⟩ : BufTy).Contents (Elt F)),
    binary main_v1 main_v111 main_v112 (cmpi .slt : (⟨S1600000, .i32⟩ : BufTy).Contents (Elt F) → (⟨S1600000, .i32⟩ : BufTy).Contents (Elt F) → (⟨S1600000, .i1⟩ : BufTy).Contents (Elt F)),
    nullary main_c_20 (constantI S_ 32 100000#32),
    unary main_c_20 main_v113 (broadcastInDim S1600000 ![] bcast_S_S1600000 : (⟨S_, .i32⟩ : BufTy).Contents (Elt F) → (⟨S1600000, .i32⟩ : BufTy).Contents (Elt F)),
    binary main_v1 main_v113 main_v114 (addi : (⟨S1600000, .i32⟩ : BufTy).Contents (Elt F) → (⟨S1600000, .i32⟩ : BufTy).Contents (Elt F) → (⟨S1600000, .i32⟩ : BufTy).Contents (Elt F)),
    ternary main_v112 main_v114 main_v1 main_v115 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v115 main_v116 (broadcastInDim S1600000x1 ![0] bcast_S1600000_S1600000x1_0 : (⟨S1600000, .i32⟩ : BufTy).Contents (Elt F) → (⟨S1600000x1, .i32⟩ : BufTy).Contents (Elt F)),
    binary main_v106 main_v116 main_v117 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_v110 main_v118 (broadcastInDim S1600000x64 ![0, 1] bcast_S1600000x1_S1600000x64_0_1 : (⟨S1600000x1, .f32⟩ : BufTy).Contents (Elt F) → (⟨S1600000x64, .f32⟩ : BufTy).Contents (Elt F)),
    binary main_v118 main_v117 main_v119 (mulf : (⟨S1600000x64, .f32⟩ : BufTy).Contents (Elt F) → (⟨S1600000x64, .f32⟩ : BufTy).Contents (Elt F) → (⟨S1600000x64, .f32⟩ : BufTy).Contents (Elt F)),
    nullary main_cst_21 (constant S_ .f32 0x00000000#32),
    unary main_cst_21 main_v120 (broadcastInDim S100000x64 ![] bcast_S_S100000x64 : (⟨S_, .f32⟩ : BufTy).Contents (Elt F) → (⟨S100000x64, .f32⟩ : BufTy).Contents (Elt F)),
    unary main_v3 main_v121 (broadcastInDim S1600000x1 ![0] bcast_S1600000_S1600000x1_0 : (⟨S1600000, .i32⟩ : BufTy).Contents (Elt F) → (⟨S1600000x1, .i32⟩ : BufTy).Contents (Elt F)),
    ternary main_v120 main_v121 main_v119 main_v122 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    unary main_arg4 main_v123 ((extractStridedSlice S1x64x64 ![1, 0, 0] · slices_S4x64x64_S1x64x64_1_0_0) : (⟨S4x64x64, .f32⟩ : BufTy).Contents (Elt F) → (⟨S1x64x64, .f32⟩ : BufTy).Contents (Elt F)),
    reshape main_v123 main_v124 rfl shapeCasts_S1x64x64_S64x64,
    binary main_v122 main_v124 main_v125 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v109 main_v125 main_v126 (addf : (⟨S100000x64, .f32⟩ : BufTy).Contents (Elt F) → (⟨S100000x64, .f32⟩ : BufTy).Contents (Elt F) → (⟨S100000x64, .f32⟩ : BufTy).Contents (Elt F)),
    unary main_v29 main_v127 (broadcastInDim S1600000x1 ![0] bcast_S1600000_S1600000x1_0 : (⟨S1600000, .f32⟩ : BufTy).Contents (Elt F) → (⟨S1600000x1, .f32⟩ : BufTy).Contents (Elt F)),
    nullary main_c_22 (constantI S_ 32 0#32),
    unary main_c_22 main_v128 (broadcastInDim S1600000 ![] bcast_S_S1600000 : (⟨S_, .i32⟩ : BufTy).Contents (Elt F) → (⟨S1600000, .i32⟩ : BufTy).Contents (Elt F)),
    binary main_v1 main_v128 main_v129 (cmpi .slt : (⟨S1600000, .i32⟩ : BufTy).Contents (Elt F) → (⟨S1600000, .i32⟩ : BufTy).Contents (Elt F) → (⟨S1600000, .i1⟩ : BufTy).Contents (Elt F)),
    nullary main_c_23 (constantI S_ 32 100000#32),
    unary main_c_23 main_v130 (broadcastInDim S1600000 ![] bcast_S_S1600000 : (⟨S_, .i32⟩ : BufTy).Contents (Elt F) → (⟨S1600000, .i32⟩ : BufTy).Contents (Elt F)),
    binary main_v1 main_v130 main_v131 (addi : (⟨S1600000, .i32⟩ : BufTy).Contents (Elt F) → (⟨S1600000, .i32⟩ : BufTy).Contents (Elt F) → (⟨S1600000, .i32⟩ : BufTy).Contents (Elt F)),
    ternary main_v129 main_v131 main_v1 main_v132 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v132 main_v133 (broadcastInDim S1600000x1 ![0] bcast_S1600000_S1600000x1_0 : (⟨S1600000, .i32⟩ : BufTy).Contents (Elt F) → (⟨S1600000x1, .i32⟩ : BufTy).Contents (Elt F)),
    binary main_v122 main_v133 main_v134 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_v127 main_v135 (broadcastInDim S1600000x64 ![0, 1] bcast_S1600000x1_S1600000x64_0_1 : (⟨S1600000x1, .f32⟩ : BufTy).Contents (Elt F) → (⟨S1600000x64, .f32⟩ : BufTy).Contents (Elt F)),
    binary main_v135 main_v134 main_v136 (mulf : (⟨S1600000x64, .f32⟩ : BufTy).Contents (Elt F) → (⟨S1600000x64, .f32⟩ : BufTy).Contents (Elt F) → (⟨S1600000x64, .f32⟩ : BufTy).Contents (Elt F)),
    nullary main_cst_24 (constant S_ .f32 0x00000000#32),
    unary main_cst_24 main_v137 (broadcastInDim S100000x64 ![] bcast_S_S100000x64 : (⟨S_, .f32⟩ : BufTy).Contents (Elt F) → (⟨S100000x64, .f32⟩ : BufTy).Contents (Elt F)),
    unary main_v3 main_v138 (broadcastInDim S1600000x1 ![0] bcast_S1600000_S1600000x1_0 : (⟨S1600000, .i32⟩ : BufTy).Contents (Elt F) → (⟨S1600000x1, .i32⟩ : BufTy).Contents (Elt F)),
    ternary main_v137 main_v138 main_v136 main_v139 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    nullary main_cst_25 (constant S_ .f32 0x40000000#32),
    unary main_cst_25 main_v140 (broadcastInDim S100000x64 ![] bcast_S_S100000x64 : (⟨S_, .f32⟩ : BufTy).Contents (Elt F) → (⟨S100000x64, .f32⟩ : BufTy).Contents (Elt F)),
    binary main_v140 main_v139 main_v141 (mulf : (⟨S100000x64, .f32⟩ : BufTy).Contents (Elt F) → (⟨S100000x64, .f32⟩ : BufTy).Contents (Elt F) → (⟨S100000x64, .f32⟩ : BufTy).Contents (Elt F)),
    binary main_v141 main_v106 main_v142 (subf : (⟨S100000x64, .f32⟩ : BufTy).Contents (Elt F) → (⟨S100000x64, .f32⟩ : BufTy).Contents (Elt F) → (⟨S100000x64, .f32⟩ : BufTy).Contents (Elt F)),
    unary main_arg4 main_v143 ((extractStridedSlice S1x64x64 ![2, 0, 0] · slices_S4x64x64_S1x64x64_2_0_0) : (⟨S4x64x64, .f32⟩ : BufTy).Contents (Elt F) → (⟨S1x64x64, .f32⟩ : BufTy).Contents (Elt F)),
    reshape main_v143 main_v144 rfl shapeCasts_S1x64x64_S64x64,
    binary main_v142 main_v144 main_v145 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v126 main_v145 main_v146 (addf : (⟨S100000x64, .f32⟩ : BufTy).Contents (Elt F) → (⟨S100000x64, .f32⟩ : BufTy).Contents (Elt F) → (⟨S100000x64, .f32⟩ : BufTy).Contents (Elt F)),
    unary main_v29 main_v147 (broadcastInDim S1600000x1 ![0] bcast_S1600000_S1600000x1_0 : (⟨S1600000, .f32⟩ : BufTy).Contents (Elt F) → (⟨S1600000x1, .f32⟩ : BufTy).Contents (Elt F)),
    nullary main_c_26 (constantI S_ 32 0#32),
    unary main_c_26 main_v148 (broadcastInDim S1600000 ![] bcast_S_S1600000 : (⟨S_, .i32⟩ : BufTy).Contents (Elt F) → (⟨S1600000, .i32⟩ : BufTy).Contents (Elt F)),
    binary main_v1 main_v148 main_v149 (cmpi .slt : (⟨S1600000, .i32⟩ : BufTy).Contents (Elt F) → (⟨S1600000, .i32⟩ : BufTy).Contents (Elt F) → (⟨S1600000, .i1⟩ : BufTy).Contents (Elt F)),
    nullary main_c_27 (constantI S_ 32 100000#32),
    unary main_c_27 main_v150 (broadcastInDim S1600000 ![] bcast_S_S1600000 : (⟨S_, .i32⟩ : BufTy).Contents (Elt F) → (⟨S1600000, .i32⟩ : BufTy).Contents (Elt F)),
    binary main_v1 main_v150 main_v151 (addi : (⟨S1600000, .i32⟩ : BufTy).Contents (Elt F) → (⟨S1600000, .i32⟩ : BufTy).Contents (Elt F) → (⟨S1600000, .i32⟩ : BufTy).Contents (Elt F)),
    ternary main_v149 main_v151 main_v1 main_v152 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v152 main_v153 (broadcastInDim S1600000x1 ![0] bcast_S1600000_S1600000x1_0 : (⟨S1600000, .i32⟩ : BufTy).Contents (Elt F) → (⟨S1600000x1, .i32⟩ : BufTy).Contents (Elt F)),
    binary main_v142 main_v153 main_v154 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_v147 main_v155 (broadcastInDim S1600000x64 ![0, 1] bcast_S1600000x1_S1600000x64_0_1 : (⟨S1600000x1, .f32⟩ : BufTy).Contents (Elt F) → (⟨S1600000x64, .f32⟩ : BufTy).Contents (Elt F)),
    binary main_v155 main_v154 main_v156 (mulf : (⟨S1600000x64, .f32⟩ : BufTy).Contents (Elt F) → (⟨S1600000x64, .f32⟩ : BufTy).Contents (Elt F) → (⟨S1600000x64, .f32⟩ : BufTy).Contents (Elt F)),
    nullary main_cst_28 (constant S_ .f32 0x00000000#32),
    unary main_cst_28 main_v157 (broadcastInDim S100000x64 ![] bcast_S_S100000x64 : (⟨S_, .f32⟩ : BufTy).Contents (Elt F) → (⟨S100000x64, .f32⟩ : BufTy).Contents (Elt F)),
    unary main_v3 main_v158 (broadcastInDim S1600000x1 ![0] bcast_S1600000_S1600000x1_0 : (⟨S1600000, .i32⟩ : BufTy).Contents (Elt F) → (⟨S1600000x1, .i32⟩ : BufTy).Contents (Elt F)),
    ternary main_v157 main_v158 main_v156 main_v159 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    nullary main_cst_29 (constant S_ .f32 0x40000000#32),
    unary main_cst_29 main_v160 (broadcastInDim S100000x64 ![] bcast_S_S100000x64 : (⟨S_, .f32⟩ : BufTy).Contents (Elt F) → (⟨S100000x64, .f32⟩ : BufTy).Contents (Elt F)),
    binary main_v160 main_v159 main_v161 (mulf : (⟨S100000x64, .f32⟩ : BufTy).Contents (Elt F) → (⟨S100000x64, .f32⟩ : BufTy).Contents (Elt F) → (⟨S100000x64, .f32⟩ : BufTy).Contents (Elt F)),
    binary main_v161 main_v122 main_v162 (subf : (⟨S100000x64, .f32⟩ : BufTy).Contents (Elt F) → (⟨S100000x64, .f32⟩ : BufTy).Contents (Elt F) → (⟨S100000x64, .f32⟩ : BufTy).Contents (Elt F)),
    unary main_arg4 main_v163 ((extractStridedSlice S1x64x64 ![3, 0, 0] · slices_S4x64x64_S1x64x64_3_0_0) : (⟨S4x64x64, .f32⟩ : BufTy).Contents (Elt F) → (⟨S1x64x64, .f32⟩ : BufTy).Contents (Elt F)),
    reshape main_v163 main_v164 rfl shapeCasts_S1x64x64_S64x64,
    binary main_v162 main_v164 main_v165 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v146 main_v165 main_v166 (addf : (⟨S100000x64, .f32⟩ : BufTy).Contents (Elt F) → (⟨S100000x64, .f32⟩ : BufTy).Contents (Elt F) → (⟨S100000x64, .f32⟩ : BufTy).Contents (Elt F)),
    unary main_arg5 main_v167 (broadcastInDim S1x64 ![1] bcast_S64_S1x64_1 : (⟨S64, .f32⟩ : BufTy).Contents (Elt F) → (⟨S1x64, .f32⟩ : BufTy).Contents (Elt F)),
    unary main_v167 main_v168 (broadcastInDim S100000x64 ![0, 1] bcast_S1x64_S100000x64_0_1 : (⟨S1x64, .f32⟩ : BufTy).Contents (Elt F) → (⟨S100000x64, .f32⟩ : BufTy).Contents (Elt F)),
    binary main_v166 main_v168 main_v169 (addf : (⟨S100000x64, .f32⟩ : BufTy).Contents (Elt F) → (⟨S100000x64, .f32⟩ : BufTy).Contents (Elt F) → (⟨S100000x64, .f32⟩ : BufTy).Contents (Elt F)),
    unary main_arg14 main_v170 (broadcastInDim S1x64 ![1] bcast_S64_S1x64_1 : (⟨S64, .f32⟩ : BufTy).Contents (Elt F) → (⟨S1x64, .f32⟩ : BufTy).Contents (Elt F)),
    unary main_v170 main_v171 (broadcastInDim S100000x64 ![0, 1] bcast_S1x64_S100000x64_0_1 : (⟨S1x64, .f32⟩ : BufTy).Contents (Elt F) → (⟨S100000x64, .f32⟩ : BufTy).Contents (Elt F)),
    binary main_v169 main_v171 main_v172 (subf : (⟨S100000x64, .f32⟩ : BufTy).Contents (Elt F) → (⟨S100000x64, .f32⟩ : BufTy).Contents (Elt F) → (⟨S100000x64, .f32⟩ : BufTy).Contents (Elt F)),
    nullary main_cst_30 (constant S_ .f32 0x3727C5AC#32),
    unary main_cst_30 main_v173 (broadcastInDim S64 ![] bcast_S_S64 : (⟨S_, .f32⟩ : BufTy).Contents (Elt F) → (⟨S64, .f32⟩ : BufTy).Contents (Elt F)),
    binary main_arg15 main_v173 main_v174 (addf : (⟨S64, .f32⟩ : BufTy).Contents (Elt F) → (⟨S64, .f32⟩ : BufTy).Contents (Elt F) → (⟨S64, .f32⟩ : BufTy).Contents (Elt F)),
    unary main_v174 main_v175 (Host.rsqrt : (⟨S64, .f32⟩ : BufTy).Contents (Elt F) → (⟨S64, .f32⟩ : BufTy).Contents (Elt F)),
    binary main_arg12 main_v175 main_v176 (mulf : (⟨S64, .f32⟩ : BufTy).Contents (Elt F) → (⟨S64, .f32⟩ : BufTy).Contents (Elt F) → (⟨S64, .f32⟩ : BufTy).Contents (Elt F)),
    unary main_v176 main_v177 (broadcastInDim S1x64 ![1] bcast_S64_S1x64_1 : (⟨S64, .f32⟩ : BufTy).Contents (Elt F) → (⟨S1x64, .f32⟩ : BufTy).Contents (Elt F)),
    unary main_v177 main_v178 (broadcastInDim S100000x64 ![0, 1] bcast_S1x64_S100000x64_0_1 : (⟨S1x64, .f32⟩ : BufTy).Contents (Elt F) → (⟨S100000x64, .f32⟩ : BufTy).Contents (Elt F)),
    binary main_v172 main_v178 main_v179 (mulf : (⟨S100000x64, .f32⟩ : BufTy).Contents (Elt F) → (⟨S100000x64, .f32⟩ : BufTy).Contents (Elt F) → (⟨S100000x64, .f32⟩ : BufTy).Contents (Elt F)),
    unary main_arg13 main_v180 (broadcastInDim S1x64 ![1] bcast_S64_S1x64_1 : (⟨S64, .f32⟩ : BufTy).Contents (Elt F) → (⟨S1x64, .f32⟩ : BufTy).Contents (Elt F)),
    unary main_v180 main_v181 (broadcastInDim S100000x64 ![0, 1] bcast_S1x64_S100000x64_0_1 : (⟨S1x64, .f32⟩ : BufTy).Contents (Elt F) → (⟨S100000x64, .f32⟩ : BufTy).Contents (Elt F)),
    binary main_v179 main_v181 main_v182 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x64, .f32⟩) main_call2_v0) (broadcastInDim S100000x64 ![] bcast_S_S100000x64),
    TRef.binary (TRef.of (T := ⟨S100000x64, .f32⟩) main_v182) (TRef.of (T := ⟨S100000x64, .f32⟩) main_call2_v0) (TRef.of (T := ⟨S100000x64, .f32⟩) main_v183) maximumf ]

set_option maxHeartbeats 8000000 in
/-- The next 91 operations: the third layer, from the second layer's result to its own. -/
abbrev l3 : List (HloOp τ sig (Elt F)) :=
  [ unary main_arg6 main_v184 ((extractStridedSlice S1x64x64 ![0, 0, 0] · slices_S4x64x64_S1x64x64_0_0_0) : (⟨S4x64x64, .f32⟩ : BufTy).Contents (Elt F) → (⟨S1x64x64, .f32⟩ : BufTy).Contents (Elt F)),
    reshape main_v184 main_v185 rfl shapeCasts_S1x64x64_S64x64,
    binary main_v183 main_v185 main_v186 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_v29 main_v187 (broadcastInDim S1600000x1 ![0] bcast_S1600000_S1600000x1_0 : (⟨S1600000, .f32⟩ : BufTy).Contents (Elt F) → (⟨S1600000x1, .f32⟩ : BufTy).Contents (Elt F)),
    nullary main_c_31 (constantI S_ 32 0#32),
    unary main_c_31 main_v188 (broadcastInDim S1600000 ![] bcast_S_S1600000 : (⟨S_, .i32⟩ : BufTy).Contents (Elt F) → (⟨S1600000, .i32⟩ : BufTy).Contents (Elt F)),
    binary main_v1 main_v188 main_v189 (cmpi .slt : (⟨S1600000, .i32⟩ : BufTy).Contents (Elt F) → (⟨S1600000, .i32⟩ : BufTy).Contents (Elt F) → (⟨S1600000, .i1⟩ : BufTy).Contents (Elt F)),
    nullary main_c_32 (constantI S_ 32 100000#32),
    unary main_c_32 main_v190 (broadcastInDim S1600000 ![] bcast_S_S1600000 : (⟨S_, .i32⟩ : BufTy).Contents (Elt F) → (⟨S1600000, .i32⟩ : BufTy).Contents (Elt F)),
    binary main_v1 main_v190 main_v191 (addi : (⟨S1600000, .i32⟩ : BufTy).Contents (Elt F) → (⟨S1600000, .i32⟩ : BufTy).Contents (Elt F) → (⟨S1600000, .i32⟩ : BufTy).Contents (Elt F)),
    ternary main_v189 main_v191 main_v1 main_v192 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v192 main_v193 (broadcastInDim S1600000x1 ![0] bcast_S1600000_S1600000x1_0 : (⟨S1600000, .i32⟩ : BufTy).Contents (Elt F) → (⟨S1600000x1, .i32⟩ : BufTy).Contents (Elt F)),
    binary main_v183 main_v193 main_v194 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_v187 main_v195 (broadcastInDim S1600000x64 ![0, 1] bcast_S1600000x1_S1600000x64_0_1 : (⟨S1600000x1, .f32⟩ : BufTy).Contents (Elt F) → (⟨S1600000x64, .f32⟩ : BufTy).Contents (Elt F)),
    binary main_v195 main_v194 main_v196 (mulf : (⟨S1600000x64, .f32⟩ : BufTy).Contents (Elt F) → (⟨S1600000x64, .f32⟩ : BufTy).Contents (Elt F) → (⟨S1600000x64, .f32⟩ : BufTy).Contents (Elt F)),
    nullary main_cst_33 (constant S_ .f32 0x00000000#32),
    unary main_cst_33 main_v197 (broadcastInDim S100000x64 ![] bcast_S_S100000x64 : (⟨S_, .f32⟩ : BufTy).Contents (Elt F) → (⟨S100000x64, .f32⟩ : BufTy).Contents (Elt F)),
    unary main_v3 main_v198 (broadcastInDim S1600000x1 ![0] bcast_S1600000_S1600000x1_0 : (⟨S1600000, .i32⟩ : BufTy).Contents (Elt F) → (⟨S1600000x1, .i32⟩ : BufTy).Contents (Elt F)),
    ternary main_v197 main_v198 main_v196 main_v199 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    unary main_arg6 main_v200 ((extractStridedSlice S1x64x64 ![1, 0, 0] · slices_S4x64x64_S1x64x64_1_0_0) : (⟨S4x64x64, .f32⟩ : BufTy).Contents (Elt F) → (⟨S1x64x64, .f32⟩ : BufTy).Contents (Elt F)),
    reshape main_v200 main_v201 rfl shapeCasts_S1x64x64_S64x64,
    binary main_v199 main_v201 main_v202 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v186 main_v202 main_v203 (addf : (⟨S100000x64, .f32⟩ : BufTy).Contents (Elt F) → (⟨S100000x64, .f32⟩ : BufTy).Contents (Elt F) → (⟨S100000x64, .f32⟩ : BufTy).Contents (Elt F)),
    unary main_v29 main_v204 (broadcastInDim S1600000x1 ![0] bcast_S1600000_S1600000x1_0 : (⟨S1600000, .f32⟩ : BufTy).Contents (Elt F) → (⟨S1600000x1, .f32⟩ : BufTy).Contents (Elt F)),
    nullary main_c_34 (constantI S_ 32 0#32),
    unary main_c_34 main_v205 (broadcastInDim S1600000 ![] bcast_S_S1600000 : (⟨S_, .i32⟩ : BufTy).Contents (Elt F) → (⟨S1600000, .i32⟩ : BufTy).Contents (Elt F)),
    binary main_v1 main_v205 main_v206 (cmpi .slt : (⟨S1600000, .i32⟩ : BufTy).Contents (Elt F) → (⟨S1600000, .i32⟩ : BufTy).Contents (Elt F) → (⟨S1600000, .i1⟩ : BufTy).Contents (Elt F)),
    nullary main_c_35 (constantI S_ 32 100000#32),
    unary main_c_35 main_v207 (broadcastInDim S1600000 ![] bcast_S_S1600000 : (⟨S_, .i32⟩ : BufTy).Contents (Elt F) → (⟨S1600000, .i32⟩ : BufTy).Contents (Elt F)),
    binary main_v1 main_v207 main_v208 (addi : (⟨S1600000, .i32⟩ : BufTy).Contents (Elt F) → (⟨S1600000, .i32⟩ : BufTy).Contents (Elt F) → (⟨S1600000, .i32⟩ : BufTy).Contents (Elt F)),
    ternary main_v206 main_v208 main_v1 main_v209 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v209 main_v210 (broadcastInDim S1600000x1 ![0] bcast_S1600000_S1600000x1_0 : (⟨S1600000, .i32⟩ : BufTy).Contents (Elt F) → (⟨S1600000x1, .i32⟩ : BufTy).Contents (Elt F)),
    binary main_v199 main_v210 main_v211 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_v204 main_v212 (broadcastInDim S1600000x64 ![0, 1] bcast_S1600000x1_S1600000x64_0_1 : (⟨S1600000x1, .f32⟩ : BufTy).Contents (Elt F) → (⟨S1600000x64, .f32⟩ : BufTy).Contents (Elt F)),
    binary main_v212 main_v211 main_v213 (mulf : (⟨S1600000x64, .f32⟩ : BufTy).Contents (Elt F) → (⟨S1600000x64, .f32⟩ : BufTy).Contents (Elt F) → (⟨S1600000x64, .f32⟩ : BufTy).Contents (Elt F)),
    nullary main_cst_36 (constant S_ .f32 0x00000000#32),
    unary main_cst_36 main_v214 (broadcastInDim S100000x64 ![] bcast_S_S100000x64 : (⟨S_, .f32⟩ : BufTy).Contents (Elt F) → (⟨S100000x64, .f32⟩ : BufTy).Contents (Elt F)),
    unary main_v3 main_v215 (broadcastInDim S1600000x1 ![0] bcast_S1600000_S1600000x1_0 : (⟨S1600000, .i32⟩ : BufTy).Contents (Elt F) → (⟨S1600000x1, .i32⟩ : BufTy).Contents (Elt F)),
    ternary main_v214 main_v215 main_v213 main_v216 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    nullary main_cst_37 (constant S_ .f32 0x40000000#32),
    unary main_cst_37 main_v217 (broadcastInDim S100000x64 ![] bcast_S_S100000x64 : (⟨S_, .f32⟩ : BufTy).Contents (Elt F) → (⟨S100000x64, .f32⟩ : BufTy).Contents (Elt F)),
    binary main_v217 main_v216 main_v218 (mulf : (⟨S100000x64, .f32⟩ : BufTy).Contents (Elt F) → (⟨S100000x64, .f32⟩ : BufTy).Contents (Elt F) → (⟨S100000x64, .f32⟩ : BufTy).Contents (Elt F)),
    binary main_v218 main_v183 main_v219 (subf : (⟨S100000x64, .f32⟩ : BufTy).Contents (Elt F) → (⟨S100000x64, .f32⟩ : BufTy).Contents (Elt F) → (⟨S100000x64, .f32⟩ : BufTy).Contents (Elt F)),
    unary main_arg6 main_v220 ((extractStridedSlice S1x64x64 ![2, 0, 0] · slices_S4x64x64_S1x64x64_2_0_0) : (⟨S4x64x64, .f32⟩ : BufTy).Contents (Elt F) → (⟨S1x64x64, .f32⟩ : BufTy).Contents (Elt F)),
    reshape main_v220 main_v221 rfl shapeCasts_S1x64x64_S64x64,
    binary main_v219 main_v221 main_v222 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v203 main_v222 main_v223 (addf : (⟨S100000x64, .f32⟩ : BufTy).Contents (Elt F) → (⟨S100000x64, .f32⟩ : BufTy).Contents (Elt F) → (⟨S100000x64, .f32⟩ : BufTy).Contents (Elt F)),
    unary main_v29 main_v224 (broadcastInDim S1600000x1 ![0] bcast_S1600000_S1600000x1_0 : (⟨S1600000, .f32⟩ : BufTy).Contents (Elt F) → (⟨S1600000x1, .f32⟩ : BufTy).Contents (Elt F)),
    nullary main_c_38 (constantI S_ 32 0#32),
    unary main_c_38 main_v225 (broadcastInDim S1600000 ![] bcast_S_S1600000 : (⟨S_, .i32⟩ : BufTy).Contents (Elt F) → (⟨S1600000, .i32⟩ : BufTy).Contents (Elt F)),
    binary main_v1 main_v225 main_v226 (cmpi .slt : (⟨S1600000, .i32⟩ : BufTy).Contents (Elt F) → (⟨S1600000, .i32⟩ : BufTy).Contents (Elt F) → (⟨S1600000, .i1⟩ : BufTy).Contents (Elt F)),
    nullary main_c_39 (constantI S_ 32 100000#32),
    unary main_c_39 main_v227 (broadcastInDim S1600000 ![] bcast_S_S1600000 : (⟨S_, .i32⟩ : BufTy).Contents (Elt F) → (⟨S1600000, .i32⟩ : BufTy).Contents (Elt F)),
    binary main_v1 main_v227 main_v228 (addi : (⟨S1600000, .i32⟩ : BufTy).Contents (Elt F) → (⟨S1600000, .i32⟩ : BufTy).Contents (Elt F) → (⟨S1600000, .i32⟩ : BufTy).Contents (Elt F)),
    ternary main_v226 main_v228 main_v1 main_v229 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v229 main_v230 (broadcastInDim S1600000x1 ![0] bcast_S1600000_S1600000x1_0 : (⟨S1600000, .i32⟩ : BufTy).Contents (Elt F) → (⟨S1600000x1, .i32⟩ : BufTy).Contents (Elt F)),
    binary main_v219 main_v230 main_v231 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_v224 main_v232 (broadcastInDim S1600000x64 ![0, 1] bcast_S1600000x1_S1600000x64_0_1 : (⟨S1600000x1, .f32⟩ : BufTy).Contents (Elt F) → (⟨S1600000x64, .f32⟩ : BufTy).Contents (Elt F)),
    binary main_v232 main_v231 main_v233 (mulf : (⟨S1600000x64, .f32⟩ : BufTy).Contents (Elt F) → (⟨S1600000x64, .f32⟩ : BufTy).Contents (Elt F) → (⟨S1600000x64, .f32⟩ : BufTy).Contents (Elt F)),
    nullary main_cst_40 (constant S_ .f32 0x00000000#32),
    unary main_cst_40 main_v234 (broadcastInDim S100000x64 ![] bcast_S_S100000x64 : (⟨S_, .f32⟩ : BufTy).Contents (Elt F) → (⟨S100000x64, .f32⟩ : BufTy).Contents (Elt F)),
    unary main_v3 main_v235 (broadcastInDim S1600000x1 ![0] bcast_S1600000_S1600000x1_0 : (⟨S1600000, .i32⟩ : BufTy).Contents (Elt F) → (⟨S1600000x1, .i32⟩ : BufTy).Contents (Elt F)),
    ternary main_v234 main_v235 main_v233 main_v236 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    nullary main_cst_41 (constant S_ .f32 0x40000000#32),
    unary main_cst_41 main_v237 (broadcastInDim S100000x64 ![] bcast_S_S100000x64 : (⟨S_, .f32⟩ : BufTy).Contents (Elt F) → (⟨S100000x64, .f32⟩ : BufTy).Contents (Elt F)),
    binary main_v237 main_v236 main_v238 (mulf : (⟨S100000x64, .f32⟩ : BufTy).Contents (Elt F) → (⟨S100000x64, .f32⟩ : BufTy).Contents (Elt F) → (⟨S100000x64, .f32⟩ : BufTy).Contents (Elt F)),
    binary main_v238 main_v199 main_v239 (subf : (⟨S100000x64, .f32⟩ : BufTy).Contents (Elt F) → (⟨S100000x64, .f32⟩ : BufTy).Contents (Elt F) → (⟨S100000x64, .f32⟩ : BufTy).Contents (Elt F)),
    unary main_arg6 main_v240 ((extractStridedSlice S1x64x64 ![3, 0, 0] · slices_S4x64x64_S1x64x64_3_0_0) : (⟨S4x64x64, .f32⟩ : BufTy).Contents (Elt F) → (⟨S1x64x64, .f32⟩ : BufTy).Contents (Elt F)),
    reshape main_v240 main_v241 rfl shapeCasts_S1x64x64_S64x64,
    binary main_v239 main_v241 main_v242 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v223 main_v242 main_v243 (addf : (⟨S100000x64, .f32⟩ : BufTy).Contents (Elt F) → (⟨S100000x64, .f32⟩ : BufTy).Contents (Elt F) → (⟨S100000x64, .f32⟩ : BufTy).Contents (Elt F)),
    unary main_arg7 main_v244 (broadcastInDim S1x64 ![1] bcast_S64_S1x64_1 : (⟨S64, .f32⟩ : BufTy).Contents (Elt F) → (⟨S1x64, .f32⟩ : BufTy).Contents (Elt F)),
    unary main_v244 main_v245 (broadcastInDim S100000x64 ![0, 1] bcast_S1x64_S100000x64_0_1 : (⟨S1x64, .f32⟩ : BufTy).Contents (Elt F) → (⟨S100000x64, .f32⟩ : BufTy).Contents (Elt F)),
    binary main_v243 main_v245 main_v246 (addf : (⟨S100000x64, .f32⟩ : BufTy).Contents (Elt F) → (⟨S100000x64, .f32⟩ : BufTy).Contents (Elt F) → (⟨S100000x64, .f32⟩ : BufTy).Contents (Elt F)),
    unary main_arg18 main_v247 (broadcastInDim S1x64 ![1] bcast_S64_S1x64_1 : (⟨S64, .f32⟩ : BufTy).Contents (Elt F) → (⟨S1x64, .f32⟩ : BufTy).Contents (Elt F)),
    unary main_v247 main_v248 (broadcastInDim S100000x64 ![0, 1] bcast_S1x64_S100000x64_0_1 : (⟨S1x64, .f32⟩ : BufTy).Contents (Elt F) → (⟨S100000x64, .f32⟩ : BufTy).Contents (Elt F)),
    binary main_v246 main_v248 main_v249 (subf : (⟨S100000x64, .f32⟩ : BufTy).Contents (Elt F) → (⟨S100000x64, .f32⟩ : BufTy).Contents (Elt F) → (⟨S100000x64, .f32⟩ : BufTy).Contents (Elt F)),
    nullary main_cst_42 (constant S_ .f32 0x3727C5AC#32),
    unary main_cst_42 main_v250 (broadcastInDim S64 ![] bcast_S_S64 : (⟨S_, .f32⟩ : BufTy).Contents (Elt F) → (⟨S64, .f32⟩ : BufTy).Contents (Elt F)),
    binary main_arg19 main_v250 main_v251 (addf : (⟨S64, .f32⟩ : BufTy).Contents (Elt F) → (⟨S64, .f32⟩ : BufTy).Contents (Elt F) → (⟨S64, .f32⟩ : BufTy).Contents (Elt F)),
    unary main_v251 main_v252 (Host.rsqrt : (⟨S64, .f32⟩ : BufTy).Contents (Elt F) → (⟨S64, .f32⟩ : BufTy).Contents (Elt F)),
    binary main_arg16 main_v252 main_v253 (mulf : (⟨S64, .f32⟩ : BufTy).Contents (Elt F) → (⟨S64, .f32⟩ : BufTy).Contents (Elt F) → (⟨S64, .f32⟩ : BufTy).Contents (Elt F)),
    unary main_v253 main_v254 (broadcastInDim S1x64 ![1] bcast_S64_S1x64_1 : (⟨S64, .f32⟩ : BufTy).Contents (Elt F) → (⟨S1x64, .f32⟩ : BufTy).Contents (Elt F)),
    unary main_v254 main_v255 (broadcastInDim S100000x64 ![0, 1] bcast_S1x64_S100000x64_0_1 : (⟨S1x64, .f32⟩ : BufTy).Contents (Elt F) → (⟨S100000x64, .f32⟩ : BufTy).Contents (Elt F)),
    binary main_v249 main_v255 main_v256 (mulf : (⟨S100000x64, .f32⟩ : BufTy).Contents (Elt F) → (⟨S100000x64, .f32⟩ : BufTy).Contents (Elt F) → (⟨S100000x64, .f32⟩ : BufTy).Contents (Elt F)),
    unary main_arg17 main_v257 (broadcastInDim S1x64 ![1] bcast_S64_S1x64_1 : (⟨S64, .f32⟩ : BufTy).Contents (Elt F) → (⟨S1x64, .f32⟩ : BufTy).Contents (Elt F)),
    unary main_v257 main_v258 (broadcastInDim S100000x64 ![0, 1] bcast_S1x64_S100000x64_0_1 : (⟨S1x64, .f32⟩ : BufTy).Contents (Elt F) → (⟨S100000x64, .f32⟩ : BufTy).Contents (Elt F)),
    binary main_v256 main_v258 main_v259 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x64, .f32⟩) main_call3_v0) (broadcastInDim S100000x64 ![] bcast_S_S100000x64),
    TRef.binary (TRef.of (T := ⟨S100000x64, .f32⟩) main_v259) (TRef.of (T := ⟨S100000x64, .f32⟩) main_call3_v0) (TRef.of (T := ⟨S100000x64, .f32⟩) main_v260) maximumf ]

set_option maxHeartbeats 8000000 in
/-- The last 4 operations: the product with the head's weight and the head's bias added. -/
abbrev hd : List (HloOp τ sig (Elt F)) :=
  [ binary main_v260 main_arg20 main_v261 ((fun l r => Host.dotGeneral dot_S100000x64_S64x16_S100000x16_1_0_0_1_n_n none l r) : (⟨S100000x64, .f32⟩ : BufTy).Contents (Elt F) → (⟨S64x16, .f32⟩ : BufTy).Contents (Elt F) → (⟨S100000x16, .f32⟩ : BufTy).Contents (Elt F)),
    unary main_arg21 main_v262 (broadcastInDim S1x16 ![1] bcast_S16_S1x16_1 : (⟨S16, .f32⟩ : BufTy).Contents (Elt F) → (⟨S1x16, .f32⟩ : BufTy).Contents (Elt F)),
    unary main_v262 main_v263 (broadcastInDim S100000x16 ![0, 1] bcast_S1x16_S100000x16_0_1 : (⟨S1x16, .f32⟩ : BufTy).Contents (Elt F) → (⟨S100000x16, .f32⟩ : BufTy).Contents (Elt F)),
    binary main_v261 main_v263 main_v264 (addf : (⟨S100000x16, .f32⟩ : BufTy).Contents (Elt F) → (⟨S100000x16, .f32⟩ : BufTy).Contents (Elt F) → (⟨S100000x16, .f32⟩ : BufTy).Contents (Elt F)) ]

set_option maxRecDepth 8192 in
set_option maxHeartbeats 8000000 in
/-- The five stretches in a row are the program's operations. -/
theorem ops_cut : (ops : List (HloOp τ sig (Elt F))) = p0 ++ (l1 ++ (l2 ++ (l3 ++ hd))) := rfl

/-- The contents after the whole program are those after the head, from those after the third layer, and so on back. -/
theorem after_ops (V : Valuation τ sig (Elt F)) :
    after ops V = after hd (after l3 (after l2 (after l1 (after p0 V)))) := by
  rw [ops_cut, AfterAppend.after_append, AfterAppend.after_append, AfterAppend.after_append, AfterAppend.after_append]

/-- The buffers the stretch `p0` writes: its operations' results, in order. -/
abbrev p0W : List (Ref sig .tc) :=
  [main_v0, main_v1, main_v2, main_v3, main_cst, main_v4, main_cst_0, main_v5, main_v6, main_v7, main_cst_1,
   main_v8, main_v9, main_cst_2, main_v10, main_v11, main_v12, main_cst_3, main_call0_v0, main_call0_v1,
   main_v13, main_c, main_v14, main_v15, main_c_4, main_v16, main_v17, main_v18, main_v19, main_v20, main_v21,
   main_c_5, main_v22, main_v23, main_c_6, main_v24, main_v25, main_v26, main_v27, main_v28, main_v29]

set_option maxRecDepth 8192 in
set_option maxHeartbeats 8000000 in
theorem p0_writes : (p0 : List (HloOp τ sig (Elt F))).Forall fun op => op.writes ⊆ (p0W.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

/-- A buffer that is not a result of `p0` holds after it what it held before. -/
theorem p0_keep (V : Valuation τ sig (Elt F)) {r : Ref sig .tc} (h : r ∉ p0W) :
    after p0 V (Proc.devRef .tc r) = V (Proc.devRef .tc r) :=
  after_of_writes_sub p0 V p0_writes h

/-- The buffers the stretch `l1` writes: its operations' results, in order. -/
abbrev l1W : List (Ref sig .tc) :=
  [main_v30, main_v31, main_v32, main_v33, main_c_7, main_v34, main_v35, main_c_8, main_v36, main_v37, main_v38,
   main_v39, main_v40, main_v41, main_v42, main_cst_9, main_v43, main_v44, main_v45, main_v46, main_v47,
   main_v48, main_v49, main_v50, main_c_10, main_v51, main_v52, main_c_11, main_v53, main_v54, main_v55,
   main_v56, main_v57, main_v58, main_v59, main_cst_12, main_v60, main_v61, main_v62, main_cst_13, main_v63,
   main_v64, main_v65, main_v66, main_v67, main_v68, main_v69, main_v70, main_c_14, main_v71, main_v72,
   main_c_15, main_v73, main_v74, main_v75, main_v76, main_v77, main_v78, main_v79, main_cst_16, main_v80,
   main_v81, main_v82, main_cst_17, main_v83, main_v84, main_v85, main_v86, main_v87, main_v88, main_v89,
   main_v90, main_v91, main_v92, main_v93, main_v94, main_v95, main_cst_18, main_v96, main_v97, main_v98,
   main_v99, main_v100, main_v101, main_v102, main_v103, main_v104, main_v105, main_call1_cst, main_call1_v0,
   main_v106]

set_option maxRecDepth 8192 in
set_option maxHeartbeats 8000000 in
theorem l1_writes : (l1 : List (HloOp τ sig (Elt F))).Forall fun op => op.writes ⊆ (l1W.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

/-- A buffer that is not a result of `l1` holds after it what it held before. -/
theorem l1_keep (V : Valuation τ sig (Elt F)) {r : Ref sig .tc} (h : r ∉ l1W) :
    after l1 V (Proc.devRef .tc r) = V (Proc.devRef .tc r) :=
  after_of_writes_sub l1 V l1_writes h

/-- The buffers the stretch `l2` writes: its operations' results, in order. -/
abbrev l2W : List (Ref sig .tc) :=
  [main_v107, main_v108, main_v109, main_v110, main_c_19, main_v111, main_v112, main_c_20, main_v113, main_v114,
   main_v115, main_v116, main_v117, main_v118, main_v119, main_cst_21, main_v120, main_v121, main_v122,
   main_v123, main_v124, main_v125, main_v126, main_v127, main_c_22, main_v128, main_v129, main_c_23, main_v130,
   main_v131, main_v132, main_v133, main_v134, main_v135, main_v136, main_cst_24, main_v137, main_v138,
   main_v139, main_cst_25, main_v140, main_v141, main_v142, main_v143, main_v144, main_v145, main_v146,
   main_v147, main_c_26, main_v148, main_v149, main_c_27, main_v150, main_v151, main_v152, main_v153, main_v154,
   main_v155, main_v156, main_cst_28, main_v157, main_v158, main_v159, main_cst_29, main_v160, main_v161,
   main_v162, main_v163, main_v164, main_v165, main_v166, main_v167, main_v168, main_v169, main_v170, main_v171,
   main_v172, main_cst_30, main_v173, main_v174, main_v175, main_v176, main_v177, main_v178, main_v179,
   main_v180, main_v181, main_v182, main_call2_cst, main_call2_v0, main_v183]

set_option maxRecDepth 8192 in
set_option maxHeartbeats 8000000 in
theorem l2_writes : (l2 : List (HloOp τ sig (Elt F))).Forall fun op => op.writes ⊆ (l2W.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

/-- A buffer that is not a result of `l2` holds after it what it held before. -/
theorem l2_keep (V : Valuation τ sig (Elt F)) {r : Ref sig .tc} (h : r ∉ l2W) :
    after l2 V (Proc.devRef .tc r) = V (Proc.devRef .tc r) :=
  after_of_writes_sub l2 V l2_writes h

/-- The buffers the stretch `l3` writes: its operations' results, in order. -/
abbrev l3W : List (Ref sig .tc) :=
  [main_v184, main_v185, main_v186, main_v187, main_c_31, main_v188, main_v189, main_c_32, main_v190, main_v191,
   main_v192, main_v193, main_v194, main_v195, main_v196, main_cst_33, main_v197, main_v198, main_v199,
   main_v200, main_v201, main_v202, main_v203, main_v204, main_c_34, main_v205, main_v206, main_c_35, main_v207,
   main_v208, main_v209, main_v210, main_v211, main_v212, main_v213, main_cst_36, main_v214, main_v215,
   main_v216, main_cst_37, main_v217, main_v218, main_v219, main_v220, main_v221, main_v222, main_v223,
   main_v224, main_c_38, main_v225, main_v226, main_c_39, main_v227, main_v228, main_v229, main_v230, main_v231,
   main_v232, main_v233, main_cst_40, main_v234, main_v235, main_v236, main_cst_41, main_v237, main_v238,
   main_v239, main_v240, main_v241, main_v242, main_v243, main_v244, main_v245, main_v246, main_v247, main_v248,
   main_v249, main_cst_42, main_v250, main_v251, main_v252, main_v253, main_v254, main_v255, main_v256,
   main_v257, main_v258, main_v259, main_call3_cst, main_call3_v0, main_v260]

set_option maxRecDepth 8192 in
set_option maxHeartbeats 8000000 in
theorem l3_writes : (l3 : List (HloOp τ sig (Elt F))).Forall fun op => op.writes ⊆ (l3W.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

/-- A buffer that is not a result of `l3` holds after it what it held before. -/
theorem l3_keep (V : Valuation τ sig (Elt F)) {r : Ref sig .tc} (h : r ∉ l3W) :
    after l3 V (Proc.devRef .tc r) = V (Proc.devRef .tc r) :=
  after_of_writes_sub l3 V l3_writes h

/-- The buffers the stretch `hd` writes: its operations' results, in order. -/
abbrev hdW : List (Ref sig .tc) :=
  [main_v261, main_v262, main_v263, main_v264]

set_option maxRecDepth 8192 in
set_option maxHeartbeats 8000000 in
theorem hd_writes : (hd : List (HloOp τ sig (Elt F))).Forall fun op => op.writes ⊆ (hdW.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

/-- A buffer that is not a result of `hd` holds after it what it held before. -/
theorem hd_keep (V : Valuation τ sig (Elt F)) {r : Ref sig .tc} (h : r ∉ hdW) :
    after hd V (Proc.devRef .tc r) = V (Proc.devRef .tc r) :=
  after_of_writes_sub hd V hd_writes h

/-- A buffer that is no operation's result holds after the whole program what it held before. -/
theorem ops_keep (V : Valuation τ sig (Elt F)) {r : Ref sig .tc}
    (h0 : r ∉ p0W) (h1 : r ∉ l1W) (h2 : r ∉ l2W) (h3 : r ∉ l3W) (h4 : r ∉ hdW) :
    after ops V (Proc.devRef .tc r) = V (Proc.devRef .tc r) := by
  rw [after_ops, hd_keep _ h4, l3_keep _ h3, l2_keep _ h2, l1_keep _ h1, p0_keep _ h0]

set_option maxRecDepth 8192 in
set_option maxHeartbeats 8000000 in
/-- Every operation determines its result: none allocates a buffer of unspecified contents. -/
theorem ops_fresh : ∀ op ∈ (ops : List (HloOp τ sig (Elt F))), op.fresh = ∅ := by
  have h : (ops : List (HloOp τ sig (Elt F))).Forall fun op => op.fresh = ∅ := by
    simp only [List.Forall]; repeat' constructor
  exact List.forall_iff_forall_mem.mp h

end Cert.RefRun

end
-- ==== Proof.RefP0.lean ====
/-
  The first stretch and the last, read back over contents that are no further specified. After the first 41 operations
  the buffers of the two rows of the edge list hold those rows of the edge-list argument, and the buffer of the edge
  weights holds the weights computed from them: the operations compose to exactly the terms `Net.srcOf`, `Net.dstOf`
  and `Net.edgeW` name. After the last 4 operations the result buffer holds the head of the third layer's result.
-/
import proofs.«127831_j29308856828499_2_alg».proof.Proof.RefCut
import proofs.«127831_j29308856828499_2_alg».proof.Proof.Net

noncomputable section

namespace Cert.RefRun

open Cert.ReferenceIdeal Cert.ReferenceIdeal.Gen Idealize.ShloMosaic Idealize.ShloMosaic.TcCoe Idealize.SL.Sem Idealize.ShloMosaic.StableHlo
open Cert.ReferenceIdeal.ValueP

variable {F : FTy → Type} [FloatOps F] [Cert.ReferenceIdeal.Facts]

set_option maxRecDepth 8192 in
set_option maxHeartbeats 8000000 in
/-- The buffer of the source rows, after the first stretch: the first row of the edge list. -/
theorem p0_v1 (V : Valuation τ sig (Elt F)) :
    after p0 V (no_index (Proc.devRef .tc main_v1)) = Cert.Net.srcOf (V (Proc.devRef .tc main_arg1)) := by
  after_results_simp
  rfl

set_option maxRecDepth 8192 in
set_option maxHeartbeats 8000000 in
/-- The buffer of the destination rows, after the first stretch: the second row of the edge list. -/
theorem p0_v3 (V : Valuation τ sig (Elt F)) :
    after p0 V (no_index (Proc.devRef .tc main_v3)) = Cert.Net.dstOf (V (Proc.devRef .tc main_arg1)) := by
  after_results_simp
  rfl

set_option maxRecDepth 8192 in
set_option maxHeartbeats 8000000 in
/-- The buffer of the edge weights, after the first stretch: the weights of the edge list's two rows. -/
theorem p0_v29 (V : Valuation τ sig (Elt F)) :
    after p0 V (no_index (Proc.devRef .tc main_v29)) = Cert.Net.edgeW (Cert.Net.srcOf (V (Proc.devRef .tc main_arg1))) (Cert.Net.dstOf (V (Proc.devRef .tc main_arg1))) := by
  after_results_simp
  rfl

set_option maxRecDepth 8192 in
set_option maxHeartbeats 8000000 in
/-- The result buffer, after the last stretch: the head of what the third layer's result buffer held. -/
theorem hd_res (V : Valuation τ sig (Elt F)) :
    after hd V (no_index (Proc.devRef .tc main_v264)) = Cert.Net.head (V (Proc.devRef .tc main_v260)) (V (Proc.devRef .tc main_arg20)) (V (Proc.devRef .tc main_arg21)) := by
  after_results_simp
  rfl

end Cert.RefRun

end
-- ==== Proof.RefL1.lean ====
/-
  The first layer's stretch, read back over contents that are no further specified: after its 91 operations the
  layer's result buffer holds `Net.conv` of what the buffers of the edge rows, the edge weights, the input array and the
  layer's six parameters held before them. The operations compose to exactly that term: the three propagations, the
  four products with the slabs of the weight, the bias, the running-statistics affine map and the clamp, in the
  order `Net.conv` writes them.
-/
import proofs.«127831_j29308856828499_2_alg».proof.Proof.RefCut
import proofs.«127831_j29308856828499_2_alg».proof.Proof.Net

noncomputable section

namespace Cert.RefRun

open Cert.ReferenceIdeal Cert.ReferenceIdeal.Gen Idealize.ShloMosaic Idealize.ShloMosaic.TcCoe Idealize.SL.Sem Idealize.ShloMosaic.StableHlo
open Cert.ReferenceIdeal.ValueP

variable {F : FTy → Type} [FloatOps F] [Cert.ReferenceIdeal.Facts]

set_option maxRecDepth 8192 in
set_option maxHeartbeats 8000000 in
/-- The first layer's result buffer, after the first layer's stretch. -/
theorem l1_res (V : Valuation τ sig (Elt F)) :
    after l1 V (no_index (Proc.devRef .tc main_v106)) = Cert.Net.conv (V (Proc.devRef .tc main_v1)) (V (Proc.devRef .tc main_v3)) (V (Proc.devRef .tc main_v29)) (V (Proc.devRef .tc main_arg0)) (V (Proc.devRef .tc main_arg2)) (V (Proc.devRef .tc main_arg3)) (V (Proc.devRef .tc main_arg8)) (V (Proc.devRef .tc main_arg9)) (V (Proc.devRef .tc main_arg10)) (V (Proc.devRef .tc main_arg11)) := by
  after_results_simp
  rfl

end Cert.RefRun

end
-- ==== Proof.RefL2.lean ====
/-
  The second layer's stretch, read back over contents that are no further specified: after its 91 operations the
  layer's result buffer holds `Net.conv` of what the buffers of the edge rows, the edge weights, the first layer's result and the
  layer's six parameters held before them. The operations compose to exactly that term: the three propagations, the
  four products with the slabs of the weight, the bias, the running-statistics affine map and the clamp, in the
  order `Net.conv` writes them.
-/
import proofs.«127831_j29308856828499_2_alg».proof.Proof.RefCut
import proofs.«127831_j29308856828499_2_alg».proof.Proof.Net

noncomputable section

namespace Cert.RefRun

open Cert.ReferenceIdeal Cert.ReferenceIdeal.Gen Idealize.ShloMosaic Idealize.ShloMosaic.TcCoe Idealize.SL.Sem Idealize.ShloMosaic.StableHlo
open Cert.ReferenceIdeal.ValueP

variable {F : FTy → Type} [FloatOps F] [Cert.ReferenceIdeal.Facts]

set_option maxRecDepth 8192 in
set_option maxHeartbeats 8000000 in
/-- The second layer's result buffer, after the second layer's stretch. -/
theorem l2_res (V : Valuation τ sig (Elt F)) :
    after l2 V (no_index (Proc.devRef .tc main_v183)) = Cert.Net.conv (V (Proc.devRef .tc main_v1)) (V (Proc.devRef .tc main_v3)) (V (Proc.devRef .tc main_v29)) (V (Proc.devRef .tc main_v106)) (V (Proc.devRef .tc main_arg4)) (V (Proc.devRef .tc main_arg5)) (V (Proc.devRef .tc main_arg12)) (V (Proc.devRef .tc main_arg13)) (V (Proc.devRef .tc main_arg14)) (V (Proc.devRef .tc main_arg15)) := by
  after_results_simp
  rfl

end Cert.RefRun

end
-- ==== Proof.RefL3.lean ====
/-
  The third layer's stretch, read back over contents that are no further specified: after its 91 operations the
  layer's result buffer holds `Net.conv` of what the buffers of the edge rows, the edge weights, the second layer's result and the
  layer's six parameters held before them. The operations compose to exactly that term: the three propagations, the
  four products with the slabs of the weight, the bias, the running-statistics affine map and the clamp, in the
  order `Net.conv` writes them.
-/
import proofs.«127831_j29308856828499_2_alg».proof.Proof.RefCut
import proofs.«127831_j29308856828499_2_alg».proof.Proof.Net

noncomputable section

namespace Cert.RefRun

open Cert.ReferenceIdeal Cert.ReferenceIdeal.Gen Idealize.ShloMosaic Idealize.ShloMosaic.TcCoe Idealize.SL.Sem Idealize.ShloMosaic.StableHlo
open Cert.ReferenceIdeal.ValueP

variable {F : FTy → Type} [FloatOps F] [Cert.ReferenceIdeal.Facts]

set_option maxRecDepth 8192 in
set_option maxHeartbeats 8000000 in
/-- The third layer's result buffer, after the third layer's stretch. -/
theorem l3_res (V : Valuation τ sig (Elt F)) :
    after l3 V (no_index (Proc.devRef .tc main_v260)) = Cert.Net.conv (V (Proc.devRef .tc main_v1)) (V (Proc.devRef .tc main_v3)) (V (Proc.devRef .tc main_v29)) (V (Proc.devRef .tc main_v183)) (V (Proc.devRef .tc main_arg6)) (V (Proc.devRef .tc main_arg7)) (V (Proc.devRef .tc main_arg16)) (V (Proc.devRef .tc main_arg17)) (V (Proc.devRef .tc main_arg18)) (V (Proc.devRef .tc main_arg19)) := by
  after_results_simp
  rfl

end Cert.RefRun

end
-- ==== Proof.RefRun.lean ====
/-
  The reference program's run. Its @main is a straight line of 318 whole-array operations, so every weakly fair
  execution terminates with each buffer at the operations' fold over its launch contents. The fold is read back one
  stretch at a time: the head of the third layer's result; each layer's result as `Net.conv` of the layer before,
  the edge rows and the edge weights, which the layers' stretches do not write; the edge rows and weights as the
  first stretch leaves them; and the arguments, which no operation writes. Composed, the result buffer holds
  `Net.net` of the arguments' launch contents, and every argument holds what it held at launch.
-/
import proofs.«127831_j29308856828499_2_alg».proof.Proof.RefP0
import proofs.«127831_j29308856828499_2_alg».proof.Proof.RefL1
import proofs.«127831_j29308856828499_2_alg».proof.Proof.RefL2
import proofs.«127831_j29308856828499_2_alg».proof.Proof.RefL3
import Idealize.ShloMosaic.Lib.StableHlo.Run

noncomputable section

namespace Cert.RefRun

open Cert.ReferenceIdeal Cert.ReferenceIdeal.Gen Idealize.ShloMosaic Idealize.ShloMosaic.TcCoe Idealize.SL.Sem Idealize.ShloMosaic.StableHlo
open Cert.ReferenceIdeal.ValueP

variable {F : FTy → Type} [FloatOps F] [Cert.ReferenceIdeal.Facts]

/-! A stretch leaves alone every buffer that is not one of its results; stated for an arbitrary reference, the side
    condition being that the reference is not in the stretch's list of results, which is decidable. -/

theorem p0_keep' (V : Valuation τ sig (Elt F)) {r : Ref sig .tc} (h : r ∉ p0W) :
    after p0 V (no_index (Proc.devRef .tc r)) = V (Proc.devRef .tc r) := p0_keep V h
theorem l1_keep' (V : Valuation τ sig (Elt F)) {r : Ref sig .tc} (h : r ∉ l1W) :
    after l1 V (no_index (Proc.devRef .tc r)) = V (Proc.devRef .tc r) := l1_keep V h
theorem l2_keep' (V : Valuation τ sig (Elt F)) {r : Ref sig .tc} (h : r ∉ l2W) :
    after l2 V (no_index (Proc.devRef .tc r)) = V (Proc.devRef .tc r) := l2_keep V h
theorem l3_keep' (V : Valuation τ sig (Elt F)) {r : Ref sig .tc} (h : r ∉ l3W) :
    after l3 V (no_index (Proc.devRef .tc r)) = V (Proc.devRef .tc r) := l3_keep V h
theorem hd_keep' (V : Valuation τ sig (Elt F)) {r : Ref sig .tc} (h : r ∉ hdW) :
    after hd V (no_index (Proc.devRef .tc r)) = V (Proc.devRef .tc r) := hd_keep V h

set_option maxRecDepth 8192 in
set_option maxHeartbeats 8000000 in
/-- After the whole program, from any contents, the result buffer holds the network of the arguments' contents. -/
theorem ops_res (V : Valuation τ sig (Elt F)) :
    after ops V (Proc.devRef .tc main_v264) = Cert.Net.net (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) := by
  rw [after_ops]
  simp (disch := decide) only [hd_res, l3_res, l2_res, l1_res, p0_v1, p0_v3, p0_v29,
    hd_keep', l3_keep', l2_keep', l1_keep', p0_keep'] <;> rfl

/-- On every device, for any float values, from any memory with zero counters: every weakly fair execution of @main
    terminates with the result buffer at the network of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v264) = Cert.Net.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21) :=
  (θ_run defs _ _).mono (fun _ h c => ⟨(h c main_v264).trans (ops_res _),
      (h c main_arg0).trans (ops_keep _ (by decide) (by decide) (by decide) (by decide) (by decide)),
      (h c main_arg1).trans (ops_keep _ (by decide) (by decide) (by decide) (by decide) (by decide)),
      (h c main_arg2).trans (ops_keep _ (by decide) (by decide) (by decide) (by decide) (by decide)),
      (h c main_arg3).trans (ops_keep _ (by decide) (by decide) (by decide) (by decide) (by decide)),
      (h c main_arg4).trans (ops_keep _ (by decide) (by decide) (by decide) (by decide) (by decide)),
      (h c main_arg5).trans (ops_keep _ (by decide) (by decide) (by decide) (by decide) (by decide)),
      (h c main_arg6).trans (ops_keep _ (by decide) (by decide) (by decide) (by decide) (by decide)),
      (h c main_arg7).trans (ops_keep _ (by decide) (by decide) (by decide) (by decide) (by decide)),
      (h c main_arg8).trans (ops_keep _ (by decide) (by decide) (by decide) (by decide) (by decide)),
      (h c main_arg9).trans (ops_keep _ (by decide) (by decide) (by decide) (by decide) (by decide)),
      (h c main_arg10).trans (ops_keep _ (by decide) (by decide) (by decide) (by decide) (by decide)),
      (h c main_arg11).trans (ops_keep _ (by decide) (by decide) (by decide) (by decide) (by decide)),
      (h c main_arg12).trans (ops_keep _ (by decide) (by decide) (by decide) (by decide) (by decide)),
      (h c main_arg13).trans (ops_keep _ (by decide) (by decide) (by decide) (by decide) (by decide)),
      (h c main_arg14).trans (ops_keep _ (by decide) (by decide) (by decide) (by decide) (by decide)),
      (h c main_arg15).trans (ops_keep _ (by decide) (by decide) (by decide) (by decide) (by decide)),
      (h c main_arg16).trans (ops_keep _ (by decide) (by decide) (by decide) (by decide) (by decide)),
      (h c main_arg17).trans (ops_keep _ (by decide) (by decide) (by decide) (by decide) (by decide)),
      (h c main_arg18).trans (ops_keep _ (by decide) (by decide) (by decide) (by decide) (by decide)),
      (h c main_arg19).trans (ops_keep _ (by decide) (by decide) (by decide) (by decide) (by decide)),
      (h c main_arg20).trans (ops_keep _ (by decide) (by decide) (by decide) (by decide) (by decide)),
      (h c main_arg21).trans (ops_keep _ (by decide) (by decide) (by decide) (by decide) (by decide))⟩)
    (run_seq scopedRefs_eq scopedSems_eq defs main (fun _ => ops) main_eq (fun _ => ops_sub) m ρ (fun _ => ops_fresh))

end Cert.RefRun

end
-- ==== Proof.lean ====
/-
  The certificate's five claims. The three frames: each program's run ends with its argument arrays as launched — the
  two kernels' by their runs region by region, the reference's by its run as a straight line of whole-array operations.
  The idealization rewrote no operation. The value claim, over the extended reals: both programs compute the same
  network of three layers and a head. A kernel block is a block of rows of a layer; its sum of four products started
  from zero is the sum of the four products; and the propagation steps between the kernels are the same whole-array
  gather and scatter-add operations on both sides. So from memories that agree on the arguments both result arrays
  end at `Net.net` of the arguments.
-/
import proofs.«127831_j29308856828499_2_alg».proof.Defs
import proofs.«127831_j29308856828499_2_alg».proof.Proof.Gen.Kernel
import proofs.«127831_j29308856828499_2_alg».proof.Proof.Gen.KernelIdeal
import proofs.«127831_j29308856828499_2_alg».proof.Proof.Gen.ReferenceIdeal
import proofs.«127831_j29308856828499_2_alg».proof.Proof.Gen.Pre_finite_inputs
import proofs.«127831_j29308856828499_2_alg».proof.Proof.BitsRun
import proofs.«127831_j29308856828499_2_alg».proof.Proof.IdealGlue
import proofs.«127831_j29308856828499_2_alg».proof.Proof.RefRun

noncomputable section

namespace Cert.Proof

open Idealize.ShloMosaic Idealize.SL.Sem

/-- The kernel as printed runs and leaves its arguments as launched. -/
theorem frame_p : Cert.frame_Kernel := fun m ρ _ => Cert.Kernel.Layers.frame (F := Bits) m ρ

/-- The same of the kernel read over the extended reals. -/
theorem frame_pi : Cert.frame_KernelIdeal := fun m ρ _ => Cert.KernelIdeal.Layers.frame (F := Ideal) m ρ

/-- The reference runs and leaves its arguments as launched: the second half of what its run states. -/
theorem frame_ri : Cert.frame_ReferenceIdeal := fun m ρ _ =>
  (θ_run Cert.ReferenceIdeal.defs _ _).mono (fun _ h c => (h c).2) (Cert.RefRun.run (F := Ideal) m ρ)

/-- Over the extended reals the kernel's result array ends at the network of its arguments (its run, and the value of
    its last buffer), the reference's at the network of its own arguments (its run), and the arguments agree. -/
theorem algebraic : Cert.algebraic_KernelIdeal_ReferenceIdeal := by
  intro m ρ m' ρ' _ hagree
  refine ⟨fun c => Cert.Net.net (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)), ?_, ?_⟩
  · exact (θ_run Cert.KernelIdeal.defs _ _).mono (fun _ h c => ⟨(h c _ (Cert.KernelIdeal.Layers.mem_uc Cert.KernelIdeal.main_v198 (by decide))).trans (Cert.KernelIdeal.Layers.result_eq m ρ c),
      (h c _ (Cert.KernelIdeal.Layers.mem_uc Cert.KernelIdeal.main_arg0 (by decide))).trans (Cert.KernelIdeal.Layers.W6_main_arg0 m ρ c),
      (h c _ (Cert.KernelIdeal.Layers.mem_uc Cert.KernelIdeal.main_arg1 (by decide))).trans (Cert.KernelIdeal.Layers.W6_main_arg1 m ρ c),
      (h c _ (Cert.KernelIdeal.Layers.mem_uc Cert.KernelIdeal.main_arg2 (by decide))).trans (Cert.KernelIdeal.Layers.W6_main_arg2 m ρ c),
      (h c _ (Cert.KernelIdeal.Layers.mem_uc Cert.KernelIdeal.main_arg3 (by decide))).trans (Cert.KernelIdeal.Layers.W6_main_arg3 m ρ c),
      (h c _ (Cert.KernelIdeal.Layers.mem_uc Cert.KernelIdeal.main_arg4 (by decide))).trans (Cert.KernelIdeal.Layers.W6_main_arg4 m ρ c),
      (h c _ (Cert.KernelIdeal.Layers.mem_uc Cert.KernelIdeal.main_arg5 (by decide))).trans (Cert.KernelIdeal.Layers.W6_main_arg5 m ρ c),
      (h c _ (Cert.KernelIdeal.Layers.mem_uc Cert.KernelIdeal.main_arg6 (by decide))).trans (Cert.KernelIdeal.Layers.W6_main_arg6 m ρ c),
      (h c _ (Cert.KernelIdeal.Layers.mem_uc Cert.KernelIdeal.main_arg7 (by decide))).trans (Cert.KernelIdeal.Layers.W6_main_arg7 m ρ c),
      (h c _ (Cert.KernelIdeal.Layers.mem_uc Cert.KernelIdeal.main_arg8 (by decide))).trans (Cert.KernelIdeal.Layers.W6_main_arg8 m ρ c),
      (h c _ (Cert.KernelIdeal.Layers.mem_uc Cert.KernelIdeal.main_arg9 (by decide))).trans (Cert.KernelIdeal.Layers.W6_main_arg9 m ρ c),
      (h c _ (Cert.KernelIdeal.Layers.mem_uc Cert.KernelIdeal.main_arg10 (by decide))).trans (Cert.KernelIdeal.Layers.W6_main_arg10 m ρ c),
      (h c _ (Cert.KernelIdeal.Layers.mem_uc Cert.KernelIdeal.main_arg11 (by decide))).trans (Cert.KernelIdeal.Layers.W6_main_arg11 m ρ c),
      (h c _ (Cert.KernelIdeal.Layers.mem_uc Cert.KernelIdeal.main_arg12 (by decide))).trans (Cert.KernelIdeal.Layers.W6_main_arg12 m ρ c),
      (h c _ (Cert.KernelIdeal.Layers.mem_uc Cert.KernelIdeal.main_arg13 (by decide))).trans (Cert.KernelIdeal.Layers.W6_main_arg13 m ρ c),
      (h c _ (Cert.KernelIdeal.Layers.mem_uc Cert.KernelIdeal.main_arg14 (by decide))).trans (Cert.KernelIdeal.Layers.W6_main_arg14 m ρ c),
      (h c _ (Cert.KernelIdeal.Layers.mem_uc Cert.KernelIdeal.main_arg15 (by decide))).trans (Cert.KernelIdeal.Layers.W6_main_arg15 m ρ c),
      (h c _ (Cert.KernelIdeal.Layers.mem_uc Cert.KernelIdeal.main_arg16 (by decide))).trans (Cert.KernelIdeal.Layers.W6_main_arg16 m ρ c),
      (h c _ (Cert.KernelIdeal.Layers.mem_uc Cert.KernelIdeal.main_arg17 (by decide))).trans (Cert.KernelIdeal.Layers.W6_main_arg17 m ρ c),
      (h c _ (Cert.KernelIdeal.Layers.mem_uc Cert.KernelIdeal.main_arg18 (by decide))).trans (Cert.KernelIdeal.Layers.W6_main_arg18 m ρ c),
      (h c _ (Cert.KernelIdeal.Layers.mem_uc Cert.KernelIdeal.main_arg19 (by decide))).trans (Cert.KernelIdeal.Layers.W6_main_arg19 m ρ c),
      (h c _ (Cert.KernelIdeal.Layers.mem_uc Cert.KernelIdeal.main_arg20 (by decide))).trans (Cert.KernelIdeal.Layers.W6_main_arg20 m ρ c),
      (h c _ (Cert.KernelIdeal.Layers.mem_uc Cert.KernelIdeal.main_arg21 (by decide))).trans (Cert.KernelIdeal.Layers.W6_main_arg21 m ρ c)⟩)
      (Cert.KernelIdeal.Layers.run_all m ρ)
  · refine (θ_run Cert.ReferenceIdeal.defs _ _).mono (fun _ h c => ⟨(h c).1.trans ?_, (h c).2⟩) (Cert.RefRun.run (F := Ideal) m' ρ')
    obtain ⟨e0, e1, e2, e3, e4, e5, e6, e7, e8, e9, e10, e11, e12, e13, e14, e15, e16, e17, e18, e19, e20, e21⟩ := hagree c
    rw [e0, e1, e2, e3, e4, e5, e6, e7, e8, e9, e10, e11, e12, e13, e14, e15, e16, e17, e18, e19, e20, e21]

theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
